-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x64 : Shape := ⟨2, ![10000, 64]⟩
abbrev S64x128 : Shape := ⟨2, ![64, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  main_v38

def fn_part1 {F : FTy → Type} [FloatOps F] (main_arg4 : FVec F S64x128 .f32) (main_arg5 : FVec F S64x128 .f32) (main_arg6 : FVec F S64x128 .f32) (main_arg7 : FVec F S64x128 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x10000 .f32) (main_arg2 : FVec F S10000x64 .f32) (main_arg3 : FVec F S10000x64 .f32) (main_arg4 : FVec F S64x128 .f32) (main_arg5 : FVec F S64x128 .f32) (main_arg6 : FVec F S64x128 .f32) (main_arg7 : FVec F S64x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S10000x64 .f32 := Host.absf main_arg3
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x64 : Shape := ⟨2, ![10000, 64]⟩
abbrev S64x128 : Shape := ⟨2, ![64, 128]⟩
abbrev S64x64 : Shape := ⟨2, ![64, 64]⟩
abbrev S80x10000 : Shape := ⟨2, ![80, 10000]⟩
abbrev S400x64 : Shape := ⟨2, ![400, 64]⟩
abbrev S80x64 : Shape := ⟨2, ![80, 64]⟩
abbrev S400 : Shape := ⟨1, ![400]⟩
abbrev S400x1 : Shape := ⟨2, ![400, 1]⟩

abbrev nBuf : Space → Nat
  | .hbm => 28
  | .vmem => 68
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x64, .f32⟩
  | .hbm, ⟨3, _⟩ => ⟨S10000x64, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S10000x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S10000x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S10000x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S10000x64, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S10000x64, .f32⟩
  | .local _ .vmem, ⟨11, _⟩ => ⟨S400x64, .f32⟩
  | .local _ .vmem, ⟨12, _⟩ => ⟨S400x64, .f32⟩
  | .local _ .vmem, ⟨13, _⟩ => ⟨S64x64, .f32⟩
  | .local _ .vmem, ⟨14, _⟩ => ⟨S64x64, .f32⟩
  | .local _ .vmem, ⟨15, _⟩ => ⟨S400x64, .f32⟩
  | .local _ .vmem, ⟨16, _⟩ => ⟨S400x64, .f32⟩
  | .local _ .vmem, ⟨17, _⟩ => ⟨S80x10000, .f32⟩
  | .local _ .vmem, ⟨18, _⟩ => ⟨S80x10000, .f32⟩
  | .local _ .vmem, ⟨19, _⟩ => ⟨S80x10000, .f32⟩
  | .local _ .vmem, ⟨20, _⟩ => ⟨S80x10000, .f32⟩
  | .local _ .vmem, ⟨21, _⟩ => ⟨S80x10000, .f32⟩
  | .local _ .vmem, ⟨22, _⟩ => ⟨S80x10000, .f32⟩
  | .local _ .vmem, ⟨23, _⟩ => ⟨S80x10000, .f32⟩
  | .local _ .vmem, ⟨24, _⟩ => ⟨S80x10000, .f32⟩
  | .local _ .vmem, ⟨25, _⟩ => ⟨S80x10000, .f32⟩
  | .local _ .vmem, ⟨26, _⟩ => ⟨S80x10000, .f32⟩
  | .local _ .vmem, ⟨27, _⟩ => ⟨S10000x64, .f32⟩
  | .local _ .vmem, ⟨28, _⟩ => ⟨S400x64, .f32⟩
  | .local _ .vmem, ⟨29, _⟩ => ⟨S400x64, .f32⟩
  | .local _ .vmem, ⟨30, _⟩ => ⟨S64x64, .f32⟩
  | .local _ .vmem, ⟨31, _⟩ => ⟨S64x64, .f32⟩
  | .local _ .vmem, ⟨32, _⟩ => ⟨S400x64, .f32⟩
  | .local _ .vmem, ⟨33, _⟩ => ⟨S400x64, .f32⟩
  | .local _ .vmem, ⟨34, _⟩ => ⟨S80x10000, .f32⟩
  | .local _ .vmem, ⟨35, _⟩ => ⟨S80x10000, .f32⟩
  | .local _ .vmem, ⟨36, _⟩ => ⟨S80x10000, .f32⟩
  | .local _ .vmem, ⟨37, _⟩ => ⟨S80x10000, .f32⟩
  | .local _ .vmem, ⟨38, _⟩ => ⟨S80x10000, .f32⟩
  | .local _ .vmem, ⟨39, _⟩ => ⟨S80x10000, .f32⟩
  | .local _ .vmem, ⟨40, _⟩ => ⟨S80x10000, .f32⟩
  | .local _ .vmem, ⟨41, _⟩ => ⟨S80x10000, .f32⟩
  | .local _ .vmem, ⟨42, _⟩ => ⟨S80x10000, .f32⟩
  | .local _ .vmem, ⟨43, _⟩ => ⟨S80x10000, .f32⟩
  | .local _ .vmem, ⟨44, _⟩ => ⟨S10000x64, .f32⟩
  | .local _ .vmem, ⟨45, _⟩ => ⟨S400x64, .f32⟩
  | .local _ .vmem, ⟨46, _⟩ => ⟨S400x64, .f32⟩
  | .local _ .vmem, ⟨47, _⟩ => ⟨S64x64, .f32⟩
  | .local _ .vmem, ⟨48, _⟩ => ⟨S64x64, .f32⟩
  | .local _ .vmem, ⟨49, _⟩ => ⟨S400x64, .f32⟩
  | .local _ .vmem, ⟨50, _⟩ => ⟨S400x64, .f32⟩
  | .local _ .vmem, ⟨51, _⟩ => ⟨S80x10000, .f32⟩
  | .local _ .vmem, ⟨52, _⟩ => ⟨S80x10000, .f32⟩
  | .local _ .vmem, ⟨53, _⟩ => ⟨S80x10000, .f32⟩
  | .local _ .vmem, ⟨54, _⟩ => ⟨S80x10000, .f32⟩
  | .local _ .vmem, ⟨55, _⟩ => ⟨S80x10000, .f32⟩
  | .local _ .vmem, ⟨56, _⟩ => ⟨S80x10000, .f32⟩
  | .local _ .vmem, ⟨57, _⟩ => ⟨S80x10000, .f32⟩
  | .local _ .vmem, ⟨58, _⟩ => ⟨S80x10000, .f32⟩
  | .local _ .vmem, ⟨59, _⟩ => ⟨S80x10000, .f32⟩
  | .local _ .vmem, ⟨60, _⟩ => ⟨S80x10000, .f32⟩
  | .local _ .vmem, ⟨61, _⟩ => ⟨S10000x64, .f32⟩
  | .local _ .vmem, ⟨62, _⟩ => ⟨S400x64, .f32⟩
  | .local _ .vmem, ⟨63, _⟩ => ⟨S400x64, .f32⟩
  | .local _ .vmem, ⟨64, _⟩ => ⟨S64x64, .f32⟩
  | .local _ .vmem, ⟨65, _⟩ => ⟨S64x64, .f32⟩
  | .local _ .vmem, ⟨66, _⟩ => ⟨S400x64, .f32⟩
  | .local _ .vmem, ⟨67, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_v1 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_v2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg9_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg3_1 : Ref sig .tc := ⟨.vmem, 58, rfl⟩
abbrev cc3_stg4_0 : Ref sig .tc := ⟨.vmem, 59, rfl⟩
abbrev cc3_stg4_1 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg6_1 : Ref sig .tc := ⟨.vmem, 63, rfl⟩
abbrev cc3_stg7_0 : Ref sig .tc := ⟨.vmem, 64, rfl⟩
abbrev cc3_stg8_0 : Ref sig .tc := ⟨.vmem, 65, rfl⟩
abbrev cc3_stg9_0 : Ref sig .tc := ⟨.vmem, 66, rfl⟩
abbrev cc3_stg9_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem8_0 : DmaSem sig := 31
abbrev cc1_sem9_0 : DmaSem sig := 32
abbrev cc1_sem9_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem6_0 : DmaSem sig := 45
abbrev cc2_sem6_1 : DmaSem sig := 46
abbrev cc2_sem7_0 : DmaSem sig := 47
abbrev cc2_sem8_0 : DmaSem sig := 48
abbrev cc2_sem9_0 : DmaSem sig := 49
abbrev cc2_sem9_1 : DmaSem sig := 50
abbrev cc3_sem0_0 : DmaSem sig := 51
abbrev cc3_sem0_1 : DmaSem sig := 52
abbrev cc3_sem1_0 : DmaSem sig := 53
abbrev cc3_sem1_1 : DmaSem sig := 54
abbrev cc3_sem2_0 : DmaSem sig := 55
abbrev cc3_sem2_1 : DmaSem sig := 56
abbrev cc3_sem3_0 : DmaSem sig := 57
abbrev cc3_sem3_1 : DmaSem sig := 58
abbrev cc3_sem4_0 : DmaSem sig := 59
abbrev cc3_sem4_1 : DmaSem sig := 60
abbrev cc3_sem5_0 : DmaSem sig := 61
abbrev cc3_sem6_0 : DmaSem sig := 62
abbrev cc3_sem6_1 : DmaSem sig := 63
abbrev cc3_sem7_0 : DmaSem sig := 64
abbrev cc3_sem8_0 : DmaSem sig := 65
abbrev cc3_sem9_0 : DmaSem sig := 66
abbrev cc3_sem9_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S80x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S80x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S80x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S80x10000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S80x10000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S10000x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S400x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S80x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S80x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S80x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S80x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S80x10000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10000x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S400x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S64x128_S64x64_0_0 : S64x128.Slices ![0, 0] S64x64
  transposes_S64x64_S64x64_1_0 : S64x64.Transposes [1, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S80x10000_S80x10000_0_0 : ∀ a, (![0, 0] : Fin 2 → Nat) a + S80x10000.size a ≤ S80x10000.size a
  h_S80x10000 : 0 < S80x10000.numel
  concatenates_S80x64_S80x64_S80x64_S80x64_S80x64_S400x64_d0 : Shape.Concatenates [S80x64, S80x64, S80x64, S80x64, S80x64] S400x64 0
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S400x64_S400 : S400x64.Reduces [1] S400
  shapeCasts_S400_S400x1 : S400.ShapeCasts S400x1
  broadcasts_S400x1_S400x64 : S400x1.Broadcasts S400x64
  shapeCasts_S10000x64_S10000x64 : S10000x64.ShapeCasts S10000x64
  shapeCasts_S400x64_S400x64 : S400x64.ShapeCasts S400x64
  dot_S80x10000_S10000x64_S80x64_1_0_0_1_n_n_wf : DotDims.WF S80x10000 S10000x64 S80x64 [1] [0] [0] [1] [] []
  dot_S400x64_S64x64_S400x64_1_0_0_1_n_n_wf : DotDims.WF S400x64 S64x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S10000x64.size a
  hwx0_5 : ∀ i : grid0.Coords, EltTy.bits .f32 = 32 ∨ (Rect.block (s := S10000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x64.size a ≤ S10000x64.size a
  hwx0_9 : ∀ i : grid0.Coords, EltTy.bits .f32 = 32 ∨ (Rect.block (s := S10000x64) S400x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x10000.size a ≤ S10000x10000.size a
  hwx1_1 : ∀ i : grid1.Coords, EltTy.bits .f32 = 32 ∨ (Rect.block (s := S10000x10000) S80x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x10000.size a ≤ S10000x10000.size a
  hwx1_2 : ∀ i : grid1.Coords, EltTy.bits .f32 = 32 ∨ (Rect.block (s := S10000x10000) S80x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x10000.size a ≤ S10000x10000.size a
  hwx1_3 : ∀ i : grid1.Coords, EltTy.bits .f32 = 32 ∨ (Rect.block (s := S10000x10000) S80x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x10000.size a ≤ S10000x10000.size a
  hwx1_4 : ∀ i : grid1.Coords, EltTy.bits .f32 = 32 ∨ (Rect.block (s := S10000x10000) S80x10000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S10000x64.size a
  hwx1_5 : ∀ i : grid1.Coords, EltTy.bits .f32 = 32 ∨ (Rect.block (s := S10000x64) S10000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x64.size a ≤ S10000x64.size a
  hwx1_6 : ∀ i : grid1.Coords, EltTy.bits .f32 = 32 ∨ (Rect.block (s := S10000x64) S400x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x64.size a ≤ S10000x64.size a
  hwx1_9 : ∀ i : grid1.Coords, EltTy.bits .f32 = 32 ∨ (Rect.block (s := S10000x64) S400x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S80x10000.size a ≤ S10000x10000.size a
  hwx2_0 : ∀ i : grid2.Coords, EltTy.bits .f32 = 32 ∨ (Rect.block (s := S10000x10000) S80x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S80x10000.size a ≤ S10000x10000.size a
  hwx2_1 : ∀ i : grid2.Coords, EltTy.bits .f32 = 32 ∨ (Rect.block (s := S10000x10000) S80x10000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S80x10000.size a ≤ S10000x10000.size a
  hwx2_2 : ∀ i : grid2.Coords, EltTy.bits .f32 = 32 ∨ (Rect.block (s := S10000x10000) S80x10000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S80x10000.size a ≤ S10000x10000.size a
  hwx2_3 : ∀ i : grid2.Coords, EltTy.bits .f32 = 32 ∨ (Rect.block (s := S10000x10000) S80x10000.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S80x10000.size a ≤ S10000x10000.size a
  hwx2_4 : ∀ i : grid2.Coords, EltTy.bits .f32 = 32 ∨ (Rect.block (s := S10000x10000) S80x10000.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S10000x64.size a
  hwx2_5 : ∀ i : grid2.Coords, EltTy.bits .f32 = 32 ∨ (Rect.block (s := S10000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x64.size a ≤ S10000x64.size a
  hwx2_6 : ∀ i : grid2.Coords, EltTy.bits .f32 = 32 ∨ (Rect.block (s := S10000x64) S400x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S400x64.size a ≤ S10000x64.size a
  hwx2_9 : ∀ i : grid2.Coords, EltTy.bits .f32 = 32 ∨ (Rect.block (s := S10000x64) S400x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S80x10000.size a ≤ S10000x10000.size a
  hwx3_0 : ∀ i : grid3.Coords, EltTy.bits .f32 = 32 ∨ (Rect.block (s := S10000x10000) S80x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S80x10000.size a ≤ S10000x10000.size a
  hwx3_1 : ∀ i : grid3.Coords, EltTy.bits .f32 = 32 ∨ (Rect.block (s := S10000x10000) S80x10000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S80x10000.size a ≤ S10000x10000.size a
  hwx3_2 : ∀ i : grid3.Coords, EltTy.bits .f32 = 32 ∨ (Rect.block (s := S10000x10000) S80x10000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S80x10000.size a ≤ S10000x10000.size a
  hwx3_3 : ∀ i : grid3.Coords, EltTy.bits .f32 = 32 ∨ (Rect.block (s := S10000x10000) S80x10000.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S80x10000.size a ≤ S10000x10000.size a
  hwx3_4 : ∀ i : grid3.Coords, EltTy.bits .f32 = 32 ∨ (Rect.block (s := S10000x10000) S80x10000.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S10000x64.size a
  hwx3_5 : ∀ i : grid3.Coords, EltTy.bits .f32 = 32 ∨ (Rect.block (s := S10000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x64.size a ≤ S10000x64.size a
  hwx3_6 : ∀ i : grid3.Coords, EltTy.bits .f32 = 32 ∨ (Rect.block (s := S10000x64) S400x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S400x64.size a ≤ S10000x64.size a
  hwx3_9 : ∀ i : grid3.Coords, EltTy.bits .f32 = 32 ∨ (Rect.block (s := S10000x64) S400x64.size (cc3_transform_9 i) (hinb3_9 i)).WholeWords (EltTy.packing .f32)

variable [Facts₀]

def dot_S80x10000_S10000x64_S80x64_1_0_0_1_n_n : DotDims S80x10000 S10000x64 S80x64 where
  lhsContracting := [1]
  rhsContracting := [0]
  lhsNonContracting := [0]
  rhsNonContracting := [1]
  lhsBatch := []
  rhsBatch := []
  wf := dot_S80x10000_S10000x64_S80x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S10000x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S400x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S80x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S80x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S80x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S80x10000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S10000x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S400x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_call1_v1) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call1_v3) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S400x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S80x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S80x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S80x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S80x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S80x10000.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v1) S10000x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S400x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_call2_v1) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call2_v3) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v2) S400x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg1) S80x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S80x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S80x10000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S80x10000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S80x10000.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v0) S10000x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S400x64.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_call3_v1) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call3_v3) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v3) S400x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x64 : Shape := ⟨2, ![10000, 64]⟩
abbrev S64x128 : Shape := ⟨2, ![64, 128]⟩
abbrev S10000x128 : Shape := ⟨2, ![10000, 128]⟩
abbrev S128x64 : Shape := ⟨2, ![128, 64]⟩
abbrev S_ : Shape := ⟨0, ![]⟩
abbrev S10000 : Shape := ⟨1, ![10000]⟩
abbrev S10000x1 : Shape := ⟨2, ![10000, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x64, .f32⟩
  | .hbm, ⟨3, _⟩ => ⟨S10000x64, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S10000x64, .f32⟩
  | .hbm, ⟨9, _⟩ => ⟨S10000x64, .f32⟩
  | .hbm, ⟨10, _⟩ => ⟨S10000x128, .f32⟩
  | .hbm, ⟨11, _⟩ => ⟨S128x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000, .f32⟩
  | .hbm, ⟨19, _⟩ => ⟨S10000x1, .f32⟩
  | .hbm, ⟨20, _⟩ => ⟨S10000x1, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S10000x64, .f32⟩
  | .hbm, ⟨25, _⟩ => ⟨S10000x64, .f32⟩
  | .hbm, ⟨26, _⟩ => ⟨S10000x128, .f32⟩
  | .hbm, ⟨27, _⟩ => ⟨S128x64, .f32⟩
  | .hbm, ⟨28, _⟩ => ⟨S10000x64, .f32⟩
  | .hbm, ⟨29, _⟩ => ⟨S_, .f32⟩
  | .hbm, ⟨30, _⟩ => ⟨S10000x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x1, .f32⟩
  | .hbm, ⟨37, _⟩ => ⟨S_, .f32⟩
  | .hbm, ⟨38, _⟩ => ⟨S10000x1, .f32⟩
  | .hbm, ⟨39, _⟩ => ⟨S10000x1, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S10000x128, .f32⟩
  | .hbm, ⟨45, _⟩ => ⟨S128x64, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S10000x64, .f32⟩
  | .hbm, ⟨59, _⟩ => ⟨S10000x64, .f32⟩
  | .hbm, ⟨60, _⟩ => ⟨S10000x128, .f32⟩
  | .hbm, ⟨61, _⟩ => ⟨S128x64, .f32⟩
  | .hbm, ⟨62, _⟩ => ⟨S10000x64, .f32⟩
  | .hbm, ⟨63, _⟩ => ⟨S_, .f32⟩
  | .hbm, ⟨64, _⟩ => ⟨S10000x64, .f32⟩
  | .hbm, ⟨65, _⟩ => ⟨S10000x64, .f32⟩
  | .hbm, ⟨66, _⟩ => ⟨S10000x64, .f32⟩
  | .hbm, ⟨67, _⟩ => ⟨S_, .f32⟩
  | .hbm, ⟨68, _⟩ => ⟨S10000, .f32⟩
  | .hbm, ⟨69, _⟩ => ⟨S10000x1, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x64, .f32⟩
  | .hbm, ⟨75, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_cst : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call3_cst : Ref sig .tc := ⟨.hbm, 63, rfl⟩
abbrev main_call3_v0 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  concatenates_S10000x64_S10000x64_S10000x128_d1 : Shape.Concatenates [S10000x64, S10000x64] S10000x128 1
  transposes_S64x128_S128x64_1_0 : S64x128.Transposes [1, 0] S128x64
  bcast_S_S10000x64 : S_.BroadcastsInDim S10000x64 (![] : Fin 0 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  dot_S10000x10000_S10000x64_S10000x64_1_0_0_1_n_n_wf : DotDims.WF S10000x10000 S10000x64 S10000x64 [1] [0] [0] [1] [] []
  dot_S10000x128_S128x64_S10000x64_1_0_0_1_n_n_wf : DotDims.WF S10000x128 S128x64 S10000x64 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Body0.lean ====
/-
  The kernel body of pallas_call 0 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.Kernel.Launch
import proofs.«105240_g55860344651847_cont_9to1c4b_578_12_alg».proof.Proof.Gen.Kernel.Skeleton
import proofs.«105240_g55860344651847_cont_9to1c4b_578_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k0_pay1 (k0_pay2 (View.ld x6 rH) (View.ld x1 rA) (View.ld x2 rA) (View.ld x3 rA) (View.ld x4 rA) (View.ld x5 rA) (View.ld x7 rB) (View.ld x8 rW) (View.ld x9 rW)) (k0_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc0__layer_side_body i arg1 harg1 arg2 harg2 arg3 harg3 arg4 harg4 arg5 harg5 arg6 harg6 arg7 harg7 arg8 harg8 arg9 harg9 arg10 harg10) K := by
  simp only [cc0__layer_side_body_eq_skeleton]; unfold cc0__layer_side_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.Kernel.Body0

end
-- ==== Proof.LibShareFive.lean ====
/-
  A full share dealt among five holders.

  The full share of the tree-share algebra splits into its left and right halves, and every positive share
  splits likewise. Halving the full share, halving each half, and halving the last quarter once more gives
  five pairwise disjoint positive shares that compose to the full share. A points-to assertion held at the
  full share is therefore the separating conjunction of the same assertion held at each of the five, and
  conversely: the step that lets five readers of one buffer each hold it at a share of their own.
-/
import Idealize.ShloMosaic.Rules.PointsTo

noncomputable section

namespace Idealize.ShloMosaic

open Idealize.SL
open Idealize.SL.RA Idealize.SL.Sem Idealize.SL.ProofMode
open Idealize.SL.BI (sProp)
open scoped Idealize.SL.BI
open Idealize.SL.BI.BIBase Idealize.SL.BI.Laws

/-- Five pairwise disjoint positive shares composing to the full share: the two halves of the left half, the
    left half of the right half, and the two halves of the right half's right half. -/
def s5 : Fin 5 → PosShare TreeShare
  | ⟨0, _⟩ => fullShare.left.left
  | ⟨1, _⟩ => fullShare.left.right
  | ⟨2, _⟩ => fullShare.right.left
  | ⟨3, _⟩ => fullShare.right.right.left
  | ⟨_ + 4, _⟩ => fullShare.right.right.right

section

variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

/-- A points-to at the full share is the same points-to held five times, once at each of the shares `s5`:
    `ℓ ↦[I]{1} f ⊣⊢ ℓ ↦[I]{s5 0} f ∗ ℓ ↦[I]{s5 1} f ∗ ℓ ↦[I]{s5 2} f ∗ ℓ ↦[I]{s5 3} f ∗ ℓ ↦[I]{s5 4} f`. -/
theorem pointsTo_five (ℓ : Loc nD τ sig) (I : Finset (Idx ℓ)) (f : Buf Val ℓ) :
    (ℓ ↦[I]{fullShare} f : sProp 𝕄) ⊣⊢ iprop((ℓ ↦[I]{s5 0} f) ∗ (ℓ ↦[I]{s5 1} f) ∗ (ℓ ↦[I]{s5 2} f) ∗ (ℓ ↦[I]{s5 3} f) ∗ (ℓ ↦[I]{s5 4} f)) := by
  have e : ∀ q : PosShare TreeShare, (ℓ ↦[I]{q} f : sProp 𝕄) = iprop((ℓ ↦[I]{q.left} f) ∗ (ℓ ↦[I]{q.right} f)) := fun q =>
    BI.equiv_iff.mp ⟨(pointsTo_share (PosShare.mem_left_op_right q)).1, (pointsTo_share (PosShare.mem_left_op_right q)).2⟩
  have a : ∀ P Q R : sProp 𝕄, iprop((P ∗ Q) ∗ R) = iprop(P ∗ Q ∗ R) := fun P Q R =>
    BI.equiv_iff.mp ⟨(sep_assoc (PROP := sProp 𝕄) (P := P) (Q := Q) (R := R)).1, (sep_assoc (PROP := sProp 𝕄) (P := P) (Q := Q) (R := R)).2⟩
  have h : (ℓ ↦[I]{fullShare} f : sProp 𝕄)
      = iprop((ℓ ↦[I]{fullShare.left.left} f) ∗ (ℓ ↦[I]{fullShare.left.right} f) ∗ (ℓ ↦[I]{fullShare.right.left} f)
          ∗ (ℓ ↦[I]{fullShare.right.right.left} f) ∗ (ℓ ↦[I]{fullShare.right.right.right} f)) := by
    rw [e fullShare, e fullShare.left, e fullShare.right, e fullShare.right.right]
    exact a _ _ _
  exact ⟨Entails.of_eq h, Entails.of_eq h.symm⟩

end

end Idealize.ShloMosaic

end
-- ==== Proof.K.Shares.lean ====
/-
  The arrays of the four pipelines, shared among their windows.

  Each pipeline hands one array to its first five windows, which only read it; the four other inputs and the
  output are arrays of their own. At a pipeline's entry the six distinct buffers behind its ten windows are held
  whole at the full share. The theorems below deal the shared buffer's full share among the five windows on it
  (one of the five shares `s5` each) and give every other window its buffer at the full share, and put the
  buffers back together at the pipeline's exit.
-/
import proofs.«105240_g55860344651847_cont_9to1c4b_578_12_alg».proof.Proof.Gen.Kernel.Launch
import proofs.«105240_g55860344651847_cont_9to1c4b_578_12_alg».proof.Proof.LibShareFive

noncomputable section

namespace Cert.Kernel.Shares

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.Kernel Cert.Kernel.Gen

variable {F : FTy → Type} [FloatOps F]
variable {Ix : Type} [DecidableEq Ix] {U : Type} [URA U] {Lvl : Type}

/-! ## Two equations of the logic -/

/-- The separating conjunction is associative, as an equation. -/
theorem sep_assoc_eq {M : Type} [URA M] (P Q R : sProp M) : iprop((P ∗ Q) ∗ R) = iprop(P ∗ Q ∗ R) :=
  BI.equiv_iff.mp ⟨(sep_assoc (PROP := sProp M) (P := P) (Q := Q) (R := R)).1, (sep_assoc (PROP := sProp M) (P := P) (Q := Q) (R := R)).2⟩

/-- A whole buffer at the full share is the same buffer held at the five shares `s5`, as an equation. -/
theorem five_eq {ℓ : Loc nD τ sig} (f : Buf (Elt F) ℓ) :
    (ℓ ↦{fullShare} f : sProp (MT nD τ sig Ix (Elt F) ℕ U Lvl))
      = iprop((ℓ ↦{s5 0} f) ∗ (ℓ ↦{s5 1} f) ∗ (ℓ ↦{s5 2} f) ∗ (ℓ ↦{s5 3} f) ∗ (ℓ ↦{s5 4} f)) :=
  BI.equiv_iff.mp ⟨(pointsTo_five ℓ Finset.univ f).1, (pointsTo_five ℓ Finset.univ f).2⟩

/-! ## custom_call 0 -/

/-- The shares pipeline 0's windows hold their arrays at: the five windows on the shared array one of `s5` each,
    every other window the full share. -/
def q0 : Fin 10 → PosShare TreeShare := fun w => if h : w.val < 5 then s5 ⟨w.val, h⟩ else fullShare

/-- The six distinct buffers behind pipeline 0's ten windows. -/
theorem image0 : Finset.univ.image (Pipeline.arrRef spec0) = [main_arg0, main_arg3, main_arg2, main_call0_v1, main_call0_v3, main_v0].toFinset := by decide

/-- Every window of pipeline 0 holds its array at the share `q0` names: the output window's full share is `q0 9`. -/
theorem share0 (c : Dev nD) (dat : Pipeline.Dat τ (Elt F) Ix ℕ U Lvl cfg0 c) (hq : dat.q = q0) (w : Fin 10) :
    dat.share w = q0 w := by
  unfold Pipeline.Dat.share
  rw [hq]
  fin_cases w <;> rfl

/-- The buffers behind pipeline 0's arrays, one by one. -/
theorem arrBufs0_chain (c : Dev nD) (V : (b : Ref sig .tc) → Buf (Elt F) ((c.tc : Thread nD τ).loc b)) :
    (Pipeline.arrBufs spec0 c V : sProp (MT nD τ sig Ix (Elt F) ℕ U Lvl))
      = iprop((((c.tc : Thread nD τ).loc main_arg0) ↦{fullShare} V main_arg0) ∗ (((c.tc : Thread nD τ).loc main_arg3) ↦{fullShare} V main_arg3) ∗ (((c.tc : Thread nD τ).loc main_arg2) ↦{fullShare} V main_arg2) ∗ (((c.tc : Thread nD τ).loc main_call0_v1) ↦{fullShare} V main_call0_v1) ∗ (((c.tc : Thread nD τ).loc main_call0_v3) ↦{fullShare} V main_call0_v3) ∗ (((c.tc : Thread nD τ).loc main_v0) ↦{fullShare} V main_v0)) := by
  unfold Pipeline.arrBufs
  rw [bigSep_eq_bigSepL_of_eq [main_arg0, main_arg3, main_arg2, main_call0_v1, main_call0_v3, main_v0] image0 (by decide)]
  rfl

/-- The windows' arrays of pipeline 0, one by one: every array a whole buffer, held at the share `q0` names, at the
    contents `V` gives the buffer behind it. -/
theorem arrays0_chain (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp (MT nD τ sig Ix (Elt F) ℕ U Lvl))
      = iprop((((c.tc : Thread nD τ).loc main_arg0) ↦{s5 0} V main_arg0) ∗ (((c.tc : Thread nD τ).loc main_arg0) ↦{s5 1} V main_arg0) ∗ (((c.tc : Thread nD τ).loc main_arg0) ↦{s5 2} V main_arg0) ∗ (((c.tc : Thread nD τ).loc main_arg0) ↦{s5 3} V main_arg0) ∗ (((c.tc : Thread nD τ).loc main_arg0) ↦{s5 4} V main_arg0) ∗ (((c.tc : Thread nD τ).loc main_arg3) ↦{fullShare} V main_arg3) ∗ (((c.tc : Thread nD τ).loc main_arg2) ↦{fullShare} V main_arg2) ∗ (((c.tc : Thread nD τ).loc main_call0_v1) ↦{fullShare} V main_call0_v1) ∗ (((c.tc : Thread nD τ).loc main_call0_v3) ↦{fullShare} V main_call0_v3) ∗ (((c.tc : Thread nD τ).loc main_v0) ↦{fullShare} V main_v0)) := by
  have h : dat.arrays Fw = bigSep Finset.univ fun w : Fin 10 =>
      (((c.tc : Thread nD τ).loc (Pipeline.arrRef spec0 w)) ↦{q0 w} V (Pipeline.arrRef spec0 w) : sProp (MT nD τ sig Ix (Elt F) ℕ U Lvl)) := by
    unfold Pipeline.Dat.arrays
    exact bigSep_congr fun w _ => by rw [(arr_whole0 w).set_eq_univ, share0 c dat hq w, hF w]
  rw [h, bigSep_W0]
  rfl

/-- The buffers behind pipeline 0's arrays, each whole at the full share, ARE the windows' arrays at the shares
    `q0`: the shared buffer's full share is the five shares `s5` together. -/
theorem arrBufs0_eq_arrays (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp (MT nD τ sig Ix (Elt F) ℕ U Lvl)) = dat.arrays Fw := by
  rw [arrBufs0_chain, arrays0_chain c dat hq V Fw hF, five_eq, sep_assoc_eq, sep_assoc_eq, sep_assoc_eq, sep_assoc_eq]

/-- At pipeline 0's entry: the buffers behind its arrays, whole, yield its windows' arrays at the shares `q0`. -/
theorem hsplit0 (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp (MT nD τ sig Ix (Elt F) ℕ U Lvl)) ⊢ dat.arrays Fw :=
  Entails.of_eq (arrBufs0_eq_arrays c dat hq V Fw hF)

/-- At its exit: the windows' arrays at the shares `q0` give the buffers back whole. -/
theorem hjoin0 (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    dat.arrays Fw ⊢ (Pipeline.arrBufs spec0 c V : sProp (MT nD τ sig Ix (Elt F) ℕ U Lvl)) :=
  Entails.of_eq (arrBufs0_eq_arrays c dat hq V Fw hF).symm

/-- The buffers of pipeline 0 that are no window's array do not include `main_v0`, the output window's array:
    contents that differ only there give the same assertion. -/
theorem unscopedRest0_update (c : Dev nD) (V V' : (b : Ref sig .tc) → Buf (Elt F) ((c.tc : Thread nD τ).loc b))
    (h : ∀ b : Ref sig .tc, b ≠ main_v0 → V' b = V b) :
    (Pipeline.unscopedRest (Ix := Ix) (Name := ℕ) (U := U) (Lvl := Lvl) spec0 c V' : sProp (MT nD τ sig Ix (Elt F) ℕ U Lvl))
      = Pipeline.unscopedRest spec0 c V := by
  unfold Pipeline.unscopedRest
  refine bigSep_congr fun b hb => ?_
  have hne : b ≠ main_v0 := fun e =>
    (Finset.mem_sdiff.mp hb).2 (e ▸ (by decide : main_v0 ∈ Finset.univ.image (Pipeline.arrRef spec0)))
  rw [h b hne]

/-! ## custom_call 1 -/

/-- The shares pipeline 1's windows hold their arrays at: the five windows on the shared array one of `s5` each,
    every other window the full share. -/
def q1 : Fin 10 → PosShare TreeShare := fun w => if h : w.val < 5 then s5 ⟨w.val, h⟩ else fullShare

/-- The six distinct buffers behind pipeline 1's ten windows. -/
theorem image1 : Finset.univ.image (Pipeline.arrRef spec1) = [main_arg1, main_arg2, main_arg3, main_call1_v1, main_call1_v3, main_v1].toFinset := by decide

/-- Every window of pipeline 1 holds its array at the share `q1` names: the output window's full share is `q1 9`. -/
theorem share1 (c : Dev nD) (dat : Pipeline.Dat τ (Elt F) Ix ℕ U Lvl cfg1 c) (hq : dat.q = q1) (w : Fin 10) :
    dat.share w = q1 w := by
  unfold Pipeline.Dat.share
  rw [hq]
  fin_cases w <;> rfl

/-- The buffers behind pipeline 1's arrays, one by one. -/
theorem arrBufs1_chain (c : Dev nD) (V : (b : Ref sig .tc) → Buf (Elt F) ((c.tc : Thread nD τ).loc b)) :
    (Pipeline.arrBufs spec1 c V : sProp (MT nD τ sig Ix (Elt F) ℕ U Lvl))
      = iprop((((c.tc : Thread nD τ).loc main_arg1) ↦{fullShare} V main_arg1) ∗ (((c.tc : Thread nD τ).loc main_arg2) ↦{fullShare} V main_arg2) ∗ (((c.tc : Thread nD τ).loc main_arg3) ↦{fullShare} V main_arg3) ∗ (((c.tc : Thread nD τ).loc main_call1_v1) ↦{fullShare} V main_call1_v1) ∗ (((c.tc : Thread nD τ).loc main_call1_v3) ↦{fullShare} V main_call1_v3) ∗ (((c.tc : Thread nD τ).loc main_v1) ↦{fullShare} V main_v1)) := by
  unfold Pipeline.arrBufs
  rw [bigSep_eq_bigSepL_of_eq [main_arg1, main_arg2, main_arg3, main_call1_v1, main_call1_v3, main_v1] image1 (by decide)]
  rfl

/-- The windows' arrays of pipeline 1, one by one: every array a whole buffer, held at the share `q1` names, at the
    contents `V` gives the buffer behind it. -/
theorem arrays1_chain (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp (MT nD τ sig Ix (Elt F) ℕ U Lvl))
      = iprop((((c.tc : Thread nD τ).loc main_arg1) ↦{s5 0} V main_arg1) ∗ (((c.tc : Thread nD τ).loc main_arg1) ↦{s5 1} V main_arg1) ∗ (((c.tc : Thread nD τ).loc main_arg1) ↦{s5 2} V main_arg1) ∗ (((c.tc : Thread nD τ).loc main_arg1) ↦{s5 3} V main_arg1) ∗ (((c.tc : Thread nD τ).loc main_arg1) ↦{s5 4} V main_arg1) ∗ (((c.tc : Thread nD τ).loc main_arg2) ↦{fullShare} V main_arg2) ∗ (((c.tc : Thread nD τ).loc main_arg3) ↦{fullShare} V main_arg3) ∗ (((c.tc : Thread nD τ).loc main_call1_v1) ↦{fullShare} V main_call1_v1) ∗ (((c.tc : Thread nD τ).loc main_call1_v3) ↦{fullShare} V main_call1_v3) ∗ (((c.tc : Thread nD τ).loc main_v1) ↦{fullShare} V main_v1)) := by
  have h : dat.arrays Fw = bigSep Finset.univ fun w : Fin 10 =>
      (((c.tc : Thread nD τ).loc (Pipeline.arrRef spec1 w)) ↦{q1 w} V (Pipeline.arrRef spec1 w) : sProp (MT nD τ sig Ix (Elt F) ℕ U Lvl)) := by
    unfold Pipeline.Dat.arrays
    exact bigSep_congr fun w _ => by rw [(arr_whole1 w).set_eq_univ, share1 c dat hq w, hF w]
  rw [h, bigSep_W1]
  rfl

/-- The buffers behind pipeline 1's arrays, each whole at the full share, ARE the windows' arrays at the shares
    `q1`: the shared buffer's full share is the five shares `s5` together. -/
theorem arrBufs1_eq_arrays (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp (MT nD τ sig Ix (Elt F) ℕ U Lvl)) = dat.arrays Fw := by
  rw [arrBufs1_chain, arrays1_chain c dat hq V Fw hF, five_eq, sep_assoc_eq, sep_assoc_eq, sep_assoc_eq, sep_assoc_eq]

/-- At pipeline 1's entry: the buffers behind its arrays, whole, yield its windows' arrays at the shares `q1`. -/
theorem hsplit1 (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp (MT nD τ sig Ix (Elt F) ℕ U Lvl)) ⊢ dat.arrays Fw :=
  Entails.of_eq (arrBufs1_eq_arrays c dat hq V Fw hF)

/-- At its exit: the windows' arrays at the shares `q1` give the buffers back whole. -/
theorem hjoin1 (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    dat.arrays Fw ⊢ (Pipeline.arrBufs spec1 c V : sProp (MT nD τ sig Ix (Elt F) ℕ U Lvl)) :=
  Entails.of_eq (arrBufs1_eq_arrays c dat hq V Fw hF).symm

/-- The buffers of pipeline 1 that are no window's array do not include `main_v1`, the output window's array:
    contents that differ only there give the same assertion. -/
theorem unscopedRest1_update (c : Dev nD) (V V' : (b : Ref sig .tc) → Buf (Elt F) ((c.tc : Thread nD τ).loc b))
    (h : ∀ b : Ref sig .tc, b ≠ main_v1 → V' b = V b) :
    (Pipeline.unscopedRest (Ix := Ix) (Name := ℕ) (U := U) (Lvl := Lvl) spec1 c V' : sProp (MT nD τ sig Ix (Elt F) ℕ U Lvl))
      = Pipeline.unscopedRest spec1 c V := by
  unfold Pipeline.unscopedRest
  refine bigSep_congr fun b hb => ?_
  have hne : b ≠ main_v1 := fun e =>
    (Finset.mem_sdiff.mp hb).2 (e ▸ (by decide : main_v1 ∈ Finset.univ.image (Pipeline.arrRef spec1)))
  rw [h b hne]

/-! ## custom_call 2 -/

/-- The shares pipeline 2's windows hold their arrays at: the five windows on the shared array one of `s5` each,
    every other window the full share. -/
def q2 : Fin 10 → PosShare TreeShare := fun w => if h : w.val < 5 then s5 ⟨w.val, h⟩ else fullShare

/-- The six distinct buffers behind pipeline 2's ten windows. -/
theorem image2 : Finset.univ.image (Pipeline.arrRef spec2) = [main_arg0, main_v1, main_v0, main_call2_v1, main_call2_v3, main_v2].toFinset := by decide

/-- Every window of pipeline 2 holds its array at the share `q2` names: the output window's full share is `q2 9`. -/
theorem share2 (c : Dev nD) (dat : Pipeline.Dat τ (Elt F) Ix ℕ U Lvl cfg2 c) (hq : dat.q = q2) (w : Fin 10) :
    dat.share w = q2 w := by
  unfold Pipeline.Dat.share
  rw [hq]
  fin_cases w <;> rfl

/-- The buffers behind pipeline 2's arrays, one by one. -/
theorem arrBufs2_chain (c : Dev nD) (V : (b : Ref sig .tc) → Buf (Elt F) ((c.tc : Thread nD τ).loc b)) :
    (Pipeline.arrBufs spec2 c V : sProp (MT nD τ sig Ix (Elt F) ℕ U Lvl))
      = iprop((((c.tc : Thread nD τ).loc main_arg0) ↦{fullShare} V main_arg0) ∗ (((c.tc : Thread nD τ).loc main_v1) ↦{fullShare} V main_v1) ∗ (((c.tc : Thread nD τ).loc main_v0) ↦{fullShare} V main_v0) ∗ (((c.tc : Thread nD τ).loc main_call2_v1) ↦{fullShare} V main_call2_v1) ∗ (((c.tc : Thread nD τ).loc main_call2_v3) ↦{fullShare} V main_call2_v3) ∗ (((c.tc : Thread nD τ).loc main_v2) ↦{fullShare} V main_v2)) := by
  unfold Pipeline.arrBufs
  rw [bigSep_eq_bigSepL_of_eq [main_arg0, main_v1, main_v0, main_call2_v1, main_call2_v3, main_v2] image2 (by decide)]
  rfl

/-- The windows' arrays of pipeline 2, one by one: every array a whole buffer, held at the share `q2` names, at the
    contents `V` gives the buffer behind it. -/
theorem arrays2_chain (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (dat.arrays Fw : sProp (MT nD τ sig Ix (Elt F) ℕ U Lvl))
      = iprop((((c.tc : Thread nD τ).loc main_arg0) ↦{s5 0} V main_arg0) ∗ (((c.tc : Thread nD τ).loc main_arg0) ↦{s5 1} V main_arg0) ∗ (((c.tc : Thread nD τ).loc main_arg0) ↦{s5 2} V main_arg0) ∗ (((c.tc : Thread nD τ).loc main_arg0) ↦{s5 3} V main_arg0) ∗ (((c.tc : Thread nD τ).loc main_arg0) ↦{s5 4} V main_arg0) ∗ (((c.tc : Thread nD τ).loc main_v1) ↦{fullShare} V main_v1) ∗ (((c.tc : Thread nD τ).loc main_v0) ↦{fullShare} V main_v0) ∗ (((c.tc : Thread nD τ).loc main_call2_v1) ↦{fullShare} V main_call2_v1) ∗ (((c.tc : Thread nD τ).loc main_call2_v3) ↦{fullShare} V main_call2_v3) ∗ (((c.tc : Thread nD τ).loc main_v2) ↦{fullShare} V main_v2)) := by
  have h : dat.arrays Fw = bigSep Finset.univ fun w : Fin 10 =>
      (((c.tc : Thread nD τ).loc (Pipeline.arrRef spec2 w)) ↦{q2 w} V (Pipeline.arrRef spec2 w) : sProp (MT nD τ sig Ix (Elt F) ℕ U Lvl)) := by
    unfold Pipeline.Dat.arrays
    exact bigSep_congr fun w _ => by rw [(arr_whole2 w).set_eq_univ, share2 c dat hq w, hF w]
  rw [h, bigSep_W2]
  rfl

/-- The buffers behind pipeline 2's arrays, each whole at the full share, ARE the windows' arrays at the shares
    `q2`: the shared buffer's full share is the five shares `s5` together. -/
theorem arrBufs2_eq_arrays (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (Pipeline.arrBufs spec2 c V : sProp (MT nD τ sig Ix (Elt F) ℕ U Lvl)) = dat.arrays Fw := by
  rw [arrBufs2_chain, arrays2_chain c dat hq V Fw hF, five_eq, sep_assoc_eq, sep_assoc_eq, sep_assoc_eq, sep_assoc_eq]

/-- At pipeline 2's entry: the buffers behind its arrays, whole, yield its windows' arrays at the shares `q2`. -/
theorem hsplit2 (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (Pipeline.arrBufs spec2 c V : sProp (MT nD τ sig Ix (Elt F) ℕ U Lvl)) ⊢ dat.arrays Fw :=
  Entails.of_eq (arrBufs2_eq_arrays c dat hq V Fw hF)

/-- At its exit: the windows' arrays at the shares `q2` give the buffers back whole. -/
theorem hjoin2 (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    dat.arrays Fw ⊢ (Pipeline.arrBufs spec2 c V : sProp (MT nD τ sig Ix (Elt F) ℕ U Lvl)) :=
  Entails.of_eq (arrBufs2_eq_arrays c dat hq V Fw hF).symm

/-- The buffers of pipeline 2 that are no window's array do not include `main_v2`, the output window's array:
    contents that differ only there give the same assertion. -/
theorem unscopedRest2_update (c : Dev nD) (V V' : (b : Ref sig .tc) → Buf (Elt F) ((c.tc : Thread nD τ).loc b))
    (h : ∀ b : Ref sig .tc, b ≠ main_v2 → V' b = V b) :
    (Pipeline.unscopedRest (Ix := Ix) (Name := ℕ) (U := U) (Lvl := Lvl) spec2 c V' : sProp (MT nD τ sig Ix (Elt F) ℕ U Lvl))
      = Pipeline.unscopedRest spec2 c V := by
  unfold Pipeline.unscopedRest
  refine bigSep_congr fun b hb => ?_
  have hne : b ≠ main_v2 := fun e =>
    (Finset.mem_sdiff.mp hb).2 (e ▸ (by decide : main_v2 ∈ Finset.univ.image (Pipeline.arrRef spec2)))
  rw [h b hne]

/-! ## custom_call 3 -/

/-- The shares pipeline 3's windows hold their arrays at: the five windows on the shared array one of `s5` each,
    every other window the full share. -/
def q3 : Fin 10 → PosShare TreeShare := fun w => if h : w.val < 5 then s5 ⟨w.val, h⟩ else fullShare

/-- The six distinct buffers behind pipeline 3's ten windows. -/
theorem image3 : Finset.univ.image (Pipeline.arrRef spec3) = [main_arg1, main_v0, main_v1, main_call3_v1, main_call3_v3, main_v3].toFinset := by decide

/-- Every window of pipeline 3 holds its array at the share `q3` names: the output window's full share is `q3 9`. -/
theorem share3 (c : Dev nD) (dat : Pipeline.Dat τ (Elt F) Ix ℕ U Lvl cfg3 c) (hq : dat.q = q3) (w : Fin 10) :
    dat.share w = q3 w := by
  unfold Pipeline.Dat.share
  rw [hq]
  fin_cases w <;> rfl

/-- The buffers behind pipeline 3's arrays, one by one. -/
theorem arrBufs3_chain (c : Dev nD) (V : (b : Ref sig .tc) → Buf (Elt F) ((c.tc : Thread nD τ).loc b)) :
    (Pipeline.arrBufs spec3 c V : sProp (MT nD τ sig Ix (Elt F) ℕ U Lvl))
      = iprop((((c.tc : Thread nD τ).loc main_arg1) ↦{fullShare} V main_arg1) ∗ (((c.tc : Thread nD τ).loc main_v0) ↦{fullShare} V main_v0) ∗ (((c.tc : Thread nD τ).loc main_v1) ↦{fullShare} V main_v1) ∗ (((c.tc : Thread nD τ).loc main_call3_v1) ↦{fullShare} V main_call3_v1) ∗ (((c.tc : Thread nD τ).loc main_call3_v3) ↦{fullShare} V main_call3_v3) ∗ (((c.tc : Thread nD τ).loc main_v3) ↦{fullShare} V main_v3)) := by
  unfold Pipeline.arrBufs
  rw [bigSep_eq_bigSepL_of_eq [main_arg1, main_v0, main_v1, main_call3_v1, main_call3_v3, main_v3] image3 (by decide)]
  rfl

/-- The windows' arrays of pipeline 3, one by one: every array a whole buffer, held at the share `q3` names, at the
    contents `V` gives the buffer behind it. -/
theorem arrays3_chain (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (dat.arrays Fw : sProp (MT nD τ sig Ix (Elt F) ℕ U Lvl))
      = iprop((((c.tc : Thread nD τ).loc main_arg1) ↦{s5 0} V main_arg1) ∗ (((c.tc : Thread nD τ).loc main_arg1) ↦{s5 1} V main_arg1) ∗ (((c.tc : Thread nD τ).loc main_arg1) ↦{s5 2} V main_arg1) ∗ (((c.tc : Thread nD τ).loc main_arg1) ↦{s5 3} V main_arg1) ∗ (((c.tc : Thread nD τ).loc main_arg1) ↦{s5 4} V main_arg1) ∗ (((c.tc : Thread nD τ).loc main_v0) ↦{fullShare} V main_v0) ∗ (((c.tc : Thread nD τ).loc main_v1) ↦{fullShare} V main_v1) ∗ (((c.tc : Thread nD τ).loc main_call3_v1) ↦{fullShare} V main_call3_v1) ∗ (((c.tc : Thread nD τ).loc main_call3_v3) ↦{fullShare} V main_call3_v3) ∗ (((c.tc : Thread nD τ).loc main_v3) ↦{fullShare} V main_v3)) := by
  have h : dat.arrays Fw = bigSep Finset.univ fun w : Fin 10 =>
      (((c.tc : Thread nD τ).loc (Pipeline.arrRef spec3 w)) ↦{q3 w} V (Pipeline.arrRef spec3 w) : sProp (MT nD τ sig Ix (Elt F) ℕ U Lvl)) := by
    unfold Pipeline.Dat.arrays
    exact bigSep_congr fun w _ => by rw [(arr_whole3 w).set_eq_univ, share3 c dat hq w, hF w]
  rw [h, bigSep_W3]
  rfl

/-- The buffers behind pipeline 3's arrays, each whole at the full share, ARE the windows' arrays at the shares
    `q3`: the shared buffer's full share is the five shares `s5` together. -/
theorem arrBufs3_eq_arrays (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (Pipeline.arrBufs spec3 c V : sProp (MT nD τ sig Ix (Elt F) ℕ U Lvl)) = dat.arrays Fw := by
  rw [arrBufs3_chain, arrays3_chain c dat hq V Fw hF, five_eq, sep_assoc_eq, sep_assoc_eq, sep_assoc_eq, sep_assoc_eq]

/-- At pipeline 3's entry: the buffers behind its arrays, whole, yield its windows' arrays at the shares `q3`. -/
theorem hsplit3 (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (Pipeline.arrBufs spec3 c V : sProp (MT nD τ sig Ix (Elt F) ℕ U Lvl)) ⊢ dat.arrays Fw :=
  Entails.of_eq (arrBufs3_eq_arrays c dat hq V Fw hF)

/-- At its exit: the windows' arrays at the shares `q3` give the buffers back whole. -/
theorem hjoin3 (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    dat.arrays Fw ⊢ (Pipeline.arrBufs spec3 c V : sProp (MT nD τ sig Ix (Elt F) ℕ U Lvl)) :=
  Entails.of_eq (arrBufs3_eq_arrays c dat hq V Fw hF).symm

/-- The buffers of pipeline 3 that are no window's array do not include `main_v3`, the output window's array:
    contents that differ only there give the same assertion. -/
theorem unscopedRest3_update (c : Dev nD) (V V' : (b : Ref sig .tc) → Buf (Elt F) ((c.tc : Thread nD τ).loc b))
    (h : ∀ b : Ref sig .tc, b ≠ main_v3 → V' b = V b) :
    (Pipeline.unscopedRest (Ix := Ix) (Name := ℕ) (U := U) (Lvl := Lvl) spec3 c V' : sProp (MT nD τ sig Ix (Elt F) ℕ U Lvl))
      = Pipeline.unscopedRest spec3 c V := by
  unfold Pipeline.unscopedRest
  refine bigSep_congr fun b hb => ?_
  have hne : b ≠ main_v3 := fun e =>
    (Finset.mem_sdiff.mp hb).2 (e ▸ (by decide : main_v3 ∈ Finset.univ.image (Pipeline.arrRef spec3)))
  rw [h b hne]

end Cert.Kernel.Shares

end
-- ==== Proof.K.Region0.lean ====
/-
  Pallas_call 0 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.K.Body0
import proofs.«105240_g55860344651847_cont_9to1c4b_578_12_alg».proof.Proof.K.Shares
import Idealize.ShloMosaic.Lib.Pipeline.Regions
import Idealize.ShloMosaic.Lib.Pipeline.Frame

set_option maxRecDepth 16384

noncomputable section

namespace Cert.Kernel.Region0

open Cert.Kernel Cert.Kernel.Gen Cert.Kernel.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg0 c) (hA : dat.A 0 = V (Pipeline.arrRef spec0 0))
    (hafter : ∀ t, dat.after 0 t = iblk c V 0 t) (t : Fin cfg0.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg0 c) (hA : dat.A 1 = V (Pipeline.arrRef spec0 1))
    (hafter : ∀ t, dat.after 1 t = iblk c V 1 t) (t : Fin cfg0.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg0 c) (hA : dat.A 2 = V (Pipeline.arrRef spec0 2))
    (hafter : ∀ t, dat.after 2 t = iblk c V 2 t) (t : Fin cfg0.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg0 c) (hA : dat.A 3 = V (Pipeline.arrRef spec0 3))
    (hafter : ∀ t, dat.after 3 t = iblk c V 3 t) (t : Fin cfg0.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg0 c) (hA : dat.A 4 = V (Pipeline.arrRef spec0 4))
    (hafter : ∀ t, dat.after 4 t = iblk c V 4 t) (t : Fin cfg0.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg0 c) (hA : dat.A 5 = V (Pipeline.arrRef spec0 5))
    (hafter : ∀ t, dat.after 5 t = iblk c V 5 t) (t : Fin cfg0.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg0 c) (hA : dat.A 6 = V (Pipeline.arrRef spec0 6))
    (hafter : ∀ t, dat.after 6 t = iblk c V 6 t) (t : Fin cfg0.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg0 c) (hA : dat.A 7 = V (Pipeline.arrRef spec0 7))
    (hafter : ∀ t, dat.after 7 t = iblk c V 7 t) (t : Fin cfg0.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg0 c) (hA : dat.A 8 = V (Pipeline.arrRef spec0 8))
    (hafter : ∀ t, dat.after 8 t = iblk c V 8 t) (t : Fin cfg0.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg0 c where
  A w := V (Pipeline.arrRef spec0 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec0 c
  q := Shares.q0
  owed _ := 0

theorem A_eq (w : Fin cfg0.W) : (dat c V).A w = V (Pipeline.arrRef spec0 w) := by dsimp only [dat]
theorem q_eq : (dat c V).q = Shares.q0 := by dsimp only [dat]

theorem after_0 (t : Fin cfg0.N) : (dat c V).after 0 t = iblk c V 0 t := by dsimp only [dat]
theorem after_1 (t : Fin cfg0.N) : (dat c V).after 1 t = iblk c V 1 t := by dsimp only [dat]
theorem after_2 (t : Fin cfg0.N) : (dat c V).after 2 t = iblk c V 2 t := by dsimp only [dat]
theorem after_3 (t : Fin cfg0.N) : (dat c V).after 3 t = iblk c V 3 t := by dsimp only [dat]
theorem after_4 (t : Fin cfg0.N) : (dat c V).after 4 t = iblk c V 4 t := by dsimp only [dat]
theorem after_5 (t : Fin cfg0.N) : (dat c V).after 5 t = iblk c V 5 t := by dsimp only [dat]
theorem after_6 (t : Fin cfg0.N) : (dat c V).after 6 t = iblk c V 6 t := by dsimp only [dat]
theorem after_7 (t : Fin cfg0.N) : (dat c V).after 7 t = iblk c V 7 t := by dsimp only [dat]
theorem after_8 (t : Fin cfg0.N) : (dat c V).after 8 t = iblk c V 8 t := by dsimp only [dat]
theorem after_9 (t : Fin cfg0.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg0.N) (d) : (dat c V).before 0 t d = iblk c V 0 t :=
  before_0_of c V (dat c V) (A_eq c V 0) (after_0 c V) t d
theorem before_1 (t : Fin cfg0.N) (d) : (dat c V).before 1 t d = iblk c V 1 t :=
  before_1_of c V (dat c V) (A_eq c V 1) (after_1 c V) t d
theorem before_2 (t : Fin cfg0.N) (d) : (dat c V).before 2 t d = iblk c V 2 t :=
  before_2_of c V (dat c V) (A_eq c V 2) (after_2 c V) t d
theorem before_3 (t : Fin cfg0.N) (d) : (dat c V).before 3 t d = iblk c V 3 t :=
  before_3_of c V (dat c V) (A_eq c V 3) (after_3 c V) t d
theorem before_4 (t : Fin cfg0.N) (d) : (dat c V).before 4 t d = iblk c V 4 t :=
  before_4_of c V (dat c V) (A_eq c V 4) (after_4 c V) t d
theorem before_5 (t : Fin cfg0.N) (d) : (dat c V).before 5 t d = iblk c V 5 t :=
  before_5_of c V (dat c V) (A_eq c V 5) (after_5 c V) t d
theorem before_6 (t : Fin cfg0.N) (d) : (dat c V).before 6 t d = iblk c V 6 t :=
  before_6_of c V (dat c V) (A_eq c V 6) (after_6 c V) t d
theorem before_7 (t : Fin cfg0.N) (d) : (dat c V).before 7 t d = iblk c V 7 t :=
  before_7_of c V (dat c V) (A_eq c V 7) (after_7 c V) t d
theorem before_8 (t : Fin cfg0.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg0.N) : sProp 𝕄 :=
  iprop((dat c V).Φ t.castSucc ∗ (dat c V).owesAt () t.castSucc
    ∗ (∃ d, owns (c : Thread nD τ) (st0_0 t) fullShare ((dat c V).before 0 t d))
    ∗ (∃ d, owns (c : Thread nD τ) (st0_1 t) fullShare ((dat c V).before 1 t d))
    ∗ (∃ d, owns (c : Thread nD τ) (st0_2 t) fullShare ((dat c V).before 2 t d))
    ∗ (∃ d, owns (c : Thread nD τ) (st0_3 t) fullShare ((dat c V).before 3 t d))
    ∗ (∃ d, owns (c : Thread nD τ) (st0_4 t) fullShare ((dat c V).before 4 t d))
    ∗ (∃ d, owns (c : Thread nD τ) (st0_5 t) fullShare ((dat c V).before 5 t d))
    ∗ (∃ d, owns (c : Thread nD τ) (st0_6 t) fullShare ((dat c V).before 6 t d))
    ∗ (∃ d, owns (c : Thread nD τ) (st0_7 t) fullShare ((dat c V).before 7 t d))
    ∗ (∃ d, owns (c : Thread nD τ) (st0_8 t) fullShare ((dat c V).before 8 t d))
    ∗ (∃ d, owns (c : Thread nD τ) (st0_9 t) fullShare ((dat c V).before 9 t d)))

/-- and what it returns. -/
def bodyPost (t : Fin cfg0.N) : sProp 𝕄 :=
  iprop((dat c V).Φ t.succ ∗ (dat c V).owesAt () t.succ
    ∗ owns (c : Thread nD τ) (st0_0 t) fullShare ((dat c V).after 0 t)
    ∗ owns (c : Thread nD τ) (st0_1 t) fullShare ((dat c V).after 1 t)
    ∗ owns (c : Thread nD τ) (st0_2 t) fullShare ((dat c V).after 2 t)
    ∗ owns (c : Thread nD τ) (st0_3 t) fullShare ((dat c V).after 3 t)
    ∗ owns (c : Thread nD τ) (st0_4 t) fullShare ((dat c V).after 4 t)
    ∗ owns (c : Thread nD τ) (st0_5 t) fullShare ((dat c V).after 5 t)
    ∗ owns (c : Thread nD τ) (st0_6 t) fullShare ((dat c V).after 6 t)
    ∗ owns (c : Thread nD τ) (st0_7 t) fullShare ((dat c V).after 7 t)
    ∗ owns (c : Thread nD τ) (st0_8 t) fullShare ((dat c V).after 8 t)
    ∗ owns (c : Thread nD τ) (st0_9 t) fullShare ((dat c V).after 9 t))

/-- The body at any point: the inputs' buffers hold their blocks, so the body's triple applies; the invariant and
    the core's debts pass through unread. -/
theorem sound_body (t : Fin cfg0.N) :
    bodyPre c V t ⊢ wp frame (wpE (defs₀ (F := F)) Variants.none c none) Set.univ (bodyAt0 t) (fun _ => bodyPost c V t) := by
  unfold bodyPre bodyPost bodyAt0
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W0, bigSep_W0]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec0 c (fun b => W b)) := by
  rw [← Pipeline.unscopedBufs_held c W, Pipeline.unscopedBufs_split₀ cfgs (0 : Fin 4) winFacts₀0.arr_unscoped c (fun b => W b)]
  exact sep_mono (Shares.hsplit0 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v0 = (dat c (fun b => W b)).arrAt 9 cfg0.N)
    (hne : ∀ b : Ref sig .tc, b ≠ main_v0 → W2 b = W b) :
    iprop((dat c (fun b => W b)).arrays ((dat c (fun b => W b)).arrAt · cfg0.N)
        ∗ Pipeline.unscopedRest (Ix := Unit) (Name := ℕ) (U := UR sig nD τ) (Lvl := ℕ) spec0 c (fun b => W b))
      ⊢ (StableHlo.held (c : Thread nD τ) (Pipeline.ucRefs τ sig) W2 : sProp 𝕄) := by
  rw [← Pipeline.unscopedBufs_held c W2, Pipeline.unscopedBufs_split₀ cfgs (0 : Fin 4) winFacts₀0.arr_unscoped c (fun b => W2 b)]
  have hF : ∀ w : Fin cfg0.W, (dat c (fun b => W b)).arrAt w cfg0.N = W2 (Pipeline.arrRef spec0 w) := fun w => by
    match w with
    | ⟨0, _⟩ => exact ((dat c (fun b => W b)).arrAt_in 0 rfl _).trans ((A_eq c (fun b => W b) 0).trans (hne main_arg0 (by decide)).symm)
    | ⟨1, _⟩ => exact ((dat c (fun b => W b)).arrAt_in 1 rfl _).trans ((A_eq c (fun b => W b) 1).trans (hne main_arg0 (by decide)).symm)
    | ⟨2, _⟩ => exact ((dat c (fun b => W b)).arrAt_in 2 rfl _).trans ((A_eq c (fun b => W b) 2).trans (hne main_arg0 (by decide)).symm)
    | ⟨3, _⟩ => exact ((dat c (fun b => W b)).arrAt_in 3 rfl _).trans ((A_eq c (fun b => W b) 3).trans (hne main_arg0 (by decide)).symm)
    | ⟨4, _⟩ => exact ((dat c (fun b => W b)).arrAt_in 4 rfl _).trans ((A_eq c (fun b => W b) 4).trans (hne main_arg0 (by decide)).symm)
    | ⟨5, _⟩ => exact ((dat c (fun b => W b)).arrAt_in 5 rfl _).trans ((A_eq c (fun b => W b) 5).trans (hne main_arg3 (by decide)).symm)
    | ⟨6, _⟩ => exact ((dat c (fun b => W b)).arrAt_in 6 rfl _).trans ((A_eq c (fun b => W b) 6).trans (hne main_arg2 (by decide)).symm)
    | ⟨7, _⟩ => exact ((dat c (fun b => W b)).arrAt_in 7 rfl _).trans ((A_eq c (fun b => W b) 7).trans (hne main_call0_v1 (by decide)).symm)
    | ⟨8, _⟩ => exact ((dat c (fun b => W b)).arrAt_in 8 rfl _).trans ((A_eq c (fun b => W b) 8).trans (hne main_call0_v3 (by decide)).symm)
    | ⟨9, _⟩ => exact h9.symm
  exact BIClass.sep_mono (Shares.hjoin0 c (dat c (fun b => W b)) (q_eq c _) (fun b => W2 b) (fun w => (dat c (fun b => W b)).arrAt w cfg0.N) hF)
    (Entails.of_eq (Shares.unscopedRest0_update c (fun b => W b) (fun b => W2 b) hne).symm)

end Cert.Kernel.Region0

end
-- ==== Proof.K.Body1.lean ====
/-
  The kernel body of pallas_call 1 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.Kernel.Launch
import proofs.«105240_g55860344651847_cont_9to1c4b_578_12_alg».proof.Proof.Gen.Kernel.Skeleton
import proofs.«105240_g55860344651847_cont_9to1c4b_578_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k1_pay1 (k1_pay2 (View.ld x6 rH) (View.ld x1 rA) (View.ld x2 rA) (View.ld x3 rA) (View.ld x4 rA) (View.ld x5 rA) (View.ld x7 rB) (View.ld x8 rW) (View.ld x9 rW)) (k1_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc1__layer_side_body i arg1 harg1 arg2 harg2 arg3 harg3 arg4 harg4 arg5 harg5 arg6 harg6 arg7 harg7 arg8 harg8 arg9 harg9 arg10 harg10) K := by
  simp only [cc1__layer_side_body_eq_skeleton]; unfold cc1__layer_side_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.Kernel.Body1

end
-- ==== Proof.K.Region1.lean ====
/-
  Pallas_call 1 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.K.Body1
import proofs.«105240_g55860344651847_cont_9to1c4b_578_12_alg».proof.Proof.K.Shares
import Idealize.ShloMosaic.Lib.Pipeline.Regions
import Idealize.ShloMosaic.Lib.Pipeline.Frame

set_option maxRecDepth 16384

noncomputable section

namespace Cert.Kernel.Region1

open Cert.Kernel Cert.Kernel.Gen Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg1 c) (hA : dat.A 0 = V (Pipeline.arrRef spec1 0))
    (hafter : ∀ t, dat.after 0 t = iblk c V 0 t) (t : Fin cfg1.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg1 c) (hA : dat.A 1 = V (Pipeline.arrRef spec1 1))
    (hafter : ∀ t, dat.after 1 t = iblk c V 1 t) (t : Fin cfg1.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg1 c) (hA : dat.A 2 = V (Pipeline.arrRef spec1 2))
    (hafter : ∀ t, dat.after 2 t = iblk c V 2 t) (t : Fin cfg1.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg1 c) (hA : dat.A 3 = V (Pipeline.arrRef spec1 3))
    (hafter : ∀ t, dat.after 3 t = iblk c V 3 t) (t : Fin cfg1.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg1 c) (hA : dat.A 4 = V (Pipeline.arrRef spec1 4))
    (hafter : ∀ t, dat.after 4 t = iblk c V 4 t) (t : Fin cfg1.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg1 c) (hA : dat.A 5 = V (Pipeline.arrRef spec1 5))
    (hafter : ∀ t, dat.after 5 t = iblk c V 5 t) (t : Fin cfg1.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg1 c) (hA : dat.A 6 = V (Pipeline.arrRef spec1 6))
    (hafter : ∀ t, dat.after 6 t = iblk c V 6 t) (t : Fin cfg1.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg1 c) (hA : dat.A 7 = V (Pipeline.arrRef spec1 7))
    (hafter : ∀ t, dat.after 7 t = iblk c V 7 t) (t : Fin cfg1.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg1 c) (hA : dat.A 8 = V (Pipeline.arrRef spec1 8))
    (hafter : ∀ t, dat.after 8 t = iblk c V 8 t) (t : Fin cfg1.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec1 c
  q := Shares.q1
  owed _ := 0

theorem A_eq (w : Fin cfg1.W) : (dat c V).A w = V (Pipeline.arrRef spec1 w) := by dsimp only [dat]
theorem q_eq : (dat c V).q = Shares.q1 := by dsimp only [dat]

theorem after_0 (t : Fin cfg1.N) : (dat c V).after 0 t = iblk c V 0 t := by dsimp only [dat]
theorem after_1 (t : Fin cfg1.N) : (dat c V).after 1 t = iblk c V 1 t := by dsimp only [dat]
theorem after_2 (t : Fin cfg1.N) : (dat c V).after 2 t = iblk c V 2 t := by dsimp only [dat]
theorem after_3 (t : Fin cfg1.N) : (dat c V).after 3 t = iblk c V 3 t := by dsimp only [dat]
theorem after_4 (t : Fin cfg1.N) : (dat c V).after 4 t = iblk c V 4 t := by dsimp only [dat]
theorem after_5 (t : Fin cfg1.N) : (dat c V).after 5 t = iblk c V 5 t := by dsimp only [dat]
theorem after_6 (t : Fin cfg1.N) : (dat c V).after 6 t = iblk c V 6 t := by dsimp only [dat]
theorem after_7 (t : Fin cfg1.N) : (dat c V).after 7 t = iblk c V 7 t := by dsimp only [dat]
theorem after_8 (t : Fin cfg1.N) : (dat c V).after 8 t = iblk c V 8 t := by dsimp only [dat]
theorem after_9 (t : Fin cfg1.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg1.N) (d) : (dat c V).before 0 t d = iblk c V 0 t :=
  before_0_of c V (dat c V) (A_eq c V 0) (after_0 c V) t d
theorem before_1 (t : Fin cfg1.N) (d) : (dat c V).before 1 t d = iblk c V 1 t :=
  before_1_of c V (dat c V) (A_eq c V 1) (after_1 c V) t d
theorem before_2 (t : Fin cfg1.N) (d) : (dat c V).before 2 t d = iblk c V 2 t :=
  before_2_of c V (dat c V) (A_eq c V 2) (after_2 c V) t d
theorem before_3 (t : Fin cfg1.N) (d) : (dat c V).before 3 t d = iblk c V 3 t :=
  before_3_of c V (dat c V) (A_eq c V 3) (after_3 c V) t d
theorem before_4 (t : Fin cfg1.N) (d) : (dat c V).before 4 t d = iblk c V 4 t :=
  before_4_of c V (dat c V) (A_eq c V 4) (after_4 c V) t d
theorem before_5 (t : Fin cfg1.N) (d) : (dat c V).before 5 t d = iblk c V 5 t :=
  before_5_of c V (dat c V) (A_eq c V 5) (after_5 c V) t d
theorem before_6 (t : Fin cfg1.N) (d) : (dat c V).before 6 t d = iblk c V 6 t :=
  before_6_of c V (dat c V) (A_eq c V 6) (after_6 c V) t d
theorem before_7 (t : Fin cfg1.N) (d) : (dat c V).before 7 t d = iblk c V 7 t :=
  before_7_of c V (dat c V) (A_eq c V 7) (after_7 c V) t d
theorem before_8 (t : Fin cfg1.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg1.N) : sProp 𝕄 :=
  iprop((dat c V).Φ t.castSucc ∗ (dat c V).owesAt () t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d))
    ∗ (∃ d, owns (c : Thread nD τ) (st1_4 t) fullShare ((dat c V).before 4 t d))
    ∗ (∃ d, owns (c : Thread nD τ) (st1_5 t) fullShare ((dat c V).before 5 t d))
    ∗ (∃ d, owns (c : Thread nD τ) (st1_6 t) fullShare ((dat c V).before 6 t d))
    ∗ (∃ d, owns (c : Thread nD τ) (st1_7 t) fullShare ((dat c V).before 7 t d))
    ∗ (∃ d, owns (c : Thread nD τ) (st1_8 t) fullShare ((dat c V).before 8 t d))
    ∗ (∃ d, owns (c : Thread nD τ) (st1_9 t) fullShare ((dat c V).before 9 t d)))

/-- and what it returns. -/
def bodyPost (t : Fin cfg1.N) : sProp 𝕄 :=
  iprop((dat c V).Φ t.succ ∗ (dat c V).owesAt () t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t)
    ∗ owns (c : Thread nD τ) (st1_4 t) fullShare ((dat c V).after 4 t)
    ∗ owns (c : Thread nD τ) (st1_5 t) fullShare ((dat c V).after 5 t)
    ∗ owns (c : Thread nD τ) (st1_6 t) fullShare ((dat c V).after 6 t)
    ∗ owns (c : Thread nD τ) (st1_7 t) fullShare ((dat c V).after 7 t)
    ∗ owns (c : Thread nD τ) (st1_8 t) fullShare ((dat c V).after 8 t)
    ∗ owns (c : Thread nD τ) (st1_9 t) fullShare ((dat c V).after 9 t))

/-- The body at any point: the inputs' buffers hold their blocks, so the body's triple applies; the invariant and
    the core's debts pass through unread. -/
theorem sound_body (t : Fin cfg1.N) :
    bodyPre c V t ⊢ wp frame (wpE (defs₀ (F := F)) Variants.none c none) Set.univ (bodyAt1 t) (fun _ => bodyPost c V t) := by
  unfold bodyPre bodyPost bodyAt1
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W1, bigSep_W1]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec1 c (fun b => W b)) := by
  rw [← Pipeline.unscopedBufs_held c W, Pipeline.unscopedBufs_split₀ cfgs (1 : Fin 4) winFacts₀1.arr_unscoped c (fun b => W b)]
  exact sep_mono (Shares.hsplit1 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v1 = (dat c (fun b => W b)).arrAt 9 cfg1.N)
    (hne : ∀ b : Ref sig .tc, b ≠ main_v1 → W2 b = W b) :
    iprop((dat c (fun b => W b)).arrays ((dat c (fun b => W b)).arrAt · cfg1.N)
        ∗ Pipeline.unscopedRest (Ix := Unit) (Name := ℕ) (U := UR sig nD τ) (Lvl := ℕ) spec1 c (fun b => W b))
      ⊢ (StableHlo.held (c : Thread nD τ) (Pipeline.ucRefs τ sig) W2 : sProp 𝕄) := by
  rw [← Pipeline.unscopedBufs_held c W2, Pipeline.unscopedBufs_split₀ cfgs (1 : Fin 4) winFacts₀1.arr_unscoped c (fun b => W2 b)]
  have hF : ∀ w : Fin cfg1.W, (dat c (fun b => W b)).arrAt w cfg1.N = W2 (Pipeline.arrRef spec1 w) := fun w => by
    match w with
    | ⟨0, _⟩ => exact ((dat c (fun b => W b)).arrAt_in 0 rfl _).trans ((A_eq c (fun b => W b) 0).trans (hne main_arg1 (by decide)).symm)
    | ⟨1, _⟩ => exact ((dat c (fun b => W b)).arrAt_in 1 rfl _).trans ((A_eq c (fun b => W b) 1).trans (hne main_arg1 (by decide)).symm)
    | ⟨2, _⟩ => exact ((dat c (fun b => W b)).arrAt_in 2 rfl _).trans ((A_eq c (fun b => W b) 2).trans (hne main_arg1 (by decide)).symm)
    | ⟨3, _⟩ => exact ((dat c (fun b => W b)).arrAt_in 3 rfl _).trans ((A_eq c (fun b => W b) 3).trans (hne main_arg1 (by decide)).symm)
    | ⟨4, _⟩ => exact ((dat c (fun b => W b)).arrAt_in 4 rfl _).trans ((A_eq c (fun b => W b) 4).trans (hne main_arg1 (by decide)).symm)
    | ⟨5, _⟩ => exact ((dat c (fun b => W b)).arrAt_in 5 rfl _).trans ((A_eq c (fun b => W b) 5).trans (hne main_arg2 (by decide)).symm)
    | ⟨6, _⟩ => exact ((dat c (fun b => W b)).arrAt_in 6 rfl _).trans ((A_eq c (fun b => W b) 6).trans (hne main_arg3 (by decide)).symm)
    | ⟨7, _⟩ => exact ((dat c (fun b => W b)).arrAt_in 7 rfl _).trans ((A_eq c (fun b => W b) 7).trans (hne main_call1_v1 (by decide)).symm)
    | ⟨8, _⟩ => exact ((dat c (fun b => W b)).arrAt_in 8 rfl _).trans ((A_eq c (fun b => W b) 8).trans (hne main_call1_v3 (by decide)).symm)
    | ⟨9, _⟩ => exact h9.symm
  exact BIClass.sep_mono (Shares.hjoin1 c (dat c (fun b => W b)) (q_eq c _) (fun b => W2 b) (fun w => (dat c (fun b => W b)).arrAt w cfg1.N) hF)
    (Entails.of_eq (Shares.unscopedRest1_update c (fun b => W b) (fun b => W2 b) hne).symm)

end Cert.Kernel.Region1

end
-- ==== Proof.K.Body2.lean ====
/-
  The kernel body of pallas_call 2 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.Kernel.Launch
import proofs.«105240_g55860344651847_cont_9to1c4b_578_12_alg».proof.Proof.Gen.Kernel.Skeleton
import proofs.«105240_g55860344651847_cont_9to1c4b_578_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k2_pay1 (k2_pay2 (View.ld x6 rH) (View.ld x1 rA) (View.ld x2 rA) (View.ld x3 rA) (View.ld x4 rA) (View.ld x5 rA) (View.ld x7 rB) (View.ld x8 rW) (View.ld x9 rW)) (k2_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid2.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc2__layer_side_body i arg1 harg1 arg2 harg2 arg3 harg3 arg4 harg4 arg5 harg5 arg6 harg6 arg7 harg7 arg8 harg8 arg9 harg9 arg10 harg10) K := by
  simp only [cc2__layer_side_body_eq_skeleton]; unfold cc2__layer_side_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.Kernel.Body2

end
-- ==== Proof.K.Region2.lean ====
/-
  Pallas_call 2 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.K.Body2
import proofs.«105240_g55860344651847_cont_9to1c4b_578_12_alg».proof.Proof.K.Shares
import Idealize.ShloMosaic.Lib.Pipeline.Regions
import Idealize.ShloMosaic.Lib.Pipeline.Frame

set_option maxRecDepth 16384

noncomputable section

namespace Cert.Kernel.Region2

open Cert.Kernel Cert.Kernel.Gen Cert.Kernel.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg2 c) (hA : dat.A 0 = V (Pipeline.arrRef spec2 0))
    (hafter : ∀ t, dat.after 0 t = iblk c V 0 t) (t : Fin cfg2.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg2 c) (hA : dat.A 1 = V (Pipeline.arrRef spec2 1))
    (hafter : ∀ t, dat.after 1 t = iblk c V 1 t) (t : Fin cfg2.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg2 c) (hA : dat.A 2 = V (Pipeline.arrRef spec2 2))
    (hafter : ∀ t, dat.after 2 t = iblk c V 2 t) (t : Fin cfg2.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg2 c) (hA : dat.A 3 = V (Pipeline.arrRef spec2 3))
    (hafter : ∀ t, dat.after 3 t = iblk c V 3 t) (t : Fin cfg2.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg2 c) (hA : dat.A 4 = V (Pipeline.arrRef spec2 4))
    (hafter : ∀ t, dat.after 4 t = iblk c V 4 t) (t : Fin cfg2.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg2 c) (hA : dat.A 5 = V (Pipeline.arrRef spec2 5))
    (hafter : ∀ t, dat.after 5 t = iblk c V 5 t) (t : Fin cfg2.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg2 c) (hA : dat.A 6 = V (Pipeline.arrRef spec2 6))
    (hafter : ∀ t, dat.after 6 t = iblk c V 6 t) (t : Fin cfg2.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg2 c) (hA : dat.A 7 = V (Pipeline.arrRef spec2 7))
    (hafter : ∀ t, dat.after 7 t = iblk c V 7 t) (t : Fin cfg2.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg2 c) (hA : dat.A 8 = V (Pipeline.arrRef spec2 8))
    (hafter : ∀ t, dat.after 8 t = iblk c V 8 t) (t : Fin cfg2.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec2 c
  q := Shares.q2
  owed _ := 0

theorem A_eq (w : Fin cfg2.W) : (dat c V).A w = V (Pipeline.arrRef spec2 w) := by dsimp only [dat]
theorem q_eq : (dat c V).q = Shares.q2 := by dsimp only [dat]

theorem after_0 (t : Fin cfg2.N) : (dat c V).after 0 t = iblk c V 0 t := by dsimp only [dat]
theorem after_1 (t : Fin cfg2.N) : (dat c V).after 1 t = iblk c V 1 t := by dsimp only [dat]
theorem after_2 (t : Fin cfg2.N) : (dat c V).after 2 t = iblk c V 2 t := by dsimp only [dat]
theorem after_3 (t : Fin cfg2.N) : (dat c V).after 3 t = iblk c V 3 t := by dsimp only [dat]
theorem after_4 (t : Fin cfg2.N) : (dat c V).after 4 t = iblk c V 4 t := by dsimp only [dat]
theorem after_5 (t : Fin cfg2.N) : (dat c V).after 5 t = iblk c V 5 t := by dsimp only [dat]
theorem after_6 (t : Fin cfg2.N) : (dat c V).after 6 t = iblk c V 6 t := by dsimp only [dat]
theorem after_7 (t : Fin cfg2.N) : (dat c V).after 7 t = iblk c V 7 t := by dsimp only [dat]
theorem after_8 (t : Fin cfg2.N) : (dat c V).after 8 t = iblk c V 8 t := by dsimp only [dat]
theorem after_9 (t : Fin cfg2.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg2.N) (d) : (dat c V).before 0 t d = iblk c V 0 t :=
  before_0_of c V (dat c V) (A_eq c V 0) (after_0 c V) t d
theorem before_1 (t : Fin cfg2.N) (d) : (dat c V).before 1 t d = iblk c V 1 t :=
  before_1_of c V (dat c V) (A_eq c V 1) (after_1 c V) t d
theorem before_2 (t : Fin cfg2.N) (d) : (dat c V).before 2 t d = iblk c V 2 t :=
  before_2_of c V (dat c V) (A_eq c V 2) (after_2 c V) t d
theorem before_3 (t : Fin cfg2.N) (d) : (dat c V).before 3 t d = iblk c V 3 t :=
  before_3_of c V (dat c V) (A_eq c V 3) (after_3 c V) t d
theorem before_4 (t : Fin cfg2.N) (d) : (dat c V).before 4 t d = iblk c V 4 t :=
  before_4_of c V (dat c V) (A_eq c V 4) (after_4 c V) t d
theorem before_5 (t : Fin cfg2.N) (d) : (dat c V).before 5 t d = iblk c V 5 t :=
  before_5_of c V (dat c V) (A_eq c V 5) (after_5 c V) t d
theorem before_6 (t : Fin cfg2.N) (d) : (dat c V).before 6 t d = iblk c V 6 t :=
  before_6_of c V (dat c V) (A_eq c V 6) (after_6 c V) t d
theorem before_7 (t : Fin cfg2.N) (d) : (dat c V).before 7 t d = iblk c V 7 t :=
  before_7_of c V (dat c V) (A_eq c V 7) (after_7 c V) t d
theorem before_8 (t : Fin cfg2.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg2.N) : sProp 𝕄 :=
  iprop((dat c V).Φ t.castSucc ∗ (dat c V).owesAt () t.castSucc
    ∗ (∃ d, owns (c : Thread nD τ) (st2_0 t) fullShare ((dat c V).before 0 t d))
    ∗ (∃ d, owns (c : Thread nD τ) (st2_1 t) fullShare ((dat c V).before 1 t d))
    ∗ (∃ d, owns (c : Thread nD τ) (st2_2 t) fullShare ((dat c V).before 2 t d))
    ∗ (∃ d, owns (c : Thread nD τ) (st2_3 t) fullShare ((dat c V).before 3 t d))
    ∗ (∃ d, owns (c : Thread nD τ) (st2_4 t) fullShare ((dat c V).before 4 t d))
    ∗ (∃ d, owns (c : Thread nD τ) (st2_5 t) fullShare ((dat c V).before 5 t d))
    ∗ (∃ d, owns (c : Thread nD τ) (st2_6 t) fullShare ((dat c V).before 6 t d))
    ∗ (∃ d, owns (c : Thread nD τ) (st2_7 t) fullShare ((dat c V).before 7 t d))
    ∗ (∃ d, owns (c : Thread nD τ) (st2_8 t) fullShare ((dat c V).before 8 t d))
    ∗ (∃ d, owns (c : Thread nD τ) (st2_9 t) fullShare ((dat c V).before 9 t d)))

/-- and what it returns. -/
def bodyPost (t : Fin cfg2.N) : sProp 𝕄 :=
  iprop((dat c V).Φ t.succ ∗ (dat c V).owesAt () t.succ
    ∗ owns (c : Thread nD τ) (st2_0 t) fullShare ((dat c V).after 0 t)
    ∗ owns (c : Thread nD τ) (st2_1 t) fullShare ((dat c V).after 1 t)
    ∗ owns (c : Thread nD τ) (st2_2 t) fullShare ((dat c V).after 2 t)
    ∗ owns (c : Thread nD τ) (st2_3 t) fullShare ((dat c V).after 3 t)
    ∗ owns (c : Thread nD τ) (st2_4 t) fullShare ((dat c V).after 4 t)
    ∗ owns (c : Thread nD τ) (st2_5 t) fullShare ((dat c V).after 5 t)
    ∗ owns (c : Thread nD τ) (st2_6 t) fullShare ((dat c V).after 6 t)
    ∗ owns (c : Thread nD τ) (st2_7 t) fullShare ((dat c V).after 7 t)
    ∗ owns (c : Thread nD τ) (st2_8 t) fullShare ((dat c V).after 8 t)
    ∗ owns (c : Thread nD τ) (st2_9 t) fullShare ((dat c V).after 9 t))

/-- The body at any point: the inputs' buffers hold their blocks, so the body's triple applies; the invariant and
    the core's debts pass through unread. -/
theorem sound_body (t : Fin cfg2.N) :
    bodyPre c V t ⊢ wp frame (wpE (defs₀ (F := F)) Variants.none c none) Set.univ (bodyAt2 t) (fun _ => bodyPost c V t) := by
  unfold bodyPre bodyPost bodyAt2
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W2, bigSep_W2]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec2 c (fun b => W b)) := by
  rw [← Pipeline.unscopedBufs_held c W, Pipeline.unscopedBufs_split₀ cfgs (2 : Fin 4) winFacts₀2.arr_unscoped c (fun b => W b)]
  exact sep_mono (Shares.hsplit2 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v2 = (dat c (fun b => W b)).arrAt 9 cfg2.N)
    (hne : ∀ b : Ref sig .tc, b ≠ main_v2 → W2 b = W b) :
    iprop((dat c (fun b => W b)).arrays ((dat c (fun b => W b)).arrAt · cfg2.N)
        ∗ Pipeline.unscopedRest (Ix := Unit) (Name := ℕ) (U := UR sig nD τ) (Lvl := ℕ) spec2 c (fun b => W b))
      ⊢ (StableHlo.held (c : Thread nD τ) (Pipeline.ucRefs τ sig) W2 : sProp 𝕄) := by
  rw [← Pipeline.unscopedBufs_held c W2, Pipeline.unscopedBufs_split₀ cfgs (2 : Fin 4) winFacts₀2.arr_unscoped c (fun b => W2 b)]
  have hF : ∀ w : Fin cfg2.W, (dat c (fun b => W b)).arrAt w cfg2.N = W2 (Pipeline.arrRef spec2 w) := fun w => by
    match w with
    | ⟨0, _⟩ => exact ((dat c (fun b => W b)).arrAt_in 0 rfl _).trans ((A_eq c (fun b => W b) 0).trans (hne main_arg0 (by decide)).symm)
    | ⟨1, _⟩ => exact ((dat c (fun b => W b)).arrAt_in 1 rfl _).trans ((A_eq c (fun b => W b) 1).trans (hne main_arg0 (by decide)).symm)
    | ⟨2, _⟩ => exact ((dat c (fun b => W b)).arrAt_in 2 rfl _).trans ((A_eq c (fun b => W b) 2).trans (hne main_arg0 (by decide)).symm)
    | ⟨3, _⟩ => exact ((dat c (fun b => W b)).arrAt_in 3 rfl _).trans ((A_eq c (fun b => W b) 3).trans (hne main_arg0 (by decide)).symm)
    | ⟨4, _⟩ => exact ((dat c (fun b => W b)).arrAt_in 4 rfl _).trans ((A_eq c (fun b => W b) 4).trans (hne main_arg0 (by decide)).symm)
    | ⟨5, _⟩ => exact ((dat c (fun b => W b)).arrAt_in 5 rfl _).trans ((A_eq c (fun b => W b) 5).trans (hne main_v1 (by decide)).symm)
    | ⟨6, _⟩ => exact ((dat c (fun b => W b)).arrAt_in 6 rfl _).trans ((A_eq c (fun b => W b) 6).trans (hne main_v0 (by decide)).symm)
    | ⟨7, _⟩ => exact ((dat c (fun b => W b)).arrAt_in 7 rfl _).trans ((A_eq c (fun b => W b) 7).trans (hne main_call2_v1 (by decide)).symm)
    | ⟨8, _⟩ => exact ((dat c (fun b => W b)).arrAt_in 8 rfl _).trans ((A_eq c (fun b => W b) 8).trans (hne main_call2_v3 (by decide)).symm)
    | ⟨9, _⟩ => exact h9.symm
  exact BIClass.sep_mono (Shares.hjoin2 c (dat c (fun b => W b)) (q_eq c _) (fun b => W2 b) (fun w => (dat c (fun b => W b)).arrAt w cfg2.N) hF)
    (Entails.of_eq (Shares.unscopedRest2_update c (fun b => W b) (fun b => W2 b) hne).symm)

end Cert.Kernel.Region2

end
-- ==== Proof.K.Body3.lean ====
/-
  The kernel body of pallas_call 3 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.Kernel.Launch
import proofs.«105240_g55860344651847_cont_9to1c4b_578_12_alg».proof.Proof.Gen.Kernel.Skeleton
import proofs.«105240_g55860344651847_cont_9to1c4b_578_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k3_pay1 (k3_pay2 (View.ld x6 rH) (View.ld x1 rA) (View.ld x2 rA) (View.ld x3 rA) (View.ld x4 rA) (View.ld x5 rA) (View.ld x7 rB) (View.ld x8 rW) (View.ld x9 rW)) (k3_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid3.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc3__layer_side_body i arg1 harg1 arg2 harg2 arg3 harg3 arg4 harg4 arg5 harg5 arg6 harg6 arg7 harg7 arg8 harg8 arg9 harg9 arg10 harg10) K := by
  simp only [cc3__layer_side_body_eq_skeleton]; unfold cc3__layer_side_body_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.Kernel.Body3

end
-- ==== Proof.K.Region3.lean ====
/-
  Pallas_call 3 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.K.Body3
import proofs.«105240_g55860344651847_cont_9to1c4b_578_12_alg».proof.Proof.K.Shares
import Idealize.ShloMosaic.Lib.Pipeline.Regions
import Idealize.ShloMosaic.Lib.Pipeline.Frame

set_option maxRecDepth 16384

noncomputable section

namespace Cert.Kernel.Region3

open Cert.Kernel Cert.Kernel.Gen Cert.Kernel.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg3.W) (t : Fin cfg3.N) : ((cfg3.win w).xblock (cfg3.grid.coords t)).Idx → Elt F (cfg3.win w).elt :=
  ((cfg3.win w).blk t).view.read (Elt F) (V (Pipeline.arrRef spec3 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg3 c) (hA : dat.A 0 = V (Pipeline.arrRef spec3 0))
    (hafter : ∀ t, dat.after 0 t = iblk c V 0 t) (t : Fin cfg3.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg3 c) (hA : dat.A 1 = V (Pipeline.arrRef spec3 1))
    (hafter : ∀ t, dat.after 1 t = iblk c V 1 t) (t : Fin cfg3.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg3 c) (hA : dat.A 2 = V (Pipeline.arrRef spec3 2))
    (hafter : ∀ t, dat.after 2 t = iblk c V 2 t) (t : Fin cfg3.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg3 c) (hA : dat.A 3 = V (Pipeline.arrRef spec3 3))
    (hafter : ∀ t, dat.after 3 t = iblk c V 3 t) (t : Fin cfg3.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg3 c) (hA : dat.A 4 = V (Pipeline.arrRef spec3 4))
    (hafter : ∀ t, dat.after 4 t = iblk c V 4 t) (t : Fin cfg3.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg3 c) (hA : dat.A 5 = V (Pipeline.arrRef spec3 5))
    (hafter : ∀ t, dat.after 5 t = iblk c V 5 t) (t : Fin cfg3.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg3 c) (hA : dat.A 6 = V (Pipeline.arrRef spec3 6))
    (hafter : ∀ t, dat.after 6 t = iblk c V 6 t) (t : Fin cfg3.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg3 c) (hA : dat.A 7 = V (Pipeline.arrRef spec3 7))
    (hafter : ∀ t, dat.after 7 t = iblk c V 7 t) (t : Fin cfg3.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg3 c) (hA : dat.A 8 = V (Pipeline.arrRef spec3 8))
    (hafter : ∀ t, dat.after 8 t = iblk c V 8 t) (t : Fin cfg3.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg3 c where
  A w := V (Pipeline.arrRef spec3 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec3 c
  q := Shares.q3
  owed _ := 0

theorem A_eq (w : Fin cfg3.W) : (dat c V).A w = V (Pipeline.arrRef spec3 w) := by dsimp only [dat]
theorem q_eq : (dat c V).q = Shares.q3 := by dsimp only [dat]

theorem after_0 (t : Fin cfg3.N) : (dat c V).after 0 t = iblk c V 0 t := by dsimp only [dat]
theorem after_1 (t : Fin cfg3.N) : (dat c V).after 1 t = iblk c V 1 t := by dsimp only [dat]
theorem after_2 (t : Fin cfg3.N) : (dat c V).after 2 t = iblk c V 2 t := by dsimp only [dat]
theorem after_3 (t : Fin cfg3.N) : (dat c V).after 3 t = iblk c V 3 t := by dsimp only [dat]
theorem after_4 (t : Fin cfg3.N) : (dat c V).after 4 t = iblk c V 4 t := by dsimp only [dat]
theorem after_5 (t : Fin cfg3.N) : (dat c V).after 5 t = iblk c V 5 t := by dsimp only [dat]
theorem after_6 (t : Fin cfg3.N) : (dat c V).after 6 t = iblk c V 6 t := by dsimp only [dat]
theorem after_7 (t : Fin cfg3.N) : (dat c V).after 7 t = iblk c V 7 t := by dsimp only [dat]
theorem after_8 (t : Fin cfg3.N) : (dat c V).after 8 t = iblk c V 8 t := by dsimp only [dat]
theorem after_9 (t : Fin cfg3.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg3.N) (d) : (dat c V).before 0 t d = iblk c V 0 t :=
  before_0_of c V (dat c V) (A_eq c V 0) (after_0 c V) t d
theorem before_1 (t : Fin cfg3.N) (d) : (dat c V).before 1 t d = iblk c V 1 t :=
  before_1_of c V (dat c V) (A_eq c V 1) (after_1 c V) t d
theorem before_2 (t : Fin cfg3.N) (d) : (dat c V).before 2 t d = iblk c V 2 t :=
  before_2_of c V (dat c V) (A_eq c V 2) (after_2 c V) t d
theorem before_3 (t : Fin cfg3.N) (d) : (dat c V).before 3 t d = iblk c V 3 t :=
  before_3_of c V (dat c V) (A_eq c V 3) (after_3 c V) t d
theorem before_4 (t : Fin cfg3.N) (d) : (dat c V).before 4 t d = iblk c V 4 t :=
  before_4_of c V (dat c V) (A_eq c V 4) (after_4 c V) t d
theorem before_5 (t : Fin cfg3.N) (d) : (dat c V).before 5 t d = iblk c V 5 t :=
  before_5_of c V (dat c V) (A_eq c V 5) (after_5 c V) t d
theorem before_6 (t : Fin cfg3.N) (d) : (dat c V).before 6 t d = iblk c V 6 t :=
  before_6_of c V (dat c V) (A_eq c V 6) (after_6 c V) t d
theorem before_7 (t : Fin cfg3.N) (d) : (dat c V).before 7 t d = iblk c V 7 t :=
  before_7_of c V (dat c V) (A_eq c V 7) (after_7 c V) t d
theorem before_8 (t : Fin cfg3.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg3.N) : sProp 𝕄 :=
  iprop((dat c V).Φ t.castSucc ∗ (dat c V).owesAt () t.castSucc
    ∗ (∃ d, owns (c : Thread nD τ) (st3_0 t) fullShare ((dat c V).before 0 t d))
    ∗ (∃ d, owns (c : Thread nD τ) (st3_1 t) fullShare ((dat c V).before 1 t d))
    ∗ (∃ d, owns (c : Thread nD τ) (st3_2 t) fullShare ((dat c V).before 2 t d))
    ∗ (∃ d, owns (c : Thread nD τ) (st3_3 t) fullShare ((dat c V).before 3 t d))
    ∗ (∃ d, owns (c : Thread nD τ) (st3_4 t) fullShare ((dat c V).before 4 t d))
    ∗ (∃ d, owns (c : Thread nD τ) (st3_5 t) fullShare ((dat c V).before 5 t d))
    ∗ (∃ d, owns (c : Thread nD τ) (st3_6 t) fullShare ((dat c V).before 6 t d))
    ∗ (∃ d, owns (c : Thread nD τ) (st3_7 t) fullShare ((dat c V).before 7 t d))
    ∗ (∃ d, owns (c : Thread nD τ) (st3_8 t) fullShare ((dat c V).before 8 t d))
    ∗ (∃ d, owns (c : Thread nD τ) (st3_9 t) fullShare ((dat c V).before 9 t d)))

/-- and what it returns. -/
def bodyPost (t : Fin cfg3.N) : sProp 𝕄 :=
  iprop((dat c V).Φ t.succ ∗ (dat c V).owesAt () t.succ
    ∗ owns (c : Thread nD τ) (st3_0 t) fullShare ((dat c V).after 0 t)
    ∗ owns (c : Thread nD τ) (st3_1 t) fullShare ((dat c V).after 1 t)
    ∗ owns (c : Thread nD τ) (st3_2 t) fullShare ((dat c V).after 2 t)
    ∗ owns (c : Thread nD τ) (st3_3 t) fullShare ((dat c V).after 3 t)
    ∗ owns (c : Thread nD τ) (st3_4 t) fullShare ((dat c V).after 4 t)
    ∗ owns (c : Thread nD τ) (st3_5 t) fullShare ((dat c V).after 5 t)
    ∗ owns (c : Thread nD τ) (st3_6 t) fullShare ((dat c V).after 6 t)
    ∗ owns (c : Thread nD τ) (st3_7 t) fullShare ((dat c V).after 7 t)
    ∗ owns (c : Thread nD τ) (st3_8 t) fullShare ((dat c V).after 8 t)
    ∗ owns (c : Thread nD τ) (st3_9 t) fullShare ((dat c V).after 9 t))

/-- The body at any point: the inputs' buffers hold their blocks, so the body's triple applies; the invariant and
    the core's debts pass through unread. -/
theorem sound_body (t : Fin cfg3.N) :
    bodyPre c V t ⊢ wp frame (wpE (defs₀ (F := F)) Variants.none c none) Set.univ (bodyAt3 t) (fun _ => bodyPost c V t) := by
  unfold bodyPre bodyPost bodyAt3
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W3, bigSep_W3]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec3 c (fun b => W b)) := by
  rw [← Pipeline.unscopedBufs_held c W, Pipeline.unscopedBufs_split₀ cfgs (3 : Fin 4) winFacts₀3.arr_unscoped c (fun b => W b)]
  exact sep_mono (Shares.hsplit3 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v3 = (dat c (fun b => W b)).arrAt 9 cfg3.N)
    (hne : ∀ b : Ref sig .tc, b ≠ main_v3 → W2 b = W b) :
    iprop((dat c (fun b => W b)).arrays ((dat c (fun b => W b)).arrAt · cfg3.N)
        ∗ Pipeline.unscopedRest (Ix := Unit) (Name := ℕ) (U := UR sig nD τ) (Lvl := ℕ) spec3 c (fun b => W b))
      ⊢ (StableHlo.held (c : Thread nD τ) (Pipeline.ucRefs τ sig) W2 : sProp 𝕄) := by
  rw [← Pipeline.unscopedBufs_held c W2, Pipeline.unscopedBufs_split₀ cfgs (3 : Fin 4) winFacts₀3.arr_unscoped c (fun b => W2 b)]
  have hF : ∀ w : Fin cfg3.W, (dat c (fun b => W b)).arrAt w cfg3.N = W2 (Pipeline.arrRef spec3 w) := fun w => by
    match w with
    | ⟨0, _⟩ => exact ((dat c (fun b => W b)).arrAt_in 0 rfl _).trans ((A_eq c (fun b => W b) 0).trans (hne main_arg1 (by decide)).symm)
    | ⟨1, _⟩ => exact ((dat c (fun b => W b)).arrAt_in 1 rfl _).trans ((A_eq c (fun b => W b) 1).trans (hne main_arg1 (by decide)).symm)
    | ⟨2, _⟩ => exact ((dat c (fun b => W b)).arrAt_in 2 rfl _).trans ((A_eq c (fun b => W b) 2).trans (hne main_arg1 (by decide)).symm)
    | ⟨3, _⟩ => exact ((dat c (fun b => W b)).arrAt_in 3 rfl _).trans ((A_eq c (fun b => W b) 3).trans (hne main_arg1 (by decide)).symm)
    | ⟨4, _⟩ => exact ((dat c (fun b => W b)).arrAt_in 4 rfl _).trans ((A_eq c (fun b => W b) 4).trans (hne main_arg1 (by decide)).symm)
    | ⟨5, _⟩ => exact ((dat c (fun b => W b)).arrAt_in 5 rfl _).trans ((A_eq c (fun b => W b) 5).trans (hne main_v0 (by decide)).symm)
    | ⟨6, _⟩ => exact ((dat c (fun b => W b)).arrAt_in 6 rfl _).trans ((A_eq c (fun b => W b) 6).trans (hne main_v1 (by decide)).symm)
    | ⟨7, _⟩ => exact ((dat c (fun b => W b)).arrAt_in 7 rfl _).trans ((A_eq c (fun b => W b) 7).trans (hne main_call3_v1 (by decide)).symm)
    | ⟨8, _⟩ => exact ((dat c (fun b => W b)).arrAt_in 8 rfl _).trans ((A_eq c (fun b => W b) 8).trans (hne main_call3_v3 (by decide)).symm)
    | ⟨9, _⟩ => exact h9.symm
  exact BIClass.sep_mono (Shares.hjoin3 c (dat c (fun b => W b)) (q_eq c _) (fun b => W2 b) (fun w => (dat c (fun b => W b)).arrAt w cfg3.N) hF)
    (Entails.of_eq (Shares.unscopedRest3_update c (fun b => W b) (fun b => W2 b) hne).symm)

end Cert.Kernel.Region3

end
-- ==== Proof.K.Vals.lean ====
/-
  The contents of a core's unscoped buffers between the program's items, and the four regions' proof data.

  The launch contents, then each host stretch applied (a slice and a transpose of each weight half), then each
  region's output array replaced by what that region's write-backs left: `W0` … `W8`. Region K is entered from
  `W(2K+1)` and its proof data are stated over that valuation.
-/
import proofs.«105240_g55860344651847_cont_9to1c4b_578_12_alg».proof.Proof.K.Region0
import proofs.«105240_g55860344651847_cont_9to1c4b_578_12_alg».proof.Proof.K.Region1
import proofs.«105240_g55860344651847_cont_9to1c4b_578_12_alg».proof.Proof.K.Region2
import proofs.«105240_g55860344651847_cont_9to1c4b_578_12_alg».proof.Proof.K.Region3

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## The buffers' contents between items -/

/-- At launch, -/
abbrev W0 (c : Dev nD) : Valuation τ sig (Elt F) := fun b => m (c, b)
/-- after the first host stretch, -/
abbrev W1 (c : Dev nD) : Valuation τ sig (Elt F) := StableHlo.after hostOps0 (W0 m c)
/-- what region 0 leaves in its output array, -/
def o0 (c : Dev nD) : Buf (Elt F) ((c : Thread nD τ).loc main_v0) := (Region0.dat c (fun b => W1 m c b)).arrAt 9 cfg0.N
abbrev W2 (c : Dev nD) : Valuation τ sig (Elt F) := Function.update (W1 m c) main_v0 (o0 m c)
abbrev W3 (c : Dev nD) : Valuation τ sig (Elt F) := StableHlo.after hostOps1 (W2 m c)
/-- region 1, -/
def o1 (c : Dev nD) : Buf (Elt F) ((c : Thread nD τ).loc main_v1) := (Region1.dat c (fun b => W3 m c b)).arrAt 9 cfg1.N
abbrev W4 (c : Dev nD) : Valuation τ sig (Elt F) := Function.update (W3 m c) main_v1 (o1 m c)
abbrev W5 (c : Dev nD) : Valuation τ sig (Elt F) := StableHlo.after hostOps2 (W4 m c)
/-- region 2, -/
def o2 (c : Dev nD) : Buf (Elt F) ((c : Thread nD τ).loc main_v2) := (Region2.dat c (fun b => W5 m c b)).arrAt 9 cfg2.N
abbrev W6 (c : Dev nD) : Valuation τ sig (Elt F) := Function.update (W5 m c) main_v2 (o2 m c)
abbrev W7 (c : Dev nD) : Valuation τ sig (Elt F) := StableHlo.after hostOps3 (W6 m c)
/-- region 3. -/
def o3 (c : Dev nD) : Buf (Elt F) ((c : Thread nD τ).loc main_v3) := (Region3.dat c (fun b => W7 m c b)).arrAt 9 cfg3.N
abbrev W8 (c : Dev nD) : Valuation τ sig (Elt F) := Function.update (W7 m c) main_v3 (o3 m c)

/-- The four regions' proof data, each over the valuation its region is entered from. -/
def pdats : (p : Fin 4) → (c : Dev nD) → Dat τ (Elt F) Unit ℕ (UR sig nD τ) ℕ (cfgs p) c
  | ⟨0, _⟩ => fun c => Region0.dat c (fun b => W1 m c b)
  | ⟨1, _⟩ => fun c => Region1.dat c (fun b => W3 m c b)
  | ⟨2, _⟩ => fun c => Region2.dat c (fun b => W5 m c b)
  | ⟨3, _⟩ => fun c => Region3.dat c (fun b => W7 m c b)

end Cert.Kernel.Run

end
-- ==== Proof.K.Rest.lean ====
/-
  What a core holds beside its unscoped buffers between two items of the program: its debts to other cores (none)
  and its generator register at some value. No core owes another anything in this program, so no level is assigned.
-/
import proofs.«105240_g55860344651847_cont_9to1c4b_578_12_alg».proof.Proof.Gen.Kernel.Launch
import Idealize.ShloMosaic.Lib.Pipeline.Regions
import Idealize.ShloMosaic.Lib.Pipeline.Frame

noncomputable section

namespace Cert.Kernel.Rest

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No level is assigned to any cell. -/
abbrev L : GSem nD τ sig → Finset Unit := fun _ => ∅
abbrev lv : GSem nD τ sig → Unit → ℕ := fun _ _ => 0

/-- The generator register at some value. -/
def Reg (c : Dev nD) : sProp 𝕄 := iprop(∃ r, prngReg c r)

/-- The core's debts, none, whatever its waits have recorded. -/
def Owes (c : Dev nD) : sProp 𝕄 := iprop(∃ W, owes (c : Thread nD τ) (0 : CellTallies nD τ sig Unit) W)

/-- What rides beside the unscoped buffers between two items. -/
def E (c : Dev nD) : sProp 𝕄 := iprop(Owes (F := F) c ∗ Reg (F := F) c)

end Cert.Kernel.Rest

end
-- ==== Proof.K.Run.lean ====
/-
  The whole program's run: four host stretches (a slice and a transpose of each weight half) and four regions, in order.

  Between two items a core holds every unscoped buffer whole at a valuation: the launch contents, then each host
  stretch applied, then each region's output array replaced by what that region's write-backs left (`W0` … `W8`).
  Every weakly fair execution terminates and the final memory agrees with the last valuation on the two results and
  on the eight arguments.
-/
import proofs.«105240_g55860344651847_cont_9to1c4b_578_12_alg».proof.Proof.K.Vals
import proofs.«105240_g55860344651847_cont_9to1c4b_578_12_alg».proof.Proof.K.Rest
import proofs.«105240_g55860344651847_cont_9to1c4b_578_12_alg».proof.Proof.Gen.Kernel.Regions

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The items as segments -/

/-- The host stretch `hostOps0` over the unscoped buffers from `W0`. -/
def host0 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rest.E

/-- The host stretch `hostOps1` over the unscoped buffers from `W2`. -/
def host1 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Rest.E

/-- The host stretch `hostOps2` over the unscoped buffers from `W4`. -/
def host2 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Rest.E

/-- The host stretch `hostOps3` over the unscoped buffers from `W6`. -/
def host3 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) Rest.E

set_option backward.isDefEq.respectTransparency.types false in
/-- Region 0: entered from the unscoped buffers at `W1`, left with them at `W2`. -/
def reg0 : Pipeline.RegionSeg (pcfgs (F := F)) adm (pdats m) () defs₀ Variants.none Rest.L Rest.lv 0 where
  win := winFacts₀0
  block_pos := block_pos0
  stage_whole := stage_whole0
  K := PEmpty
  osem := fun k => k.elim
  ho := Pipeline.OwnSemFacts.none spec0
  hbody c := (Region0.body_obligation c (fun b => W1 m c b)).loose
  hwaits := Pipeline.hwaits_of_owed_zero _ _ _ _ Rest.L Rest.lv 0 fun _ _ => rfl
  pre c := iprop(StableHlo.held (c : Thread nD τ) (Pipeline.ucRefs τ sig) (W1 m c) ∗ Rest.E c)
  post c := iprop(StableHlo.held (c : Thread nD τ) (Pipeline.ucRefs τ sig) (W2 m c) ∗ Rest.E c)
  X c := Rest.Reg c
  Y c := Rest.Reg c
  Z c := Pipeline.unscopedRest spec0 c (fun b => W1 m c b)
  hentry c := by
    unfold Rest.E
    iintro ⟨⟨Hh, HO, Hp⟩, -, -⟩
    ihave H := (Region0.enter c (W1 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 0 c).Φ 0 = Pipeline.ΦA spec0 c from rfl]; unfold Pipeline.ΦA Rest.Reg
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region0.leave c (W1 m c) (W2 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 1: entered from the unscoped buffers at `W3`, left with them at `W4`. -/
def reg1 : Pipeline.RegionSeg (pcfgs (F := F)) adm (pdats m) () defs₀ Variants.none Rest.L Rest.lv 1 where
  win := winFacts₀1
  block_pos := block_pos1
  stage_whole := stage_whole1
  K := PEmpty
  osem := fun k => k.elim
  ho := Pipeline.OwnSemFacts.none spec1
  hbody c := (Region1.body_obligation c (fun b => W3 m c b)).loose
  hwaits := Pipeline.hwaits_of_owed_zero _ _ _ _ Rest.L Rest.lv 1 fun _ _ => rfl
  pre c := iprop(StableHlo.held (c : Thread nD τ) (Pipeline.ucRefs τ sig) (W3 m c) ∗ Rest.E c)
  post c := iprop(StableHlo.held (c : Thread nD τ) (Pipeline.ucRefs τ sig) (W4 m c) ∗ Rest.E c)
  X c := Rest.Reg c
  Y c := Rest.Reg c
  Z c := Pipeline.unscopedRest spec1 c (fun b => W3 m c b)
  hentry c := by
    unfold Rest.E
    iintro ⟨⟨Hh, HO, Hp⟩, -, -⟩
    ihave H := (Region1.enter c (W3 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 1 c).Φ 0 = Pipeline.ΦA spec1 c from rfl]; unfold Pipeline.ΦA Rest.Reg
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region1.leave c (W3 m c) (W4 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 2: entered from the unscoped buffers at `W5`, left with them at `W6`. -/
def reg2 : Pipeline.RegionSeg (pcfgs (F := F)) adm (pdats m) () defs₀ Variants.none Rest.L Rest.lv 2 where
  win := winFacts₀2
  block_pos := block_pos2
  stage_whole := stage_whole2
  K := PEmpty
  osem := fun k => k.elim
  ho := Pipeline.OwnSemFacts.none spec2
  hbody c := (Region2.body_obligation c (fun b => W5 m c b)).loose
  hwaits := Pipeline.hwaits_of_owed_zero _ _ _ _ Rest.L Rest.lv 2 fun _ _ => rfl
  pre c := iprop(StableHlo.held (c : Thread nD τ) (Pipeline.ucRefs τ sig) (W5 m c) ∗ Rest.E c)
  post c := iprop(StableHlo.held (c : Thread nD τ) (Pipeline.ucRefs τ sig) (W6 m c) ∗ Rest.E c)
  X c := Rest.Reg c
  Y c := Rest.Reg c
  Z c := Pipeline.unscopedRest spec2 c (fun b => W5 m c b)
  hentry c := by
    unfold Rest.E
    iintro ⟨⟨Hh, HO, Hp⟩, -, -⟩
    ihave H := (Region2.enter c (W5 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 2 c).Φ 0 = Pipeline.ΦA spec2 c from rfl]; unfold Pipeline.ΦA Rest.Reg
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region2.leave c (W5 m c) (W6 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 3: entered from the unscoped buffers at `W7`, left with them at `W8`. -/
def reg3 : Pipeline.RegionSeg (pcfgs (F := F)) adm (pdats m) () defs₀ Variants.none Rest.L Rest.lv 3 where
  win := winFacts₀3
  block_pos := block_pos3
  stage_whole := stage_whole3
  K := PEmpty
  osem := fun k => k.elim
  ho := Pipeline.OwnSemFacts.none spec3
  hbody c := (Region3.body_obligation c (fun b => W7 m c b)).loose
  hwaits := Pipeline.hwaits_of_owed_zero _ _ _ _ Rest.L Rest.lv 3 fun _ _ => rfl
  pre c := iprop(StableHlo.held (c : Thread nD τ) (Pipeline.ucRefs τ sig) (W7 m c) ∗ Rest.E c)
  post c := iprop(StableHlo.held (c : Thread nD τ) (Pipeline.ucRefs τ sig) (W8 m c) ∗ Rest.E c)
  X c := Rest.Reg c
  Y c := Rest.Reg c
  Z c := Pipeline.unscopedRest spec3 c (fun b => W7 m c b)
  hentry c := by
    unfold Rest.E
    iintro ⟨⟨Hh, HO, Hp⟩, -, -⟩
    ihave H := (Region3.enter c (W7 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 3 c).Φ 0 = Pipeline.ΦA spec3 c from rfl]; unfold Pipeline.ΦA Rest.Reg
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region3.leave c (W7 m c) (W8 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

/-- The program's items, in order. -/
abbrev segs : List (Seg (pcfgs (F := F)) adm (pdats m) () defs₀ Variants.none Rest.L Rest.lv) :=
  [.host (host0 m), .region (reg0 m), .host (host1 m), .region (reg1 m), .host (host2 m), .region (reg2 m), .host (host3 m), .region (reg3 m)]

/-! ## The run -/

set_option backward.isDefEq.respectTransparency.types false in
/-- Every weakly fair execution of the program from memory `m` with zero counters terminates, and every final memory
    holds the two results and the eight arguments at the last valuation. -/
theorem run_all (ρ : Dev nD → PrngReg) :
    θ_run defs (onTc (τ := τ) (main (F := F))) ⟨m, fun _ => 0, ρ⟩ (fun r => ∀ c : Dev nD,
      r.2.mem ((c.tc : Thread nD τ).loc main_v2) = W8 m c main_v2
      ∧ r.2.mem ((c.tc : Thread nD τ).loc main_v3) = W8 m c main_v3
      ∧ r.2.mem ((c.tc : Thread nD τ).loc main_arg0) = W8 m c main_arg0
      ∧ r.2.mem ((c.tc : Thread nD τ).loc main_arg1) = W8 m c main_arg1
      ∧ r.2.mem ((c.tc : Thread nD τ).loc main_arg2) = W8 m c main_arg2
      ∧ r.2.mem ((c.tc : Thread nD τ).loc main_arg3) = W8 m c main_arg3
      ∧ r.2.mem ((c.tc : Thread nD τ).loc main_arg4) = W8 m c main_arg4
      ∧ r.2.mem ((c.tc : Thread nD τ).loc main_arg5) = W8 m c main_arg5
      ∧ r.2.mem ((c.tc : Thread nD τ).loc main_arg6) = W8 m c main_arg6
      ∧ r.2.mem ((c.tc : Thread nD τ).loc main_arg7) = W8 m c main_arg7) := by
  refine Pipeline.θ_run_regions_kit_dev (pcfgs (F := F)) adm (pdats m) () cellOf_inj emb₁ defs₀ Variants.none Rest.L Rest.lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest.E c))
    (Tₙ := fun c => iprop(StableHlo.held (c : Thread nD τ) (Pipeline.ucRefs τ sig) (W8 m c) ∗ Rest.Reg c))
    (hch := fun c => ⟨.rfl, .rfl, .rfl, .rfl, .rfl, .rfl, .rfl, .rfl, by
      show iprop(StableHlo.held (c : Thread nD τ) (Pipeline.ucRefs τ sig) (W8 m c) ∗ Rest.E c) ⊢ _
      unfold Rest.E Rest.Owes
      iintro ⟨Hh, HO, Hp⟩
      isplitr [HO]
      · isplitl [Hh]; · iexact Hh
        iexact Hp
      iexact HO⟩)
    (hinit := ?_) (QY := fun c s => s.mem ((c.tc : Thread nD τ).loc main_v2) = W8 m c main_v2 ∧ s.mem ((c.tc : Thread nD τ).loc main_v3) = W8 m c main_v3 ∧ s.mem ((c.tc : Thread nD τ).loc main_arg0) = W8 m c main_arg0 ∧ s.mem ((c.tc : Thread nD τ).loc main_arg1) = W8 m c main_arg1 ∧ s.mem ((c.tc : Thread nD τ).loc main_arg2) = W8 m c main_arg2 ∧ s.mem ((c.tc : Thread nD τ).loc main_arg3) = W8 m c main_arg3 ∧ s.mem ((c.tc : Thread nD τ).loc main_arg4) = W8 m c main_arg4 ∧ s.mem ((c.tc : Thread nD τ).loc main_arg5) = W8 m c main_arg5 ∧ s.mem ((c.tc : Thread nD τ).loc main_arg6) = W8 m c main_arg6 ∧ s.mem ((c.tc : Thread nD τ).loc main_arg7) = W8 m c main_arg7)
    (hfin := fun c s' => ?_) (hQ := fun _ h => h)
  · -- the launch: the unscoped buffers are held at the launch contents; the debts are none, the register is there
    have h1 : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
        ⊢ iprop(StableHlo.held (c : Thread nD τ) (Pipeline.ucRefs τ sig) (W0 m c) ∗ Rest.E c) := fun c => by
      rw [← Pipeline.unscopedBufs_held (Ix := Unit) (Name := ℕ) (U := UR sig nD τ) (Lvl := ℕ) c (W0 m c)]
      unfold Rest.E Rest.Owes Rest.Reg
      iintro ⟨Hh, -, HO, -, Hp, -⟩
      isplitl [Hh]; · iexact Hh
      isplitl [HO]; · iexists ∅; iexact HO
      iexists _; iexact Hp
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (W0 m c) ∗ Rest.E c) : sProp 𝕄) :=
      bigSep_mono fun c _ => h1 c
    iintro ⟨H, -⟩
    imodintro
    iapply hsplit
    iexact H
  · -- the end: each buffer read off the last valuation
    unfold StableHlo.held
    iintro ⟨⟨Hh, -⟩, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        h (Proc.devRef .tc main_v3) (Finset.mem_filter.mpr ⟨StableHlo.devRef_mem_tcRefs main_v3, by decide⟩),
        h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩),
        h (Proc.devRef .tc main_arg2) (Finset.mem_filter.mpr ⟨StableHlo.devRef_mem_tcRefs main_arg2, by decide⟩),
        h (Proc.devRef .tc main_arg3) (Finset.mem_filter.mpr ⟨StableHlo.devRef_mem_tcRefs main_arg3, by decide⟩),
        h (Proc.devRef .tc main_arg4) (Finset.mem_filter.mpr ⟨StableHlo.devRef_mem_tcRefs main_arg4, by decide⟩),
        h (Proc.devRef .tc main_arg5) (Finset.mem_filter.mpr ⟨StableHlo.devRef_mem_tcRefs main_arg5, by decide⟩),
        h (Proc.devRef .tc main_arg6) (Finset.mem_filter.mpr ⟨StableHlo.devRef_mem_tcRefs main_arg6, by decide⟩),
        h (Proc.devRef .tc main_arg7) (Finset.mem_filter.mpr ⟨StableHlo.devRef_mem_tcRefs main_arg7, by decide⟩)⟩
    · iexact HSI

end Cert.Kernel.Run

end
-- ==== Proof.K.Chain.lean ====
/-
  The contents of the buffers along the program, item by item.

  The four host operations before each kernel region write four buffers of their own and nothing else, and a
  kernel region changes its output array only. So every argument array holds its launch contents throughout, and
  a region's output array holds what that region left until the end.
-/
import proofs.«105240_g55860344651847_cont_9to1c4b_578_12_alg».proof.Proof.Gen.Kernel.Regions
import proofs.«105240_g55860344651847_cont_9to1c4b_578_12_alg».proof.Proof.K.Vals

noncomputable section

namespace Cert.Kernel.Chain

open Idealize.ShloMosaic Idealize.ShloMosaic.TcCoe
open Cert.Kernel Cert.Kernel.Gen Cert.Kernel.Run

variable {F : FTy → Type} [FloatOps F]

/-! ## What the host operations leave unchanged -/

/-- A buffer the four host operations before region 0 do not write keeps its contents. -/
theorem after_keep0 (W : Valuation τ sig (Elt F)) (r : Ref sig .tc) (h : r ∉ hostOps0_W) :
    StableHlo.after hostOps0 W r = W r :=
  StableHlo.after_of_writes_sub hostOps0 _ hostOps0_writes h

/-- A buffer the four host operations before region 1 do not write keeps its contents. -/
theorem after_keep1 (W : Valuation τ sig (Elt F)) (r : Ref sig .tc) (h : r ∉ hostOps1_W) :
    StableHlo.after hostOps1 W r = W r :=
  StableHlo.after_of_writes_sub hostOps1 _ hostOps1_writes h

/-- A buffer the four host operations before region 2 do not write keeps its contents. -/
theorem after_keep2 (W : Valuation τ sig (Elt F)) (r : Ref sig .tc) (h : r ∉ hostOps2_W) :
    StableHlo.after hostOps2 W r = W r :=
  StableHlo.after_of_writes_sub hostOps2 _ hostOps2_writes h

/-- A buffer the four host operations before region 3 do not write keeps its contents. -/
theorem after_keep3 (W : Valuation τ sig (Elt F)) (r : Ref sig .tc) (h : r ∉ hostOps3_W) :
    StableHlo.after hostOps3 W r = W r :=
  StableHlo.after_of_writes_sub hostOps3 _ hostOps3_writes h

/-! ## The valuations along the program

`W0` is the launch memory; `W1, W3, W5, W7` follow the host operations before regions 0 to 3; `W2, W4, W6, W8`
follow the regions, each with its output array replaced by what the region left (`o0` … `o3`). -/

variable (m : (ℓ : Loc nD τ sig) → Buf (Elt F) ℓ)

/-! ## What each item leaves unchanged -/

/-- The host operations before region 0 write their four buffers only. -/
theorem W1_of (c : Dev nD) (r : Ref sig .tc) (h : r ∉ hostOps0_W) : W1 m c r = W0 m c r :=
  StableHlo.after_of_writes_sub hostOps0 _ hostOps0_writes h

/-- Region 0 changes `main_v0` only, -/
theorem W2_of (c : Dev nD) (r : Ref sig .tc) (h : r ∉ ([main_v0] : List (Ref sig .tc))) : W2 m c r = W1 m c r := by
  simp only [W2, Function.update_of_ne (StableHlo.devRef_ne_of_ne (List.ne_of_not_mem_cons h) : (Proc.devRef .tc r : DevRef τ sig) ≠ Proc.devRef .tc main_v0)]
/-- and leaves there what its write-backs made of it. -/
theorem W2_main_v0 (c : Dev nD) : W2 m c main_v0 = o0 m c := by
  simp only [W2, Function.update_self]

/-- The host operations before region 1 write their four buffers only. -/
theorem W3_of (c : Dev nD) (r : Ref sig .tc) (h : r ∉ hostOps1_W) : W3 m c r = W2 m c r :=
  StableHlo.after_of_writes_sub hostOps1 _ hostOps1_writes h

/-- Region 1 changes `main_v1` only, -/
theorem W4_of (c : Dev nD) (r : Ref sig .tc) (h : r ∉ ([main_v1] : List (Ref sig .tc))) : W4 m c r = W3 m c r := by
  simp only [W4, Function.update_of_ne (StableHlo.devRef_ne_of_ne (List.ne_of_not_mem_cons h) : (Proc.devRef .tc r : DevRef τ sig) ≠ Proc.devRef .tc main_v1)]
/-- and leaves there what its write-backs made of it. -/
theorem W4_main_v1 (c : Dev nD) : W4 m c main_v1 = o1 m c := by
  simp only [W4, Function.update_self]

/-- The host operations before region 2 write their four buffers only. -/
theorem W5_of (c : Dev nD) (r : Ref sig .tc) (h : r ∉ hostOps2_W) : W5 m c r = W4 m c r :=
  StableHlo.after_of_writes_sub hostOps2 _ hostOps2_writes h

/-- Region 2 changes `main_v2` only, -/
theorem W6_of (c : Dev nD) (r : Ref sig .tc) (h : r ∉ ([main_v2] : List (Ref sig .tc))) : W6 m c r = W5 m c r := by
  simp only [W6, Function.update_of_ne (StableHlo.devRef_ne_of_ne (List.ne_of_not_mem_cons h) : (Proc.devRef .tc r : DevRef τ sig) ≠ Proc.devRef .tc main_v2)]
/-- and leaves there what its write-backs made of it. -/
theorem W6_main_v2 (c : Dev nD) : W6 m c main_v2 = o2 m c := by
  simp only [W6, Function.update_self]

/-- The host operations before region 3 write their four buffers only. -/
theorem W7_of (c : Dev nD) (r : Ref sig .tc) (h : r ∉ hostOps3_W) : W7 m c r = W6 m c r :=
  StableHlo.after_of_writes_sub hostOps3 _ hostOps3_writes h

/-- Region 3 changes `main_v3` only, -/
theorem W8_of (c : Dev nD) (r : Ref sig .tc) (h : r ∉ ([main_v3] : List (Ref sig .tc))) : W8 m c r = W7 m c r := by
  simp only [W8, Function.update_of_ne (StableHlo.devRef_ne_of_ne (List.ne_of_not_mem_cons h) : (Proc.devRef .tc r : DevRef τ sig) ≠ Proc.devRef .tc main_v3)]
/-- and leaves there what its write-backs made of it. -/
theorem W8_main_v3 (c : Dev nD) : W8 m c main_v3 = o3 m c := by
  simp only [W8, Function.update_self]

/-! ## No item writes an argument -/

theorem W1_main_arg0 (c : Dev nD) : W1 m c main_arg0 = m ((c : Thread nD τ).loc main_arg0) :=
  (W1_of m c main_arg0 (by decide))

theorem W2_main_arg0 (c : Dev nD) : W2 m c main_arg0 = m ((c : Thread nD τ).loc main_arg0) :=
  (W2_of m c main_arg0 (by decide)).trans (W1_main_arg0 m c)

theorem W3_main_arg0 (c : Dev nD) : W3 m c main_arg0 = m ((c : Thread nD τ).loc main_arg0) :=
  (W3_of m c main_arg0 (by decide)).trans (W2_main_arg0 m c)

theorem W4_main_arg0 (c : Dev nD) : W4 m c main_arg0 = m ((c : Thread nD τ).loc main_arg0) :=
  (W4_of m c main_arg0 (by decide)).trans (W3_main_arg0 m c)

theorem W5_main_arg0 (c : Dev nD) : W5 m c main_arg0 = m ((c : Thread nD τ).loc main_arg0) :=
  (W5_of m c main_arg0 (by decide)).trans (W4_main_arg0 m c)

theorem W6_main_arg0 (c : Dev nD) : W6 m c main_arg0 = m ((c : Thread nD τ).loc main_arg0) :=
  (W6_of m c main_arg0 (by decide)).trans (W5_main_arg0 m c)

theorem W7_main_arg0 (c : Dev nD) : W7 m c main_arg0 = m ((c : Thread nD τ).loc main_arg0) :=
  (W7_of m c main_arg0 (by decide)).trans (W6_main_arg0 m c)

theorem W8_main_arg0 (c : Dev nD) : W8 m c main_arg0 = m ((c : Thread nD τ).loc main_arg0) :=
  (W8_of m c main_arg0 (by decide)).trans (W7_main_arg0 m c)

theorem W1_main_arg1 (c : Dev nD) : W1 m c main_arg1 = m ((c : Thread nD τ).loc main_arg1) :=
  (W1_of m c main_arg1 (by decide))

theorem W2_main_arg1 (c : Dev nD) : W2 m c main_arg1 = m ((c : Thread nD τ).loc main_arg1) :=
  (W2_of m c main_arg1 (by decide)).trans (W1_main_arg1 m c)

theorem W3_main_arg1 (c : Dev nD) : W3 m c main_arg1 = m ((c : Thread nD τ).loc main_arg1) :=
  (W3_of m c main_arg1 (by decide)).trans (W2_main_arg1 m c)

theorem W4_main_arg1 (c : Dev nD) : W4 m c main_arg1 = m ((c : Thread nD τ).loc main_arg1) :=
  (W4_of m c main_arg1 (by decide)).trans (W3_main_arg1 m c)

theorem W5_main_arg1 (c : Dev nD) : W5 m c main_arg1 = m ((c : Thread nD τ).loc main_arg1) :=
  (W5_of m c main_arg1 (by decide)).trans (W4_main_arg1 m c)

theorem W6_main_arg1 (c : Dev nD) : W6 m c main_arg1 = m ((c : Thread nD τ).loc main_arg1) :=
  (W6_of m c main_arg1 (by decide)).trans (W5_main_arg1 m c)

theorem W7_main_arg1 (c : Dev nD) : W7 m c main_arg1 = m ((c : Thread nD τ).loc main_arg1) :=
  (W7_of m c main_arg1 (by decide)).trans (W6_main_arg1 m c)

theorem W8_main_arg1 (c : Dev nD) : W8 m c main_arg1 = m ((c : Thread nD τ).loc main_arg1) :=
  (W8_of m c main_arg1 (by decide)).trans (W7_main_arg1 m c)

theorem W1_main_arg2 (c : Dev nD) : W1 m c main_arg2 = m ((c : Thread nD τ).loc main_arg2) :=
  (W1_of m c main_arg2 (by decide))

theorem W2_main_arg2 (c : Dev nD) : W2 m c main_arg2 = m ((c : Thread nD τ).loc main_arg2) :=
  (W2_of m c main_arg2 (by decide)).trans (W1_main_arg2 m c)

theorem W3_main_arg2 (c : Dev nD) : W3 m c main_arg2 = m ((c : Thread nD τ).loc main_arg2) :=
  (W3_of m c main_arg2 (by decide)).trans (W2_main_arg2 m c)

theorem W4_main_arg2 (c : Dev nD) : W4 m c main_arg2 = m ((c : Thread nD τ).loc main_arg2) :=
  (W4_of m c main_arg2 (by decide)).trans (W3_main_arg2 m c)

theorem W5_main_arg2 (c : Dev nD) : W5 m c main_arg2 = m ((c : Thread nD τ).loc main_arg2) :=
  (W5_of m c main_arg2 (by decide)).trans (W4_main_arg2 m c)

theorem W6_main_arg2 (c : Dev nD) : W6 m c main_arg2 = m ((c : Thread nD τ).loc main_arg2) :=
  (W6_of m c main_arg2 (by decide)).trans (W5_main_arg2 m c)

theorem W7_main_arg2 (c : Dev nD) : W7 m c main_arg2 = m ((c : Thread nD τ).loc main_arg2) :=
  (W7_of m c main_arg2 (by decide)).trans (W6_main_arg2 m c)

theorem W8_main_arg2 (c : Dev nD) : W8 m c main_arg2 = m ((c : Thread nD τ).loc main_arg2) :=
  (W8_of m c main_arg2 (by decide)).trans (W7_main_arg2 m c)

theorem W1_main_arg3 (c : Dev nD) : W1 m c main_arg3 = m ((c : Thread nD τ).loc main_arg3) :=
  (W1_of m c main_arg3 (by decide))

theorem W2_main_arg3 (c : Dev nD) : W2 m c main_arg3 = m ((c : Thread nD τ).loc main_arg3) :=
  (W2_of m c main_arg3 (by decide)).trans (W1_main_arg3 m c)

theorem W3_main_arg3 (c : Dev nD) : W3 m c main_arg3 = m ((c : Thread nD τ).loc main_arg3) :=
  (W3_of m c main_arg3 (by decide)).trans (W2_main_arg3 m c)

theorem W4_main_arg3 (c : Dev nD) : W4 m c main_arg3 = m ((c : Thread nD τ).loc main_arg3) :=
  (W4_of m c main_arg3 (by decide)).trans (W3_main_arg3 m c)

theorem W5_main_arg3 (c : Dev nD) : W5 m c main_arg3 = m ((c : Thread nD τ).loc main_arg3) :=
  (W5_of m c main_arg3 (by decide)).trans (W4_main_arg3 m c)

theorem W6_main_arg3 (c : Dev nD) : W6 m c main_arg3 = m ((c : Thread nD τ).loc main_arg3) :=
  (W6_of m c main_arg3 (by decide)).trans (W5_main_arg3 m c)

theorem W7_main_arg3 (c : Dev nD) : W7 m c main_arg3 = m ((c : Thread nD τ).loc main_arg3) :=
  (W7_of m c main_arg3 (by decide)).trans (W6_main_arg3 m c)

theorem W8_main_arg3 (c : Dev nD) : W8 m c main_arg3 = m ((c : Thread nD τ).loc main_arg3) :=
  (W8_of m c main_arg3 (by decide)).trans (W7_main_arg3 m c)

theorem W1_main_arg4 (c : Dev nD) : W1 m c main_arg4 = m ((c : Thread nD τ).loc main_arg4) :=
  (W1_of m c main_arg4 (by decide))

theorem W2_main_arg4 (c : Dev nD) : W2 m c main_arg4 = m ((c : Thread nD τ).loc main_arg4) :=
  (W2_of m c main_arg4 (by decide)).trans (W1_main_arg4 m c)

theorem W3_main_arg4 (c : Dev nD) : W3 m c main_arg4 = m ((c : Thread nD τ).loc main_arg4) :=
  (W3_of m c main_arg4 (by decide)).trans (W2_main_arg4 m c)

theorem W4_main_arg4 (c : Dev nD) : W4 m c main_arg4 = m ((c : Thread nD τ).loc main_arg4) :=
  (W4_of m c main_arg4 (by decide)).trans (W3_main_arg4 m c)

theorem W5_main_arg4 (c : Dev nD) : W5 m c main_arg4 = m ((c : Thread nD τ).loc main_arg4) :=
  (W5_of m c main_arg4 (by decide)).trans (W4_main_arg4 m c)

theorem W6_main_arg4 (c : Dev nD) : W6 m c main_arg4 = m ((c : Thread nD τ).loc main_arg4) :=
  (W6_of m c main_arg4 (by decide)).trans (W5_main_arg4 m c)

theorem W7_main_arg4 (c : Dev nD) : W7 m c main_arg4 = m ((c : Thread nD τ).loc main_arg4) :=
  (W7_of m c main_arg4 (by decide)).trans (W6_main_arg4 m c)

theorem W8_main_arg4 (c : Dev nD) : W8 m c main_arg4 = m ((c : Thread nD τ).loc main_arg4) :=
  (W8_of m c main_arg4 (by decide)).trans (W7_main_arg4 m c)

theorem W1_main_arg5 (c : Dev nD) : W1 m c main_arg5 = m ((c : Thread nD τ).loc main_arg5) :=
  (W1_of m c main_arg5 (by decide))

theorem W2_main_arg5 (c : Dev nD) : W2 m c main_arg5 = m ((c : Thread nD τ).loc main_arg5) :=
  (W2_of m c main_arg5 (by decide)).trans (W1_main_arg5 m c)

theorem W3_main_arg5 (c : Dev nD) : W3 m c main_arg5 = m ((c : Thread nD τ).loc main_arg5) :=
  (W3_of m c main_arg5 (by decide)).trans (W2_main_arg5 m c)

theorem W4_main_arg5 (c : Dev nD) : W4 m c main_arg5 = m ((c : Thread nD τ).loc main_arg5) :=
  (W4_of m c main_arg5 (by decide)).trans (W3_main_arg5 m c)

theorem W5_main_arg5 (c : Dev nD) : W5 m c main_arg5 = m ((c : Thread nD τ).loc main_arg5) :=
  (W5_of m c main_arg5 (by decide)).trans (W4_main_arg5 m c)

theorem W6_main_arg5 (c : Dev nD) : W6 m c main_arg5 = m ((c : Thread nD τ).loc main_arg5) :=
  (W6_of m c main_arg5 (by decide)).trans (W5_main_arg5 m c)

theorem W7_main_arg5 (c : Dev nD) : W7 m c main_arg5 = m ((c : Thread nD τ).loc main_arg5) :=
  (W7_of m c main_arg5 (by decide)).trans (W6_main_arg5 m c)

theorem W8_main_arg5 (c : Dev nD) : W8 m c main_arg5 = m ((c : Thread nD τ).loc main_arg5) :=
  (W8_of m c main_arg5 (by decide)).trans (W7_main_arg5 m c)

theorem W1_main_arg6 (c : Dev nD) : W1 m c main_arg6 = m ((c : Thread nD τ).loc main_arg6) :=
  (W1_of m c main_arg6 (by decide))

theorem W2_main_arg6 (c : Dev nD) : W2 m c main_arg6 = m ((c : Thread nD τ).loc main_arg6) :=
  (W2_of m c main_arg6 (by decide)).trans (W1_main_arg6 m c)

theorem W3_main_arg6 (c : Dev nD) : W3 m c main_arg6 = m ((c : Thread nD τ).loc main_arg6) :=
  (W3_of m c main_arg6 (by decide)).trans (W2_main_arg6 m c)

theorem W4_main_arg6 (c : Dev nD) : W4 m c main_arg6 = m ((c : Thread nD τ).loc main_arg6) :=
  (W4_of m c main_arg6 (by decide)).trans (W3_main_arg6 m c)

theorem W5_main_arg6 (c : Dev nD) : W5 m c main_arg6 = m ((c : Thread nD τ).loc main_arg6) :=
  (W5_of m c main_arg6 (by decide)).trans (W4_main_arg6 m c)

theorem W6_main_arg6 (c : Dev nD) : W6 m c main_arg6 = m ((c : Thread nD τ).loc main_arg6) :=
  (W6_of m c main_arg6 (by decide)).trans (W5_main_arg6 m c)

theorem W7_main_arg6 (c : Dev nD) : W7 m c main_arg6 = m ((c : Thread nD τ).loc main_arg6) :=
  (W7_of m c main_arg6 (by decide)).trans (W6_main_arg6 m c)

theorem W8_main_arg6 (c : Dev nD) : W8 m c main_arg6 = m ((c : Thread nD τ).loc main_arg6) :=
  (W8_of m c main_arg6 (by decide)).trans (W7_main_arg6 m c)

theorem W1_main_arg7 (c : Dev nD) : W1 m c main_arg7 = m ((c : Thread nD τ).loc main_arg7) :=
  (W1_of m c main_arg7 (by decide))

theorem W2_main_arg7 (c : Dev nD) : W2 m c main_arg7 = m ((c : Thread nD τ).loc main_arg7) :=
  (W2_of m c main_arg7 (by decide)).trans (W1_main_arg7 m c)

theorem W3_main_arg7 (c : Dev nD) : W3 m c main_arg7 = m ((c : Thread nD τ).loc main_arg7) :=
  (W3_of m c main_arg7 (by decide)).trans (W2_main_arg7 m c)

theorem W4_main_arg7 (c : Dev nD) : W4 m c main_arg7 = m ((c : Thread nD τ).loc main_arg7) :=
  (W4_of m c main_arg7 (by decide)).trans (W3_main_arg7 m c)

theorem W5_main_arg7 (c : Dev nD) : W5 m c main_arg7 = m ((c : Thread nD τ).loc main_arg7) :=
  (W5_of m c main_arg7 (by decide)).trans (W4_main_arg7 m c)

theorem W6_main_arg7 (c : Dev nD) : W6 m c main_arg7 = m ((c : Thread nD τ).loc main_arg7) :=
  (W6_of m c main_arg7 (by decide)).trans (W5_main_arg7 m c)

theorem W7_main_arg7 (c : Dev nD) : W7 m c main_arg7 = m ((c : Thread nD τ).loc main_arg7) :=
  (W7_of m c main_arg7 (by decide)).trans (W6_main_arg7 m c)

theorem W8_main_arg7 (c : Dev nD) : W8 m c main_arg7 = m ((c : Thread nD τ).loc main_arg7) :=
  (W8_of m c main_arg7 (by decide)).trans (W7_main_arg7 m c)

/-! ## A region's output array keeps what the region left -/

theorem W3_main_v0 (c : Dev nD) : W3 m c main_v0 = o0 m c :=
  (W3_of m c main_v0 (by decide)).trans (W2_main_v0 m c)

theorem W4_main_v0 (c : Dev nD) : W4 m c main_v0 = o0 m c :=
  (W4_of m c main_v0 (by decide)).trans (W3_main_v0 m c)

theorem W5_main_v0 (c : Dev nD) : W5 m c main_v0 = o0 m c :=
  (W5_of m c main_v0 (by decide)).trans (W4_main_v0 m c)

theorem W6_main_v0 (c : Dev nD) : W6 m c main_v0 = o0 m c :=
  (W6_of m c main_v0 (by decide)).trans (W5_main_v0 m c)

theorem W7_main_v0 (c : Dev nD) : W7 m c main_v0 = o0 m c :=
  (W7_of m c main_v0 (by decide)).trans (W6_main_v0 m c)

theorem W8_main_v0 (c : Dev nD) : W8 m c main_v0 = o0 m c :=
  (W8_of m c main_v0 (by decide)).trans (W7_main_v0 m c)

theorem W5_main_v1 (c : Dev nD) : W5 m c main_v1 = o1 m c :=
  (W5_of m c main_v1 (by decide)).trans (W4_main_v1 m c)

theorem W6_main_v1 (c : Dev nD) : W6 m c main_v1 = o1 m c :=
  (W6_of m c main_v1 (by decide)).trans (W5_main_v1 m c)

theorem W7_main_v1 (c : Dev nD) : W7 m c main_v1 = o1 m c :=
  (W7_of m c main_v1 (by decide)).trans (W6_main_v1 m c)

theorem W8_main_v1 (c : Dev nD) : W8 m c main_v1 = o1 m c :=
  (W8_of m c main_v1 (by decide)).trans (W7_main_v1 m c)

theorem W7_main_v2 (c : Dev nD) : W7 m c main_v2 = o2 m c :=
  (W7_of m c main_v2 (by decide)).trans (W6_main_v2 m c)

theorem W8_main_v2 (c : Dev nD) : W8 m c main_v2 = o2 m c :=
  (W8_of m c main_v2 (by decide)).trans (W7_main_v2 m c)

end Cert.Kernel.Chain

end
-- ==== Proof.KI.Body0.lean ====
/-
  The kernel body of pallas_call 0 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.KernelIdeal.Launch
import proofs.«105240_g55860344651847_cont_9to1c4b_578_12_alg».proof.Proof.Gen.KernelIdeal.Skeleton
import proofs.«105240_g55860344651847_cont_9to1c4b_578_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k0_pay1 (k0_pay2 (View.ld x6 rH) (View.ld x1 rA) (View.ld x2 rA) (View.ld x3 rA) (View.ld x4 rA) (View.ld x5 rA) (View.ld x7 rB) (View.ld x8 rW) (View.ld x9 rW)) (k0_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc0__layer_side_body i arg1 harg1 arg2 harg2 arg3 harg3 arg4 harg4 arg5 harg5 arg6 harg6 arg7 harg7 arg8 harg8 arg9 harg9 arg10 harg10) K := by
  simp only [cc0__layer_side_body_eq_skeleton]; unfold cc0__layer_side_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.KernelIdeal.Body0

end
-- ==== Proof.KI.Shares.lean ====
/-
  The arrays of the four pipelines, shared among their windows.

  Each pipeline hands one array to its first five windows, which only read it; the four other inputs and the
  output are arrays of their own. At a pipeline's entry the six distinct buffers behind its ten windows are held
  whole at the full share. The theorems below deal the shared buffer's full share among the five windows on it
  (one of the five shares `s5` each) and give every other window its buffer at the full share, and put the
  buffers back together at the pipeline's exit.
-/
import proofs.«105240_g55860344651847_cont_9to1c4b_578_12_alg».proof.Proof.Gen.KernelIdeal.Launch
import proofs.«105240_g55860344651847_cont_9to1c4b_578_12_alg».proof.Proof.LibShareFive

noncomputable section

namespace Cert.KernelIdeal.Shares

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]
variable {Ix : Type} [DecidableEq Ix] {U : Type} [URA U] {Lvl : Type}

/-! ## Two equations of the logic -/

/-- The separating conjunction is associative, as an equation. -/
theorem sep_assoc_eq {M : Type} [URA M] (P Q R : sProp M) : iprop((P ∗ Q) ∗ R) = iprop(P ∗ Q ∗ R) :=
  BI.equiv_iff.mp ⟨(sep_assoc (PROP := sProp M) (P := P) (Q := Q) (R := R)).1, (sep_assoc (PROP := sProp M) (P := P) (Q := Q) (R := R)).2⟩

/-- A whole buffer at the full share is the same buffer held at the five shares `s5`, as an equation. -/
theorem five_eq {ℓ : Loc nD τ sig} (f : Buf (Elt F) ℓ) :
    (ℓ ↦{fullShare} f : sProp (MT nD τ sig Ix (Elt F) ℕ U Lvl))
      = iprop((ℓ ↦{s5 0} f) ∗ (ℓ ↦{s5 1} f) ∗ (ℓ ↦{s5 2} f) ∗ (ℓ ↦{s5 3} f) ∗ (ℓ ↦{s5 4} f)) :=
  BI.equiv_iff.mp ⟨(pointsTo_five ℓ Finset.univ f).1, (pointsTo_five ℓ Finset.univ f).2⟩

/-! ## custom_call 0 -/

/-- The shares pipeline 0's windows hold their arrays at: the five windows on the shared array one of `s5` each,
    every other window the full share. -/
def q0 : Fin 10 → PosShare TreeShare := fun w => if h : w.val < 5 then s5 ⟨w.val, h⟩ else fullShare

/-- The six distinct buffers behind pipeline 0's ten windows. -/
theorem image0 : Finset.univ.image (Pipeline.arrRef spec0) = [main_arg0, main_arg3, main_arg2, main_call0_v1, main_call0_v3, main_v0].toFinset := by decide

/-- Every window of pipeline 0 holds its array at the share `q0` names: the output window's full share is `q0 9`. -/
theorem share0 (c : Dev nD) (dat : Pipeline.Dat τ (Elt F) Ix ℕ U Lvl cfg0 c) (hq : dat.q = q0) (w : Fin 10) :
    dat.share w = q0 w := by
  unfold Pipeline.Dat.share
  rw [hq]
  fin_cases w <;> rfl

/-- The buffers behind pipeline 0's arrays, one by one. -/
theorem arrBufs0_chain (c : Dev nD) (V : (b : Ref sig .tc) → Buf (Elt F) ((c.tc : Thread nD τ).loc b)) :
    (Pipeline.arrBufs spec0 c V : sProp (MT nD τ sig Ix (Elt F) ℕ U Lvl))
      = iprop((((c.tc : Thread nD τ).loc main_arg0) ↦{fullShare} V main_arg0) ∗ (((c.tc : Thread nD τ).loc main_arg3) ↦{fullShare} V main_arg3) ∗ (((c.tc : Thread nD τ).loc main_arg2) ↦{fullShare} V main_arg2) ∗ (((c.tc : Thread nD τ).loc main_call0_v1) ↦{fullShare} V main_call0_v1) ∗ (((c.tc : Thread nD τ).loc main_call0_v3) ↦{fullShare} V main_call0_v3) ∗ (((c.tc : Thread nD τ).loc main_v0) ↦{fullShare} V main_v0)) := by
  unfold Pipeline.arrBufs
  rw [bigSep_eq_bigSepL_of_eq [main_arg0, main_arg3, main_arg2, main_call0_v1, main_call0_v3, main_v0] image0 (by decide)]
  rfl

/-- The windows' arrays of pipeline 0, one by one: every array a whole buffer, held at the share `q0` names, at the
    contents `V` gives the buffer behind it. -/
theorem arrays0_chain (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (dat.arrays Fw : sProp (MT nD τ sig Ix (Elt F) ℕ U Lvl))
      = iprop((((c.tc : Thread nD τ).loc main_arg0) ↦{s5 0} V main_arg0) ∗ (((c.tc : Thread nD τ).loc main_arg0) ↦{s5 1} V main_arg0) ∗ (((c.tc : Thread nD τ).loc main_arg0) ↦{s5 2} V main_arg0) ∗ (((c.tc : Thread nD τ).loc main_arg0) ↦{s5 3} V main_arg0) ∗ (((c.tc : Thread nD τ).loc main_arg0) ↦{s5 4} V main_arg0) ∗ (((c.tc : Thread nD τ).loc main_arg3) ↦{fullShare} V main_arg3) ∗ (((c.tc : Thread nD τ).loc main_arg2) ↦{fullShare} V main_arg2) ∗ (((c.tc : Thread nD τ).loc main_call0_v1) ↦{fullShare} V main_call0_v1) ∗ (((c.tc : Thread nD τ).loc main_call0_v3) ↦{fullShare} V main_call0_v3) ∗ (((c.tc : Thread nD τ).loc main_v0) ↦{fullShare} V main_v0)) := by
  have h : dat.arrays Fw = bigSep Finset.univ fun w : Fin 10 =>
      (((c.tc : Thread nD τ).loc (Pipeline.arrRef spec0 w)) ↦{q0 w} V (Pipeline.arrRef spec0 w) : sProp (MT nD τ sig Ix (Elt F) ℕ U Lvl)) := by
    unfold Pipeline.Dat.arrays
    exact bigSep_congr fun w _ => by rw [(arr_whole0 w).set_eq_univ, share0 c dat hq w, hF w]
  rw [h, bigSep_W0]
  rfl

/-- The buffers behind pipeline 0's arrays, each whole at the full share, ARE the windows' arrays at the shares
    `q0`: the shared buffer's full share is the five shares `s5` together. -/
theorem arrBufs0_eq_arrays (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp (MT nD τ sig Ix (Elt F) ℕ U Lvl)) = dat.arrays Fw := by
  rw [arrBufs0_chain, arrays0_chain c dat hq V Fw hF, five_eq, sep_assoc_eq, sep_assoc_eq, sep_assoc_eq, sep_assoc_eq]

/-- At pipeline 0's entry: the buffers behind its arrays, whole, yield its windows' arrays at the shares `q0`. -/
theorem hsplit0 (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp (MT nD τ sig Ix (Elt F) ℕ U Lvl)) ⊢ dat.arrays Fw :=
  Entails.of_eq (arrBufs0_eq_arrays c dat hq V Fw hF)

/-- At its exit: the windows' arrays at the shares `q0` give the buffers back whole. -/
theorem hjoin0 (c : Dev nD) (dat : Pipeline.Dat τ (Elt F) Ix ℕ U Lvl cfg0 c) (hq : dat.q = q0)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    dat.arrays Fw ⊢ (Pipeline.arrBufs spec0 c V : sProp (MT nD τ sig Ix (Elt F) ℕ U Lvl)) :=
  Entails.of_eq (arrBufs0_eq_arrays c dat hq V Fw hF).symm

/-- The buffers of pipeline 0 that are no window's array do not include `main_v0`, the output window's array:
    contents that differ only there give the same assertion. -/
theorem unscopedRest0_update (c : Dev nD) (V V' : (b : Ref sig .tc) → Buf (Elt F) ((c.tc : Thread nD τ).loc b))
    (h : ∀ b : Ref sig .tc, b ≠ main_v0 → V' b = V b) :
    (Pipeline.unscopedRest (Ix := Ix) (Name := ℕ) (U := U) (Lvl := Lvl) spec0 c V' : sProp (MT nD τ sig Ix (Elt F) ℕ U Lvl))
      = Pipeline.unscopedRest spec0 c V := by
  unfold Pipeline.unscopedRest
  refine bigSep_congr fun b hb => ?_
  have hne : b ≠ main_v0 := fun e =>
    (Finset.mem_sdiff.mp hb).2 (e ▸ (by decide : main_v0 ∈ Finset.univ.image (Pipeline.arrRef spec0)))
  rw [h b hne]

/-! ## custom_call 1 -/

/-- The shares pipeline 1's windows hold their arrays at: the five windows on the shared array one of `s5` each,
    every other window the full share. -/
def q1 : Fin 10 → PosShare TreeShare := fun w => if h : w.val < 5 then s5 ⟨w.val, h⟩ else fullShare

/-- The six distinct buffers behind pipeline 1's ten windows. -/
theorem image1 : Finset.univ.image (Pipeline.arrRef spec1) = [main_arg1, main_arg2, main_arg3, main_call1_v1, main_call1_v3, main_v1].toFinset := by decide

/-- Every window of pipeline 1 holds its array at the share `q1` names: the output window's full share is `q1 9`. -/
theorem share1 (c : Dev nD) (dat : Pipeline.Dat τ (Elt F) Ix ℕ U Lvl cfg1 c) (hq : dat.q = q1) (w : Fin 10) :
    dat.share w = q1 w := by
  unfold Pipeline.Dat.share
  rw [hq]
  fin_cases w <;> rfl

/-- The buffers behind pipeline 1's arrays, one by one. -/
theorem arrBufs1_chain (c : Dev nD) (V : (b : Ref sig .tc) → Buf (Elt F) ((c.tc : Thread nD τ).loc b)) :
    (Pipeline.arrBufs spec1 c V : sProp (MT nD τ sig Ix (Elt F) ℕ U Lvl))
      = iprop((((c.tc : Thread nD τ).loc main_arg1) ↦{fullShare} V main_arg1) ∗ (((c.tc : Thread nD τ).loc main_arg2) ↦{fullShare} V main_arg2) ∗ (((c.tc : Thread nD τ).loc main_arg3) ↦{fullShare} V main_arg3) ∗ (((c.tc : Thread nD τ).loc main_call1_v1) ↦{fullShare} V main_call1_v1) ∗ (((c.tc : Thread nD τ).loc main_call1_v3) ↦{fullShare} V main_call1_v3) ∗ (((c.tc : Thread nD τ).loc main_v1) ↦{fullShare} V main_v1)) := by
  unfold Pipeline.arrBufs
  rw [bigSep_eq_bigSepL_of_eq [main_arg1, main_arg2, main_arg3, main_call1_v1, main_call1_v3, main_v1] image1 (by decide)]
  rfl

/-- The windows' arrays of pipeline 1, one by one: every array a whole buffer, held at the share `q1` names, at the
    contents `V` gives the buffer behind it. -/
theorem arrays1_chain (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (dat.arrays Fw : sProp (MT nD τ sig Ix (Elt F) ℕ U Lvl))
      = iprop((((c.tc : Thread nD τ).loc main_arg1) ↦{s5 0} V main_arg1) ∗ (((c.tc : Thread nD τ).loc main_arg1) ↦{s5 1} V main_arg1) ∗ (((c.tc : Thread nD τ).loc main_arg1) ↦{s5 2} V main_arg1) ∗ (((c.tc : Thread nD τ).loc main_arg1) ↦{s5 3} V main_arg1) ∗ (((c.tc : Thread nD τ).loc main_arg1) ↦{s5 4} V main_arg1) ∗ (((c.tc : Thread nD τ).loc main_arg2) ↦{fullShare} V main_arg2) ∗ (((c.tc : Thread nD τ).loc main_arg3) ↦{fullShare} V main_arg3) ∗ (((c.tc : Thread nD τ).loc main_call1_v1) ↦{fullShare} V main_call1_v1) ∗ (((c.tc : Thread nD τ).loc main_call1_v3) ↦{fullShare} V main_call1_v3) ∗ (((c.tc : Thread nD τ).loc main_v1) ↦{fullShare} V main_v1)) := by
  have h : dat.arrays Fw = bigSep Finset.univ fun w : Fin 10 =>
      (((c.tc : Thread nD τ).loc (Pipeline.arrRef spec1 w)) ↦{q1 w} V (Pipeline.arrRef spec1 w) : sProp (MT nD τ sig Ix (Elt F) ℕ U Lvl)) := by
    unfold Pipeline.Dat.arrays
    exact bigSep_congr fun w _ => by rw [(arr_whole1 w).set_eq_univ, share1 c dat hq w, hF w]
  rw [h, bigSep_W1]
  rfl

/-- The buffers behind pipeline 1's arrays, each whole at the full share, ARE the windows' arrays at the shares
    `q1`: the shared buffer's full share is the five shares `s5` together. -/
theorem arrBufs1_eq_arrays (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp (MT nD τ sig Ix (Elt F) ℕ U Lvl)) = dat.arrays Fw := by
  rw [arrBufs1_chain, arrays1_chain c dat hq V Fw hF, five_eq, sep_assoc_eq, sep_assoc_eq, sep_assoc_eq, sep_assoc_eq]

/-- At pipeline 1's entry: the buffers behind its arrays, whole, yield its windows' arrays at the shares `q1`. -/
theorem hsplit1 (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    (Pipeline.arrBufs spec1 c V : sProp (MT nD τ sig Ix (Elt F) ℕ U Lvl)) ⊢ dat.arrays Fw :=
  Entails.of_eq (arrBufs1_eq_arrays c dat hq V Fw hF)

/-- At its exit: the windows' arrays at the shares `q1` give the buffers back whole. -/
theorem hjoin1 (c : Dev nD) (dat : Pipeline.Dat τ (Elt F) Ix ℕ U Lvl cfg1 c) (hq : dat.q = q1)
    (V : (b : Ref sig .tc) → Buf (Elt F) ((c.tc : Thread nD τ).loc b))
    (Fw : (w : Fin cfg1.W) → Buf (Elt F) ((cfg1.win w).arr.view.loc (c.tc : Thread nD τ)))
    (hF : ∀ w, Fw w = V (Pipeline.arrRef spec1 w)) :
    dat.arrays Fw ⊢ (Pipeline.arrBufs spec1 c V : sProp (MT nD τ sig Ix (Elt F) ℕ U Lvl)) :=
  Entails.of_eq (arrBufs1_eq_arrays c dat hq V Fw hF).symm

/-- The buffers of pipeline 1 that are no window's array do not include `main_v1`, the output window's array:
    contents that differ only there give the same assertion. -/
theorem unscopedRest1_update (c : Dev nD) (V V' : (b : Ref sig .tc) → Buf (Elt F) ((c.tc : Thread nD τ).loc b))
    (h : ∀ b : Ref sig .tc, b ≠ main_v1 → V' b = V b) :
    (Pipeline.unscopedRest (Ix := Ix) (Name := ℕ) (U := U) (Lvl := Lvl) spec1 c V' : sProp (MT nD τ sig Ix (Elt F) ℕ U Lvl))
      = Pipeline.unscopedRest spec1 c V := by
  unfold Pipeline.unscopedRest
  refine bigSep_congr fun b hb => ?_
  have hne : b ≠ main_v1 := fun e =>
    (Finset.mem_sdiff.mp hb).2 (e ▸ (by decide : main_v1 ∈ Finset.univ.image (Pipeline.arrRef spec1)))
  rw [h b hne]

/-! ## custom_call 2 -/

/-- The shares pipeline 2's windows hold their arrays at: the five windows on the shared array one of `s5` each,
    every other window the full share. -/
def q2 : Fin 10 → PosShare TreeShare := fun w => if h : w.val < 5 then s5 ⟨w.val, h⟩ else fullShare

/-- The six distinct buffers behind pipeline 2's ten windows. -/
theorem image2 : Finset.univ.image (Pipeline.arrRef spec2) = [main_arg0, main_v1, main_v0, main_call2_v1, main_call2_v3, main_v2].toFinset := by decide

/-- Every window of pipeline 2 holds its array at the share `q2` names: the output window's full share is `q2 9`. -/
theorem share2 (c : Dev nD) (dat : Pipeline.Dat τ (Elt F) Ix ℕ U Lvl cfg2 c) (hq : dat.q = q2) (w : Fin 10) :
    dat.share w = q2 w := by
  unfold Pipeline.Dat.share
  rw [hq]
  fin_cases w <;> rfl

/-- The buffers behind pipeline 2's arrays, one by one. -/
theorem arrBufs2_chain (c : Dev nD) (V : (b : Ref sig .tc) → Buf (Elt F) ((c.tc : Thread nD τ).loc b)) :
    (Pipeline.arrBufs spec2 c V : sProp (MT nD τ sig Ix (Elt F) ℕ U Lvl))
      = iprop((((c.tc : Thread nD τ).loc main_arg0) ↦{fullShare} V main_arg0) ∗ (((c.tc : Thread nD τ).loc main_v1) ↦{fullShare} V main_v1) ∗ (((c.tc : Thread nD τ).loc main_v0) ↦{fullShare} V main_v0) ∗ (((c.tc : Thread nD τ).loc main_call2_v1) ↦{fullShare} V main_call2_v1) ∗ (((c.tc : Thread nD τ).loc main_call2_v3) ↦{fullShare} V main_call2_v3) ∗ (((c.tc : Thread nD τ).loc main_v2) ↦{fullShare} V main_v2)) := by
  unfold Pipeline.arrBufs
  rw [bigSep_eq_bigSepL_of_eq [main_arg0, main_v1, main_v0, main_call2_v1, main_call2_v3, main_v2] image2 (by decide)]
  rfl

/-- The windows' arrays of pipeline 2, one by one: every array a whole buffer, held at the share `q2` names, at the
    contents `V` gives the buffer behind it. -/
theorem arrays2_chain (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (dat.arrays Fw : sProp (MT nD τ sig Ix (Elt F) ℕ U Lvl))
      = iprop((((c.tc : Thread nD τ).loc main_arg0) ↦{s5 0} V main_arg0) ∗ (((c.tc : Thread nD τ).loc main_arg0) ↦{s5 1} V main_arg0) ∗ (((c.tc : Thread nD τ).loc main_arg0) ↦{s5 2} V main_arg0) ∗ (((c.tc : Thread nD τ).loc main_arg0) ↦{s5 3} V main_arg0) ∗ (((c.tc : Thread nD τ).loc main_arg0) ↦{s5 4} V main_arg0) ∗ (((c.tc : Thread nD τ).loc main_v1) ↦{fullShare} V main_v1) ∗ (((c.tc : Thread nD τ).loc main_v0) ↦{fullShare} V main_v0) ∗ (((c.tc : Thread nD τ).loc main_call2_v1) ↦{fullShare} V main_call2_v1) ∗ (((c.tc : Thread nD τ).loc main_call2_v3) ↦{fullShare} V main_call2_v3) ∗ (((c.tc : Thread nD τ).loc main_v2) ↦{fullShare} V main_v2)) := by
  have h : dat.arrays Fw = bigSep Finset.univ fun w : Fin 10 =>
      (((c.tc : Thread nD τ).loc (Pipeline.arrRef spec2 w)) ↦{q2 w} V (Pipeline.arrRef spec2 w) : sProp (MT nD τ sig Ix (Elt F) ℕ U Lvl)) := by
    unfold Pipeline.Dat.arrays
    exact bigSep_congr fun w _ => by rw [(arr_whole2 w).set_eq_univ, share2 c dat hq w, hF w]
  rw [h, bigSep_W2]
  rfl

/-- The buffers behind pipeline 2's arrays, each whole at the full share, ARE the windows' arrays at the shares
    `q2`: the shared buffer's full share is the five shares `s5` together. -/
theorem arrBufs2_eq_arrays (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (Pipeline.arrBufs spec2 c V : sProp (MT nD τ sig Ix (Elt F) ℕ U Lvl)) = dat.arrays Fw := by
  rw [arrBufs2_chain, arrays2_chain c dat hq V Fw hF, five_eq, sep_assoc_eq, sep_assoc_eq, sep_assoc_eq, sep_assoc_eq]

/-- At pipeline 2's entry: the buffers behind its arrays, whole, yield its windows' arrays at the shares `q2`. -/
theorem hsplit2 (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    (Pipeline.arrBufs spec2 c V : sProp (MT nD τ sig Ix (Elt F) ℕ U Lvl)) ⊢ dat.arrays Fw :=
  Entails.of_eq (arrBufs2_eq_arrays c dat hq V Fw hF)

/-- At its exit: the windows' arrays at the shares `q2` give the buffers back whole. -/
theorem hjoin2 (c : Dev nD) (dat : Pipeline.Dat τ (Elt F) Ix ℕ U Lvl cfg2 c) (hq : dat.q = q2)
    (V : (b : Ref sig .tc) → Buf (Elt F) ((c.tc : Thread nD τ).loc b))
    (Fw : (w : Fin cfg2.W) → Buf (Elt F) ((cfg2.win w).arr.view.loc (c.tc : Thread nD τ)))
    (hF : ∀ w, Fw w = V (Pipeline.arrRef spec2 w)) :
    dat.arrays Fw ⊢ (Pipeline.arrBufs spec2 c V : sProp (MT nD τ sig Ix (Elt F) ℕ U Lvl)) :=
  Entails.of_eq (arrBufs2_eq_arrays c dat hq V Fw hF).symm

/-- The buffers of pipeline 2 that are no window's array do not include `main_v2`, the output window's array:
    contents that differ only there give the same assertion. -/
theorem unscopedRest2_update (c : Dev nD) (V V' : (b : Ref sig .tc) → Buf (Elt F) ((c.tc : Thread nD τ).loc b))
    (h : ∀ b : Ref sig .tc, b ≠ main_v2 → V' b = V b) :
    (Pipeline.unscopedRest (Ix := Ix) (Name := ℕ) (U := U) (Lvl := Lvl) spec2 c V' : sProp (MT nD τ sig Ix (Elt F) ℕ U Lvl))
      = Pipeline.unscopedRest spec2 c V := by
  unfold Pipeline.unscopedRest
  refine bigSep_congr fun b hb => ?_
  have hne : b ≠ main_v2 := fun e =>
    (Finset.mem_sdiff.mp hb).2 (e ▸ (by decide : main_v2 ∈ Finset.univ.image (Pipeline.arrRef spec2)))
  rw [h b hne]

/-! ## custom_call 3 -/

/-- The shares pipeline 3's windows hold their arrays at: the five windows on the shared array one of `s5` each,
    every other window the full share. -/
def q3 : Fin 10 → PosShare TreeShare := fun w => if h : w.val < 5 then s5 ⟨w.val, h⟩ else fullShare

/-- The six distinct buffers behind pipeline 3's ten windows. -/
theorem image3 : Finset.univ.image (Pipeline.arrRef spec3) = [main_arg1, main_v0, main_v1, main_call3_v1, main_call3_v3, main_v3].toFinset := by decide

/-- Every window of pipeline 3 holds its array at the share `q3` names: the output window's full share is `q3 9`. -/
theorem share3 (c : Dev nD) (dat : Pipeline.Dat τ (Elt F) Ix ℕ U Lvl cfg3 c) (hq : dat.q = q3) (w : Fin 10) :
    dat.share w = q3 w := by
  unfold Pipeline.Dat.share
  rw [hq]
  fin_cases w <;> rfl

/-- The buffers behind pipeline 3's arrays, one by one. -/
theorem arrBufs3_chain (c : Dev nD) (V : (b : Ref sig .tc) → Buf (Elt F) ((c.tc : Thread nD τ).loc b)) :
    (Pipeline.arrBufs spec3 c V : sProp (MT nD τ sig Ix (Elt F) ℕ U Lvl))
      = iprop((((c.tc : Thread nD τ).loc main_arg1) ↦{fullShare} V main_arg1) ∗ (((c.tc : Thread nD τ).loc main_v0) ↦{fullShare} V main_v0) ∗ (((c.tc : Thread nD τ).loc main_v1) ↦{fullShare} V main_v1) ∗ (((c.tc : Thread nD τ).loc main_call3_v1) ↦{fullShare} V main_call3_v1) ∗ (((c.tc : Thread nD τ).loc main_call3_v3) ↦{fullShare} V main_call3_v3) ∗ (((c.tc : Thread nD τ).loc main_v3) ↦{fullShare} V main_v3)) := by
  unfold Pipeline.arrBufs
  rw [bigSep_eq_bigSepL_of_eq [main_arg1, main_v0, main_v1, main_call3_v1, main_call3_v3, main_v3] image3 (by decide)]
  rfl

/-- The windows' arrays of pipeline 3, one by one: every array a whole buffer, held at the share `q3` names, at the
    contents `V` gives the buffer behind it. -/
theorem arrays3_chain (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (dat.arrays Fw : sProp (MT nD τ sig Ix (Elt F) ℕ U Lvl))
      = iprop((((c.tc : Thread nD τ).loc main_arg1) ↦{s5 0} V main_arg1) ∗ (((c.tc : Thread nD τ).loc main_arg1) ↦{s5 1} V main_arg1) ∗ (((c.tc : Thread nD τ).loc main_arg1) ↦{s5 2} V main_arg1) ∗ (((c.tc : Thread nD τ).loc main_arg1) ↦{s5 3} V main_arg1) ∗ (((c.tc : Thread nD τ).loc main_arg1) ↦{s5 4} V main_arg1) ∗ (((c.tc : Thread nD τ).loc main_v0) ↦{fullShare} V main_v0) ∗ (((c.tc : Thread nD τ).loc main_v1) ↦{fullShare} V main_v1) ∗ (((c.tc : Thread nD τ).loc main_call3_v1) ↦{fullShare} V main_call3_v1) ∗ (((c.tc : Thread nD τ).loc main_call3_v3) ↦{fullShare} V main_call3_v3) ∗ (((c.tc : Thread nD τ).loc main_v3) ↦{fullShare} V main_v3)) := by
  have h : dat.arrays Fw = bigSep Finset.univ fun w : Fin 10 =>
      (((c.tc : Thread nD τ).loc (Pipeline.arrRef spec3 w)) ↦{q3 w} V (Pipeline.arrRef spec3 w) : sProp (MT nD τ sig Ix (Elt F) ℕ U Lvl)) := by
    unfold Pipeline.Dat.arrays
    exact bigSep_congr fun w _ => by rw [(arr_whole3 w).set_eq_univ, share3 c dat hq w, hF w]
  rw [h, bigSep_W3]
  rfl

/-- The buffers behind pipeline 3's arrays, each whole at the full share, ARE the windows' arrays at the shares
    `q3`: the shared buffer's full share is the five shares `s5` together. -/
theorem arrBufs3_eq_arrays (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (Pipeline.arrBufs spec3 c V : sProp (MT nD τ sig Ix (Elt F) ℕ U Lvl)) = dat.arrays Fw := by
  rw [arrBufs3_chain, arrays3_chain c dat hq V Fw hF, five_eq, sep_assoc_eq, sep_assoc_eq, sep_assoc_eq, sep_assoc_eq]

/-- At pipeline 3's entry: the buffers behind its arrays, whole, yield its windows' arrays at the shares `q3`. -/
theorem hsplit3 (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    (Pipeline.arrBufs spec3 c V : sProp (MT nD τ sig Ix (Elt F) ℕ U Lvl)) ⊢ dat.arrays Fw :=
  Entails.of_eq (arrBufs3_eq_arrays c dat hq V Fw hF)

/-- At its exit: the windows' arrays at the shares `q3` give the buffers back whole. -/
theorem hjoin3 (c : Dev nD) (dat : Pipeline.Dat τ (Elt F) Ix ℕ U Lvl cfg3 c) (hq : dat.q = q3)
    (V : (b : Ref sig .tc) → Buf (Elt F) ((c.tc : Thread nD τ).loc b))
    (Fw : (w : Fin cfg3.W) → Buf (Elt F) ((cfg3.win w).arr.view.loc (c.tc : Thread nD τ)))
    (hF : ∀ w, Fw w = V (Pipeline.arrRef spec3 w)) :
    dat.arrays Fw ⊢ (Pipeline.arrBufs spec3 c V : sProp (MT nD τ sig Ix (Elt F) ℕ U Lvl)) :=
  Entails.of_eq (arrBufs3_eq_arrays c dat hq V Fw hF).symm

/-- The buffers of pipeline 3 that are no window's array do not include `main_v3`, the output window's array:
    contents that differ only there give the same assertion. -/
theorem unscopedRest3_update (c : Dev nD) (V V' : (b : Ref sig .tc) → Buf (Elt F) ((c.tc : Thread nD τ).loc b))
    (h : ∀ b : Ref sig .tc, b ≠ main_v3 → V' b = V b) :
    (Pipeline.unscopedRest (Ix := Ix) (Name := ℕ) (U := U) (Lvl := Lvl) spec3 c V' : sProp (MT nD τ sig Ix (Elt F) ℕ U Lvl))
      = Pipeline.unscopedRest spec3 c V := by
  unfold Pipeline.unscopedRest
  refine bigSep_congr fun b hb => ?_
  have hne : b ≠ main_v3 := fun e =>
    (Finset.mem_sdiff.mp hb).2 (e ▸ (by decide : main_v3 ∈ Finset.univ.image (Pipeline.arrRef spec3)))
  rw [h b hne]

end Cert.KernelIdeal.Shares

end
-- ==== Proof.KI.Region0.lean ====
/-
  Pallas_call 0 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.KI.Body0
import proofs.«105240_g55860344651847_cont_9to1c4b_578_12_alg».proof.Proof.KI.Shares
import Idealize.ShloMosaic.Lib.Pipeline.Regions
import Idealize.ShloMosaic.Lib.Pipeline.Frame

set_option maxRecDepth 16384

noncomputable section

namespace Cert.KernelIdeal.Region0

open Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg0 c) (hA : dat.A 0 = V (Pipeline.arrRef spec0 0))
    (hafter : ∀ t, dat.after 0 t = iblk c V 0 t) (t : Fin cfg0.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg0 c) (hA : dat.A 1 = V (Pipeline.arrRef spec0 1))
    (hafter : ∀ t, dat.after 1 t = iblk c V 1 t) (t : Fin cfg0.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg0 c) (hA : dat.A 2 = V (Pipeline.arrRef spec0 2))
    (hafter : ∀ t, dat.after 2 t = iblk c V 2 t) (t : Fin cfg0.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg0 c) (hA : dat.A 3 = V (Pipeline.arrRef spec0 3))
    (hafter : ∀ t, dat.after 3 t = iblk c V 3 t) (t : Fin cfg0.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg0 c) (hA : dat.A 4 = V (Pipeline.arrRef spec0 4))
    (hafter : ∀ t, dat.after 4 t = iblk c V 4 t) (t : Fin cfg0.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg0 c) (hA : dat.A 5 = V (Pipeline.arrRef spec0 5))
    (hafter : ∀ t, dat.after 5 t = iblk c V 5 t) (t : Fin cfg0.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg0 c) (hA : dat.A 6 = V (Pipeline.arrRef spec0 6))
    (hafter : ∀ t, dat.after 6 t = iblk c V 6 t) (t : Fin cfg0.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg0 c) (hA : dat.A 7 = V (Pipeline.arrRef spec0 7))
    (hafter : ∀ t, dat.after 7 t = iblk c V 7 t) (t : Fin cfg0.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg0 c) (hA : dat.A 8 = V (Pipeline.arrRef spec0 8))
    (hafter : ∀ t, dat.after 8 t = iblk c V 8 t) (t : Fin cfg0.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg0 c where
  A w := V (Pipeline.arrRef spec0 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec0 c
  q := Shares.q0
  owed _ := 0

theorem A_eq (w : Fin cfg0.W) : (dat c V).A w = V (Pipeline.arrRef spec0 w) := by dsimp only [dat]
theorem q_eq : (dat c V).q = Shares.q0 := by dsimp only [dat]

theorem after_0 (t : Fin cfg0.N) : (dat c V).after 0 t = iblk c V 0 t := by dsimp only [dat]
theorem after_1 (t : Fin cfg0.N) : (dat c V).after 1 t = iblk c V 1 t := by dsimp only [dat]
theorem after_2 (t : Fin cfg0.N) : (dat c V).after 2 t = iblk c V 2 t := by dsimp only [dat]
theorem after_3 (t : Fin cfg0.N) : (dat c V).after 3 t = iblk c V 3 t := by dsimp only [dat]
theorem after_4 (t : Fin cfg0.N) : (dat c V).after 4 t = iblk c V 4 t := by dsimp only [dat]
theorem after_5 (t : Fin cfg0.N) : (dat c V).after 5 t = iblk c V 5 t := by dsimp only [dat]
theorem after_6 (t : Fin cfg0.N) : (dat c V).after 6 t = iblk c V 6 t := by dsimp only [dat]
theorem after_7 (t : Fin cfg0.N) : (dat c V).after 7 t = iblk c V 7 t := by dsimp only [dat]
theorem after_8 (t : Fin cfg0.N) : (dat c V).after 8 t = iblk c V 8 t := by dsimp only [dat]
theorem after_9 (t : Fin cfg0.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg0.N) (d) : (dat c V).before 0 t d = iblk c V 0 t :=
  before_0_of c V (dat c V) (A_eq c V 0) (after_0 c V) t d
theorem before_1 (t : Fin cfg0.N) (d) : (dat c V).before 1 t d = iblk c V 1 t :=
  before_1_of c V (dat c V) (A_eq c V 1) (after_1 c V) t d
theorem before_2 (t : Fin cfg0.N) (d) : (dat c V).before 2 t d = iblk c V 2 t :=
  before_2_of c V (dat c V) (A_eq c V 2) (after_2 c V) t d
theorem before_3 (t : Fin cfg0.N) (d) : (dat c V).before 3 t d = iblk c V 3 t :=
  before_3_of c V (dat c V) (A_eq c V 3) (after_3 c V) t d
theorem before_4 (t : Fin cfg0.N) (d) : (dat c V).before 4 t d = iblk c V 4 t :=
  before_4_of c V (dat c V) (A_eq c V 4) (after_4 c V) t d
theorem before_5 (t : Fin cfg0.N) (d) : (dat c V).before 5 t d = iblk c V 5 t :=
  before_5_of c V (dat c V) (A_eq c V 5) (after_5 c V) t d
theorem before_6 (t : Fin cfg0.N) (d) : (dat c V).before 6 t d = iblk c V 6 t :=
  before_6_of c V (dat c V) (A_eq c V 6) (after_6 c V) t d
theorem before_7 (t : Fin cfg0.N) (d) : (dat c V).before 7 t d = iblk c V 7 t :=
  before_7_of c V (dat c V) (A_eq c V 7) (after_7 c V) t d
theorem before_8 (t : Fin cfg0.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg0.N) : sProp 𝕄 :=
  iprop((dat c V).Φ t.castSucc ∗ (dat c V).owesAt () t.castSucc
    ∗ (∃ d, owns (c : Thread nD τ) (st0_0 t) fullShare ((dat c V).before 0 t d))
    ∗ (∃ d, owns (c : Thread nD τ) (st0_1 t) fullShare ((dat c V).before 1 t d))
    ∗ (∃ d, owns (c : Thread nD τ) (st0_2 t) fullShare ((dat c V).before 2 t d))
    ∗ (∃ d, owns (c : Thread nD τ) (st0_3 t) fullShare ((dat c V).before 3 t d))
    ∗ (∃ d, owns (c : Thread nD τ) (st0_4 t) fullShare ((dat c V).before 4 t d))
    ∗ (∃ d, owns (c : Thread nD τ) (st0_5 t) fullShare ((dat c V).before 5 t d))
    ∗ (∃ d, owns (c : Thread nD τ) (st0_6 t) fullShare ((dat c V).before 6 t d))
    ∗ (∃ d, owns (c : Thread nD τ) (st0_7 t) fullShare ((dat c V).before 7 t d))
    ∗ (∃ d, owns (c : Thread nD τ) (st0_8 t) fullShare ((dat c V).before 8 t d))
    ∗ (∃ d, owns (c : Thread nD τ) (st0_9 t) fullShare ((dat c V).before 9 t d)))

/-- and what it returns. -/
def bodyPost (t : Fin cfg0.N) : sProp 𝕄 :=
  iprop((dat c V).Φ t.succ ∗ (dat c V).owesAt () t.succ
    ∗ owns (c : Thread nD τ) (st0_0 t) fullShare ((dat c V).after 0 t)
    ∗ owns (c : Thread nD τ) (st0_1 t) fullShare ((dat c V).after 1 t)
    ∗ owns (c : Thread nD τ) (st0_2 t) fullShare ((dat c V).after 2 t)
    ∗ owns (c : Thread nD τ) (st0_3 t) fullShare ((dat c V).after 3 t)
    ∗ owns (c : Thread nD τ) (st0_4 t) fullShare ((dat c V).after 4 t)
    ∗ owns (c : Thread nD τ) (st0_5 t) fullShare ((dat c V).after 5 t)
    ∗ owns (c : Thread nD τ) (st0_6 t) fullShare ((dat c V).after 6 t)
    ∗ owns (c : Thread nD τ) (st0_7 t) fullShare ((dat c V).after 7 t)
    ∗ owns (c : Thread nD τ) (st0_8 t) fullShare ((dat c V).after 8 t)
    ∗ owns (c : Thread nD τ) (st0_9 t) fullShare ((dat c V).after 9 t))

/-- The body at any point: the inputs' buffers hold their blocks, so the body's triple applies; the invariant and
    the core's debts pass through unread. -/
theorem sound_body (t : Fin cfg0.N) :
    bodyPre c V t ⊢ wp frame (wpE (defs₀ (F := F)) Variants.none c none) Set.univ (bodyAt0 t) (fun _ => bodyPost c V t) := by
  unfold bodyPre bodyPost bodyAt0
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W0, bigSep_W0]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec0 c (fun b => W b)) := by
  rw [← Pipeline.unscopedBufs_held c W, Pipeline.unscopedBufs_split₀ cfgs (0 : Fin 4) winFacts₀0.arr_unscoped c (fun b => W b)]
  exact sep_mono (Shares.hsplit0 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v0 = (dat c (fun b => W b)).arrAt 9 cfg0.N)
    (hne : ∀ b : Ref sig .tc, b ≠ main_v0 → W2 b = W b) :
    iprop((dat c (fun b => W b)).arrays ((dat c (fun b => W b)).arrAt · cfg0.N)
        ∗ Pipeline.unscopedRest (Ix := Unit) (Name := ℕ) (U := UR sig nD τ) (Lvl := ℕ) spec0 c (fun b => W b))
      ⊢ (StableHlo.held (c : Thread nD τ) (Pipeline.ucRefs τ sig) W2 : sProp 𝕄) := by
  rw [← Pipeline.unscopedBufs_held c W2, Pipeline.unscopedBufs_split₀ cfgs (0 : Fin 4) winFacts₀0.arr_unscoped c (fun b => W2 b)]
  have hF : ∀ w : Fin cfg0.W, (dat c (fun b => W b)).arrAt w cfg0.N = W2 (Pipeline.arrRef spec0 w) := fun w => by
    match w with
    | ⟨0, _⟩ => exact ((dat c (fun b => W b)).arrAt_in 0 rfl _).trans ((A_eq c (fun b => W b) 0).trans (hne main_arg0 (by decide)).symm)
    | ⟨1, _⟩ => exact ((dat c (fun b => W b)).arrAt_in 1 rfl _).trans ((A_eq c (fun b => W b) 1).trans (hne main_arg0 (by decide)).symm)
    | ⟨2, _⟩ => exact ((dat c (fun b => W b)).arrAt_in 2 rfl _).trans ((A_eq c (fun b => W b) 2).trans (hne main_arg0 (by decide)).symm)
    | ⟨3, _⟩ => exact ((dat c (fun b => W b)).arrAt_in 3 rfl _).trans ((A_eq c (fun b => W b) 3).trans (hne main_arg0 (by decide)).symm)
    | ⟨4, _⟩ => exact ((dat c (fun b => W b)).arrAt_in 4 rfl _).trans ((A_eq c (fun b => W b) 4).trans (hne main_arg0 (by decide)).symm)
    | ⟨5, _⟩ => exact ((dat c (fun b => W b)).arrAt_in 5 rfl _).trans ((A_eq c (fun b => W b) 5).trans (hne main_arg3 (by decide)).symm)
    | ⟨6, _⟩ => exact ((dat c (fun b => W b)).arrAt_in 6 rfl _).trans ((A_eq c (fun b => W b) 6).trans (hne main_arg2 (by decide)).symm)
    | ⟨7, _⟩ => exact ((dat c (fun b => W b)).arrAt_in 7 rfl _).trans ((A_eq c (fun b => W b) 7).trans (hne main_call0_v1 (by decide)).symm)
    | ⟨8, _⟩ => exact ((dat c (fun b => W b)).arrAt_in 8 rfl _).trans ((A_eq c (fun b => W b) 8).trans (hne main_call0_v3 (by decide)).symm)
    | ⟨9, _⟩ => exact h9.symm
  exact BIClass.sep_mono (Shares.hjoin0 c (dat c (fun b => W b)) (q_eq c _) (fun b => W2 b) (fun w => (dat c (fun b => W b)).arrAt w cfg0.N) hF)
    (Entails.of_eq (Shares.unscopedRest0_update c (fun b => W b) (fun b => W2 b) hne).symm)

end Cert.KernelIdeal.Region0

end
-- ==== Proof.KI.Body1.lean ====
/-
  The kernel body of pallas_call 1 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.KernelIdeal.Launch
import proofs.«105240_g55860344651847_cont_9to1c4b_578_12_alg».proof.Proof.Gen.KernelIdeal.Skeleton
import proofs.«105240_g55860344651847_cont_9to1c4b_578_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k1_pay1 (k1_pay2 (View.ld x6 rH) (View.ld x1 rA) (View.ld x2 rA) (View.ld x3 rA) (View.ld x4 rA) (View.ld x5 rA) (View.ld x7 rB) (View.ld x8 rW) (View.ld x9 rW)) (k1_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc1__layer_side_body i arg1 harg1 arg2 harg2 arg3 harg3 arg4 harg4 arg5 harg5 arg6 harg6 arg7 harg7 arg8 harg8 arg9 harg9 arg10 harg10) K := by
  simp only [cc1__layer_side_body_eq_skeleton]; unfold cc1__layer_side_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.KernelIdeal.Body1

end
-- ==== Proof.KI.Region1.lean ====
/-
  Pallas_call 1 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.KI.Body1
import proofs.«105240_g55860344651847_cont_9to1c4b_578_12_alg».proof.Proof.KI.Shares
import Idealize.ShloMosaic.Lib.Pipeline.Regions
import Idealize.ShloMosaic.Lib.Pipeline.Frame

set_option maxRecDepth 16384

noncomputable section

namespace Cert.KernelIdeal.Region1

open Cert.KernelIdeal Cert.KernelIdeal.Gen Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg1 c) (hA : dat.A 0 = V (Pipeline.arrRef spec1 0))
    (hafter : ∀ t, dat.after 0 t = iblk c V 0 t) (t : Fin cfg1.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg1 c) (hA : dat.A 1 = V (Pipeline.arrRef spec1 1))
    (hafter : ∀ t, dat.after 1 t = iblk c V 1 t) (t : Fin cfg1.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg1 c) (hA : dat.A 2 = V (Pipeline.arrRef spec1 2))
    (hafter : ∀ t, dat.after 2 t = iblk c V 2 t) (t : Fin cfg1.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg1 c) (hA : dat.A 3 = V (Pipeline.arrRef spec1 3))
    (hafter : ∀ t, dat.after 3 t = iblk c V 3 t) (t : Fin cfg1.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg1 c) (hA : dat.A 4 = V (Pipeline.arrRef spec1 4))
    (hafter : ∀ t, dat.after 4 t = iblk c V 4 t) (t : Fin cfg1.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg1 c) (hA : dat.A 5 = V (Pipeline.arrRef spec1 5))
    (hafter : ∀ t, dat.after 5 t = iblk c V 5 t) (t : Fin cfg1.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg1 c) (hA : dat.A 6 = V (Pipeline.arrRef spec1 6))
    (hafter : ∀ t, dat.after 6 t = iblk c V 6 t) (t : Fin cfg1.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg1 c) (hA : dat.A 7 = V (Pipeline.arrRef spec1 7))
    (hafter : ∀ t, dat.after 7 t = iblk c V 7 t) (t : Fin cfg1.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg1 c) (hA : dat.A 8 = V (Pipeline.arrRef spec1 8))
    (hafter : ∀ t, dat.after 8 t = iblk c V 8 t) (t : Fin cfg1.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec1 c
  q := Shares.q1
  owed _ := 0

theorem A_eq (w : Fin cfg1.W) : (dat c V).A w = V (Pipeline.arrRef spec1 w) := by dsimp only [dat]
theorem q_eq : (dat c V).q = Shares.q1 := by dsimp only [dat]

theorem after_0 (t : Fin cfg1.N) : (dat c V).after 0 t = iblk c V 0 t := by dsimp only [dat]
theorem after_1 (t : Fin cfg1.N) : (dat c V).after 1 t = iblk c V 1 t := by dsimp only [dat]
theorem after_2 (t : Fin cfg1.N) : (dat c V).after 2 t = iblk c V 2 t := by dsimp only [dat]
theorem after_3 (t : Fin cfg1.N) : (dat c V).after 3 t = iblk c V 3 t := by dsimp only [dat]
theorem after_4 (t : Fin cfg1.N) : (dat c V).after 4 t = iblk c V 4 t := by dsimp only [dat]
theorem after_5 (t : Fin cfg1.N) : (dat c V).after 5 t = iblk c V 5 t := by dsimp only [dat]
theorem after_6 (t : Fin cfg1.N) : (dat c V).after 6 t = iblk c V 6 t := by dsimp only [dat]
theorem after_7 (t : Fin cfg1.N) : (dat c V).after 7 t = iblk c V 7 t := by dsimp only [dat]
theorem after_8 (t : Fin cfg1.N) : (dat c V).after 8 t = iblk c V 8 t := by dsimp only [dat]
theorem after_9 (t : Fin cfg1.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg1.N) (d) : (dat c V).before 0 t d = iblk c V 0 t :=
  before_0_of c V (dat c V) (A_eq c V 0) (after_0 c V) t d
theorem before_1 (t : Fin cfg1.N) (d) : (dat c V).before 1 t d = iblk c V 1 t :=
  before_1_of c V (dat c V) (A_eq c V 1) (after_1 c V) t d
theorem before_2 (t : Fin cfg1.N) (d) : (dat c V).before 2 t d = iblk c V 2 t :=
  before_2_of c V (dat c V) (A_eq c V 2) (after_2 c V) t d
theorem before_3 (t : Fin cfg1.N) (d) : (dat c V).before 3 t d = iblk c V 3 t :=
  before_3_of c V (dat c V) (A_eq c V 3) (after_3 c V) t d
theorem before_4 (t : Fin cfg1.N) (d) : (dat c V).before 4 t d = iblk c V 4 t :=
  before_4_of c V (dat c V) (A_eq c V 4) (after_4 c V) t d
theorem before_5 (t : Fin cfg1.N) (d) : (dat c V).before 5 t d = iblk c V 5 t :=
  before_5_of c V (dat c V) (A_eq c V 5) (after_5 c V) t d
theorem before_6 (t : Fin cfg1.N) (d) : (dat c V).before 6 t d = iblk c V 6 t :=
  before_6_of c V (dat c V) (A_eq c V 6) (after_6 c V) t d
theorem before_7 (t : Fin cfg1.N) (d) : (dat c V).before 7 t d = iblk c V 7 t :=
  before_7_of c V (dat c V) (A_eq c V 7) (after_7 c V) t d
theorem before_8 (t : Fin cfg1.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg1.N) : sProp 𝕄 :=
  iprop((dat c V).Φ t.castSucc ∗ (dat c V).owesAt () t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d))
    ∗ (∃ d, owns (c : Thread nD τ) (st1_4 t) fullShare ((dat c V).before 4 t d))
    ∗ (∃ d, owns (c : Thread nD τ) (st1_5 t) fullShare ((dat c V).before 5 t d))
    ∗ (∃ d, owns (c : Thread nD τ) (st1_6 t) fullShare ((dat c V).before 6 t d))
    ∗ (∃ d, owns (c : Thread nD τ) (st1_7 t) fullShare ((dat c V).before 7 t d))
    ∗ (∃ d, owns (c : Thread nD τ) (st1_8 t) fullShare ((dat c V).before 8 t d))
    ∗ (∃ d, owns (c : Thread nD τ) (st1_9 t) fullShare ((dat c V).before 9 t d)))

/-- and what it returns. -/
def bodyPost (t : Fin cfg1.N) : sProp 𝕄 :=
  iprop((dat c V).Φ t.succ ∗ (dat c V).owesAt () t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t)
    ∗ owns (c : Thread nD τ) (st1_4 t) fullShare ((dat c V).after 4 t)
    ∗ owns (c : Thread nD τ) (st1_5 t) fullShare ((dat c V).after 5 t)
    ∗ owns (c : Thread nD τ) (st1_6 t) fullShare ((dat c V).after 6 t)
    ∗ owns (c : Thread nD τ) (st1_7 t) fullShare ((dat c V).after 7 t)
    ∗ owns (c : Thread nD τ) (st1_8 t) fullShare ((dat c V).after 8 t)
    ∗ owns (c : Thread nD τ) (st1_9 t) fullShare ((dat c V).after 9 t))

/-- The body at any point: the inputs' buffers hold their blocks, so the body's triple applies; the invariant and
    the core's debts pass through unread. -/
theorem sound_body (t : Fin cfg1.N) :
    bodyPre c V t ⊢ wp frame (wpE (defs₀ (F := F)) Variants.none c none) Set.univ (bodyAt1 t) (fun _ => bodyPost c V t) := by
  unfold bodyPre bodyPost bodyAt1
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W1, bigSep_W1]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec1 c (fun b => W b)) := by
  rw [← Pipeline.unscopedBufs_held c W, Pipeline.unscopedBufs_split₀ cfgs (1 : Fin 4) winFacts₀1.arr_unscoped c (fun b => W b)]
  exact sep_mono (Shares.hsplit1 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v1 = (dat c (fun b => W b)).arrAt 9 cfg1.N)
    (hne : ∀ b : Ref sig .tc, b ≠ main_v1 → W2 b = W b) :
    iprop((dat c (fun b => W b)).arrays ((dat c (fun b => W b)).arrAt · cfg1.N)
        ∗ Pipeline.unscopedRest (Ix := Unit) (Name := ℕ) (U := UR sig nD τ) (Lvl := ℕ) spec1 c (fun b => W b))
      ⊢ (StableHlo.held (c : Thread nD τ) (Pipeline.ucRefs τ sig) W2 : sProp 𝕄) := by
  rw [← Pipeline.unscopedBufs_held c W2, Pipeline.unscopedBufs_split₀ cfgs (1 : Fin 4) winFacts₀1.arr_unscoped c (fun b => W2 b)]
  have hF : ∀ w : Fin cfg1.W, (dat c (fun b => W b)).arrAt w cfg1.N = W2 (Pipeline.arrRef spec1 w) := fun w => by
    match w with
    | ⟨0, _⟩ => exact ((dat c (fun b => W b)).arrAt_in 0 rfl _).trans ((A_eq c (fun b => W b) 0).trans (hne main_arg1 (by decide)).symm)
    | ⟨1, _⟩ => exact ((dat c (fun b => W b)).arrAt_in 1 rfl _).trans ((A_eq c (fun b => W b) 1).trans (hne main_arg1 (by decide)).symm)
    | ⟨2, _⟩ => exact ((dat c (fun b => W b)).arrAt_in 2 rfl _).trans ((A_eq c (fun b => W b) 2).trans (hne main_arg1 (by decide)).symm)
    | ⟨3, _⟩ => exact ((dat c (fun b => W b)).arrAt_in 3 rfl _).trans ((A_eq c (fun b => W b) 3).trans (hne main_arg1 (by decide)).symm)
    | ⟨4, _⟩ => exact ((dat c (fun b => W b)).arrAt_in 4 rfl _).trans ((A_eq c (fun b => W b) 4).trans (hne main_arg1 (by decide)).symm)
    | ⟨5, _⟩ => exact ((dat c (fun b => W b)).arrAt_in 5 rfl _).trans ((A_eq c (fun b => W b) 5).trans (hne main_arg2 (by decide)).symm)
    | ⟨6, _⟩ => exact ((dat c (fun b => W b)).arrAt_in 6 rfl _).trans ((A_eq c (fun b => W b) 6).trans (hne main_arg3 (by decide)).symm)
    | ⟨7, _⟩ => exact ((dat c (fun b => W b)).arrAt_in 7 rfl _).trans ((A_eq c (fun b => W b) 7).trans (hne main_call1_v1 (by decide)).symm)
    | ⟨8, _⟩ => exact ((dat c (fun b => W b)).arrAt_in 8 rfl _).trans ((A_eq c (fun b => W b) 8).trans (hne main_call1_v3 (by decide)).symm)
    | ⟨9, _⟩ => exact h9.symm
  exact BIClass.sep_mono (Shares.hjoin1 c (dat c (fun b => W b)) (q_eq c _) (fun b => W2 b) (fun w => (dat c (fun b => W b)).arrAt w cfg1.N) hF)
    (Entails.of_eq (Shares.unscopedRest1_update c (fun b => W b) (fun b => W2 b) hne).symm)

end Cert.KernelIdeal.Region1

end
-- ==== Proof.KI.Body2.lean ====
/-
  The kernel body of pallas_call 2 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.KernelIdeal.Launch
import proofs.«105240_g55860344651847_cont_9to1c4b_578_12_alg».proof.Proof.Gen.KernelIdeal.Skeleton
import proofs.«105240_g55860344651847_cont_9to1c4b_578_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k2_pay1 (k2_pay2 (View.ld x6 rH) (View.ld x1 rA) (View.ld x2 rA) (View.ld x3 rA) (View.ld x4 rA) (View.ld x5 rA) (View.ld x7 rB) (View.ld x8 rW) (View.ld x9 rW)) (k2_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid2.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc2__layer_side_body i arg1 harg1 arg2 harg2 arg3 harg3 arg4 harg4 arg5 harg5 arg6 harg6 arg7 harg7 arg8 harg8 arg9 harg9 arg10 harg10) K := by
  simp only [cc2__layer_side_body_eq_skeleton]; unfold cc2__layer_side_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.KernelIdeal.Body2

end
-- ==== Proof.KI.Region2.lean ====
/-
  Pallas_call 2 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.KI.Body2
import proofs.«105240_g55860344651847_cont_9to1c4b_578_12_alg».proof.Proof.KI.Shares
import Idealize.ShloMosaic.Lib.Pipeline.Regions
import Idealize.ShloMosaic.Lib.Pipeline.Frame

set_option maxRecDepth 16384

noncomputable section

namespace Cert.KernelIdeal.Region2

open Cert.KernelIdeal Cert.KernelIdeal.Gen Cert.KernelIdeal.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg2 c) (hA : dat.A 0 = V (Pipeline.arrRef spec2 0))
    (hafter : ∀ t, dat.after 0 t = iblk c V 0 t) (t : Fin cfg2.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg2 c) (hA : dat.A 1 = V (Pipeline.arrRef spec2 1))
    (hafter : ∀ t, dat.after 1 t = iblk c V 1 t) (t : Fin cfg2.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg2 c) (hA : dat.A 2 = V (Pipeline.arrRef spec2 2))
    (hafter : ∀ t, dat.after 2 t = iblk c V 2 t) (t : Fin cfg2.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg2 c) (hA : dat.A 3 = V (Pipeline.arrRef spec2 3))
    (hafter : ∀ t, dat.after 3 t = iblk c V 3 t) (t : Fin cfg2.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg2 c) (hA : dat.A 4 = V (Pipeline.arrRef spec2 4))
    (hafter : ∀ t, dat.after 4 t = iblk c V 4 t) (t : Fin cfg2.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg2 c) (hA : dat.A 5 = V (Pipeline.arrRef spec2 5))
    (hafter : ∀ t, dat.after 5 t = iblk c V 5 t) (t : Fin cfg2.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg2 c) (hA : dat.A 6 = V (Pipeline.arrRef spec2 6))
    (hafter : ∀ t, dat.after 6 t = iblk c V 6 t) (t : Fin cfg2.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg2 c) (hA : dat.A 7 = V (Pipeline.arrRef spec2 7))
    (hafter : ∀ t, dat.after 7 t = iblk c V 7 t) (t : Fin cfg2.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg2 c) (hA : dat.A 8 = V (Pipeline.arrRef spec2 8))
    (hafter : ∀ t, dat.after 8 t = iblk c V 8 t) (t : Fin cfg2.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec2 c
  q := Shares.q2
  owed _ := 0

theorem A_eq (w : Fin cfg2.W) : (dat c V).A w = V (Pipeline.arrRef spec2 w) := by dsimp only [dat]
theorem q_eq : (dat c V).q = Shares.q2 := by dsimp only [dat]

theorem after_0 (t : Fin cfg2.N) : (dat c V).after 0 t = iblk c V 0 t := by dsimp only [dat]
theorem after_1 (t : Fin cfg2.N) : (dat c V).after 1 t = iblk c V 1 t := by dsimp only [dat]
theorem after_2 (t : Fin cfg2.N) : (dat c V).after 2 t = iblk c V 2 t := by dsimp only [dat]
theorem after_3 (t : Fin cfg2.N) : (dat c V).after 3 t = iblk c V 3 t := by dsimp only [dat]
theorem after_4 (t : Fin cfg2.N) : (dat c V).after 4 t = iblk c V 4 t := by dsimp only [dat]
theorem after_5 (t : Fin cfg2.N) : (dat c V).after 5 t = iblk c V 5 t := by dsimp only [dat]
theorem after_6 (t : Fin cfg2.N) : (dat c V).after 6 t = iblk c V 6 t := by dsimp only [dat]
theorem after_7 (t : Fin cfg2.N) : (dat c V).after 7 t = iblk c V 7 t := by dsimp only [dat]
theorem after_8 (t : Fin cfg2.N) : (dat c V).after 8 t = iblk c V 8 t := by dsimp only [dat]
theorem after_9 (t : Fin cfg2.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg2.N) (d) : (dat c V).before 0 t d = iblk c V 0 t :=
  before_0_of c V (dat c V) (A_eq c V 0) (after_0 c V) t d
theorem before_1 (t : Fin cfg2.N) (d) : (dat c V).before 1 t d = iblk c V 1 t :=
  before_1_of c V (dat c V) (A_eq c V 1) (after_1 c V) t d
theorem before_2 (t : Fin cfg2.N) (d) : (dat c V).before 2 t d = iblk c V 2 t :=
  before_2_of c V (dat c V) (A_eq c V 2) (after_2 c V) t d
theorem before_3 (t : Fin cfg2.N) (d) : (dat c V).before 3 t d = iblk c V 3 t :=
  before_3_of c V (dat c V) (A_eq c V 3) (after_3 c V) t d
theorem before_4 (t : Fin cfg2.N) (d) : (dat c V).before 4 t d = iblk c V 4 t :=
  before_4_of c V (dat c V) (A_eq c V 4) (after_4 c V) t d
theorem before_5 (t : Fin cfg2.N) (d) : (dat c V).before 5 t d = iblk c V 5 t :=
  before_5_of c V (dat c V) (A_eq c V 5) (after_5 c V) t d
theorem before_6 (t : Fin cfg2.N) (d) : (dat c V).before 6 t d = iblk c V 6 t :=
  before_6_of c V (dat c V) (A_eq c V 6) (after_6 c V) t d
theorem before_7 (t : Fin cfg2.N) (d) : (dat c V).before 7 t d = iblk c V 7 t :=
  before_7_of c V (dat c V) (A_eq c V 7) (after_7 c V) t d
theorem before_8 (t : Fin cfg2.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg2.N) : sProp 𝕄 :=
  iprop((dat c V).Φ t.castSucc ∗ (dat c V).owesAt () t.castSucc
    ∗ (∃ d, owns (c : Thread nD τ) (st2_0 t) fullShare ((dat c V).before 0 t d))
    ∗ (∃ d, owns (c : Thread nD τ) (st2_1 t) fullShare ((dat c V).before 1 t d))
    ∗ (∃ d, owns (c : Thread nD τ) (st2_2 t) fullShare ((dat c V).before 2 t d))
    ∗ (∃ d, owns (c : Thread nD τ) (st2_3 t) fullShare ((dat c V).before 3 t d))
    ∗ (∃ d, owns (c : Thread nD τ) (st2_4 t) fullShare ((dat c V).before 4 t d))
    ∗ (∃ d, owns (c : Thread nD τ) (st2_5 t) fullShare ((dat c V).before 5 t d))
    ∗ (∃ d, owns (c : Thread nD τ) (st2_6 t) fullShare ((dat c V).before 6 t d))
    ∗ (∃ d, owns (c : Thread nD τ) (st2_7 t) fullShare ((dat c V).before 7 t d))
    ∗ (∃ d, owns (c : Thread nD τ) (st2_8 t) fullShare ((dat c V).before 8 t d))
    ∗ (∃ d, owns (c : Thread nD τ) (st2_9 t) fullShare ((dat c V).before 9 t d)))

/-- and what it returns. -/
def bodyPost (t : Fin cfg2.N) : sProp 𝕄 :=
  iprop((dat c V).Φ t.succ ∗ (dat c V).owesAt () t.succ
    ∗ owns (c : Thread nD τ) (st2_0 t) fullShare ((dat c V).after 0 t)
    ∗ owns (c : Thread nD τ) (st2_1 t) fullShare ((dat c V).after 1 t)
    ∗ owns (c : Thread nD τ) (st2_2 t) fullShare ((dat c V).after 2 t)
    ∗ owns (c : Thread nD τ) (st2_3 t) fullShare ((dat c V).after 3 t)
    ∗ owns (c : Thread nD τ) (st2_4 t) fullShare ((dat c V).after 4 t)
    ∗ owns (c : Thread nD τ) (st2_5 t) fullShare ((dat c V).after 5 t)
    ∗ owns (c : Thread nD τ) (st2_6 t) fullShare ((dat c V).after 6 t)
    ∗ owns (c : Thread nD τ) (st2_7 t) fullShare ((dat c V).after 7 t)
    ∗ owns (c : Thread nD τ) (st2_8 t) fullShare ((dat c V).after 8 t)
    ∗ owns (c : Thread nD τ) (st2_9 t) fullShare ((dat c V).after 9 t))

/-- The body at any point: the inputs' buffers hold their blocks, so the body's triple applies; the invariant and
    the core's debts pass through unread. -/
theorem sound_body (t : Fin cfg2.N) :
    bodyPre c V t ⊢ wp frame (wpE (defs₀ (F := F)) Variants.none c none) Set.univ (bodyAt2 t) (fun _ => bodyPost c V t) := by
  unfold bodyPre bodyPost bodyAt2
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W2, bigSep_W2]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec2 c (fun b => W b)) := by
  rw [← Pipeline.unscopedBufs_held c W, Pipeline.unscopedBufs_split₀ cfgs (2 : Fin 4) winFacts₀2.arr_unscoped c (fun b => W b)]
  exact sep_mono (Shares.hsplit2 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v2 = (dat c (fun b => W b)).arrAt 9 cfg2.N)
    (hne : ∀ b : Ref sig .tc, b ≠ main_v2 → W2 b = W b) :
    iprop((dat c (fun b => W b)).arrays ((dat c (fun b => W b)).arrAt · cfg2.N)
        ∗ Pipeline.unscopedRest (Ix := Unit) (Name := ℕ) (U := UR sig nD τ) (Lvl := ℕ) spec2 c (fun b => W b))
      ⊢ (StableHlo.held (c : Thread nD τ) (Pipeline.ucRefs τ sig) W2 : sProp 𝕄) := by
  rw [← Pipeline.unscopedBufs_held c W2, Pipeline.unscopedBufs_split₀ cfgs (2 : Fin 4) winFacts₀2.arr_unscoped c (fun b => W2 b)]
  have hF : ∀ w : Fin cfg2.W, (dat c (fun b => W b)).arrAt w cfg2.N = W2 (Pipeline.arrRef spec2 w) := fun w => by
    match w with
    | ⟨0, _⟩ => exact ((dat c (fun b => W b)).arrAt_in 0 rfl _).trans ((A_eq c (fun b => W b) 0).trans (hne main_arg0 (by decide)).symm)
    | ⟨1, _⟩ => exact ((dat c (fun b => W b)).arrAt_in 1 rfl _).trans ((A_eq c (fun b => W b) 1).trans (hne main_arg0 (by decide)).symm)
    | ⟨2, _⟩ => exact ((dat c (fun b => W b)).arrAt_in 2 rfl _).trans ((A_eq c (fun b => W b) 2).trans (hne main_arg0 (by decide)).symm)
    | ⟨3, _⟩ => exact ((dat c (fun b => W b)).arrAt_in 3 rfl _).trans ((A_eq c (fun b => W b) 3).trans (hne main_arg0 (by decide)).symm)
    | ⟨4, _⟩ => exact ((dat c (fun b => W b)).arrAt_in 4 rfl _).trans ((A_eq c (fun b => W b) 4).trans (hne main_arg0 (by decide)).symm)
    | ⟨5, _⟩ => exact ((dat c (fun b => W b)).arrAt_in 5 rfl _).trans ((A_eq c (fun b => W b) 5).trans (hne main_v1 (by decide)).symm)
    | ⟨6, _⟩ => exact ((dat c (fun b => W b)).arrAt_in 6 rfl _).trans ((A_eq c (fun b => W b) 6).trans (hne main_v0 (by decide)).symm)
    | ⟨7, _⟩ => exact ((dat c (fun b => W b)).arrAt_in 7 rfl _).trans ((A_eq c (fun b => W b) 7).trans (hne main_call2_v1 (by decide)).symm)
    | ⟨8, _⟩ => exact ((dat c (fun b => W b)).arrAt_in 8 rfl _).trans ((A_eq c (fun b => W b) 8).trans (hne main_call2_v3 (by decide)).symm)
    | ⟨9, _⟩ => exact h9.symm
  exact BIClass.sep_mono (Shares.hjoin2 c (dat c (fun b => W b)) (q_eq c _) (fun b => W2 b) (fun w => (dat c (fun b => W b)).arrAt w cfg2.N) hF)
    (Entails.of_eq (Shares.unscopedRest2_update c (fun b => W b) (fun b => W2 b) hne).symm)

end Cert.KernelIdeal.Region2

end
-- ==== Proof.KI.Body3.lean ====
/-
  The kernel body of pallas_call 3 on whole staging buffers.

  The body loads the five adjacency row blocks, the other side's embeddings, this side's row block and the two
  halves of the transposed weight matrix, and stores one 400 × 64 block: the normalised rectified activations
  of those 400 rows. What the output buffer holds after the body is stated as a function of the nine input
  buffers' contents (`out9`); the body's triple says the inputs are left as found and the output at `out9`.
-/
import proofs.«105240_g55860344651847_cont_9to1c4b_578_12_alg».proof.Proof.Gen.KernelIdeal.Launch
import proofs.«105240_g55860344651847_cont_9to1c4b_578_12_alg».proof.Proof.Gen.KernelIdeal.Skeleton
import proofs.«105240_g55860344651847_cont_9to1c4b_578_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of an adjacency row block, -/
abbrev rA : Rect S80x10000 := Rect.unit (s := S80x10000) ![0, 0] S80x10000.size inb_S80x10000_S80x10000_0_0
/-- of the embeddings, -/
abbrev rH : Rect S10000x64 := Rect.unit (s := S10000x64) ![0, 0] S10000x64.size inb_S10000x64_S10000x64_0_0
/-- of a 400-row block, -/
abbrev rB : Rect S400x64 := Rect.unit (s := S400x64) ![0, 0] S400x64.size inb_S400x64_S400x64_0_0
/-- and of a weight half. -/
abbrev rW : Rect S64x64 := Rect.unit (s := S64x64) ![0, 0] S64x64.size inb_S64x64_S64x64_0_0

/-- The output buffer after the body, from the nine input buffers' contents: the one store, of the body's
    arithmetic on the loaded values, read back as a whole-buffer function. -/
def out9 (x1 x2 x3 x4 x5 : Vec F S80x10000 .f32) (x6 : Vec F S10000x64 .f32) (x7 : Vec F S400x64 .f32) (x8 x9 : Vec F S64x64 .f32) : Vec F S400x64 .f32 :=
  View.canon [⟨rB, k3_pay1 (k3_pay2 (View.ld x6 rH) (View.ld x1 rA) (View.ld x2 rA) (View.ld x3 rA) (View.ld x4 rA) (View.ld x5 rA) (View.ld x7 rB) (View.ld x8 rW) (View.ld x9 rW)) (k3_pay3 (View.ld x6 rH) (View.ld x1 rA) (View.ld x2 rA) (View.ld x3 rA) (View.ld x4 rA) (View.ld x5 rA) (View.ld x7 rB) (View.ld x8 rW) (View.ld x9 rW))⟩]

/-- The store's rectangle is the whole buffer. -/
theorem cover9 (p0 : Vec F S400x64 .f32) (y : S400x64.Idx) :
    ∃ pc ∈ ([⟨rB, p0⟩] : List (View.Piece (Elt F) S400x64 .f32)), y ∈ pc.1.set :=
  View.cover_of_tiled [⟨rB, p0⟩] S400x64.size (by rfl) y

set_option maxHeartbeats 4000000 in
/-- The body's triple: from the nine input buffers at read contents and the output buffer at anything, the body
    runs to the continuation holding the inputs as they were and the output at `out9` of them. -/
theorem sound_kernel (c : Dev nD) (E : Set ℕ) (i : grid3.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x64 .f32) (harg6 : arg6.IsWhole) (arg7 : Memref sig .tc .vmem S400x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S400x64 .f32) (harg10 : arg10.IsWhole)
    (x1 x2 x3 x4 x5 : Vec F S80x10000 .f32) (x6 : Vec F S10000x64 .f32) (x7 : Vec F S400x64 .f32) (x8 x9 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out9 x1 x2 x3 x4 x5 x6 x7 x8 x9)) -∗ K ⟨⟩))
      ⊢ wp frame (wpE (defs₀ (F := F)) Variants.none c none) E (cc3__layer_side_body i arg1 harg1 arg2 harg2 arg3 harg3 arg4 harg4 arg5 harg5 arg6 harg6 arg7 harg7 arg8 harg8 arg9 harg9 arg10 harg10) K := by
  simp only [cc3__layer_side_body_eq_skeleton]; unfold cc3__layer_side_body_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover9 _)

end Cert.KernelIdeal.Body3

end
-- ==== Proof.KI.Region3.lean ====
/-
  Pallas_call 3 as one region of the program: its blocks, its proof data, its body obligation, and its entry and exit.

  The region's ten windows are five 80-row slices of one adjacency matrix (all five on the SAME array, each
  holding a fifth of its share), the other side's embeddings, this side's 400-row block, the two transposed
  weight halves, and the output's 400-row block. At grid point `t` the body finds each input window's block of the
  array as the region found it, and leaves in the output's buffer the body's function of those nine blocks; nothing
  else is touched. Entering, the region takes the six distinct arrays out of the core's unscoped buffers and splits
  the adjacency matrix's share in five; leaving, it joins them back, the output's array at what the write-backs left.
-/
import proofs.«105240_g55860344651847_cont_9to1c4b_578_12_alg».proof.Proof.KI.Body3
import proofs.«105240_g55860344651847_cont_9to1c4b_578_12_alg».proof.Proof.KI.Shares
import Idealize.ShloMosaic.Lib.Pipeline.Regions
import Idealize.ShloMosaic.Lib.Pipeline.Frame

set_option maxRecDepth 16384

noncomputable section

namespace Cert.KernelIdeal.Region3

open Cert.KernelIdeal Cert.KernelIdeal.Gen Cert.KernelIdeal.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## The windows' blocks -/

/-- Window `w`'s block at point `t`, read off its array as the region finds it. -/
def iblk (w : Fin cfg3.W) (t : Fin cfg3.N) : ((cfg3.win w).xblock (cfg3.grid.coords t)).Idx → Elt F (cfg3.win w).elt :=
  ((cfg3.win w).blk t).view.read (Elt F) (V (Pipeline.arrRef spec3 w))

/-! Each input window's current staging buffer holds its block at every point, fetched there or not (unfetched,
    the block's index has not moved), for any proof data whose array is the region-entry contents and whose body
    leaves the block in place. -/
theorem before_0_of (dat : Dat τ (Elt F) Unit ℕ (UR sig nD τ) ℕ cfg3 c) (hA : dat.A 0 = V (Pipeline.arrRef spec3 0))
    (hafter : ∀ t, dat.after 0 t = iblk c V 0 t) (t : Fin cfg3.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (dat : Dat τ (Elt F) Unit ℕ (UR sig nD τ) ℕ cfg3 c) (hA : dat.A 1 = V (Pipeline.arrRef spec3 1))
    (hafter : ∀ t, dat.after 1 t = iblk c V 1 t) (t : Fin cfg3.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (dat : Dat τ (Elt F) Unit ℕ (UR sig nD τ) ℕ cfg3 c) (hA : dat.A 2 = V (Pipeline.arrRef spec3 2))
    (hafter : ∀ t, dat.after 2 t = iblk c V 2 t) (t : Fin cfg3.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (dat : Dat τ (Elt F) Unit ℕ (UR sig nD τ) ℕ cfg3 c) (hA : dat.A 3 = V (Pipeline.arrRef spec3 3))
    (hafter : ∀ t, dat.after 3 t = iblk c V 3 t) (t : Fin cfg3.N) (d) : dat.before 3 t d = iblk c V 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (dat : Dat τ (Elt F) Unit ℕ (UR sig nD τ) ℕ cfg3 c) (hA : dat.A 4 = V (Pipeline.arrRef spec3 4))
    (hafter : ∀ t, dat.after 4 t = iblk c V 4 t) (t : Fin cfg3.N) (d) : dat.before 4 t d = iblk c V 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (dat : Dat τ (Elt F) Unit ℕ (UR sig nD τ) ℕ cfg3 c) (hA : dat.A 5 = V (Pipeline.arrRef spec3 5))
    (hafter : ∀ t, dat.after 5 t = iblk c V 5 t) (t : Fin cfg3.N) (d) : dat.before 5 t d = iblk c V 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (dat : Dat τ (Elt F) Unit ℕ (UR sig nD τ) ℕ cfg3 c) (hA : dat.A 6 = V (Pipeline.arrRef spec3 6))
    (hafter : ∀ t, dat.after 6 t = iblk c V 6 t) (t : Fin cfg3.N) (d) : dat.before 6 t d = iblk c V 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (dat : Dat τ (Elt F) Unit ℕ (UR sig nD τ) ℕ cfg3 c) (hA : dat.A 7 = V (Pipeline.arrRef spec3 7))
    (hafter : ∀ t, dat.after 7 t = iblk c V 7 t) (t : Fin cfg3.N) (d) : dat.before 7 t d = iblk c V 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (dat : Dat τ (Elt F) Unit ℕ (UR sig nD τ) ℕ cfg3 c) (hA : dat.A 8 = V (Pipeline.arrRef spec3 8))
    (hafter : ∀ t, dat.after 8 t = iblk c V 8 t) (t : Fin cfg3.N) (d) : dat.before 8 t d = iblk c V 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as the region finds them; after the body at point `t` each input's buffer at its
    block and the output's at the body's function of the nine input blocks; the invariant the scoped rest and the
    generator register, untouched; nothing owed; the adjacency matrix's share dealt in five. -/
def dat : Dat τ (Elt F) Unit ℕ (UR sig nD τ) ℕ cfg3 c where
  A w := V (Pipeline.arrRef spec3 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t) (iblk c V 7 t) (iblk c V 8 t)
  Φ _ := Pipeline.ΦA spec3 c
  q := Shares.q3
  owed _ := 0

theorem A_eq (w : Fin cfg3.W) : (dat c V).A w = V (Pipeline.arrRef spec3 w) := by dsimp only [dat]
theorem q_eq : (dat c V).q = Shares.q3 := by dsimp only [dat]

theorem after_0 (t : Fin cfg3.N) : (dat c V).after 0 t = iblk c V 0 t := by dsimp only [dat]
theorem after_1 (t : Fin cfg3.N) : (dat c V).after 1 t = iblk c V 1 t := by dsimp only [dat]
theorem after_2 (t : Fin cfg3.N) : (dat c V).after 2 t = iblk c V 2 t := by dsimp only [dat]
theorem after_3 (t : Fin cfg3.N) : (dat c V).after 3 t = iblk c V 3 t := by dsimp only [dat]
theorem after_4 (t : Fin cfg3.N) : (dat c V).after 4 t = iblk c V 4 t := by dsimp only [dat]
theorem after_5 (t : Fin cfg3.N) : (dat c V).after 5 t = iblk c V 5 t := by dsimp only [dat]
theorem after_6 (t : Fin cfg3.N) : (dat c V).after 6 t = iblk c V 6 t := by dsimp only [dat]
theorem after_7 (t : Fin cfg3.N) : (dat c V).after 7 t = iblk c V 7 t := by dsimp only [dat]
theorem after_8 (t : Fin cfg3.N) : (dat c V).after 8 t = iblk c V 8 t := by dsimp only [dat]
theorem after_9 (t : Fin cfg3.N) : (dat c V).after 9 t = out9 (iblk c V 0 t) (iblk c V 1 t) (iblk c V 2 t) (iblk c V 3 t) (iblk c V 4 t) (iblk c V 5 t) (iblk c V 6 t) (iblk c V 7 t) (iblk c V 8 t) := by dsimp only [dat]

theorem before_0 (t : Fin cfg3.N) (d) : (dat c V).before 0 t d = iblk c V 0 t :=
  before_0_of c V (dat c V) (A_eq c V 0) (after_0 c V) t d
theorem before_1 (t : Fin cfg3.N) (d) : (dat c V).before 1 t d = iblk c V 1 t :=
  before_1_of c V (dat c V) (A_eq c V 1) (after_1 c V) t d
theorem before_2 (t : Fin cfg3.N) (d) : (dat c V).before 2 t d = iblk c V 2 t :=
  before_2_of c V (dat c V) (A_eq c V 2) (after_2 c V) t d
theorem before_3 (t : Fin cfg3.N) (d) : (dat c V).before 3 t d = iblk c V 3 t :=
  before_3_of c V (dat c V) (A_eq c V 3) (after_3 c V) t d
theorem before_4 (t : Fin cfg3.N) (d) : (dat c V).before 4 t d = iblk c V 4 t :=
  before_4_of c V (dat c V) (A_eq c V 4) (after_4 c V) t d
theorem before_5 (t : Fin cfg3.N) (d) : (dat c V).before 5 t d = iblk c V 5 t :=
  before_5_of c V (dat c V) (A_eq c V 5) (after_5 c V) t d
theorem before_6 (t : Fin cfg3.N) (d) : (dat c V).before 6 t d = iblk c V 6 t :=
  before_6_of c V (dat c V) (A_eq c V 6) (after_6 c V) t d
theorem before_7 (t : Fin cfg3.N) (d) : (dat c V).before 7 t d = iblk c V 7 t :=
  before_7_of c V (dat c V) (A_eq c V 7) (after_7 c V) t d
theorem before_8 (t : Fin cfg3.N) (d) : (dat c V).before 8 t d = iblk c V 8 t :=
  before_8_of c V (dat c V) (A_eq c V 8) (after_8 c V) t d

/-! ## The body obligation, at a generic point -/

/-- What the body is called with at point `t`, the windows one by one, -/
def bodyPre (t : Fin cfg3.N) : sProp 𝕄 :=
  iprop((dat c V).Φ t.castSucc ∗ (dat c V).owesAt () t.castSucc
    ∗ (∃ d, owns (c : Thread nD τ) (st3_0 t) fullShare ((dat c V).before 0 t d))
    ∗ (∃ d, owns (c : Thread nD τ) (st3_1 t) fullShare ((dat c V).before 1 t d))
    ∗ (∃ d, owns (c : Thread nD τ) (st3_2 t) fullShare ((dat c V).before 2 t d))
    ∗ (∃ d, owns (c : Thread nD τ) (st3_3 t) fullShare ((dat c V).before 3 t d))
    ∗ (∃ d, owns (c : Thread nD τ) (st3_4 t) fullShare ((dat c V).before 4 t d))
    ∗ (∃ d, owns (c : Thread nD τ) (st3_5 t) fullShare ((dat c V).before 5 t d))
    ∗ (∃ d, owns (c : Thread nD τ) (st3_6 t) fullShare ((dat c V).before 6 t d))
    ∗ (∃ d, owns (c : Thread nD τ) (st3_7 t) fullShare ((dat c V).before 7 t d))
    ∗ (∃ d, owns (c : Thread nD τ) (st3_8 t) fullShare ((dat c V).before 8 t d))
    ∗ (∃ d, owns (c : Thread nD τ) (st3_9 t) fullShare ((dat c V).before 9 t d)))

/-- and what it returns. -/
def bodyPost (t : Fin cfg3.N) : sProp 𝕄 :=
  iprop((dat c V).Φ t.succ ∗ (dat c V).owesAt () t.succ
    ∗ owns (c : Thread nD τ) (st3_0 t) fullShare ((dat c V).after 0 t)
    ∗ owns (c : Thread nD τ) (st3_1 t) fullShare ((dat c V).after 1 t)
    ∗ owns (c : Thread nD τ) (st3_2 t) fullShare ((dat c V).after 2 t)
    ∗ owns (c : Thread nD τ) (st3_3 t) fullShare ((dat c V).after 3 t)
    ∗ owns (c : Thread nD τ) (st3_4 t) fullShare ((dat c V).after 4 t)
    ∗ owns (c : Thread nD τ) (st3_5 t) fullShare ((dat c V).after 5 t)
    ∗ owns (c : Thread nD τ) (st3_6 t) fullShare ((dat c V).after 6 t)
    ∗ owns (c : Thread nD τ) (st3_7 t) fullShare ((dat c V).after 7 t)
    ∗ owns (c : Thread nD τ) (st3_8 t) fullShare ((dat c V).after 8 t)
    ∗ owns (c : Thread nD τ) (st3_9 t) fullShare ((dat c V).after 9 t))

/-- The body at any point: the inputs' buffers hold their blocks, so the body's triple applies; the invariant and
    the core's debts pass through unread. -/
theorem sound_body (t : Fin cfg3.N) :
    bodyPre c V t ⊢ wp frame (wpE (defs₀ (F := F)) Variants.none c none) Set.univ (bodyAt3 t) (fun _ => bodyPost c V t) := by
  unfold bodyPre bodyPost bodyAt3
  simp only [before_0, before_1, before_2, before_3, before_4, before_5, before_6, before_7, before_8]
  rw [show (dat c V).Φ t.succ = (dat c V).Φ t.castSucc from rfl,
    show (dat c V).owesAt () t.succ = (dat c V).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation : BodyObligation (dat (F := F) c V) (defs₀ (F := F)) Variants.none () Set.univ := fun t => by
  rw [bigSep_W3, bigSep_W3]
  exact sound_body c V t

/-! ## Entering and leaving the region -/

/-- ENTERING: the core's unscoped buffers, held whole at a valuation `W`, are the region's arrays at their entry
    contents — the adjacency matrix's share dealt among its five windows — and the unscoped rest. -/
theorem enter (W : Valuation τ sig (Elt F)) :
    (StableHlo.held (c : Thread nD τ) (Pipeline.ucRefs τ sig) W : sProp 𝕄)
      ⊢ iprop((dat c (fun b => W b)).arrays ((dat c (fun b => W b)).arrAt · 0)
          ∗ Pipeline.unscopedRest (Ix := Unit) (Name := ℕ) (U := UR sig nD τ) (Lvl := ℕ) spec3 c (fun b => W b)) := by
  rw [← Pipeline.unscopedBufs_held c W, Pipeline.unscopedBufs_split₀ cfgs (3 : Fin 4) winFacts₀3.arr_unscoped c (fun b => W b)]
  exact sep_mono (Shares.hsplit3 c (dat c (fun b => W b)) (q_eq c _) (fun b => W b) _ (fun w => A_eq c (fun b => W b) w)) .rfl

set_option maxHeartbeats 2000000 in
/-- LEAVING: the region's arrays at their final contents and the unscoped rest are the core's unscoped buffers held
    whole at any valuation `W2` that is `W` but for the output's array, which holds what the write-backs left. -/
theorem leave (W W2 : Valuation τ sig (Elt F)) (h9 : W2 main_v3 = (dat c (fun b => W b)).arrAt 9 cfg3.N)
    (hne : ∀ b : Ref sig .tc, b ≠ main_v3 → W2 b = W b) :
    iprop((dat c (fun b => W b)).arrays ((dat c (fun b => W b)).arrAt · cfg3.N)
        ∗ Pipeline.unscopedRest (Ix := Unit) (Name := ℕ) (U := UR sig nD τ) (Lvl := ℕ) spec3 c (fun b => W b))
      ⊢ (StableHlo.held (c : Thread nD τ) (Pipeline.ucRefs τ sig) W2 : sProp 𝕄) := by
  rw [← Pipeline.unscopedBufs_held c W2, Pipeline.unscopedBufs_split₀ cfgs (3 : Fin 4) winFacts₀3.arr_unscoped c (fun b => W2 b)]
  have hF : ∀ w : Fin cfg3.W, (dat c (fun b => W b)).arrAt w cfg3.N = W2 (Pipeline.arrRef spec3 w) := fun w => by
    match w with
    | ⟨0, _⟩ => exact ((dat c (fun b => W b)).arrAt_in 0 rfl _).trans ((A_eq c (fun b => W b) 0).trans (hne main_arg1 (by decide)).symm)
    | ⟨1, _⟩ => exact ((dat c (fun b => W b)).arrAt_in 1 rfl _).trans ((A_eq c (fun b => W b) 1).trans (hne main_arg1 (by decide)).symm)
    | ⟨2, _⟩ => exact ((dat c (fun b => W b)).arrAt_in 2 rfl _).trans ((A_eq c (fun b => W b) 2).trans (hne main_arg1 (by decide)).symm)
    | ⟨3, _⟩ => exact ((dat c (fun b => W b)).arrAt_in 3 rfl _).trans ((A_eq c (fun b => W b) 3).trans (hne main_arg1 (by decide)).symm)
    | ⟨4, _⟩ => exact ((dat c (fun b => W b)).arrAt_in 4 rfl _).trans ((A_eq c (fun b => W b) 4).trans (hne main_arg1 (by decide)).symm)
    | ⟨5, _⟩ => exact ((dat c (fun b => W b)).arrAt_in 5 rfl _).trans ((A_eq c (fun b => W b) 5).trans (hne main_v0 (by decide)).symm)
    | ⟨6, _⟩ => exact ((dat c (fun b => W b)).arrAt_in 6 rfl _).trans ((A_eq c (fun b => W b) 6).trans (hne main_v1 (by decide)).symm)
    | ⟨7, _⟩ => exact ((dat c (fun b => W b)).arrAt_in 7 rfl _).trans ((A_eq c (fun b => W b) 7).trans (hne main_call3_v1 (by decide)).symm)
    | ⟨8, _⟩ => exact ((dat c (fun b => W b)).arrAt_in 8 rfl _).trans ((A_eq c (fun b => W b) 8).trans (hne main_call3_v3 (by decide)).symm)
    | ⟨9, _⟩ => exact h9.symm
  exact BIClass.sep_mono (Shares.hjoin3 c (dat c (fun b => W b)) (q_eq c _) (fun b => W2 b) (fun w => (dat c (fun b => W b)).arrAt w cfg3.N) hF)
    (Entails.of_eq (Shares.unscopedRest3_update c (fun b => W b) (fun b => W2 b) hne).symm)

end Cert.KernelIdeal.Region3

end
-- ==== Proof.KI.Vals.lean ====
/-
  The contents of a core's unscoped buffers between the program's items, and the four regions' proof data.

  The launch contents, then each host stretch applied (a slice and a transpose of each weight half), then each
  region's output array replaced by what that region's write-backs left: `W0` … `W8`. Region K is entered from
  `W(2K+1)` and its proof data are stated over that valuation.
-/
import proofs.«105240_g55860344651847_cont_9to1c4b_578_12_alg».proof.Proof.KI.Region0
import proofs.«105240_g55860344651847_cont_9to1c4b_578_12_alg».proof.Proof.KI.Region1
import proofs.«105240_g55860344651847_cont_9to1c4b_578_12_alg».proof.Proof.KI.Region2
import proofs.«105240_g55860344651847_cont_9to1c4b_578_12_alg».proof.Proof.KI.Region3

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## The buffers' contents between items -/

/-- At launch, -/
abbrev W0 (c : Dev nD) : Valuation τ sig (Elt F) := fun b => m (c, b)
/-- after the first host stretch, -/
abbrev W1 (c : Dev nD) : Valuation τ sig (Elt F) := StableHlo.after hostOps0 (W0 m c)
/-- what region 0 leaves in its output array, -/
def o0 (c : Dev nD) : Buf (Elt F) ((c : Thread nD τ).loc main_v0) := (Region0.dat c (fun b => W1 m c b)).arrAt 9 cfg0.N
abbrev W2 (c : Dev nD) : Valuation τ sig (Elt F) := Function.update (W1 m c) main_v0 (o0 m c)
abbrev W3 (c : Dev nD) : Valuation τ sig (Elt F) := StableHlo.after hostOps1 (W2 m c)
/-- region 1, -/
def o1 (c : Dev nD) : Buf (Elt F) ((c : Thread nD τ).loc main_v1) := (Region1.dat c (fun b => W3 m c b)).arrAt 9 cfg1.N
abbrev W4 (c : Dev nD) : Valuation τ sig (Elt F) := Function.update (W3 m c) main_v1 (o1 m c)
abbrev W5 (c : Dev nD) : Valuation τ sig (Elt F) := StableHlo.after hostOps2 (W4 m c)
/-- region 2, -/
def o2 (c : Dev nD) : Buf (Elt F) ((c : Thread nD τ).loc main_v2) := (Region2.dat c (fun b => W5 m c b)).arrAt 9 cfg2.N
abbrev W6 (c : Dev nD) : Valuation τ sig (Elt F) := Function.update (W5 m c) main_v2 (o2 m c)
abbrev W7 (c : Dev nD) : Valuation τ sig (Elt F) := StableHlo.after hostOps3 (W6 m c)
/-- region 3. -/
def o3 (c : Dev nD) : Buf (Elt F) ((c : Thread nD τ).loc main_v3) := (Region3.dat c (fun b => W7 m c b)).arrAt 9 cfg3.N
abbrev W8 (c : Dev nD) : Valuation τ sig (Elt F) := Function.update (W7 m c) main_v3 (o3 m c)

/-- The four regions' proof data, each over the valuation its region is entered from. -/
def pdats : (p : Fin 4) → (c : Dev nD) → Dat τ (Elt F) Unit ℕ (UR sig nD τ) ℕ (cfgs p) c
  | ⟨0, _⟩ => fun c => Region0.dat c (fun b => W1 m c b)
  | ⟨1, _⟩ => fun c => Region1.dat c (fun b => W3 m c b)
  | ⟨2, _⟩ => fun c => Region2.dat c (fun b => W5 m c b)
  | ⟨3, _⟩ => fun c => Region3.dat c (fun b => W7 m c b)

end Cert.KernelIdeal.Run

end
-- ==== Proof.KI.Rest.lean ====
/-
  What a core holds beside its unscoped buffers between two items of the program: its debts to other cores (none)
  and its generator register at some value. No core owes another anything in this program, so no level is assigned.
-/
import proofs.«105240_g55860344651847_cont_9to1c4b_578_12_alg».proof.Proof.Gen.KernelIdeal.Launch
import Idealize.ShloMosaic.Lib.Pipeline.Regions
import Idealize.ShloMosaic.Lib.Pipeline.Frame

noncomputable section

namespace Cert.KernelIdeal.Rest

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No level is assigned to any cell. -/
abbrev L : GSem nD τ sig → Finset Unit := fun _ => ∅
abbrev lv : GSem nD τ sig → Unit → ℕ := fun _ _ => 0

/-- The generator register at some value. -/
def Reg (c : Dev nD) : sProp 𝕄 := iprop(∃ r, prngReg c r)

/-- The core's debts, none, whatever its waits have recorded. -/
def Owes (c : Dev nD) : sProp 𝕄 := iprop(∃ W, owes (c : Thread nD τ) (0 : CellTallies nD τ sig Unit) W)

/-- What rides beside the unscoped buffers between two items. -/
def E (c : Dev nD) : sProp 𝕄 := iprop(Owes (F := F) c ∗ Reg (F := F) c)

end Cert.KernelIdeal.Rest

end
-- ==== Proof.KI.Run.lean ====
/-
  The whole program's run: four host stretches (a slice and a transpose of each weight half) and four regions, in order.

  Between two items a core holds every unscoped buffer whole at a valuation: the launch contents, then each host
  stretch applied, then each region's output array replaced by what that region's write-backs left (`W0` … `W8`).
  Every weakly fair execution terminates and the final memory agrees with the last valuation on the two results and
  on the eight arguments.
-/
import proofs.«105240_g55860344651847_cont_9to1c4b_578_12_alg».proof.Proof.KI.Vals
import proofs.«105240_g55860344651847_cont_9to1c4b_578_12_alg».proof.Proof.KI.Rest
import proofs.«105240_g55860344651847_cont_9to1c4b_578_12_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The items as segments -/

/-- The host stretch `hostOps0` over the unscoped buffers from `W0`. -/
def host0 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rest.E

/-- The host stretch `hostOps1` over the unscoped buffers from `W2`. -/
def host1 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Rest.E

/-- The host stretch `hostOps2` over the unscoped buffers from `W4`. -/
def host2 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Rest.E

/-- The host stretch `hostOps3` over the unscoped buffers from `W6`. -/
def host3 : Pipeline.HostSeg (Ix := Unit) (Name := ℕ) (U := UR sig nD τ) (Lvl := ℕ) (pcfgs (F := F)) defs₀ Variants.none Rest.L Rest.lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) Rest.E

set_option backward.isDefEq.respectTransparency.types false in
/-- Region 0: entered from the unscoped buffers at `W1`, left with them at `W2`. -/
def reg0 : Pipeline.RegionSeg (pcfgs (F := F)) adm (pdats m) () defs₀ Variants.none Rest.L Rest.lv 0 where
  win := winFacts₀0
  block_pos := block_pos0
  stage_whole := stage_whole0
  K := PEmpty
  osem := fun k => k.elim
  ho := Pipeline.OwnSemFacts.none spec0
  hbody c := (Region0.body_obligation c (fun b => W1 m c b)).loose
  hwaits := Pipeline.hwaits_of_owed_zero _ _ _ _ Rest.L Rest.lv 0 fun _ _ => rfl
  pre c := iprop(StableHlo.held (c : Thread nD τ) (Pipeline.ucRefs τ sig) (W1 m c) ∗ Rest.E c)
  post c := iprop(StableHlo.held (c : Thread nD τ) (Pipeline.ucRefs τ sig) (W2 m c) ∗ Rest.E c)
  X c := Rest.Reg c
  Y c := Rest.Reg c
  Z c := Pipeline.unscopedRest spec0 c (fun b => W1 m c b)
  hentry c := by
    unfold Rest.E
    iintro ⟨⟨Hh, HO, Hp⟩, -, -⟩
    ihave H := (Region0.enter c (W1 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 0 c).Φ 0 = Pipeline.ΦA spec0 c from rfl]; unfold Pipeline.ΦA Rest.Reg
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region0.leave c (W1 m c) (W2 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 1: entered from the unscoped buffers at `W3`, left with them at `W4`. -/
def reg1 : Pipeline.RegionSeg (pcfgs (F := F)) adm (pdats m) () defs₀ Variants.none Rest.L Rest.lv 1 where
  win := winFacts₀1
  block_pos := block_pos1
  stage_whole := stage_whole1
  K := PEmpty
  osem := fun k => k.elim
  ho := Pipeline.OwnSemFacts.none spec1
  hbody c := (Region1.body_obligation c (fun b => W3 m c b)).loose
  hwaits := Pipeline.hwaits_of_owed_zero _ _ _ _ Rest.L Rest.lv 1 fun _ _ => rfl
  pre c := iprop(StableHlo.held (c : Thread nD τ) (Pipeline.ucRefs τ sig) (W3 m c) ∗ Rest.E c)
  post c := iprop(StableHlo.held (c : Thread nD τ) (Pipeline.ucRefs τ sig) (W4 m c) ∗ Rest.E c)
  X c := Rest.Reg c
  Y c := Rest.Reg c
  Z c := Pipeline.unscopedRest spec1 c (fun b => W3 m c b)
  hentry c := by
    unfold Rest.E
    iintro ⟨⟨Hh, HO, Hp⟩, -, -⟩
    ihave H := (Region1.enter c (W3 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 1 c).Φ 0 = Pipeline.ΦA spec1 c from rfl]; unfold Pipeline.ΦA Rest.Reg
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region1.leave c (W3 m c) (W4 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 2: entered from the unscoped buffers at `W5`, left with them at `W6`. -/
def reg2 : Pipeline.RegionSeg (pcfgs (F := F)) adm (pdats m) () defs₀ Variants.none Rest.L Rest.lv 2 where
  win := winFacts₀2
  block_pos := block_pos2
  stage_whole := stage_whole2
  K := PEmpty
  osem := fun k => k.elim
  ho := Pipeline.OwnSemFacts.none spec2
  hbody c := (Region2.body_obligation c (fun b => W5 m c b)).loose
  hwaits := Pipeline.hwaits_of_owed_zero _ _ _ _ Rest.L Rest.lv 2 fun _ _ => rfl
  pre c := iprop(StableHlo.held (c : Thread nD τ) (Pipeline.ucRefs τ sig) (W5 m c) ∗ Rest.E c)
  post c := iprop(StableHlo.held (c : Thread nD τ) (Pipeline.ucRefs τ sig) (W6 m c) ∗ Rest.E c)
  X c := Rest.Reg c
  Y c := Rest.Reg c
  Z c := Pipeline.unscopedRest spec2 c (fun b => W5 m c b)
  hentry c := by
    unfold Rest.E
    iintro ⟨⟨Hh, HO, Hp⟩, -, -⟩
    ihave H := (Region2.enter c (W5 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 2 c).Φ 0 = Pipeline.ΦA spec2 c from rfl]; unfold Pipeline.ΦA Rest.Reg
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region2.leave c (W5 m c) (W6 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

set_option backward.isDefEq.respectTransparency.types false in
/-- Region 3: entered from the unscoped buffers at `W7`, left with them at `W8`. -/
def reg3 : Pipeline.RegionSeg (pcfgs (F := F)) adm (pdats m) () defs₀ Variants.none Rest.L Rest.lv 3 where
  win := winFacts₀3
  block_pos := block_pos3
  stage_whole := stage_whole3
  K := PEmpty
  osem := fun k => k.elim
  ho := Pipeline.OwnSemFacts.none spec3
  hbody c := (Region3.body_obligation c (fun b => W7 m c b)).loose
  hwaits := Pipeline.hwaits_of_owed_zero _ _ _ _ Rest.L Rest.lv 3 fun _ _ => rfl
  pre c := iprop(StableHlo.held (c : Thread nD τ) (Pipeline.ucRefs τ sig) (W7 m c) ∗ Rest.E c)
  post c := iprop(StableHlo.held (c : Thread nD τ) (Pipeline.ucRefs τ sig) (W8 m c) ∗ Rest.E c)
  X c := Rest.Reg c
  Y c := Rest.Reg c
  Z c := Pipeline.unscopedRest spec3 c (fun b => W7 m c b)
  hentry c := by
    unfold Rest.E
    iintro ⟨⟨Hh, HO, Hp⟩, -, -⟩
    ihave H := (Region3.enter c (W7 m c)) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Rest.Owes Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m 3 c).Φ 0 = Pipeline.ΦA spec3 c from rfl]; unfold Pipeline.ΦA Rest.Reg
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA Rest.Reg
    iintro ⟨Hr, Hp⟩
    isplitl [Hp]; · iexact Hp
    isplitr; · iempintro
    iexact Hr
  hexit c := by
    iintro ⟨Ha, HO, HY, HZ⟩
    imodintro
    unfold Rest.E
    isplitl [Ha HZ]
    · iapply (Region3.leave c (W7 m c) (W8 m c) (Function.update_self _ _ _)
        (fun b hb => Function.update_of_ne (StableHlo.devRef_ne_of_ne hb) _ _))
      isplitl [Ha]; · iexact Ha
      iexact HZ
    isplitl [HO]
    · unfold Rest.Owes Pipeline.Dat.owesAt Pipeline.owesWithin
      icases HO with ⟨%W, -, HO⟩; iexists W; iexact HO
    iexact HY

/-- The program's items, in order. -/
abbrev segs : List (Seg (pcfgs (F := F)) adm (pdats m) () defs₀ Variants.none Rest.L Rest.lv) :=
  [.host (host0 m), .region (reg0 m), .host (host1 m), .region (reg1 m), .host (host2 m), .region (reg2 m), .host (host3 m), .region (reg3 m)]

/-! ## The run -/

set_option backward.isDefEq.respectTransparency.types false in
/-- Every weakly fair execution of the program from memory `m` with zero counters terminates, and every final memory
    holds the two results and the eight arguments at the last valuation. -/
theorem run_all (ρ : Dev nD → PrngReg) :
    θ_run defs (onTc (τ := τ) (main (F := F))) ⟨m, fun _ => 0, ρ⟩ (fun r => ∀ c : Dev nD,
      r.2.mem ((c.tc : Thread nD τ).loc main_v2) = W8 m c main_v2
      ∧ r.2.mem ((c.tc : Thread nD τ).loc main_v3) = W8 m c main_v3
      ∧ r.2.mem ((c.tc : Thread nD τ).loc main_arg0) = W8 m c main_arg0
      ∧ r.2.mem ((c.tc : Thread nD τ).loc main_arg1) = W8 m c main_arg1
      ∧ r.2.mem ((c.tc : Thread nD τ).loc main_arg2) = W8 m c main_arg2
      ∧ r.2.mem ((c.tc : Thread nD τ).loc main_arg3) = W8 m c main_arg3
      ∧ r.2.mem ((c.tc : Thread nD τ).loc main_arg4) = W8 m c main_arg4
      ∧ r.2.mem ((c.tc : Thread nD τ).loc main_arg5) = W8 m c main_arg5
      ∧ r.2.mem ((c.tc : Thread nD τ).loc main_arg6) = W8 m c main_arg6
      ∧ r.2.mem ((c.tc : Thread nD τ).loc main_arg7) = W8 m c main_arg7) := by
  refine Pipeline.θ_run_regions_kit_dev (pcfgs (F := F)) adm (pdats m) () cellOf_inj emb₁ defs₀ Variants.none Rest.L Rest.lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest.E c))
    (Tₙ := fun c => iprop(StableHlo.held (c : Thread nD τ) (Pipeline.ucRefs τ sig) (W8 m c) ∗ Rest.Reg c))
    (hch := fun c => ⟨.rfl, .rfl, .rfl, .rfl, .rfl, .rfl, .rfl, .rfl, by
      show iprop(StableHlo.held (c : Thread nD τ) (Pipeline.ucRefs τ sig) (W8 m c) ∗ Rest.E c) ⊢ _
      unfold Rest.E Rest.Owes
      iintro ⟨Hh, HO, Hp⟩
      isplitr [HO]
      · isplitl [Hh]; · iexact Hh
        iexact Hp
      iexact HO⟩)
    (hinit := ?_) (QY := fun c s => s.mem ((c.tc : Thread nD τ).loc main_v2) = W8 m c main_v2 ∧ s.mem ((c.tc : Thread nD τ).loc main_v3) = W8 m c main_v3 ∧ s.mem ((c.tc : Thread nD τ).loc main_arg0) = W8 m c main_arg0 ∧ s.mem ((c.tc : Thread nD τ).loc main_arg1) = W8 m c main_arg1 ∧ s.mem ((c.tc : Thread nD τ).loc main_arg2) = W8 m c main_arg2 ∧ s.mem ((c.tc : Thread nD τ).loc main_arg3) = W8 m c main_arg3 ∧ s.mem ((c.tc : Thread nD τ).loc main_arg4) = W8 m c main_arg4 ∧ s.mem ((c.tc : Thread nD τ).loc main_arg5) = W8 m c main_arg5 ∧ s.mem ((c.tc : Thread nD τ).loc main_arg6) = W8 m c main_arg6 ∧ s.mem ((c.tc : Thread nD τ).loc main_arg7) = W8 m c main_arg7)
    (hfin := fun c s' => ?_) (hQ := fun _ h => h)
  · -- the launch: the unscoped buffers are held at the launch contents; the debts are none, the register is there
    have h1 : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
        ⊢ iprop(StableHlo.held (c : Thread nD τ) (Pipeline.ucRefs τ sig) (W0 m c) ∗ Rest.E c) := fun c => by
      rw [← Pipeline.unscopedBufs_held (Ix := Unit) (Name := ℕ) (U := UR sig nD τ) (Lvl := ℕ) c (W0 m c)]
      unfold Rest.E Rest.Owes Rest.Reg
      iintro ⟨Hh, -, HO, -, Hp, -⟩
      isplitl [Hh]; · iexact Hh
      isplitl [HO]; · iexists ∅; iexact HO
      iexists _; iexact Hp
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (W0 m c) ∗ Rest.E c) : sProp 𝕄) :=
      bigSep_mono fun c _ => h1 c
    iintro ⟨H, -⟩
    imodintro
    iapply hsplit
    iexact H
  · -- the end: each buffer read off the last valuation
    unfold StableHlo.held
    iintro ⟨⟨Hh, -⟩, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        h (Proc.devRef .tc main_v3) (Finset.mem_filter.mpr ⟨StableHlo.devRef_mem_tcRefs main_v3, by decide⟩),
        h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩),
        h (Proc.devRef .tc main_arg2) (Finset.mem_filter.mpr ⟨StableHlo.devRef_mem_tcRefs main_arg2, by decide⟩),
        h (Proc.devRef .tc main_arg3) (Finset.mem_filter.mpr ⟨StableHlo.devRef_mem_tcRefs main_arg3, by decide⟩),
        h (Proc.devRef .tc main_arg4) (Finset.mem_filter.mpr ⟨StableHlo.devRef_mem_tcRefs main_arg4, by decide⟩),
        h (Proc.devRef .tc main_arg5) (Finset.mem_filter.mpr ⟨StableHlo.devRef_mem_tcRefs main_arg5, by decide⟩),
        h (Proc.devRef .tc main_arg6) (Finset.mem_filter.mpr ⟨StableHlo.devRef_mem_tcRefs main_arg6, by decide⟩),
        h (Proc.devRef .tc main_arg7) (Finset.mem_filter.mpr ⟨StableHlo.devRef_mem_tcRefs main_arg7, by decide⟩)⟩
    · iexact HSI

end Cert.KernelIdeal.Run

end
-- ==== Proof.KI.Chain.lean ====
/-
  The contents of the buffers along the program, item by item.

  The four host operations before each kernel region write four buffers of their own and nothing else, and a
  kernel region changes its output array only. So every argument array holds its launch contents throughout, and
  a region's output array holds what that region left until the end.
-/
import proofs.«105240_g55860344651847_cont_9to1c4b_578_12_alg».proof.Proof.Gen.KernelIdeal.Regions
import proofs.«105240_g55860344651847_cont_9to1c4b_578_12_alg».proof.Proof.KI.Vals

noncomputable section

namespace Cert.KernelIdeal.Chain

open Idealize.ShloMosaic Idealize.ShloMosaic.TcCoe
open Cert.KernelIdeal Cert.KernelIdeal.Gen Cert.KernelIdeal.Run

variable {F : FTy → Type} [FloatOps F]

/-! ## What the host operations leave unchanged -/

/-- A buffer the four host operations before region 0 do not write keeps its contents. -/
theorem after_keep0 (W : Valuation τ sig (Elt F)) (r : Ref sig .tc) (h : r ∉ hostOps0_W) :
    StableHlo.after hostOps0 W r = W r :=
  StableHlo.after_of_writes_sub hostOps0 _ hostOps0_writes h

/-- A buffer the four host operations before region 1 do not write keeps its contents. -/
theorem after_keep1 (W : Valuation τ sig (Elt F)) (r : Ref sig .tc) (h : r ∉ hostOps1_W) :
    StableHlo.after hostOps1 W r = W r :=
  StableHlo.after_of_writes_sub hostOps1 _ hostOps1_writes h

/-- A buffer the four host operations before region 2 do not write keeps its contents. -/
theorem after_keep2 (W : Valuation τ sig (Elt F)) (r : Ref sig .tc) (h : r ∉ hostOps2_W) :
    StableHlo.after hostOps2 W r = W r :=
  StableHlo.after_of_writes_sub hostOps2 _ hostOps2_writes h

/-- A buffer the four host operations before region 3 do not write keeps its contents. -/
theorem after_keep3 (W : Valuation τ sig (Elt F)) (r : Ref sig .tc) (h : r ∉ hostOps3_W) :
    StableHlo.after hostOps3 W r = W r :=
  StableHlo.after_of_writes_sub hostOps3 _ hostOps3_writes h

/-! ## The valuations along the program

`W0` is the launch memory; `W1, W3, W5, W7` follow the host operations before regions 0 to 3; `W2, W4, W6, W8`
follow the regions, each with its output array replaced by what the region left (`o0` … `o3`). -/

variable (m : (ℓ : Loc nD τ sig) → Buf (Elt F) ℓ)

/-! ## What each item leaves unchanged -/

/-- The host operations before region 0 write their four buffers only. -/
theorem W1_of (c : Dev nD) (r : Ref sig .tc) (h : r ∉ hostOps0_W) : W1 m c r = W0 m c r :=
  StableHlo.after_of_writes_sub hostOps0 _ hostOps0_writes h

/-- Region 0 changes `main_v0` only, -/
theorem W2_of (c : Dev nD) (r : Ref sig .tc) (h : r ∉ ([main_v0] : List (Ref sig .tc))) : W2 m c r = W1 m c r := by
  simp only [W2, Function.update_of_ne (StableHlo.devRef_ne_of_ne (List.ne_of_not_mem_cons h) : (Proc.devRef .tc r : DevRef τ sig) ≠ Proc.devRef .tc main_v0)]
/-- and leaves there what its write-backs made of it. -/
theorem W2_main_v0 (c : Dev nD) : W2 m c main_v0 = o0 m c := by
  simp only [W2, Function.update_self]

/-- The host operations before region 1 write their four buffers only. -/
theorem W3_of (c : Dev nD) (r : Ref sig .tc) (h : r ∉ hostOps1_W) : W3 m c r = W2 m c r :=
  StableHlo.after_of_writes_sub hostOps1 _ hostOps1_writes h

/-- Region 1 changes `main_v1` only, -/
theorem W4_of (c : Dev nD) (r : Ref sig .tc) (h : r ∉ ([main_v1] : List (Ref sig .tc))) : W4 m c r = W3 m c r := by
  simp only [W4, Function.update_of_ne (StableHlo.devRef_ne_of_ne (List.ne_of_not_mem_cons h) : (Proc.devRef .tc r : DevRef τ sig) ≠ Proc.devRef .tc main_v1)]
/-- and leaves there what its write-backs made of it. -/
theorem W4_main_v1 (c : Dev nD) : W4 m c main_v1 = o1 m c := by
  simp only [W4, Function.update_self]

/-- The host operations before region 2 write their four buffers only. -/
theorem W5_of (c : Dev nD) (r : Ref sig .tc) (h : r ∉ hostOps2_W) : W5 m c r = W4 m c r :=
  StableHlo.after_of_writes_sub hostOps2 _ hostOps2_writes h

/-- Region 2 changes `main_v2` only, -/
theorem W6_of (c : Dev nD) (r : Ref sig .tc) (h : r ∉ ([main_v2] : List (Ref sig .tc))) : W6 m c r = W5 m c r := by
  simp only [W6, Function.update_of_ne (StableHlo.devRef_ne_of_ne (List.ne_of_not_mem_cons h) : (Proc.devRef .tc r : DevRef τ sig) ≠ Proc.devRef .tc main_v2)]
/-- and leaves there what its write-backs made of it. -/
theorem W6_main_v2 (c : Dev nD) : W6 m c main_v2 = o2 m c := by
  simp only [W6, Function.update_self]

/-- The host operations before region 3 write their four buffers only. -/
theorem W7_of (c : Dev nD) (r : Ref sig .tc) (h : r ∉ hostOps3_W) : W7 m c r = W6 m c r :=
  StableHlo.after_of_writes_sub hostOps3 _ hostOps3_writes h

/-- Region 3 changes `main_v3` only, -/
theorem W8_of (c : Dev nD) (r : Ref sig .tc) (h : r ∉ ([main_v3] : List (Ref sig .tc))) : W8 m c r = W7 m c r := by
  simp only [W8, Function.update_of_ne (StableHlo.devRef_ne_of_ne (List.ne_of_not_mem_cons h) : (Proc.devRef .tc r : DevRef τ sig) ≠ Proc.devRef .tc main_v3)]
/-- and leaves there what its write-backs made of it. -/
theorem W8_main_v3 (c : Dev nD) : W8 m c main_v3 = o3 m c := by
  simp only [W8, Function.update_self]

/-! ## No item writes an argument -/

theorem W1_main_arg0 (c : Dev nD) : W1 m c main_arg0 = m ((c : Thread nD τ).loc main_arg0) :=
  (W1_of m c main_arg0 (by decide))

theorem W2_main_arg0 (c : Dev nD) : W2 m c main_arg0 = m ((c : Thread nD τ).loc main_arg0) :=
  (W2_of m c main_arg0 (by decide)).trans (W1_main_arg0 m c)

theorem W3_main_arg0 (c : Dev nD) : W3 m c main_arg0 = m ((c : Thread nD τ).loc main_arg0) :=
  (W3_of m c main_arg0 (by decide)).trans (W2_main_arg0 m c)

theorem W4_main_arg0 (c : Dev nD) : W4 m c main_arg0 = m ((c : Thread nD τ).loc main_arg0) :=
  (W4_of m c main_arg0 (by decide)).trans (W3_main_arg0 m c)

theorem W5_main_arg0 (c : Dev nD) : W5 m c main_arg0 = m ((c : Thread nD τ).loc main_arg0) :=
  (W5_of m c main_arg0 (by decide)).trans (W4_main_arg0 m c)

theorem W6_main_arg0 (c : Dev nD) : W6 m c main_arg0 = m ((c : Thread nD τ).loc main_arg0) :=
  (W6_of m c main_arg0 (by decide)).trans (W5_main_arg0 m c)

theorem W7_main_arg0 (c : Dev nD) : W7 m c main_arg0 = m ((c : Thread nD τ).loc main_arg0) :=
  (W7_of m c main_arg0 (by decide)).trans (W6_main_arg0 m c)

theorem W8_main_arg0 (c : Dev nD) : W8 m c main_arg0 = m ((c : Thread nD τ).loc main_arg0) :=
  (W8_of m c main_arg0 (by decide)).trans (W7_main_arg0 m c)

theorem W1_main_arg1 (c : Dev nD) : W1 m c main_arg1 = m ((c : Thread nD τ).loc main_arg1) :=
  (W1_of m c main_arg1 (by decide))

theorem W2_main_arg1 (c : Dev nD) : W2 m c main_arg1 = m ((c : Thread nD τ).loc main_arg1) :=
  (W2_of m c main_arg1 (by decide)).trans (W1_main_arg1 m c)

theorem W3_main_arg1 (c : Dev nD) : W3 m c main_arg1 = m ((c : Thread nD τ).loc main_arg1) :=
  (W3_of m c main_arg1 (by decide)).trans (W2_main_arg1 m c)

theorem W4_main_arg1 (c : Dev nD) : W4 m c main_arg1 = m ((c : Thread nD τ).loc main_arg1) :=
  (W4_of m c main_arg1 (by decide)).trans (W3_main_arg1 m c)

theorem W5_main_arg1 (c : Dev nD) : W5 m c main_arg1 = m ((c : Thread nD τ).loc main_arg1) :=
  (W5_of m c main_arg1 (by decide)).trans (W4_main_arg1 m c)

theorem W6_main_arg1 (c : Dev nD) : W6 m c main_arg1 = m ((c : Thread nD τ).loc main_arg1) :=
  (W6_of m c main_arg1 (by decide)).trans (W5_main_arg1 m c)

theorem W7_main_arg1 (c : Dev nD) : W7 m c main_arg1 = m ((c : Thread nD τ).loc main_arg1) :=
  (W7_of m c main_arg1 (by decide)).trans (W6_main_arg1 m c)

theorem W8_main_arg1 (c : Dev nD) : W8 m c main_arg1 = m ((c : Thread nD τ).loc main_arg1) :=
  (W8_of m c main_arg1 (by decide)).trans (W7_main_arg1 m c)

theorem W1_main_arg2 (c : Dev nD) : W1 m c main_arg2 = m ((c : Thread nD τ).loc main_arg2) :=
  (W1_of m c main_arg2 (by decide))

theorem W2_main_arg2 (c : Dev nD) : W2 m c main_arg2 = m ((c : Thread nD τ).loc main_arg2) :=
  (W2_of m c main_arg2 (by decide)).trans (W1_main_arg2 m c)

theorem W3_main_arg2 (c : Dev nD) : W3 m c main_arg2 = m ((c : Thread nD τ).loc main_arg2) :=
  (W3_of m c main_arg2 (by decide)).trans (W2_main_arg2 m c)

theorem W4_main_arg2 (c : Dev nD) : W4 m c main_arg2 = m ((c : Thread nD τ).loc main_arg2) :=
  (W4_of m c main_arg2 (by decide)).trans (W3_main_arg2 m c)

theorem W5_main_arg2 (c : Dev nD) : W5 m c main_arg2 = m ((c : Thread nD τ).loc main_arg2) :=
  (W5_of m c main_arg2 (by decide)).trans (W4_main_arg2 m c)

theorem W6_main_arg2 (c : Dev nD) : W6 m c main_arg2 = m ((c : Thread nD τ).loc main_arg2) :=
  (W6_of m c main_arg2 (by decide)).trans (W5_main_arg2 m c)

theorem W7_main_arg2 (c : Dev nD) : W7 m c main_arg2 = m ((c : Thread nD τ).loc main_arg2) :=
  (W7_of m c main_arg2 (by decide)).trans (W6_main_arg2 m c)

theorem W8_main_arg2 (c : Dev nD) : W8 m c main_arg2 = m ((c : Thread nD τ).loc main_arg2) :=
  (W8_of m c main_arg2 (by decide)).trans (W7_main_arg2 m c)

theorem W1_main_arg3 (c : Dev nD) : W1 m c main_arg3 = m ((c : Thread nD τ).loc main_arg3) :=
  (W1_of m c main_arg3 (by decide))

theorem W2_main_arg3 (c : Dev nD) : W2 m c main_arg3 = m ((c : Thread nD τ).loc main_arg3) :=
  (W2_of m c main_arg3 (by decide)).trans (W1_main_arg3 m c)

theorem W3_main_arg3 (c : Dev nD) : W3 m c main_arg3 = m ((c : Thread nD τ).loc main_arg3) :=
  (W3_of m c main_arg3 (by decide)).trans (W2_main_arg3 m c)

theorem W4_main_arg3 (c : Dev nD) : W4 m c main_arg3 = m ((c : Thread nD τ).loc main_arg3) :=
  (W4_of m c main_arg3 (by decide)).trans (W3_main_arg3 m c)

theorem W5_main_arg3 (c : Dev nD) : W5 m c main_arg3 = m ((c : Thread nD τ).loc main_arg3) :=
  (W5_of m c main_arg3 (by decide)).trans (W4_main_arg3 m c)

theorem W6_main_arg3 (c : Dev nD) : W6 m c main_arg3 = m ((c : Thread nD τ).loc main_arg3) :=
  (W6_of m c main_arg3 (by decide)).trans (W5_main_arg3 m c)

theorem W7_main_arg3 (c : Dev nD) : W7 m c main_arg3 = m ((c : Thread nD τ).loc main_arg3) :=
  (W7_of m c main_arg3 (by decide)).trans (W6_main_arg3 m c)

theorem W8_main_arg3 (c : Dev nD) : W8 m c main_arg3 = m ((c : Thread nD τ).loc main_arg3) :=
  (W8_of m c main_arg3 (by decide)).trans (W7_main_arg3 m c)

theorem W1_main_arg4 (c : Dev nD) : W1 m c main_arg4 = m ((c : Thread nD τ).loc main_arg4) :=
  (W1_of m c main_arg4 (by decide))

theorem W2_main_arg4 (c : Dev nD) : W2 m c main_arg4 = m ((c : Thread nD τ).loc main_arg4) :=
  (W2_of m c main_arg4 (by decide)).trans (W1_main_arg4 m c)

theorem W3_main_arg4 (c : Dev nD) : W3 m c main_arg4 = m ((c : Thread nD τ).loc main_arg4) :=
  (W3_of m c main_arg4 (by decide)).trans (W2_main_arg4 m c)

theorem W4_main_arg4 (c : Dev nD) : W4 m c main_arg4 = m ((c : Thread nD τ).loc main_arg4) :=
  (W4_of m c main_arg4 (by decide)).trans (W3_main_arg4 m c)

theorem W5_main_arg4 (c : Dev nD) : W5 m c main_arg4 = m ((c : Thread nD τ).loc main_arg4) :=
  (W5_of m c main_arg4 (by decide)).trans (W4_main_arg4 m c)

theorem W6_main_arg4 (c : Dev nD) : W6 m c main_arg4 = m ((c : Thread nD τ).loc main_arg4) :=
  (W6_of m c main_arg4 (by decide)).trans (W5_main_arg4 m c)

theorem W7_main_arg4 (c : Dev nD) : W7 m c main_arg4 = m ((c : Thread nD τ).loc main_arg4) :=
  (W7_of m c main_arg4 (by decide)).trans (W6_main_arg4 m c)

theorem W8_main_arg4 (c : Dev nD) : W8 m c main_arg4 = m ((c : Thread nD τ).loc main_arg4) :=
  (W8_of m c main_arg4 (by decide)).trans (W7_main_arg4 m c)

theorem W1_main_arg5 (c : Dev nD) : W1 m c main_arg5 = m ((c : Thread nD τ).loc main_arg5) :=
  (W1_of m c main_arg5 (by decide))

theorem W2_main_arg5 (c : Dev nD) : W2 m c main_arg5 = m ((c : Thread nD τ).loc main_arg5) :=
  (W2_of m c main_arg5 (by decide)).trans (W1_main_arg5 m c)

theorem W3_main_arg5 (c : Dev nD) : W3 m c main_arg5 = m ((c : Thread nD τ).loc main_arg5) :=
  (W3_of m c main_arg5 (by decide)).trans (W2_main_arg5 m c)

theorem W4_main_arg5 (c : Dev nD) : W4 m c main_arg5 = m ((c : Thread nD τ).loc main_arg5) :=
  (W4_of m c main_arg5 (by decide)).trans (W3_main_arg5 m c)

theorem W5_main_arg5 (c : Dev nD) : W5 m c main_arg5 = m ((c : Thread nD τ).loc main_arg5) :=
  (W5_of m c main_arg5 (by decide)).trans (W4_main_arg5 m c)

theorem W6_main_arg5 (c : Dev nD) : W6 m c main_arg5 = m ((c : Thread nD τ).loc main_arg5) :=
  (W6_of m c main_arg5 (by decide)).trans (W5_main_arg5 m c)

theorem W7_main_arg5 (c : Dev nD) : W7 m c main_arg5 = m ((c : Thread nD τ).loc main_arg5) :=
  (W7_of m c main_arg5 (by decide)).trans (W6_main_arg5 m c)

theorem W8_main_arg5 (c : Dev nD) : W8 m c main_arg5 = m ((c : Thread nD τ).loc main_arg5) :=
  (W8_of m c main_arg5 (by decide)).trans (W7_main_arg5 m c)

theorem W1_main_arg6 (c : Dev nD) : W1 m c main_arg6 = m ((c : Thread nD τ).loc main_arg6) :=
  (W1_of m c main_arg6 (by decide))

theorem W2_main_arg6 (c : Dev nD) : W2 m c main_arg6 = m ((c : Thread nD τ).loc main_arg6) :=
  (W2_of m c main_arg6 (by decide)).trans (W1_main_arg6 m c)

theorem W3_main_arg6 (c : Dev nD) : W3 m c main_arg6 = m ((c : Thread nD τ).loc main_arg6) :=
  (W3_of m c main_arg6 (by decide)).trans (W2_main_arg6 m c)

theorem W4_main_arg6 (c : Dev nD) : W4 m c main_arg6 = m ((c : Thread nD τ).loc main_arg6) :=
  (W4_of m c main_arg6 (by decide)).trans (W3_main_arg6 m c)

theorem W5_main_arg6 (c : Dev nD) : W5 m c main_arg6 = m ((c : Thread nD τ).loc main_arg6) :=
  (W5_of m c main_arg6 (by decide)).trans (W4_main_arg6 m c)

theorem W6_main_arg6 (c : Dev nD) : W6 m c main_arg6 = m ((c : Thread nD τ).loc main_arg6) :=
  (W6_of m c main_arg6 (by decide)).trans (W5_main_arg6 m c)

theorem W7_main_arg6 (c : Dev nD) : W7 m c main_arg6 = m ((c : Thread nD τ).loc main_arg6) :=
  (W7_of m c main_arg6 (by decide)).trans (W6_main_arg6 m c)

theorem W8_main_arg6 (c : Dev nD) : W8 m c main_arg6 = m ((c : Thread nD τ).loc main_arg6) :=
  (W8_of m c main_arg6 (by decide)).trans (W7_main_arg6 m c)

theorem W1_main_arg7 (c : Dev nD) : W1 m c main_arg7 = m ((c : Thread nD τ).loc main_arg7) :=
  (W1_of m c main_arg7 (by decide))

theorem W2_main_arg7 (c : Dev nD) : W2 m c main_arg7 = m ((c : Thread nD τ).loc main_arg7) :=
  (W2_of m c main_arg7 (by decide)).trans (W1_main_arg7 m c)

theorem W3_main_arg7 (c : Dev nD) : W3 m c main_arg7 = m ((c : Thread nD τ).loc main_arg7) :=
  (W3_of m c main_arg7 (by decide)).trans (W2_main_arg7 m c)

theorem W4_main_arg7 (c : Dev nD) : W4 m c main_arg7 = m ((c : Thread nD τ).loc main_arg7) :=
  (W4_of m c main_arg7 (by decide)).trans (W3_main_arg7 m c)

theorem W5_main_arg7 (c : Dev nD) : W5 m c main_arg7 = m ((c : Thread nD τ).loc main_arg7) :=
  (W5_of m c main_arg7 (by decide)).trans (W4_main_arg7 m c)

theorem W6_main_arg7 (c : Dev nD) : W6 m c main_arg7 = m ((c : Thread nD τ).loc main_arg7) :=
  (W6_of m c main_arg7 (by decide)).trans (W5_main_arg7 m c)

theorem W7_main_arg7 (c : Dev nD) : W7 m c main_arg7 = m ((c : Thread nD τ).loc main_arg7) :=
  (W7_of m c main_arg7 (by decide)).trans (W6_main_arg7 m c)

theorem W8_main_arg7 (c : Dev nD) : W8 m c main_arg7 = m ((c : Thread nD τ).loc main_arg7) :=
  (W8_of m c main_arg7 (by decide)).trans (W7_main_arg7 m c)

/-! ## A region's output array keeps what the region left -/

theorem W3_main_v0 (c : Dev nD) : W3 m c main_v0 = o0 m c :=
  (W3_of m c main_v0 (by decide)).trans (W2_main_v0 m c)

theorem W4_main_v0 (c : Dev nD) : W4 m c main_v0 = o0 m c :=
  (W4_of m c main_v0 (by decide)).trans (W3_main_v0 m c)

theorem W5_main_v0 (c : Dev nD) : W5 m c main_v0 = o0 m c :=
  (W5_of m c main_v0 (by decide)).trans (W4_main_v0 m c)

theorem W6_main_v0 (c : Dev nD) : W6 m c main_v0 = o0 m c :=
  (W6_of m c main_v0 (by decide)).trans (W5_main_v0 m c)

theorem W7_main_v0 (c : Dev nD) : W7 m c main_v0 = o0 m c :=
  (W7_of m c main_v0 (by decide)).trans (W6_main_v0 m c)

theorem W8_main_v0 (c : Dev nD) : W8 m c main_v0 = o0 m c :=
  (W8_of m c main_v0 (by decide)).trans (W7_main_v0 m c)

theorem W5_main_v1 (c : Dev nD) : W5 m c main_v1 = o1 m c :=
  (W5_of m c main_v1 (by decide)).trans (W4_main_v1 m c)

theorem W6_main_v1 (c : Dev nD) : W6 m c main_v1 = o1 m c :=
  (W6_of m c main_v1 (by decide)).trans (W5_main_v1 m c)

theorem W7_main_v1 (c : Dev nD) : W7 m c main_v1 = o1 m c :=
  (W7_of m c main_v1 (by decide)).trans (W6_main_v1 m c)

theorem W8_main_v1 (c : Dev nD) : W8 m c main_v1 = o1 m c :=
  (W8_of m c main_v1 (by decide)).trans (W7_main_v1 m c)

theorem W7_main_v2 (c : Dev nD) : W7 m c main_v2 = o2 m c :=
  (W7_of m c main_v2 (by decide)).trans (W6_main_v2 m c)

theorem W8_main_v2 (c : Dev nD) : W8 m c main_v2 = o2 m c :=
  (W8_of m c main_v2 (by decide)).trans (W7_main_v2 m c)

end Cert.KernelIdeal.Chain

end
-- ==== Proof.LayerSpec.lean ====
/-
  One layer of the two-sided mean-aggregation network, as a function of whole arrays on the extended reals.

  For an adjacency matrix `A` (10000 × 10000), the other side's embeddings `ho`, this side's embeddings `hs`
  (10000 × 64 each) and a weight matrix `W` (64 × 128), row `p` of the layer's result is the row
  `x(p, ·)` divided by `max (‖x(p, ·)‖₂) ε`, where
  `x(p, q) = max (∑ₖ hs(p,k)·W(q,k) + ∑ₖ (∑ⱼ A(p,j)·ho(j,k))·W(q,64+k)) 0`:
  the linear map of the concatenated row `[hs(p,·) | (A·ho)(p,·)]` against `Wᵀ`, written as its two halves,
  then the rectifier, then the row's Euclidean normalisation with the floor `ε`.
-/
import Idealize.ShloMosaic.PureOps.Ideal
import Idealize.ShloMosaic.Lib.ValueIdx

noncomputable section

namespace Cert.LayerSpec

open Idealize.ShloMosaic Idealize.ShloMosaic.ValueIdx

abbrev SA : Shape := ⟨2, ![10000, 10000]⟩
abbrev SH : Shape := ⟨2, ![10000, 64]⟩
abbrev SW : Shape := ⟨2, ![64, 128]⟩

/-- Column `k` of the weight matrix's first half, -/
def lo (k : Fin 64) : Fin 128 := ⟨k.val, by have := k.isLt; omega⟩
/-- and of its second half. -/
def hi (k : Fin 64) : Fin 128 := ⟨64 + k.val, by have := k.isLt; omega⟩

/-- The neighbourhood aggregate `(A · ho)(p, k)`. -/
def neigh (A : SA.Idx → EReal) (ho : SH.Idx → EReal) (p : Fin 10000) (k : Fin 64) : EReal :=
  ∑ j : Fin 10000, A (ix2 p j) * ho (ix2 j k)

/-- The rectified activation `x(p, q)`. -/
def act (A : SA.Idx → EReal) (ho hs : SH.Idx → EReal) (W : SW.Idx → EReal) (p : Fin 10000) (q : Fin 64) : EReal :=
  max ((∑ k : Fin 64, hs (ix2 p k) * W (ix2 q (lo k))) + ∑ k : Fin 64, neigh A ho p k * W (ix2 q (hi k)))
    (Ideal.ofBits .f32 0x00000000#32)

/-- The divisor of row `p`: its Euclidean norm, floored at `ε`. -/
def norm (A : SA.Idx → EReal) (ho hs : SH.Idx → EReal) (W : SW.Idx → EReal) (p : Fin 10000) : EReal :=
  max (Ideal.sqrt (∑ q : Fin 64, act A ho hs W p q * act A ho hs W p q)) (Ideal.ofBits .f32 0x2B8CBCCC#32)

/-- The layer's result at row `p`, column `q`. -/
def layerAt (A : SA.Idx → EReal) (ho hs : SH.Idx → EReal) (W : SW.Idx → EReal) (p : Fin 10000) (q : Fin 64) : EReal :=
  Ideal.div (act A ho hs W p q) (norm A ho hs W p)

/-- The layer as a whole array. -/
def layer (A : SA.Idx → EReal) (ho hs : SH.Idx → EReal) (W : SW.Idx → EReal) : SH.Idx → EReal :=
  fun i => layerAt A ho hs W (i 0) (i 1)

theorem layer_apply (A : SA.Idx → EReal) (ho hs : SH.Idx → EReal) (W : SW.Idx → EReal) (p : Fin 10000) (q : Fin 64) :
    layer A ho hs W (ix2 p q) = layerAt A ho hs W p q := rfl

/-- The two layers: users' and items' embeddings after the first layer, -/
def users1 (Au Ai : SA.Idx → EReal) (hu hi : SH.Idx → EReal) (Wu0 Wi0 : SW.Idx → EReal) : SH.Idx → EReal := layer Au hi hu Wu0
def items1 (Au Ai : SA.Idx → EReal) (hu hi : SH.Idx → EReal) (Wu0 Wi0 : SW.Idx → EReal) : SH.Idx → EReal := layer Ai hu hi Wi0
/-- and after the second. -/
def users2 (Au Ai : SA.Idx → EReal) (hu hi : SH.Idx → EReal) (Wu0 Wu1 Wi0 Wi1 : SW.Idx → EReal) : SH.Idx → EReal :=
  layer Au (items1 Au Ai hu hi Wu0 Wi0) (users1 Au Ai hu hi Wu0 Wi0) Wu1
def items2 (Au Ai : SA.Idx → EReal) (hu hi : SH.Idx → EReal) (Wu0 Wu1 Wi0 Wi1 : SW.Idx → EReal) : SH.Idx → EReal :=
  layer Ai (users1 Au Ai hu hi Wu0 Wi0) (items1 Au Ai hu hi Wu0 Wi0) Wi1

end Cert.LayerSpec

end
-- ==== Proof.KI.ChainIdeal.lean ====
/-
  The weight halves the host hands each kernel region, read at an index.

  Before each of the four kernel regions the host cuts that layer's weight matrix `Wm` (64 × 128) into its two
  halves and transposes each: with `lo k = k` and `hi k = 64 + k` the columns of the two halves,
  `first(k, q) = Wm(q, lo k)` and `second(k, q) = Wm(q, hi k)`.
-/
import proofs.«105240_g55860344651847_cont_9to1c4b_578_12_alg».proof.Proof.Gen.KernelIdeal.Launch
import proofs.«105240_g55860344651847_cont_9to1c4b_578_12_alg».proof.Proof.LayerSpec
import Idealize.ShloMosaic.Lib.ValueLayout
import Idealize.ShloMosaic.Lib.StableHlo.Run

noncomputable section

namespace Cert.KernelIdeal.Chain

open Idealize.ShloMosaic Idealize.ShloMosaic.TcCoe Idealize.ShloMosaic.ValueIdx
open Idealize.ShloMosaic.StableHlo
open Cert.KernelIdeal Cert.KernelIdeal.Gen

/-! ## The host operations before region 0 -/

/-- The transposed first half of the weight matrix `main_arg4`: `(k, q) ↦ Wm(q, lo k)`. -/
theorem after0_v1_apply (W : Valuation τ sig (Elt Ideal)) (k q : Fin 64) :
    StableHlo.after hostOps0 W main_call0_v1 (ix2 k q) = W main_arg4 (ix2 q (Cert.LayerSpec.lo k)) := by
  have e : StableHlo.after hostOps0 W (Proc.devRef .tc main_call0_v1)
      = transpose S64x64 [1, 0] (extractStridedSlice S64x64 ![0, 0] (W main_arg4) slices_S64x128_S64x64_0_0) transposes_S64x64_S64x64_1_0 := by
    simp only [hostOps0]; after_results; rfl
  refine (congrFun e (ix2 k q)).trans ?_
  refine (transpose_ix2_apply _ _ k q).trans ?_
  exact slice2_axis1_apply 0 _ _ q k (Cert.LayerSpec.lo k) (by show k.val = 0 + k.val; omega)

/-- The transposed second half: `(k, q) ↦ Wm(q, hi k)`. -/
theorem after0_v3_apply (W : Valuation τ sig (Elt Ideal)) (k q : Fin 64) :
    StableHlo.after hostOps0 W main_call0_v3 (ix2 k q) = W main_arg4 (ix2 q (Cert.LayerSpec.hi k)) := by
  have e : StableHlo.after hostOps0 W (Proc.devRef .tc main_call0_v3)
      = transpose S64x64 [1, 0] (extractStridedSlice S64x64 ![0, 64] (W main_arg4) slices_S64x128_S64x64_0_64) transposes_S64x64_S64x64_1_0 := by
    simp only [hostOps0]; after_results; rfl
  refine (congrFun e (ix2 k q)).trans ?_
  refine (transpose_ix2_apply _ _ k q).trans ?_
  exact slice2_axis1_apply 64 _ _ q k (Cert.LayerSpec.hi k) (by show 64 + k.val = 64 + k.val; rfl)

/-! ## The host operations before region 1 -/

/-- The transposed first half of the weight matrix `main_arg6`: `(k, q) ↦ Wm(q, lo k)`. -/
theorem after1_v1_apply (W : Valuation τ sig (Elt Ideal)) (k q : Fin 64) :
    StableHlo.after hostOps1 W main_call1_v1 (ix2 k q) = W main_arg6 (ix2 q (Cert.LayerSpec.lo k)) := by
  have e : StableHlo.after hostOps1 W (Proc.devRef .tc main_call1_v1)
      = transpose S64x64 [1, 0] (extractStridedSlice S64x64 ![0, 0] (W main_arg6) slices_S64x128_S64x64_0_0) transposes_S64x64_S64x64_1_0 := by
    simp only [hostOps1]; after_results; rfl
  refine (congrFun e (ix2 k q)).trans ?_
  refine (transpose_ix2_apply _ _ k q).trans ?_
  exact slice2_axis1_apply 0 _ _ q k (Cert.LayerSpec.lo k) (by show k.val = 0 + k.val; omega)

/-- The transposed second half: `(k, q) ↦ Wm(q, hi k)`. -/
theorem after1_v3_apply (W : Valuation τ sig (Elt Ideal)) (k q : Fin 64) :
    StableHlo.after hostOps1 W main_call1_v3 (ix2 k q) = W main_arg6 (ix2 q (Cert.LayerSpec.hi k)) := by
  have e : StableHlo.after hostOps1 W (Proc.devRef .tc main_call1_v3)
      = transpose S64x64 [1, 0] (extractStridedSlice S64x64 ![0, 64] (W main_arg6) slices_S64x128_S64x64_0_64) transposes_S64x64_S64x64_1_0 := by
    simp only [hostOps1]; after_results; rfl
  refine (congrFun e (ix2 k q)).trans ?_
  refine (transpose_ix2_apply _ _ k q).trans ?_
  exact slice2_axis1_apply 64 _ _ q k (Cert.LayerSpec.hi k) (by show 64 + k.val = 64 + k.val; rfl)

/-! ## The host operations before region 2 -/

/-- The transposed first half of the weight matrix `main_arg5`: `(k, q) ↦ Wm(q, lo k)`. -/
theorem after2_v1_apply (W : Valuation τ sig (Elt Ideal)) (k q : Fin 64) :
    StableHlo.after hostOps2 W main_call2_v1 (ix2 k q) = W main_arg5 (ix2 q (Cert.LayerSpec.lo k)) := by
  have e : StableHlo.after hostOps2 W (Proc.devRef .tc main_call2_v1)
      = transpose S64x64 [1, 0] (extractStridedSlice S64x64 ![0, 0] (W main_arg5) slices_S64x128_S64x64_0_0) transposes_S64x64_S64x64_1_0 := by
    simp only [hostOps2]; after_results; rfl
  refine (congrFun e (ix2 k q)).trans ?_
  refine (transpose_ix2_apply _ _ k q).trans ?_
  exact slice2_axis1_apply 0 _ _ q k (Cert.LayerSpec.lo k) (by show k.val = 0 + k.val; omega)

/-- The transposed second half: `(k, q) ↦ Wm(q, hi k)`. -/
theorem after2_v3_apply (W : Valuation τ sig (Elt Ideal)) (k q : Fin 64) :
    StableHlo.after hostOps2 W main_call2_v3 (ix2 k q) = W main_arg5 (ix2 q (Cert.LayerSpec.hi k)) := by
  have e : StableHlo.after hostOps2 W (Proc.devRef .tc main_call2_v3)
      = transpose S64x64 [1, 0] (extractStridedSlice S64x64 ![0, 64] (W main_arg5) slices_S64x128_S64x64_0_64) transposes_S64x64_S64x64_1_0 := by
    simp only [hostOps2]; after_results; rfl
  refine (congrFun e (ix2 k q)).trans ?_
  refine (transpose_ix2_apply _ _ k q).trans ?_
  exact slice2_axis1_apply 64 _ _ q k (Cert.LayerSpec.hi k) (by show 64 + k.val = 64 + k.val; rfl)

/-! ## The host operations before region 3 -/

/-- The transposed first half of the weight matrix `main_arg7`: `(k, q) ↦ Wm(q, lo k)`. -/
theorem after3_v1_apply (W : Valuation τ sig (Elt Ideal)) (k q : Fin 64) :
    StableHlo.after hostOps3 W main_call3_v1 (ix2 k q) = W main_arg7 (ix2 q (Cert.LayerSpec.lo k)) := by
  have e : StableHlo.after hostOps3 W (Proc.devRef .tc main_call3_v1)
      = transpose S64x64 [1, 0] (extractStridedSlice S64x64 ![0, 0] (W main_arg7) slices_S64x128_S64x64_0_0) transposes_S64x64_S64x64_1_0 := by
    simp only [hostOps3]; after_results; rfl
  refine (congrFun e (ix2 k q)).trans ?_
  refine (transpose_ix2_apply _ _ k q).trans ?_
  exact slice2_axis1_apply 0 _ _ q k (Cert.LayerSpec.lo k) (by show k.val = 0 + k.val; omega)

/-- The transposed second half: `(k, q) ↦ Wm(q, hi k)`. -/
theorem after3_v3_apply (W : Valuation τ sig (Elt Ideal)) (k q : Fin 64) :
    StableHlo.after hostOps3 W main_call3_v3 (ix2 k q) = W main_arg7 (ix2 q (Cert.LayerSpec.hi k)) := by
  have e : StableHlo.after hostOps3 W (Proc.devRef .tc main_call3_v3)
      = transpose S64x64 [1, 0] (extractStridedSlice S64x64 ![0, 64] (W main_arg7) slices_S64x128_S64x64_0_64) transposes_S64x64_S64x64_1_0 := by
    simp only [hostOps3]; after_results; rfl
  refine (congrFun e (ix2 k q)).trans ?_
  refine (transpose_ix2_apply _ _ k q).trans ?_
  exact slice2_axis1_apply 64 _ _ q k (Cert.LayerSpec.hi k) (by show 64 + k.val = 64 + k.val; rfl)

end Cert.KernelIdeal.Chain

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibConcat5.lean ====
/-
  A concatenation of five pieces of one shape, read at an index.

  Five arrays of one shape laid end to end along an axis: the element at an index whose coordinate on that axis is c
  comes from piece c / K, K the pieces' extent on the axis, at the index with the same coordinates off the axis and
  c % K on it.
-/
import Idealize.ShloMosaic.Lib.Pipeline.Value

namespace Cert.LibConcat5

open Idealize.ShloMosaic

variable {α : Type}

/-- Five pieces of one shape s joined along axis a of t, read at j: the piece g = (j a) / K at the index i that agrees
    with j off the axis and has (j a) % K on it. -/
theorem concat5_apply {t s : Shape} (a : Fin t.rank) (x0 x1 x2 x3 x4 : s.Idx → α)
    (h : Shape.Concatenates [s, s, s, s, s] t a) (hr : s.rank = t.rank) (K : Nat) (hK : s.size (a.cast hr.symm) = K)
    (j : t.Idx) (g : Fin 5) (hg : (j a).val / K = g.val) (i : s.Idx) (hia : (i (a.cast hr.symm)).val = (j a).val % K)
    (hi : ∀ b : Fin s.rank, b.cast hr ≠ a → (i b).val = (j (b.cast hr)).val) :
    concatenate t a [⟨s, x0⟩, ⟨s, x1⟩, ⟨s, x2⟩, ⟨s, x3⟩, ⟨s, x4⟩] h j = (![x0, x1, x2, x3, x4] g) i :=
  concatenate_ofFn_apply a ![x0, x1, x2, x3, x4] h hr K hK j g hg i hia hi

end Cert.LibConcat5
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«105240_g55860344651847_cont_9to1c4b_578_12_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«105240_g55860344651847_cont_9to1c4b_578_12_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.KI.PayValue.lean ====
/-
  The arithmetic of one grid step of the fused layer, read at an element, is the layer's specification.

  One grid step t computes the 400 rows 400·t … 400·t + 399 of a layer. Its five 80-row pieces of the adjacency
  block, each multiplied by the other side's embeddings, laid end to end along the rows are the neighbourhood
  aggregate of those 400 rows; the two 64 × 64 products against the two halves of the transposed weights, added,
  rectified and divided by the floored Euclidean norm of the row are the specification's layerAt.
-/
import proofs.«105240_g55860344651847_cont_9to1c4b_578_12_alg».proof.Proof.Gen.KernelIdeal.Skeleton
import proofs.«105240_g55860344651847_cont_9to1c4b_578_12_alg».proof.Proof.LayerSpec
import proofs.«105240_g55860344651847_cont_9to1c4b_578_12_alg».proof.Proof.LibMatmulAt
import proofs.«105240_g55860344651847_cont_9to1c4b_578_12_alg».proof.Proof.LibConcat5
import proofs.«105240_g55860344651847_cont_9to1c4b_578_12_alg».proof.Proof.LibColumn
import proofs.«105240_g55860344651847_cont_9to1c4b_578_12_alg».proof.Proof.LibRowReduce
import proofs.«105240_g55860344651847_cont_9to1c4b_578_12_alg».proof.Proof.LibRowF32
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx Cert.KernelIdeal Cert.KernelIdeal.Gen Cert.LayerSpec

/-- One 80-row piece of the adjacency block at row offset o of grid step t, times the embeddings, read at (r, k):
    the neighbourhood aggregate of row 400·t + o + r. -/
theorem piece_apply (A : SA.Idx → EReal) (ho : SH.Idx → EReal) (t : Fin 25) (o : ℕ) (ho80 : o + 80 ≤ 400)
    (x : Vec Ideal S10000x64 .f32) (a : Vec Ideal S80x10000 .f32)
    (hx : ∀ (j : Fin 10000) (k : Fin 64), x (ix2 j k) = ho (ix2 j k))
    (ha : ∀ (r : Fin 80) (j : Fin 10000), a (ix2 r j) = A (ix2 (⟨400 * t.val + o + r.val, by have := t.isLt; have := r.isLt; omega⟩ : Fin 10000) j))
    (r : Fin 80) (k : Fin 64) :
    matmul dot_S80x10000_S10000x64_S80x64_1_0_0_1_n_n none (truncf .bf16 a bitsLt_bf16_f32) (truncf .bf16 x bitsLt_bf16_f32)
        (constant (F := Ideal) S80x64 .f32 0x00000000#32) (ix2 r k)
      = neigh A ho (⟨400 * t.val + o + r.val, by have := t.isLt; have := r.isLt; omega⟩ : Fin 10000) k := by
  refine (Cert.LibMatmulAt.matmul_zero_apply dot_S80x10000_S10000x64_S80x64_1_0_0_1_n_n rfl rfl rfl rfl rfl rfl none _ _ r k).trans ?_
  unfold neigh
  refine Finset.sum_congr rfl fun j _ => ?_
  show a (ix2 r j) * x (ix2 j k) = _
  rw [ha r j, hx j k]

/-- The product of one 80-row piece with the embeddings, the narrowing casts (identities on the extended reals) included. -/
abbrev pieceOf (x : Vec Ideal S10000x64 .f32) (a : Vec Ideal S80x10000 .f32) : FVec Ideal S80x64 .f32 :=
  matmul dot_S80x10000_S10000x64_S80x64_1_0_0_1_n_n none (truncf .bf16 a bitsLt_bf16_f32) (truncf .bf16 x bitsLt_bf16_f32)
    (constant (F := Ideal) S80x64 .f32 0x00000000#32)

/-- The five pieces laid end to end along the rows. -/
abbrev neighOf (x : Vec Ideal S10000x64 .f32) (a0 a1 a2 a3 a4 : Vec Ideal S80x10000 .f32) : FVec Ideal S400x64 .f32 :=
  concatenate S400x64 0 [⟨S80x64, pieceOf x a0⟩, ⟨S80x64, pieceOf x a1⟩, ⟨S80x64, pieceOf x a2⟩, ⟨S80x64, pieceOf x a3⟩, ⟨S80x64, pieceOf x a4⟩]
    concatenates_S80x64_S80x64_S80x64_S80x64_S80x64_S400x64_d0

/-- Row r of the concatenation is row r % 80 of piece r / 80. -/
theorem neighOf_piece (x : Vec Ideal S10000x64 .f32) (a0 a1 a2 a3 a4 : Vec Ideal S80x10000 .f32)
    (r : Fin 400) (k : Fin 64) (g : Fin 5) (hg : r.val / 80 = g.val) :
    neighOf x a0 a1 a2 a3 a4 (ix2 r k)
      = (![pieceOf x a0, pieceOf x a1, pieceOf x a2, pieceOf x a3, pieceOf x a4] g)
          (ix2 (⟨r.val % 80, Nat.mod_lt _ (by decide)⟩ : Fin 80) k) :=
  Cert.LibConcat5.concat5_apply (t := S400x64) (s := S80x64) 0 _ _ _ _ _ _ rfl 80 rfl (ix2 r k) g hg
    (ix2 (⟨r.val % 80, Nat.mod_lt _ (by decide)⟩ : Fin 80) k) rfl
    (fun b hb => by
      match b with
      | ⟨0, _⟩ => exact absurd rfl hb
      | ⟨1, _⟩ => rfl)

/-- The five pieces laid end to end, read at (r, k): the neighbourhood aggregate of row 400·t + r. -/
theorem neighOf_apply (A : SA.Idx → EReal) (ho : SH.Idx → EReal) (t : Fin 25)
    (x : Vec Ideal S10000x64 .f32) (a0 a1 a2 a3 a4 : Vec Ideal S80x10000 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (r : Fin 400) (k : Fin 64) :
    neighOf x a0 a1 a2 a3 a4 (ix2 r k)
      = neigh A ho (⟨400 * t.val + r.val, by have := t.isLt; have := r.isLt; omega⟩ : Fin 10000) k := by
  have hr := r.isLt
  have ht := t.isLt
  have hm : r.val % 80 < 80 := Nat.mod_lt _ (by decide)
  have row : ∀ (o : ℕ) (h1 : 400 * t.val + o + r.val % 80 < 10000) (h2 : 400 * t.val + r.val < 10000),
      o + r.val % 80 = r.val →
      neigh A ho (⟨400 * t.val + o + r.val % 80, h1⟩ : Fin 10000) k = neigh A ho (⟨400 * t.val + r.val, h2⟩ : Fin 10000) k :=
    fun o h1 h2 e => congrArg (fun p => neigh A ho p k) (Fin.ext (by show 400 * t.val + o + r.val % 80 = 400 * t.val + r.val; omega))
  rcases (show r.val / 80 = 0 ∨ r.val / 80 = 1 ∨ r.val / 80 = 2 ∨ r.val / 80 = 3 ∨ r.val / 80 = 4 by omega) with h | h | h | h | h
  · refine (neighOf_piece x a0 a1 a2 a3 a4 r k (0 : Fin 5) h).trans ?_
    exact (piece_apply A ho t 0 (by omega) x a0 hx ha0 ⟨r.val % 80, hm⟩ k).trans (row 0 _ _ (by omega))
  · refine (neighOf_piece x a0 a1 a2 a3 a4 r k (1 : Fin 5) h).trans ?_
    exact (piece_apply A ho t 80 (by omega) x a1 hx ha1 ⟨r.val % 80, hm⟩ k).trans (row 80 _ _ (by omega))
  · refine (neighOf_piece x a0 a1 a2 a3 a4 r k (2 : Fin 5) h).trans ?_
    exact (piece_apply A ho t 160 (by omega) x a2 hx ha2 ⟨r.val % 80, hm⟩ k).trans (row 160 _ _ (by omega))
  · refine (neighOf_piece x a0 a1 a2 a3 a4 r k (3 : Fin 5) h).trans ?_
    exact (piece_apply A ho t 240 (by omega) x a3 hx ha3 ⟨r.val % 80, hm⟩ k).trans (row 240 _ _ (by omega))
  · refine (neighOf_piece x a0 a1 a2 a3 a4 r k (4 : Fin 5) h).trans ?_
    exact (piece_apply A ho t 320 (by omega) x a4 hx ha4 ⟨r.val % 80, hm⟩ k).trans (row 320 _ _ (by omega))

/-- The rectified activation of the block: the block of this side's embeddings against the first half of the transposed
    weights plus the aggregate against the second half, then the maximum with zero. -/
abbrev actOf (x : Vec Ideal S10000x64 .f32) (a0 a1 a2 a3 a4 : Vec Ideal S80x10000 .f32)
    (h : FVec Ideal S400x64 .f32) (wst wnt : FVec Ideal S64x64 .f32) : FVec Ideal S400x64 .f32 :=
  maximumf
    (addf (matmul dot_S400x64_S64x64_S400x64_1_0_0_1_n_n none h wst (constant (F := Ideal) S400x64 .f32 0x00000000#32))
      (matmul dot_S400x64_S64x64_S400x64_1_0_0_1_n_n none (neighOf x a0 a1 a2 a3 a4) wnt (constant (F := Ideal) S400x64 .f32 0x00000000#32)))
    (broadcast S400x64 (Scalar.ofBits (F := Ideal) .f32 0x00000000#32))

/-- The block's activation at (r, q) is the specification's activation of row 400·t + r. -/
theorem actOf_apply (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    actOf x a0 a1 a2 a3 a4 h wst wnt (ix2 r q)
      = act A ho hs W (⟨400 * t.val + r.val, by have := t.isLt; have := r.isLt; omega⟩ : Fin 10000) q := by
  show max (matmul dot_S400x64_S64x64_S400x64_1_0_0_1_n_n none h wst (constant (F := Ideal) S400x64 .f32 0x00000000#32) (ix2 r q)
      + matmul dot_S400x64_S64x64_S400x64_1_0_0_1_n_n none (neighOf x a0 a1 a2 a3 a4) wnt (constant (F := Ideal) S400x64 .f32 0x00000000#32) (ix2 r q))
      (Ideal.ofBits .f32 0x00000000#32) = _
  unfold act
  refine congrArg₂ max (congrArg₂ (· + ·) ?_ ?_) rfl
  · refine (Cert.LibMatmulAt.matmul_zero_apply dot_S400x64_S64x64_S400x64_1_0_0_1_n_n rfl rfl rfl rfl rfl rfl none h wst r q).trans ?_
    refine Finset.sum_congr rfl fun k _ => ?_
    rw [hh r k, hwst k q]
  · refine (Cert.LibMatmulAt.matmul_zero_apply dot_S400x64_S64x64_S400x64_1_0_0_1_n_n rfl rfl rfl rfl rfl rfl none
      (neighOf x a0 a1 a2 a3 a4) wnt r q).trans ?_
    refine Finset.sum_congr rfl fun k _ => ?_
    rw [neighOf_apply A ho t x a0 a1 a2 a3 a4 hx ha0 ha1 ha2 ha3 ha4 r k, hwnt k q]

/-- The rectified block of the two first-layer steps is that activation, -/
theorem k0_pay2_eq (x : Vec Ideal S10000x64 .f32) (a0 a1 a2 a3 a4 : Vec Ideal S80x10000 .f32)
    (h : Vec Ideal S400x64 .f32) (wst wnt : Vec Ideal S64x64 .f32) :
    k0_pay2 (F := Ideal) x a0 a1 a2 a3 a4 h wst wnt = actOf x a0 a1 a2 a3 a4 h wst wnt := by
  show maximumf
    (addf (matmul dot_S400x64_S64x64_S400x64_1_0_0_1_n_n none h (shapeCast S64x64 wst shapeCasts_S64x64_S64x64) (constant (F := Ideal) S400x64 .f32 0x00000000#32))
      (matmul dot_S400x64_S64x64_S400x64_1_0_0_1_n_n none (neighOf x a0 a1 a2 a3 a4) (shapeCast S64x64 wnt shapeCasts_S64x64_S64x64) (constant (F := Ideal) S400x64 .f32 0x00000000#32)))
    (broadcast S400x64 (Scalar.ofBits (F := Ideal) .f32 0x00000000#32)) = _
  rw [shapeCast_self wst, shapeCast_self wnt]

theorem k1_pay2_eq (x : Vec Ideal S10000x64 .f32) (a0 a1 a2 a3 a4 : Vec Ideal S80x10000 .f32)
    (h : Vec Ideal S400x64 .f32) (wst wnt : Vec Ideal S64x64 .f32) :
    k1_pay2 (F := Ideal) x a0 a1 a2 a3 a4 h wst wnt = actOf x a0 a1 a2 a3 a4 h wst wnt :=
  k0_pay2_eq x a0 a1 a2 a3 a4 h wst wnt

/-- and so is that of the two second-layer steps, whose extra casts keep the shape. -/
theorem k2_pay2_eq (x : Vec Ideal S10000x64 .f32) (a0 a1 a2 a3 a4 : Vec Ideal S80x10000 .f32)
    (h : Vec Ideal S400x64 .f32) (wst wnt : Vec Ideal S64x64 .f32) :
    k2_pay2 (F := Ideal) x a0 a1 a2 a3 a4 h wst wnt = actOf x a0 a1 a2 a3 a4 h wst wnt := by
  show maximumf
    (addf (matmul dot_S400x64_S64x64_S400x64_1_0_0_1_n_n none (shapeCast S400x64 h shapeCasts_S400x64_S400x64) (shapeCast S64x64 wst shapeCasts_S64x64_S64x64) (constant (F := Ideal) S400x64 .f32 0x00000000#32))
      (matmul dot_S400x64_S64x64_S400x64_1_0_0_1_n_n none (neighOf (shapeCast S10000x64 x shapeCasts_S10000x64_S10000x64) a0 a1 a2 a3 a4) (shapeCast S64x64 wnt shapeCasts_S64x64_S64x64) (constant (F := Ideal) S400x64 .f32 0x00000000#32)))
    (broadcast S400x64 (Scalar.ofBits (F := Ideal) .f32 0x00000000#32)) = _
  rw [shapeCast_self wst, shapeCast_self wnt, shapeCast_self h, shapeCast_self x]

theorem k3_pay2_eq (x : Vec Ideal S10000x64 .f32) (a0 a1 a2 a3 a4 : Vec Ideal S80x10000 .f32)
    (h : Vec Ideal S400x64 .f32) (wst wnt : Vec Ideal S64x64 .f32) :
    k3_pay2 (F := Ideal) x a0 a1 a2 a3 a4 h wst wnt = actOf x a0 a1 a2 a3 a4 h wst wnt :=
  k2_pay2_eq x a0 a1 a2 a3 a4 h wst wnt

/-- The sum of the squares of row r, as the lane reduction from the zero word. -/
theorem sumsq_apply (P : FVec Ideal S400x64 .f32) (r : Fin 400) :
    multiReduction .add [1] S400 (mulf P P) 0x00000000#32 reduces_S400x64_S400 (.inl rfl) rfl (ix1 r)
      = ∑ q : Fin 64, P (ix2 r q) * P (ix2 r q) :=
  Cert.LibRowF32.rowSum_f32 (mulf P P) reduces_S400x64_S400 (.inl rfl) rfl r

/-- Division of a block by its rows' Euclidean norms kept as a column, floored and repeated along the rows, read at
    (r, q): the form of the two first-layer steps, where the square root is taken before the block is handed on, -/
theorem form0_apply (P : FVec Ideal S400x64 .f32) (r : Fin 400) (q : Fin 64) :
    k0_pay1 (F := Ideal) P
        (sqrt (shapeCast S400x1 (multiReduction .add [1] S400 (mulf P P) 0x00000000#32 reduces_S400x64_S400 (.inl rfl) rfl)
          shapeCasts_S400_S400x1)) (ix2 r q)
      = Ideal.div (P (ix2 r q))
          (max (Ideal.sqrt (∑ q' : Fin 64, P (ix2 r q') * P (ix2 r q'))) (Ideal.ofBits .f32 0x2B8CBCCC#32)) := by
  show Ideal.div (P (ix2 r q))
      (broadcastTo S400x64
        (maximumf (sqrt (shapeCast S400x1 (multiReduction .add [1] S400 (mulf P P) 0x00000000#32 reduces_S400x64_S400 (.inl rfl) rfl)
          shapeCasts_S400_S400x1)) (broadcast S400x1 (Scalar.ofBits (F := Ideal) .f32 0x2B8CBCCC#32)))
        broadcasts_S400x1_S400x64 (ix2 r q)) = _
  rw [Cert.LibColumn.broadcastTo_a1_ab_apply _ broadcasts_S400x1_S400x64 r q]
  show Ideal.div (P (ix2 r q))
      (max (Ideal.sqrt (shapeCast S400x1 (multiReduction .add [1] S400 (mulf P P) 0x00000000#32 reduces_S400x64_S400 (.inl rfl) rfl)
          shapeCasts_S400_S400x1 (ix2 r (0 : Fin 1)))) (Ideal.ofBits .f32 0x2B8CBCCC#32)) = _
  rw [Cert.LibColumn.shapeCast_a_a1_apply _ shapeCasts_S400_S400x1 r 0, sumsq_apply P r]

/-- and the form of the two second-layer steps, where it is taken after. -/
theorem form2_apply (P : FVec Ideal S400x64 .f32) (r : Fin 400) (q : Fin 64) :
    k2_pay1 (F := Ideal) P
        (multiReduction .add [1] S400 (mulf P P) 0x00000000#32 reduces_S400x64_S400 (.inl rfl) rfl) (ix2 r q)
      = Ideal.div (P (ix2 r q))
          (max (Ideal.sqrt (∑ q' : Fin 64, P (ix2 r q') * P (ix2 r q'))) (Ideal.ofBits .f32 0x2B8CBCCC#32)) :=
  form0_apply P r q

/-- The block's activation divided by its rows' floored norms is the layer. -/
theorem layer_of_act
    (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    Ideal.div (actOf x a0 a1 a2 a3 a4 h wst wnt (ix2 r q))
        (max (Ideal.sqrt (∑ q' : Fin 64, actOf x a0 a1 a2 a3 a4 h wst wnt (ix2 r q') * actOf x a0 a1 a2 a3 a4 h wst wnt (ix2 r q')))
          (Ideal.ofBits .f32 0x2B8CBCCC#32))
      = layerAt A ho hs W (⟨400 * t.val + r.val, by have := t.isLt; have := r.isLt; omega⟩ : Fin 10000) q := by
  have hact := fun q' : Fin 64 => actOf_apply A ho hs W t x a0 a1 a2 a3 a4 h wst wnt hx ha0 ha1 ha2 ha3 ha4 hh hwst hwnt r q'
  have hsum : (∑ q' : Fin 64, actOf x a0 a1 a2 a3 a4 h wst wnt (ix2 r q') * actOf x a0 a1 a2 a3 a4 h wst wnt (ix2 r q'))
      = ∑ q' : Fin 64, act A ho hs W (⟨400 * t.val + r.val, by have := t.isLt; have := r.isLt; omega⟩ : Fin 10000) q' * act A ho hs W (⟨400 * t.val + r.val, by have := t.isLt; have := r.isLt; omega⟩ : Fin 10000) q' :=
    Finset.sum_congr rfl fun q' _ => by rw [hact q']
  rw [hact q, hsum]
  rfl

/-- Users, first layer: what grid step t stores at (r, q) is the layer at row 400·t + r. -/
theorem pay0_eq_layer
    (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    k0_pay1 (F := Ideal) (k0_pay2 x a0 a1 a2 a3 a4 h wst wnt) (k0_pay3 x a0 a1 a2 a3 a4 h wst wnt) (ix2 r q)
      = layerAt A ho hs W (⟨400 * t.val + r.val, by have := t.isLt; have := r.isLt; omega⟩ : Fin 10000) q := by
  refine (form0_apply (k0_pay2 (F := Ideal) x a0 a1 a2 a3 a4 h wst wnt) r q).trans ?_
  rw [k0_pay2_eq]
  exact layer_of_act A ho hs W t x a0 a1 a2 a3 a4 h wst wnt hx ha0 ha1 ha2 ha3 ha4 hh hwst hwnt r q

/-- Items, first layer. -/
theorem pay1_eq_layer
    (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    k1_pay1 (F := Ideal) (k1_pay2 x a0 a1 a2 a3 a4 h wst wnt) (k1_pay3 x a0 a1 a2 a3 a4 h wst wnt) (ix2 r q)
      = layerAt A ho hs W (⟨400 * t.val + r.val, by have := t.isLt; have := r.isLt; omega⟩ : Fin 10000) q :=
  pay0_eq_layer A ho hs W t x a0 a1 a2 a3 a4 h wst wnt hx ha0 ha1 ha2 ha3 ha4 hh hwst hwnt r q

/-- Users, second layer. -/
theorem pay2_eq_layer
    (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    k2_pay1 (F := Ideal) (k2_pay2 x a0 a1 a2 a3 a4 h wst wnt) (k2_pay3 x a0 a1 a2 a3 a4 h wst wnt) (ix2 r q)
      = layerAt A ho hs W (⟨400 * t.val + r.val, by have := t.isLt; have := r.isLt; omega⟩ : Fin 10000) q := by
  refine (form2_apply (k2_pay2 (F := Ideal) x a0 a1 a2 a3 a4 h wst wnt) r q).trans ?_
  rw [k2_pay2_eq]
  exact layer_of_act A ho hs W t x a0 a1 a2 a3 a4 h wst wnt hx ha0 ha1 ha2 ha3 ha4 hh hwst hwnt r q

/-- Items, second layer. -/
theorem pay3_eq_layer
    (A : SA.Idx → EReal) (ho hs : SH.Idx → EReal) (W : SW.Idx → EReal) (t : Fin 25)
    (x : Vec Ideal S10000x64 .f32) (a0 a1 a2 a3 a4 : Vec Ideal S80x10000 .f32)
    (h : Vec Ideal S400x64 .f32) (wst wnt : Vec Ideal S64x64 .f32)
    (hx : ∀ (j : Fin 10000) (k : Fin 64), x (ix2 j k) = ho (ix2 j k))
    (ha0 : ∀ (r : Fin 80) (j : Fin 10000), a0 (ix2 r j) = A (ix2 (⟨400 * t.val + 0 + r.val, by have := t.isLt; have := r.isLt; omega⟩ : Fin 10000) j))
    (ha1 : ∀ (r : Fin 80) (j : Fin 10000), a1 (ix2 r j) = A (ix2 (⟨400 * t.val + 80 + r.val, by have := t.isLt; have := r.isLt; omega⟩ : Fin 10000) j))
    (ha2 : ∀ (r : Fin 80) (j : Fin 10000), a2 (ix2 r j) = A (ix2 (⟨400 * t.val + 160 + r.val, by have := t.isLt; have := r.isLt; omega⟩ : Fin 10000) j))
    (ha3 : ∀ (r : Fin 80) (j : Fin 10000), a3 (ix2 r j) = A (ix2 (⟨400 * t.val + 240 + r.val, by have := t.isLt; have := r.isLt; omega⟩ : Fin 10000) j))
    (ha4 : ∀ (r : Fin 80) (j : Fin 10000), a4 (ix2 r j) = A (ix2 (⟨400 * t.val + 320 + r.val, by have := t.isLt; have := r.isLt; omega⟩ : Fin 10000) j))
    (hh : ∀ (r : Fin 400) (k : Fin 64), h (ix2 r k) = hs (ix2 (⟨400 * t.val + r.val, by have := t.isLt; have := r.isLt; omega⟩ : Fin 10000) k))
    (hwst : ∀ (k q : Fin 64), wst (ix2 k q) = W (ix2 q (lo k)))
    (hwnt : ∀ (k q : Fin 64), wnt (ix2 k q) = W (ix2 q (hi k)))
    (r : Fin 400) (q : Fin 64) :
    k3_pay1 (F := Ideal) (k3_pay2 x a0 a1 a2 a3 a4 h wst wnt) (k3_pay3 x a0 a1 a2 a3 a4 h wst wnt) (ix2 r q)
      = layerAt A ho hs W (⟨400 * t.val + r.val, by have := t.isLt; have := r.isLt; omega⟩ : Fin 10000) q :=
  pay2_eq_layer A ho hs W t x a0 a1 a2 a3 a4 h wst wnt hx ha0 ha1 ha2 ha3 ha4 hh hwst hwnt r q

end Cert.KernelIdeal.PayValue

end
-- ==== Proof.KI.Final0.lean ====
/-
  The users' first layer: from the 25 blocks to the array. Each grid point writes back one block of 400 rows; that block is
  the specification's layer of the arrays the region found, read through the block; the 25 blocks tile the 10000
  rows; so the output array after the region is the layer.
-/
import proofs.«105240_g55860344651847_cont_9to1c4b_578_12_alg».proof.Proof.KI.Region0
import proofs.«105240_g55860344651847_cont_9to1c4b_578_12_alg».proof.Proof.KI.PayValue
import proofs.«105240_g55860344651847_cont_9to1c4b_578_12_alg».proof.Proof.LayerSpec
import Idealize.ShloMosaic.Lib.Pipeline.Value
import Idealize.ShloMosaic.Lib.ValueIdx

set_option maxRecDepth 16384

noncomputable section

namespace Cert.KernelIdeal.Final0

open Cert.KernelIdeal Cert.KernelIdeal.Gen
open Idealize.ShloMosaic Idealize.ShloMosaic.TcCoe Idealize.ShloMosaic.ValueIdx Idealize.SL.Sem
open Idealize.ShloMosaic.Pipeline (Dat)

variable (c : Dev nD) (V : (b : Ref sig .tc) → Buf (Elt Ideal) ((c : Thread nD τ).loc b))

theorem hz : (![0, 0] : Fin 2 → Nat) = fun _ => 0 := funext fun a => by fin_cases a <;> rfl

/-- The windows' block indices at grid point `t`: the five adjacency windows at rows `5 t + w` of 80, this side's
    rows and the output at row `t` of 400, the rest at the one block that is the whole array. -/
theorem idx_facts : ∀ t : Fin cfg0.N,
    win0_0.index t (0 : Fin 2) = 5 * t.val + 0 ∧ win0_0.index t (1 : Fin 2) = 0
    ∧ win0_1.index t (0 : Fin 2) = 5 * t.val + 1 ∧ win0_1.index t (1 : Fin 2) = 0
    ∧ win0_2.index t (0 : Fin 2) = 5 * t.val + 2 ∧ win0_2.index t (1 : Fin 2) = 0
    ∧ win0_3.index t (0 : Fin 2) = 5 * t.val + 3 ∧ win0_3.index t (1 : Fin 2) = 0
    ∧ win0_4.index t (0 : Fin 2) = 5 * t.val + 4 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Adjacency window 0 at point `t` holds rows `400 t + 0 …` of the adjacency matrix. -/
theorem blk_read0 (t : Fin cfg0.N) (y : S80x10000.Idx) (i : S10000x10000.Idx)
    (h0 : (i 0).val = (5 * t.val + 0) * 80 + (y 0).val) (h1 : (i 1).val = (y 1).val) :
    (Region0.iblk c V 0 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg0 : S10000x10000.Idx → EReal) (funext fun a => Fin.ext ?_)
  match a with
  | ⟨0, _⟩ => show win0_0.index t (0 : Fin 2) * 80 + 1 * (y 0).val = (i 0).val; rw [e00, h0]; omega
  | ⟨1, _⟩ => show win0_0.index t (1 : Fin 2) * 10000 + 1 * (y 1).val = (i 1).val; rw [e01, h1]; omega

/-- Adjacency window 1 at point `t` holds rows `400 t + 80 …` of the adjacency matrix. -/
theorem blk_read1 (t : Fin cfg0.N) (y : S80x10000.Idx) (i : S10000x10000.Idx)
    (h0 : (i 0).val = (5 * t.val + 1) * 80 + (y 0).val) (h1 : (i 1).val = (y 1).val) :
    (Region0.iblk c V 1 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg0 : S10000x10000.Idx → EReal) (funext fun a => Fin.ext ?_)
  match a with
  | ⟨0, _⟩ => show win0_1.index t (0 : Fin 2) * 80 + 1 * (y 0).val = (i 0).val; rw [e10, h0]; omega
  | ⟨1, _⟩ => show win0_1.index t (1 : Fin 2) * 10000 + 1 * (y 1).val = (i 1).val; rw [e11, h1]; omega

/-- Adjacency window 2 at point `t` holds rows `400 t + 160 …` of the adjacency matrix. -/
theorem blk_read2 (t : Fin cfg0.N) (y : S80x10000.Idx) (i : S10000x10000.Idx)
    (h0 : (i 0).val = (5 * t.val + 2) * 80 + (y 0).val) (h1 : (i 1).val = (y 1).val) :
    (Region0.iblk c V 2 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg0 : S10000x10000.Idx → EReal) (funext fun a => Fin.ext ?_)
  match a with
  | ⟨0, _⟩ => show win0_2.index t (0 : Fin 2) * 80 + 1 * (y 0).val = (i 0).val; rw [e20, h0]; omega
  | ⟨1, _⟩ => show win0_2.index t (1 : Fin 2) * 10000 + 1 * (y 1).val = (i 1).val; rw [e21, h1]; omega

/-- Adjacency window 3 at point `t` holds rows `400 t + 240 …` of the adjacency matrix. -/
theorem blk_read3 (t : Fin cfg0.N) (y : S80x10000.Idx) (i : S10000x10000.Idx)
    (h0 : (i 0).val = (5 * t.val + 3) * 80 + (y 0).val) (h1 : (i 1).val = (y 1).val) :
    (Region0.iblk c V 3 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg0 : S10000x10000.Idx → EReal) (funext fun a => Fin.ext ?_)
  match a with
  | ⟨0, _⟩ => show win0_3.index t (0 : Fin 2) * 80 + 1 * (y 0).val = (i 0).val; rw [e30, h0]; omega
  | ⟨1, _⟩ => show win0_3.index t (1 : Fin 2) * 10000 + 1 * (y 1).val = (i 1).val; rw [e31, h1]; omega

/-- Adjacency window 4 at point `t` holds rows `400 t + 320 …` of the adjacency matrix. -/
theorem blk_read4 (t : Fin cfg0.N) (y : S80x10000.Idx) (i : S10000x10000.Idx)
    (h0 : (i 0).val = (5 * t.val + 4) * 80 + (y 0).val) (h1 : (i 1).val = (y 1).val) :
    (Region0.iblk c V 4 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg0 : S10000x10000.Idx → EReal) (funext fun a => Fin.ext ?_)
  match a with
  | ⟨0, _⟩ => show win0_4.index t (0 : Fin 2) * 80 + 1 * (y 0).val = (i 0).val; rw [e40, h0]; omega
  | ⟨1, _⟩ => show win0_4.index t (1 : Fin 2) * 10000 + 1 * (y 1).val = (i 1).val; rw [e41, h1]; omega

/-- Window 5 holds the whole of the other side's embeddings. -/
theorem blk_read5 (t : Fin cfg0.N) (y : S10000x64.Idx) :
    (Region0.iblk c V 5 t : Vec Ideal S10000x64 .f32) y = (V main_arg3 : S10000x64.Idx → EReal) y := by
  obtain ⟨e00, e01, e10, e11, e20, e21, e30, e31, e40, e41, e50, e51, e60, e61, e70, e71, e80, e81, e90, e91⟩ := idx_facts t
  unfold Region0.iblk
  rw [View.read_apply]
  refine congrArg (V main_arg3 : S10000x64.Idx → EReal) (funext fun a => Fin.ext ?_)
  match a with
  | ⟨0, _⟩ => show win0_5.index t (0 : Fin 2) * 10000 + 1 * (y 0).val = (y 0).val; rw [e50]; omega
  | ⟨1, _⟩ => show win0_5.index t (1 : Fin 2) * 64 + 1 * (y 1).val = (y 1).val; rw [e51]; omega

/-- Window 6 at point `t` holds rows `400 t …` of this side's embeddings. -/
theorem blk_read6 (t : Fin cfg0.N) (y : S400x64.Idx) (i : S10000x64.Idx)
    (h0 : (i 0).val = t.val * 400 + (y 0).val) (h1 : (i 1).val = (y 1).val) :
    (Region0.iblk c V 6 t : Vec Ideal S400x64 .f32) y = (V main_arg2 : S10000x64.Idx → EReal) i := by
  obtain ⟨e00, e01, e10, e11, e20, e21, e30, e31, e40, e41, e50, e51, e60, e61, e70, e71, e80, e81, e90, e91⟩ := idx_facts t
  unfold Region0.iblk
  rw [View.read_apply]
  refine congrArg (V main_arg2 : S10000x64.Idx → EReal) (funext fun a => Fin.ext ?_)
  match a with
  | ⟨0, _⟩ => show win0_6.index t (0 : Fin 2) * 400 + 1 * (y 0).val = (i 0).val; rw [e60, h0]; omega
  | ⟨1, _⟩ => show win0_6.index t (1 : Fin 2) * 64 + 1 * (y 1).val = (i 1).val; rw [e61, h1]; omega

/-- Window 7 holds the whole of the first transposed weight half. -/
theorem blk_read7 (t : Fin cfg0.N) (y : S64x64.Idx) :
    (Region0.iblk c V 7 t : Vec Ideal S64x64 .f32) y = (V main_call0_v1 : S64x64.Idx → EReal) y := by
  obtain ⟨e00, e01, e10, e11, e20, e21, e30, e31, e40, e41, e50, e51, e60, e61, e70, e71, e80, e81, e90, e91⟩ := idx_facts t
  unfold Region0.iblk
  rw [View.read_apply]
  refine congrArg (V main_call0_v1 : S64x64.Idx → EReal) (funext fun a => Fin.ext ?_)
  match a with
  | ⟨0, _⟩ => show win0_7.index t (0 : Fin 2) * 64 + 1 * (y 0).val = (y 0).val; rw [e70]; omega
  | ⟨1, _⟩ => show win0_7.index t (1 : Fin 2) * 64 + 1 * (y 1).val = (y 1).val; rw [e71]; omega

/-- Window 8 holds the whole of the second transposed weight half. -/
theorem blk_read8 (t : Fin cfg0.N) (y : S64x64.Idx) :
    (Region0.iblk c V 8 t : Vec Ideal S64x64 .f32) y = (V main_call0_v3 : S64x64.Idx → EReal) y := by
  obtain ⟨e00, e01, e10, e11, e20, e21, e30, e31, e40, e41, e50, e51, e60, e61, e70, e71, e80, e81, e90, e91⟩ := idx_facts t
  unfold Region0.iblk
  rw [View.read_apply]
  refine congrArg (V main_call0_v3 : S64x64.Idx → EReal) (funext fun a => Fin.ext ?_)
  match a with
  | ⟨0, _⟩ => show win0_8.index t (0 : Fin 2) * 64 + 1 * (y 0).val = (y 0).val; rw [e80]; omega
  | ⟨1, _⟩ => show win0_8.index t (1 : Fin 2) * 64 + 1 * (y 1).val = (y 1).val; rw [e81]; omega

/-- What the body leaves at grid point `t`, at row `r` and column `q` of its block, is the layer at row `400 t + r`. -/
theorem point (Wt : Cert.LayerSpec.SW.Idx → EReal)
    (hwst : ∀ k q : Fin 64, (V main_call0_v1 : S64x64.Idx → EReal) (ix2 k q) = Wt (ix2 q (Cert.LayerSpec.lo k)))
    (hwnt : ∀ k q : Fin 64, (V main_call0_v3 : S64x64.Idx → EReal) (ix2 k q) = Wt (ix2 q (Cert.LayerSpec.hi k)))
    (t : Fin cfg0.N) (y : S400x64.Idx) (i : S10000x64.Idx)
    (h0 : (i 0).val = t.val * 400 + (y 0).val) (h1 : (i 1).val = (y 1).val) :
    k0_pay1 (F := Ideal) (k0_pay2 (Region0.iblk c V 5 t) (Region0.iblk c V 0 t) (Region0.iblk c V 1 t) (Region0.iblk c V 2 t) (Region0.iblk c V 3 t) (Region0.iblk c V 4 t) (Region0.iblk c V 6 t) (Region0.iblk c V 7 t) (Region0.iblk c V 8 t)) (k0_pay3 (Region0.iblk c V 5 t) (Region0.iblk c V 0 t) (Region0.iblk c V 1 t) (Region0.iblk c V 2 t) (Region0.iblk c V 3 t) (Region0.iblk c V 4 t) (Region0.iblk c V 6 t) (Region0.iblk c V 7 t) (Region0.iblk c V 8 t)) y
      = Cert.LayerSpec.layer (V main_arg0 : Cert.LayerSpec.SA.Idx → EReal) (V main_arg3 : Cert.LayerSpec.SH.Idx → EReal) (V main_arg2 : Cert.LayerSpec.SH.Idx → EReal) Wt i := by
  obtain ⟨r, q, rfl⟩ : ∃ (r : Fin 400) (q : Fin 64), y = ix2 r q := ⟨y 0, y 1, eq_ix2 y⟩
  have ht : t.val < 25 := lt_of_lt_of_eq t.isLt (N_0 : cfg0.N = 25)
  have hr : r.val < 400 := r.isLt
  refine (PayValue.pay0_eq_layer (V main_arg0 : Cert.LayerSpec.SA.Idx → EReal) (V main_arg3 : Cert.LayerSpec.SH.Idx → EReal) (V main_arg2 : Cert.LayerSpec.SH.Idx → EReal) Wt ⟨t.val, ht⟩
    (Region0.iblk c V 5 t) (Region0.iblk c V 0 t) (Region0.iblk c V 1 t) (Region0.iblk c V 2 t) (Region0.iblk c V 3 t) (Region0.iblk c V 4 t) (Region0.iblk c V 6 t) (Region0.iblk c V 7 t) (Region0.iblk c V 8 t)
    (fun j k => blk_read5 c V t (ix2 j k))
    (fun r' j => blk_read0 c V t (ix2 r' j) _ (by show 400 * t.val + 0 + r'.val = (5 * t.val + 0) * 80 + r'.val; omega) rfl)
    (fun r' j => blk_read1 c V t (ix2 r' j) _ (by show 400 * t.val + 80 + r'.val = (5 * t.val + 1) * 80 + r'.val; omega) rfl)
    (fun r' j => blk_read2 c V t (ix2 r' j) _ (by show 400 * t.val + 160 + r'.val = (5 * t.val + 2) * 80 + r'.val; omega) rfl)
    (fun r' j => blk_read3 c V t (ix2 r' j) _ (by show 400 * t.val + 240 + r'.val = (5 * t.val + 3) * 80 + r'.val; omega) rfl)
    (fun r' j => blk_read4 c V t (ix2 r' j) _ (by show 400 * t.val + 320 + r'.val = (5 * t.val + 4) * 80 + r'.val; omega) rfl)
    (fun r' k => blk_read6 c V t (ix2 r' k) _ (by show 400 * t.val + r'.val = t.val * 400 + r'.val; omega) rfl)
    (fun k q' => (blk_read7 c V t (ix2 k q')).trans (hwst k q'))
    (fun k q' => (blk_read8 c V t (ix2 k q')).trans (hwnt k q'))
    r q).trans ?_
  have hi : i = ix2 (⟨400 * t.val + r.val, by omega⟩ : Fin 10000) q := funext fun a => Fin.ext (by
    match a with
    | ⟨0, _⟩ => show (i 0).val = 400 * t.val + r.val; rw [h0]; show t.val * 400 + r.val = _; omega
    | ⟨1, _⟩ => exact h1)
  rw [hi, Cert.LayerSpec.layer_apply]

/-- What grid point `t` writes back is block `t` of the layer. -/
theorem flushed_eq (Wt : Cert.LayerSpec.SW.Idx → EReal)
    (hwst : ∀ k q : Fin 64, (V main_call0_v1 : S64x64.Idx → EReal) (ix2 k q) = Wt (ix2 q (Cert.LayerSpec.lo k)))
    (hwnt : ∀ k q : Fin 64, (V main_call0_v3 : S64x64.Idx → EReal) (ix2 k q) = Wt (ix2 q (Cert.LayerSpec.hi k))) (t : Fin cfg0.N) :
    (Region0.dat c V).flushed 9 t = ((cfg0.win 9).blk t).view.read (Elt Ideal) (Cert.LayerSpec.layer (V main_arg0 : Cert.LayerSpec.SA.Idx → EReal) (V main_arg3 : Cert.LayerSpec.SH.Idx → EReal) (V main_arg2 : Cert.LayerSpec.SH.Idx → EReal) Wt) := by
  show (cfg0.win 9).cut (grid0.coords t) ((Region0.dat c V).after 9 t) = _
  rw [Region0.after_9]
  unfold Body0.out9
  rw [View.canon_unit_zero hz]
  simp only [View.ld_unit_zero (S := S80x10000) hz, View.ld_unit_zero (S := S10000x64) hz, View.ld_unit_zero (S := S400x64) hz,
    View.ld_unit_zero (S := S64x64) hz]
  obtain ⟨e00, e01, e10, e11, e20, e21, e30, e31, e40, e41, e50, e51, e60, e61, e70, e71, e80, e81, e90, e91⟩ := idx_facts t
  funext y
  rw [View.read_apply]
  refine point c V Wt hwst hwnt t y _ ?_ ?_
  · show win0_9.index t (0 : Fin 2) * 400 + 1 * (y 0).val = t.val * 400 + (y 0).val; rw [e90]; omega
  · show win0_9.index t (1 : Fin 2) * 64 + 1 * (y 1).val = (y 1).val; rw [e91]; omega

/-- An index of the output array is in point `t`'s block iff each coordinate is in the block's range. -/
theorem mem_blk (t : Fin cfg0.N) (i : S10000x64.Idx) :
    i ∈ ((cfg0.win 9).blk t).view.set ↔ ∀ a : Fin 2, win0_9.index t a * S400x64.size a ≤ (i a).val ∧ (i a).val < win0_9.index t a * S400x64.size a + S400x64.size a := by
  show i ∈ ((View.whole main_v0).slice (win0_9.rect t)).set ↔ _
  rw [View.set_slice_whole, Rect.mem_set_unit]
  exact Iff.rfl

/-- Every row of the output is in the block of the point its 400-row group names. -/
theorem cover (i : S10000x64.Idx) : ∃ t : Fin cfg0.N, (cfg0.win 9).flush t = true ∧ i ∈ ((cfg0.win 9).blk t).view.set := by
  have hi0 : (i 0).val < 10000 := (i 0).isLt
  have hi1 : (i 1).val < 64 := (i 1).isLt
  have hN : cfg0.N = 25 := N_0
  refine ⟨⟨(i 0).val / 400, by rw [hN]; omega⟩, flush0_9 _, ?_⟩
  rw [mem_blk]
  obtain ⟨e00, e01, e10, e11, e20, e21, e30, e31, e40, e41, e50, e51, e60, e61, e70, e71, e80, e81, e90, e91⟩ :=
    idx_facts ⟨(i 0).val / 400, by rw [hN]; omega⟩
  intro a
  match a with
  | ⟨0, _⟩ =>
    show win0_9.index _ (0 : Fin 2) * 400 ≤ (i 0).val ∧ (i 0).val < win0_9.index _ (0 : Fin 2) * 400 + 400
    rw [e90]; show (i 0).val / 400 * 400 ≤ (i 0).val ∧ (i 0).val < (i 0).val / 400 * 400 + 400; omega
  | ⟨1, _⟩ =>
    show win0_9.index _ (1 : Fin 2) * 64 ≤ (i 1).val ∧ (i 1).val < win0_9.index _ (1 : Fin 2) * 64 + 64
    rw [e91]; omega

/-- The region's output array, after its 25 write-backs, is the layer of the arrays the region found. -/
theorem final (Wt : Cert.LayerSpec.SW.Idx → EReal)
    (hwst : ∀ k q : Fin 64, (V main_call0_v1 : S64x64.Idx → EReal) (ix2 k q) = Wt (ix2 q (Cert.LayerSpec.lo k)))
    (hwnt : ∀ k q : Fin 64, (V main_call0_v3 : S64x64.Idx → EReal) (ix2 k q) = Wt (ix2 q (Cert.LayerSpec.hi k))) :
    (Region0.dat c V).arrAt 9 cfg0.N = Cert.LayerSpec.layer (V main_arg0 : Cert.LayerSpec.SA.Idx → EReal) (V main_arg3 : Cert.LayerSpec.SH.Idx → EReal) (V main_arg2 : Cert.LayerSpec.SH.Idx → EReal) Wt :=
  (Region0.dat c V).arrAt_eq_of_cover 9 (Cert.LayerSpec.layer (V main_arg0 : Cert.LayerSpec.SA.Idx → EReal) (V main_arg3 : Cert.LayerSpec.SH.Idx → EReal) (V main_arg2 : Cert.LayerSpec.SH.Idx → EReal) Wt)
    (fun t _ => flushed_eq c V Wt hwst hwnt t) (cover)

end Cert.KernelIdeal.Final0

end
-- ==== Proof.KI.Final1.lean ====
/-
  The items' first layer: from the 25 blocks to the array. Each grid point writes back one block of 400 rows; that block is
  the specification's layer of the arrays the region found, read through the block; the 25 blocks tile the 10000
  rows; so the output array after the region is the layer.
-/
import proofs.«105240_g55860344651847_cont_9to1c4b_578_12_alg».proof.Proof.KI.Region1
import proofs.«105240_g55860344651847_cont_9to1c4b_578_12_alg».proof.Proof.KI.PayValue
import proofs.«105240_g55860344651847_cont_9to1c4b_578_12_alg».proof.Proof.LayerSpec
import Idealize.ShloMosaic.Lib.Pipeline.Value
import Idealize.ShloMosaic.Lib.ValueIdx

set_option maxRecDepth 16384

noncomputable section

namespace Cert.KernelIdeal.Final1

open Cert.KernelIdeal Cert.KernelIdeal.Gen
open Idealize.ShloMosaic Idealize.ShloMosaic.TcCoe Idealize.ShloMosaic.ValueIdx Idealize.SL.Sem
open Idealize.ShloMosaic.Pipeline (Dat)

variable (c : Dev nD) (V : (b : Ref sig .tc) → Buf (Elt Ideal) ((c : Thread nD τ).loc b))

theorem hz : (![0, 0] : Fin 2 → Nat) = fun _ => 0 := funext fun a => by fin_cases a <;> rfl

/-- The windows' block indices at grid point `t`: the five adjacency windows at rows `5 t + w` of 80, this side's
    rows and the output at row `t` of 400, the rest at the one block that is the whole array. -/
theorem idx_facts : ∀ t : Fin cfg1.N,
    win1_0.index t (0 : Fin 2) = 5 * t.val + 0 ∧ win1_0.index t (1 : Fin 2) = 0
    ∧ win1_1.index t (0 : Fin 2) = 5 * t.val + 1 ∧ win1_1.index t (1 : Fin 2) = 0
    ∧ win1_2.index t (0 : Fin 2) = 5 * t.val + 2 ∧ win1_2.index t (1 : Fin 2) = 0
    ∧ win1_3.index t (0 : Fin 2) = 5 * t.val + 3 ∧ win1_3.index t (1 : Fin 2) = 0
    ∧ win1_4.index t (0 : Fin 2) = 5 * t.val + 4 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Adjacency window 0 at point `t` holds rows `400 t + 0 …` of the adjacency matrix. -/
theorem blk_read0 (t : Fin cfg1.N) (y : S80x10000.Idx) (i : S10000x10000.Idx)
    (h0 : (i 0).val = (5 * t.val + 0) * 80 + (y 0).val) (h1 : (i 1).val = (y 1).val) :
    (Region1.iblk c V 0 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg1 : S10000x10000.Idx → EReal) (funext fun a => Fin.ext ?_)
  match a with
  | ⟨0, _⟩ => show win1_0.index t (0 : Fin 2) * 80 + 1 * (y 0).val = (i 0).val; rw [e00, h0]; omega
  | ⟨1, _⟩ => show win1_0.index t (1 : Fin 2) * 10000 + 1 * (y 1).val = (i 1).val; rw [e01, h1]; omega

/-- Adjacency window 1 at point `t` holds rows `400 t + 80 …` of the adjacency matrix. -/
theorem blk_read1 (t : Fin cfg1.N) (y : S80x10000.Idx) (i : S10000x10000.Idx)
    (h0 : (i 0).val = (5 * t.val + 1) * 80 + (y 0).val) (h1 : (i 1).val = (y 1).val) :
    (Region1.iblk c V 1 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg1 : S10000x10000.Idx → EReal) (funext fun a => Fin.ext ?_)
  match a with
  | ⟨0, _⟩ => show win1_1.index t (0 : Fin 2) * 80 + 1 * (y 0).val = (i 0).val; rw [e10, h0]; omega
  | ⟨1, _⟩ => show win1_1.index t (1 : Fin 2) * 10000 + 1 * (y 1).val = (i 1).val; rw [e11, h1]; omega

/-- Adjacency window 2 at point `t` holds rows `400 t + 160 …` of the adjacency matrix. -/
theorem blk_read2 (t : Fin cfg1.N) (y : S80x10000.Idx) (i : S10000x10000.Idx)
    (h0 : (i 0).val = (5 * t.val + 2) * 80 + (y 0).val) (h1 : (i 1).val = (y 1).val) :
    (Region1.iblk c V 2 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg1 : S10000x10000.Idx → EReal) (funext fun a => Fin.ext ?_)
  match a with
  | ⟨0, _⟩ => show win1_2.index t (0 : Fin 2) * 80 + 1 * (y 0).val = (i 0).val; rw [e20, h0]; omega
  | ⟨1, _⟩ => show win1_2.index t (1 : Fin 2) * 10000 + 1 * (y 1).val = (i 1).val; rw [e21, h1]; omega

/-- Adjacency window 3 at point `t` holds rows `400 t + 240 …` of the adjacency matrix. -/
theorem blk_read3 (t : Fin cfg1.N) (y : S80x10000.Idx) (i : S10000x10000.Idx)
    (h0 : (i 0).val = (5 * t.val + 3) * 80 + (y 0).val) (h1 : (i 1).val = (y 1).val) :
    (Region1.iblk c V 3 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg1 : S10000x10000.Idx → EReal) (funext fun a => Fin.ext ?_)
  match a with
  | ⟨0, _⟩ => show win1_3.index t (0 : Fin 2) * 80 + 1 * (y 0).val = (i 0).val; rw [e30, h0]; omega
  | ⟨1, _⟩ => show win1_3.index t (1 : Fin 2) * 10000 + 1 * (y 1).val = (i 1).val; rw [e31, h1]; omega

/-- Adjacency window 4 at point `t` holds rows `400 t + 320 …` of the adjacency matrix. -/
theorem blk_read4 (t : Fin cfg1.N) (y : S80x10000.Idx) (i : S10000x10000.Idx)
    (h0 : (i 0).val = (5 * t.val + 4) * 80 + (y 0).val) (h1 : (i 1).val = (y 1).val) :
    (Region1.iblk c V 4 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg1 : S10000x10000.Idx → EReal) (funext fun a => Fin.ext ?_)
  match a with
  | ⟨0, _⟩ => show win1_4.index t (0 : Fin 2) * 80 + 1 * (y 0).val = (i 0).val; rw [e40, h0]; omega
  | ⟨1, _⟩ => show win1_4.index t (1 : Fin 2) * 10000 + 1 * (y 1).val = (i 1).val; rw [e41, h1]; omega

/-- Window 5 holds the whole of the other side's embeddings. -/
theorem blk_read5 (t : Fin cfg1.N) (y : S10000x64.Idx) :
    (Region1.iblk c V 5 t : Vec Ideal S10000x64 .f32) y = (V main_arg2 : S10000x64.Idx → EReal) y := by
  obtain ⟨e00, e01, e10, e11, e20, e21, e30, e31, e40, e41, e50, e51, e60, e61, e70, e71, e80, e81, e90, e91⟩ := idx_facts t
  unfold Region1.iblk
  rw [View.read_apply]
  refine congrArg (V main_arg2 : S10000x64.Idx → EReal) (funext fun a => Fin.ext ?_)
  match a with
  | ⟨0, _⟩ => show win1_5.index t (0 : Fin 2) * 10000 + 1 * (y 0).val = (y 0).val; rw [e50]; omega
  | ⟨1, _⟩ => show win1_5.index t (1 : Fin 2) * 64 + 1 * (y 1).val = (y 1).val; rw [e51]; omega

/-- Window 6 at point `t` holds rows `400 t …` of this side's embeddings. -/
theorem blk_read6 (t : Fin cfg1.N) (y : S400x64.Idx) (i : S10000x64.Idx)
    (h0 : (i 0).val = t.val * 400 + (y 0).val) (h1 : (i 1).val = (y 1).val) :
    (Region1.iblk c V 6 t : Vec Ideal S400x64 .f32) y = (V main_arg3 : S10000x64.Idx → EReal) i := by
  obtain ⟨e00, e01, e10, e11, e20, e21, e30, e31, e40, e41, e50, e51, e60, e61, e70, e71, e80, e81, e90, e91⟩ := idx_facts t
  unfold Region1.iblk
  rw [View.read_apply]
  refine congrArg (V main_arg3 : S10000x64.Idx → EReal) (funext fun a => Fin.ext ?_)
  match a with
  | ⟨0, _⟩ => show win1_6.index t (0 : Fin 2) * 400 + 1 * (y 0).val = (i 0).val; rw [e60, h0]; omega
  | ⟨1, _⟩ => show win1_6.index t (1 : Fin 2) * 64 + 1 * (y 1).val = (i 1).val; rw [e61, h1]; omega

/-- Window 7 holds the whole of the first transposed weight half. -/
theorem blk_read7 (t : Fin cfg1.N) (y : S64x64.Idx) :
    (Region1.iblk c V 7 t : Vec Ideal S64x64 .f32) y = (V main_call1_v1 : S64x64.Idx → EReal) y := by
  obtain ⟨e00, e01, e10, e11, e20, e21, e30, e31, e40, e41, e50, e51, e60, e61, e70, e71, e80, e81, e90, e91⟩ := idx_facts t
  unfold Region1.iblk
  rw [View.read_apply]
  refine congrArg (V main_call1_v1 : S64x64.Idx → EReal) (funext fun a => Fin.ext ?_)
  match a with
  | ⟨0, _⟩ => show win1_7.index t (0 : Fin 2) * 64 + 1 * (y 0).val = (y 0).val; rw [e70]; omega
  | ⟨1, _⟩ => show win1_7.index t (1 : Fin 2) * 64 + 1 * (y 1).val = (y 1).val; rw [e71]; omega

/-- Window 8 holds the whole of the second transposed weight half. -/
theorem blk_read8 (t : Fin cfg1.N) (y : S64x64.Idx) :
    (Region1.iblk c V 8 t : Vec Ideal S64x64 .f32) y = (V main_call1_v3 : S64x64.Idx → EReal) y := by
  obtain ⟨e00, e01, e10, e11, e20, e21, e30, e31, e40, e41, e50, e51, e60, e61, e70, e71, e80, e81, e90, e91⟩ := idx_facts t
  unfold Region1.iblk
  rw [View.read_apply]
  refine congrArg (V main_call1_v3 : S64x64.Idx → EReal) (funext fun a => Fin.ext ?_)
  match a with
  | ⟨0, _⟩ => show win1_8.index t (0 : Fin 2) * 64 + 1 * (y 0).val = (y 0).val; rw [e80]; omega
  | ⟨1, _⟩ => show win1_8.index t (1 : Fin 2) * 64 + 1 * (y 1).val = (y 1).val; rw [e81]; omega

/-- What the body leaves at grid point `t`, at row `r` and column `q` of its block, is the layer at row `400 t + r`. -/
theorem point (Wt : Cert.LayerSpec.SW.Idx → EReal)
    (hwst : ∀ k q : Fin 64, (V main_call1_v1 : S64x64.Idx → EReal) (ix2 k q) = Wt (ix2 q (Cert.LayerSpec.lo k)))
    (hwnt : ∀ k q : Fin 64, (V main_call1_v3 : S64x64.Idx → EReal) (ix2 k q) = Wt (ix2 q (Cert.LayerSpec.hi k)))
    (t : Fin cfg1.N) (y : S400x64.Idx) (i : S10000x64.Idx)
    (h0 : (i 0).val = t.val * 400 + (y 0).val) (h1 : (i 1).val = (y 1).val) :
    k1_pay1 (F := Ideal) (k1_pay2 (Region1.iblk c V 5 t) (Region1.iblk c V 0 t) (Region1.iblk c V 1 t) (Region1.iblk c V 2 t) (Region1.iblk c V 3 t) (Region1.iblk c V 4 t) (Region1.iblk c V 6 t) (Region1.iblk c V 7 t) (Region1.iblk c V 8 t)) (k1_pay3 (Region1.iblk c V 5 t) (Region1.iblk c V 0 t) (Region1.iblk c V 1 t) (Region1.iblk c V 2 t) (Region1.iblk c V 3 t) (Region1.iblk c V 4 t) (Region1.iblk c V 6 t) (Region1.iblk c V 7 t) (Region1.iblk c V 8 t)) y
      = Cert.LayerSpec.layer (V main_arg1 : Cert.LayerSpec.SA.Idx → EReal) (V main_arg2 : Cert.LayerSpec.SH.Idx → EReal) (V main_arg3 : Cert.LayerSpec.SH.Idx → EReal) Wt i := by
  obtain ⟨r, q, rfl⟩ : ∃ (r : Fin 400) (q : Fin 64), y = ix2 r q := ⟨y 0, y 1, eq_ix2 y⟩
  have ht : t.val < 25 := lt_of_lt_of_eq t.isLt (N_1 : cfg1.N = 25)
  have hr : r.val < 400 := r.isLt
  refine (PayValue.pay1_eq_layer (V main_arg1 : Cert.LayerSpec.SA.Idx → EReal) (V main_arg2 : Cert.LayerSpec.SH.Idx → EReal) (V main_arg3 : Cert.LayerSpec.SH.Idx → EReal) Wt ⟨t.val, ht⟩
    (Region1.iblk c V 5 t) (Region1.iblk c V 0 t) (Region1.iblk c V 1 t) (Region1.iblk c V 2 t) (Region1.iblk c V 3 t) (Region1.iblk c V 4 t) (Region1.iblk c V 6 t) (Region1.iblk c V 7 t) (Region1.iblk c V 8 t)
    (fun j k => blk_read5 c V t (ix2 j k))
    (fun r' j => blk_read0 c V t (ix2 r' j) _ (by show 400 * t.val + 0 + r'.val = (5 * t.val + 0) * 80 + r'.val; omega) rfl)
    (fun r' j => blk_read1 c V t (ix2 r' j) _ (by show 400 * t.val + 80 + r'.val = (5 * t.val + 1) * 80 + r'.val; omega) rfl)
    (fun r' j => blk_read2 c V t (ix2 r' j) _ (by show 400 * t.val + 160 + r'.val = (5 * t.val + 2) * 80 + r'.val; omega) rfl)
    (fun r' j => blk_read3 c V t (ix2 r' j) _ (by show 400 * t.val + 240 + r'.val = (5 * t.val + 3) * 80 + r'.val; omega) rfl)
    (fun r' j => blk_read4 c V t (ix2 r' j) _ (by show 400 * t.val + 320 + r'.val = (5 * t.val + 4) * 80 + r'.val; omega) rfl)
    (fun r' k => blk_read6 c V t (ix2 r' k) _ (by show 400 * t.val + r'.val = t.val * 400 + r'.val; omega) rfl)
    (fun k q' => (blk_read7 c V t (ix2 k q')).trans (hwst k q'))
    (fun k q' => (blk_read8 c V t (ix2 k q')).trans (hwnt k q'))
    r q).trans ?_
  have hi : i = ix2 (⟨400 * t.val + r.val, by omega⟩ : Fin 10000) q := funext fun a => Fin.ext (by
    match a with
    | ⟨0, _⟩ => show (i 0).val = 400 * t.val + r.val; rw [h0]; show t.val * 400 + r.val = _; omega
    | ⟨1, _⟩ => exact h1)
  rw [hi, Cert.LayerSpec.layer_apply]

/-- What grid point `t` writes back is block `t` of the layer. -/
theorem flushed_eq (Wt : Cert.LayerSpec.SW.Idx → EReal)
    (hwst : ∀ k q : Fin 64, (V main_call1_v1 : S64x64.Idx → EReal) (ix2 k q) = Wt (ix2 q (Cert.LayerSpec.lo k)))
    (hwnt : ∀ k q : Fin 64, (V main_call1_v3 : S64x64.Idx → EReal) (ix2 k q) = Wt (ix2 q (Cert.LayerSpec.hi k))) (t : Fin cfg1.N) :
    (Region1.dat c V).flushed 9 t = ((cfg1.win 9).blk t).view.read (Elt Ideal) (Cert.LayerSpec.layer (V main_arg1 : Cert.LayerSpec.SA.Idx → EReal) (V main_arg2 : Cert.LayerSpec.SH.Idx → EReal) (V main_arg3 : Cert.LayerSpec.SH.Idx → EReal) Wt) := by
  show (cfg1.win 9).cut (grid1.coords t) ((Region1.dat c V).after 9 t) = _
  rw [Region1.after_9]
  unfold Body1.out9
  rw [View.canon_unit_zero hz]
  simp only [View.ld_unit_zero (S := S80x10000) hz, View.ld_unit_zero (S := S10000x64) hz, View.ld_unit_zero (S := S400x64) hz,
    View.ld_unit_zero (S := S64x64) hz]
  obtain ⟨e00, e01, e10, e11, e20, e21, e30, e31, e40, e41, e50, e51, e60, e61, e70, e71, e80, e81, e90, e91⟩ := idx_facts t
  funext y
  rw [View.read_apply]
  refine point c V Wt hwst hwnt t y _ ?_ ?_
  · show win1_9.index t (0 : Fin 2) * 400 + 1 * (y 0).val = t.val * 400 + (y 0).val; rw [e90]; omega
  · show win1_9.index t (1 : Fin 2) * 64 + 1 * (y 1).val = (y 1).val; rw [e91]; omega

/-- An index of the output array is in point `t`'s block iff each coordinate is in the block's range. -/
theorem mem_blk (t : Fin cfg1.N) (i : S10000x64.Idx) :
    i ∈ ((cfg1.win 9).blk t).view.set ↔ ∀ a : Fin 2, win1_9.index t a * S400x64.size a ≤ (i a).val ∧ (i a).val < win1_9.index t a * S400x64.size a + S400x64.size a := by
  show i ∈ ((View.whole main_v1).slice (win1_9.rect t)).set ↔ _
  rw [View.set_slice_whole, Rect.mem_set_unit]
  exact Iff.rfl

/-- Every row of the output is in the block of the point its 400-row group names. -/
theorem cover (i : S10000x64.Idx) : ∃ t : Fin cfg1.N, (cfg1.win 9).flush t = true ∧ i ∈ ((cfg1.win 9).blk t).view.set := by
  have hi0 : (i 0).val < 10000 := (i 0).isLt
  have hi1 : (i 1).val < 64 := (i 1).isLt
  have hN : cfg1.N = 25 := N_1
  refine ⟨⟨(i 0).val / 400, by rw [hN]; omega⟩, flush1_9 _, ?_⟩
  rw [mem_blk]
  obtain ⟨e00, e01, e10, e11, e20, e21, e30, e31, e40, e41, e50, e51, e60, e61, e70, e71, e80, e81, e90, e91⟩ :=
    idx_facts ⟨(i 0).val / 400, by rw [hN]; omega⟩
  intro a
  match a with
  | ⟨0, _⟩ =>
    show win1_9.index _ (0 : Fin 2) * 400 ≤ (i 0).val ∧ (i 0).val < win1_9.index _ (0 : Fin 2) * 400 + 400
    rw [e90]; show (i 0).val / 400 * 400 ≤ (i 0).val ∧ (i 0).val < (i 0).val / 400 * 400 + 400; omega
  | ⟨1, _⟩ =>
    show win1_9.index _ (1 : Fin 2) * 64 ≤ (i 1).val ∧ (i 1).val < win1_9.index _ (1 : Fin 2) * 64 + 64
    rw [e91]; omega

/-- The region's output array, after its 25 write-backs, is the layer of the arrays the region found. -/
theorem final (Wt : Cert.LayerSpec.SW.Idx → EReal)
    (hwst : ∀ k q : Fin 64, (V main_call1_v1 : S64x64.Idx → EReal) (ix2 k q) = Wt (ix2 q (Cert.LayerSpec.lo k)))
    (hwnt : ∀ k q : Fin 64, (V main_call1_v3 : S64x64.Idx → EReal) (ix2 k q) = Wt (ix2 q (Cert.LayerSpec.hi k))) :
    (Region1.dat c V).arrAt 9 cfg1.N = Cert.LayerSpec.layer (V main_arg1 : Cert.LayerSpec.SA.Idx → EReal) (V main_arg2 : Cert.LayerSpec.SH.Idx → EReal) (V main_arg3 : Cert.LayerSpec.SH.Idx → EReal) Wt :=
  (Region1.dat c V).arrAt_eq_of_cover 9 (Cert.LayerSpec.layer (V main_arg1 : Cert.LayerSpec.SA.Idx → EReal) (V main_arg2 : Cert.LayerSpec.SH.Idx → EReal) (V main_arg3 : Cert.LayerSpec.SH.Idx → EReal) Wt)
    (fun t _ => flushed_eq c V Wt hwst hwnt t) (cover)

end Cert.KernelIdeal.Final1

end
-- ==== Proof.KI.Final2.lean ====
/-
  The users' second layer: from the 25 blocks to the array. Each grid point writes back one block of 400 rows; that block is
  the specification's layer of the arrays the region found, read through the block; the 25 blocks tile the 10000
  rows; so the output array after the region is the layer.
-/
import proofs.«105240_g55860344651847_cont_9to1c4b_578_12_alg».proof.Proof.KI.Region2
import proofs.«105240_g55860344651847_cont_9to1c4b_578_12_alg».proof.Proof.KI.PayValue
import proofs.«105240_g55860344651847_cont_9to1c4b_578_12_alg».proof.Proof.LayerSpec
import Idealize.ShloMosaic.Lib.Pipeline.Value
import Idealize.ShloMosaic.Lib.ValueIdx

set_option maxRecDepth 16384

noncomputable section

namespace Cert.KernelIdeal.Final2

open Cert.KernelIdeal Cert.KernelIdeal.Gen
open Idealize.ShloMosaic Idealize.ShloMosaic.TcCoe Idealize.ShloMosaic.ValueIdx Idealize.SL.Sem
open Idealize.ShloMosaic.Pipeline (Dat)

variable (c : Dev nD) (V : (b : Ref sig .tc) → Buf (Elt Ideal) ((c : Thread nD τ).loc b))

theorem hz : (![0, 0] : Fin 2 → Nat) = fun _ => 0 := funext fun a => by fin_cases a <;> rfl

/-- The windows' block indices at grid point `t`: the five adjacency windows at rows `5 t + w` of 80, this side's
    rows and the output at row `t` of 400, the rest at the one block that is the whole array. -/
theorem idx_facts : ∀ t : Fin cfg2.N,
    win2_0.index t (0 : Fin 2) = 5 * t.val + 0 ∧ win2_0.index t (1 : Fin 2) = 0
    ∧ win2_1.index t (0 : Fin 2) = 5 * t.val + 1 ∧ win2_1.index t (1 : Fin 2) = 0
    ∧ win2_2.index t (0 : Fin 2) = 5 * t.val + 2 ∧ win2_2.index t (1 : Fin 2) = 0
    ∧ win2_3.index t (0 : Fin 2) = 5 * t.val + 3 ∧ win2_3.index t (1 : Fin 2) = 0
    ∧ win2_4.index t (0 : Fin 2) = 5 * t.val + 4 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Adjacency window 0 at point `t` holds rows `400 t + 0 …` of the adjacency matrix. -/
theorem blk_read0 (t : Fin cfg2.N) (y : S80x10000.Idx) (i : S10000x10000.Idx)
    (h0 : (i 0).val = (5 * t.val + 0) * 80 + (y 0).val) (h1 : (i 1).val = (y 1).val) :
    (Region2.iblk c V 0 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_arg0 : S10000x10000.Idx → EReal) (funext fun a => Fin.ext ?_)
  match a with
  | ⟨0, _⟩ => show win2_0.index t (0 : Fin 2) * 80 + 1 * (y 0).val = (i 0).val; rw [e00, h0]; omega
  | ⟨1, _⟩ => show win2_0.index t (1 : Fin 2) * 10000 + 1 * (y 1).val = (i 1).val; rw [e01, h1]; omega

/-- Adjacency window 1 at point `t` holds rows `400 t + 80 …` of the adjacency matrix. -/
theorem blk_read1 (t : Fin cfg2.N) (y : S80x10000.Idx) (i : S10000x10000.Idx)
    (h0 : (i 0).val = (5 * t.val + 1) * 80 + (y 0).val) (h1 : (i 1).val = (y 1).val) :
    (Region2.iblk c V 1 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_arg0 : S10000x10000.Idx → EReal) (funext fun a => Fin.ext ?_)
  match a with
  | ⟨0, _⟩ => show win2_1.index t (0 : Fin 2) * 80 + 1 * (y 0).val = (i 0).val; rw [e10, h0]; omega
  | ⟨1, _⟩ => show win2_1.index t (1 : Fin 2) * 10000 + 1 * (y 1).val = (i 1).val; rw [e11, h1]; omega

/-- Adjacency window 2 at point `t` holds rows `400 t + 160 …` of the adjacency matrix. -/
theorem blk_read2 (t : Fin cfg2.N) (y : S80x10000.Idx) (i : S10000x10000.Idx)
    (h0 : (i 0).val = (5 * t.val + 2) * 80 + (y 0).val) (h1 : (i 1).val = (y 1).val) :
    (Region2.iblk c V 2 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_arg0 : S10000x10000.Idx → EReal) (funext fun a => Fin.ext ?_)
  match a with
  | ⟨0, _⟩ => show win2_2.index t (0 : Fin 2) * 80 + 1 * (y 0).val = (i 0).val; rw [e20, h0]; omega
  | ⟨1, _⟩ => show win2_2.index t (1 : Fin 2) * 10000 + 1 * (y 1).val = (i 1).val; rw [e21, h1]; omega

/-- Adjacency window 3 at point `t` holds rows `400 t + 240 …` of the adjacency matrix. -/
theorem blk_read3 (t : Fin cfg2.N) (y : S80x10000.Idx) (i : S10000x10000.Idx)
    (h0 : (i 0).val = (5 * t.val + 3) * 80 + (y 0).val) (h1 : (i 1).val = (y 1).val) :
    (Region2.iblk c V 3 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_arg0 : S10000x10000.Idx → EReal) (funext fun a => Fin.ext ?_)
  match a with
  | ⟨0, _⟩ => show win2_3.index t (0 : Fin 2) * 80 + 1 * (y 0).val = (i 0).val; rw [e30, h0]; omega
  | ⟨1, _⟩ => show win2_3.index t (1 : Fin 2) * 10000 + 1 * (y 1).val = (i 1).val; rw [e31, h1]; omega

/-- Adjacency window 4 at point `t` holds rows `400 t + 320 …` of the adjacency matrix. -/
theorem blk_read4 (t : Fin cfg2.N) (y : S80x10000.Idx) (i : S10000x10000.Idx)
    (h0 : (i 0).val = (5 * t.val + 4) * 80 + (y 0).val) (h1 : (i 1).val = (y 1).val) :
    (Region2.iblk c V 4 t : Vec Ideal S80x10000 .f32) y = (V main_arg0 : S10000x10000.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_arg0 : S10000x10000.Idx → EReal) (funext fun a => Fin.ext ?_)
  match a with
  | ⟨0, _⟩ => show win2_4.index t (0 : Fin 2) * 80 + 1 * (y 0).val = (i 0).val; rw [e40, h0]; omega
  | ⟨1, _⟩ => show win2_4.index t (1 : Fin 2) * 10000 + 1 * (y 1).val = (i 1).val; rw [e41, h1]; omega

/-- Window 5 holds the whole of the other side's embeddings. -/
theorem blk_read5 (t : Fin cfg2.N) (y : S10000x64.Idx) :
    (Region2.iblk c V 5 t : Vec Ideal S10000x64 .f32) y = (V main_v1 : S10000x64.Idx → EReal) y := by
  obtain ⟨e00, e01, e10, e11, e20, e21, e30, e31, e40, e41, e50, e51, e60, e61, e70, e71, e80, e81, e90, e91⟩ := idx_facts t
  unfold Region2.iblk
  rw [View.read_apply]
  refine congrArg (V main_v1 : S10000x64.Idx → EReal) (funext fun a => Fin.ext ?_)
  match a with
  | ⟨0, _⟩ => show win2_5.index t (0 : Fin 2) * 10000 + 1 * (y 0).val = (y 0).val; rw [e50]; omega
  | ⟨1, _⟩ => show win2_5.index t (1 : Fin 2) * 64 + 1 * (y 1).val = (y 1).val; rw [e51]; omega

/-- Window 6 at point `t` holds rows `400 t …` of this side's embeddings. -/
theorem blk_read6 (t : Fin cfg2.N) (y : S400x64.Idx) (i : S10000x64.Idx)
    (h0 : (i 0).val = t.val * 400 + (y 0).val) (h1 : (i 1).val = (y 1).val) :
    (Region2.iblk c V 6 t : Vec Ideal S400x64 .f32) y = (V main_v0 : S10000x64.Idx → EReal) i := by
  obtain ⟨e00, e01, e10, e11, e20, e21, e30, e31, e40, e41, e50, e51, e60, e61, e70, e71, e80, e81, e90, e91⟩ := idx_facts t
  unfold Region2.iblk
  rw [View.read_apply]
  refine congrArg (V main_v0 : S10000x64.Idx → EReal) (funext fun a => Fin.ext ?_)
  match a with
  | ⟨0, _⟩ => show win2_6.index t (0 : Fin 2) * 400 + 1 * (y 0).val = (i 0).val; rw [e60, h0]; omega
  | ⟨1, _⟩ => show win2_6.index t (1 : Fin 2) * 64 + 1 * (y 1).val = (i 1).val; rw [e61, h1]; omega

/-- Window 7 holds the whole of the first transposed weight half. -/
theorem blk_read7 (t : Fin cfg2.N) (y : S64x64.Idx) :
    (Region2.iblk c V 7 t : Vec Ideal S64x64 .f32) y = (V main_call2_v1 : S64x64.Idx → EReal) y := by
  obtain ⟨e00, e01, e10, e11, e20, e21, e30, e31, e40, e41, e50, e51, e60, e61, e70, e71, e80, e81, e90, e91⟩ := idx_facts t
  unfold Region2.iblk
  rw [View.read_apply]
  refine congrArg (V main_call2_v1 : S64x64.Idx → EReal) (funext fun a => Fin.ext ?_)
  match a with
  | ⟨0, _⟩ => show win2_7.index t (0 : Fin 2) * 64 + 1 * (y 0).val = (y 0).val; rw [e70]; omega
  | ⟨1, _⟩ => show win2_7.index t (1 : Fin 2) * 64 + 1 * (y 1).val = (y 1).val; rw [e71]; omega

/-- Window 8 holds the whole of the second transposed weight half. -/
theorem blk_read8 (t : Fin cfg2.N) (y : S64x64.Idx) :
    (Region2.iblk c V 8 t : Vec Ideal S64x64 .f32) y = (V main_call2_v3 : S64x64.Idx → EReal) y := by
  obtain ⟨e00, e01, e10, e11, e20, e21, e30, e31, e40, e41, e50, e51, e60, e61, e70, e71, e80, e81, e90, e91⟩ := idx_facts t
  unfold Region2.iblk
  rw [View.read_apply]
  refine congrArg (V main_call2_v3 : S64x64.Idx → EReal) (funext fun a => Fin.ext ?_)
  match a with
  | ⟨0, _⟩ => show win2_8.index t (0 : Fin 2) * 64 + 1 * (y 0).val = (y 0).val; rw [e80]; omega
  | ⟨1, _⟩ => show win2_8.index t (1 : Fin 2) * 64 + 1 * (y 1).val = (y 1).val; rw [e81]; omega

/-- What the body leaves at grid point `t`, at row `r` and column `q` of its block, is the layer at row `400 t + r`. -/
theorem point (Wt : Cert.LayerSpec.SW.Idx → EReal)
    (hwst : ∀ k q : Fin 64, (V main_call2_v1 : S64x64.Idx → EReal) (ix2 k q) = Wt (ix2 q (Cert.LayerSpec.lo k)))
    (hwnt : ∀ k q : Fin 64, (V main_call2_v3 : S64x64.Idx → EReal) (ix2 k q) = Wt (ix2 q (Cert.LayerSpec.hi k)))
    (t : Fin cfg2.N) (y : S400x64.Idx) (i : S10000x64.Idx)
    (h0 : (i 0).val = t.val * 400 + (y 0).val) (h1 : (i 1).val = (y 1).val) :
    k2_pay1 (F := Ideal) (k2_pay2 (Region2.iblk c V 5 t) (Region2.iblk c V 0 t) (Region2.iblk c V 1 t) (Region2.iblk c V 2 t) (Region2.iblk c V 3 t) (Region2.iblk c V 4 t) (Region2.iblk c V 6 t) (Region2.iblk c V 7 t) (Region2.iblk c V 8 t)) (k2_pay3 (Region2.iblk c V 5 t) (Region2.iblk c V 0 t) (Region2.iblk c V 1 t) (Region2.iblk c V 2 t) (Region2.iblk c V 3 t) (Region2.iblk c V 4 t) (Region2.iblk c V 6 t) (Region2.iblk c V 7 t) (Region2.iblk c V 8 t)) y
      = Cert.LayerSpec.layer (V main_arg0 : Cert.LayerSpec.SA.Idx → EReal) (V main_v1 : Cert.LayerSpec.SH.Idx → EReal) (V main_v0 : Cert.LayerSpec.SH.Idx → EReal) Wt i := by
  obtain ⟨r, q, rfl⟩ : ∃ (r : Fin 400) (q : Fin 64), y = ix2 r q := ⟨y 0, y 1, eq_ix2 y⟩
  have ht : t.val < 25 := lt_of_lt_of_eq t.isLt (N_2 : cfg2.N = 25)
  have hr : r.val < 400 := r.isLt
  refine (PayValue.pay2_eq_layer (V main_arg0 : Cert.LayerSpec.SA.Idx → EReal) (V main_v1 : Cert.LayerSpec.SH.Idx → EReal) (V main_v0 : Cert.LayerSpec.SH.Idx → EReal) Wt ⟨t.val, ht⟩
    (Region2.iblk c V 5 t) (Region2.iblk c V 0 t) (Region2.iblk c V 1 t) (Region2.iblk c V 2 t) (Region2.iblk c V 3 t) (Region2.iblk c V 4 t) (Region2.iblk c V 6 t) (Region2.iblk c V 7 t) (Region2.iblk c V 8 t)
    (fun j k => blk_read5 c V t (ix2 j k))
    (fun r' j => blk_read0 c V t (ix2 r' j) _ (by show 400 * t.val + 0 + r'.val = (5 * t.val + 0) * 80 + r'.val; omega) rfl)
    (fun r' j => blk_read1 c V t (ix2 r' j) _ (by show 400 * t.val + 80 + r'.val = (5 * t.val + 1) * 80 + r'.val; omega) rfl)
    (fun r' j => blk_read2 c V t (ix2 r' j) _ (by show 400 * t.val + 160 + r'.val = (5 * t.val + 2) * 80 + r'.val; omega) rfl)
    (fun r' j => blk_read3 c V t (ix2 r' j) _ (by show 400 * t.val + 240 + r'.val = (5 * t.val + 3) * 80 + r'.val; omega) rfl)
    (fun r' j => blk_read4 c V t (ix2 r' j) _ (by show 400 * t.val + 320 + r'.val = (5 * t.val + 4) * 80 + r'.val; omega) rfl)
    (fun r' k => blk_read6 c V t (ix2 r' k) _ (by show 400 * t.val + r'.val = t.val * 400 + r'.val; omega) rfl)
    (fun k q' => (blk_read7 c V t (ix2 k q')).trans (hwst k q'))
    (fun k q' => (blk_read8 c V t (ix2 k q')).trans (hwnt k q'))
    r q).trans ?_
  have hi : i = ix2 (⟨400 * t.val + r.val, by omega⟩ : Fin 10000) q := funext fun a => Fin.ext (by
    match a with
    | ⟨0, _⟩ => show (i 0).val = 400 * t.val + r.val; rw [h0]; show t.val * 400 + r.val = _; omega
    | ⟨1, _⟩ => exact h1)
  rw [hi, Cert.LayerSpec.layer_apply]

/-- What grid point `t` writes back is block `t` of the layer. -/
theorem flushed_eq (Wt : Cert.LayerSpec.SW.Idx → EReal)
    (hwst : ∀ k q : Fin 64, (V main_call2_v1 : S64x64.Idx → EReal) (ix2 k q) = Wt (ix2 q (Cert.LayerSpec.lo k)))
    (hwnt : ∀ k q : Fin 64, (V main_call2_v3 : S64x64.Idx → EReal) (ix2 k q) = Wt (ix2 q (Cert.LayerSpec.hi k))) (t : Fin cfg2.N) :
    (Region2.dat c V).flushed 9 t = ((cfg2.win 9).blk t).view.read (Elt Ideal) (Cert.LayerSpec.layer (V main_arg0 : Cert.LayerSpec.SA.Idx → EReal) (V main_v1 : Cert.LayerSpec.SH.Idx → EReal) (V main_v0 : Cert.LayerSpec.SH.Idx → EReal) Wt) := by
  show (cfg2.win 9).cut (grid2.coords t) ((Region2.dat c V).after 9 t) = _
  rw [Region2.after_9]
  unfold Body2.out9
  rw [View.canon_unit_zero hz]
  simp only [View.ld_unit_zero (S := S80x10000) hz, View.ld_unit_zero (S := S10000x64) hz, View.ld_unit_zero (S := S400x64) hz,
    View.ld_unit_zero (S := S64x64) hz]
  obtain ⟨e00, e01, e10, e11, e20, e21, e30, e31, e40, e41, e50, e51, e60, e61, e70, e71, e80, e81, e90, e91⟩ := idx_facts t
  funext y
  rw [View.read_apply]
  refine point c V Wt hwst hwnt t y _ ?_ ?_
  · show win2_9.index t (0 : Fin 2) * 400 + 1 * (y 0).val = t.val * 400 + (y 0).val; rw [e90]; omega
  · show win2_9.index t (1 : Fin 2) * 64 + 1 * (y 1).val = (y 1).val; rw [e91]; omega

/-- An index of the output array is in point `t`'s block iff each coordinate is in the block's range. -/
theorem mem_blk (t : Fin cfg2.N) (i : S10000x64.Idx) :
    i ∈ ((cfg2.win 9).blk t).view.set ↔ ∀ a : Fin 2, win2_9.index t a * S400x64.size a ≤ (i a).val ∧ (i a).val < win2_9.index t a * S400x64.size a + S400x64.size a := by
  show i ∈ ((View.whole main_v2).slice (win2_9.rect t)).set ↔ _
  rw [View.set_slice_whole, Rect.mem_set_unit]
  exact Iff.rfl

/-- Every row of the output is in the block of the point its 400-row group names. -/
theorem cover (i : S10000x64.Idx) : ∃ t : Fin cfg2.N, (cfg2.win 9).flush t = true ∧ i ∈ ((cfg2.win 9).blk t).view.set := by
  have hi0 : (i 0).val < 10000 := (i 0).isLt
  have hi1 : (i 1).val < 64 := (i 1).isLt
  have hN : cfg2.N = 25 := N_2
  refine ⟨⟨(i 0).val / 400, by rw [hN]; omega⟩, flush2_9 _, ?_⟩
  rw [mem_blk]
  obtain ⟨e00, e01, e10, e11, e20, e21, e30, e31, e40, e41, e50, e51, e60, e61, e70, e71, e80, e81, e90, e91⟩ :=
    idx_facts ⟨(i 0).val / 400, by rw [hN]; omega⟩
  intro a
  match a with
  | ⟨0, _⟩ =>
    show win2_9.index _ (0 : Fin 2) * 400 ≤ (i 0).val ∧ (i 0).val < win2_9.index _ (0 : Fin 2) * 400 + 400
    rw [e90]; show (i 0).val / 400 * 400 ≤ (i 0).val ∧ (i 0).val < (i 0).val / 400 * 400 + 400; omega
  | ⟨1, _⟩ =>
    show win2_9.index _ (1 : Fin 2) * 64 ≤ (i 1).val ∧ (i 1).val < win2_9.index _ (1 : Fin 2) * 64 + 64
    rw [e91]; omega

/-- The region's output array, after its 25 write-backs, is the layer of the arrays the region found. -/
theorem final (Wt : Cert.LayerSpec.SW.Idx → EReal)
    (hwst : ∀ k q : Fin 64, (V main_call2_v1 : S64x64.Idx → EReal) (ix2 k q) = Wt (ix2 q (Cert.LayerSpec.lo k)))
    (hwnt : ∀ k q : Fin 64, (V main_call2_v3 : S64x64.Idx → EReal) (ix2 k q) = Wt (ix2 q (Cert.LayerSpec.hi k))) :
    (Region2.dat c V).arrAt 9 cfg2.N = Cert.LayerSpec.layer (V main_arg0 : Cert.LayerSpec.SA.Idx → EReal) (V main_v1 : Cert.LayerSpec.SH.Idx → EReal) (V main_v0 : Cert.LayerSpec.SH.Idx → EReal) Wt :=
  (Region2.dat c V).arrAt_eq_of_cover 9 (Cert.LayerSpec.layer (V main_arg0 : Cert.LayerSpec.SA.Idx → EReal) (V main_v1 : Cert.LayerSpec.SH.Idx → EReal) (V main_v0 : Cert.LayerSpec.SH.Idx → EReal) Wt)
    (fun t _ => flushed_eq c V Wt hwst hwnt t) (cover)

end Cert.KernelIdeal.Final2

end
-- ==== Proof.KI.Final3.lean ====
/-
  The items' second layer: from the 25 blocks to the array. Each grid point writes back one block of 400 rows; that block is
  the specification's layer of the arrays the region found, read through the block; the 25 blocks tile the 10000
  rows; so the output array after the region is the layer.
-/
import proofs.«105240_g55860344651847_cont_9to1c4b_578_12_alg».proof.Proof.KI.Region3
import proofs.«105240_g55860344651847_cont_9to1c4b_578_12_alg».proof.Proof.KI.PayValue
import proofs.«105240_g55860344651847_cont_9to1c4b_578_12_alg».proof.Proof.LayerSpec
import Idealize.ShloMosaic.Lib.Pipeline.Value
import Idealize.ShloMosaic.Lib.ValueIdx

set_option maxRecDepth 16384

noncomputable section

namespace Cert.KernelIdeal.Final3

open Cert.KernelIdeal Cert.KernelIdeal.Gen
open Idealize.ShloMosaic Idealize.ShloMosaic.TcCoe Idealize.ShloMosaic.ValueIdx Idealize.SL.Sem
open Idealize.ShloMosaic.Pipeline (Dat)

variable (c : Dev nD) (V : (b : Ref sig .tc) → Buf (Elt Ideal) ((c : Thread nD τ).loc b))

theorem hz : (![0, 0] : Fin 2 → Nat) = fun _ => 0 := funext fun a => by fin_cases a <;> rfl

/-- The windows' block indices at grid point `t`: the five adjacency windows at rows `5 t + w` of 80, this side's
    rows and the output at row `t` of 400, the rest at the one block that is the whole array. -/
theorem idx_facts : ∀ t : Fin cfg3.N,
    win3_0.index t (0 : Fin 2) = 5 * t.val + 0 ∧ win3_0.index t (1 : Fin 2) = 0
    ∧ win3_1.index t (0 : Fin 2) = 5 * t.val + 1 ∧ win3_1.index t (1 : Fin 2) = 0
    ∧ win3_2.index t (0 : Fin 2) = 5 * t.val + 2 ∧ win3_2.index t (1 : Fin 2) = 0
    ∧ win3_3.index t (0 : Fin 2) = 5 * t.val + 3 ∧ win3_3.index t (1 : Fin 2) = 0
    ∧ win3_4.index t (0 : Fin 2) = 5 * t.val + 4 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- Adjacency window 0 at point `t` holds rows `400 t + 0 …` of the adjacency matrix. -/
theorem blk_read0 (t : Fin cfg3.N) (y : S80x10000.Idx) (i : S10000x10000.Idx)
    (h0 : (i 0).val = (5 * t.val + 0) * 80 + (y 0).val) (h1 : (i 1).val = (y 1).val) :
    (Region3.iblk c V 0 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_arg1 : S10000x10000.Idx → EReal) (funext fun a => Fin.ext ?_)
  match a with
  | ⟨0, _⟩ => show win3_0.index t (0 : Fin 2) * 80 + 1 * (y 0).val = (i 0).val; rw [e00, h0]; omega
  | ⟨1, _⟩ => show win3_0.index t (1 : Fin 2) * 10000 + 1 * (y 1).val = (i 1).val; rw [e01, h1]; omega

/-- Adjacency window 1 at point `t` holds rows `400 t + 80 …` of the adjacency matrix. -/
theorem blk_read1 (t : Fin cfg3.N) (y : S80x10000.Idx) (i : S10000x10000.Idx)
    (h0 : (i 0).val = (5 * t.val + 1) * 80 + (y 0).val) (h1 : (i 1).val = (y 1).val) :
    (Region3.iblk c V 1 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_arg1 : S10000x10000.Idx → EReal) (funext fun a => Fin.ext ?_)
  match a with
  | ⟨0, _⟩ => show win3_1.index t (0 : Fin 2) * 80 + 1 * (y 0).val = (i 0).val; rw [e10, h0]; omega
  | ⟨1, _⟩ => show win3_1.index t (1 : Fin 2) * 10000 + 1 * (y 1).val = (i 1).val; rw [e11, h1]; omega

/-- Adjacency window 2 at point `t` holds rows `400 t + 160 …` of the adjacency matrix. -/
theorem blk_read2 (t : Fin cfg3.N) (y : S80x10000.Idx) (i : S10000x10000.Idx)
    (h0 : (i 0).val = (5 * t.val + 2) * 80 + (y 0).val) (h1 : (i 1).val = (y 1).val) :
    (Region3.iblk c V 2 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_arg1 : S10000x10000.Idx → EReal) (funext fun a => Fin.ext ?_)
  match a with
  | ⟨0, _⟩ => show win3_2.index t (0 : Fin 2) * 80 + 1 * (y 0).val = (i 0).val; rw [e20, h0]; omega
  | ⟨1, _⟩ => show win3_2.index t (1 : Fin 2) * 10000 + 1 * (y 1).val = (i 1).val; rw [e21, h1]; omega

/-- Adjacency window 3 at point `t` holds rows `400 t + 240 …` of the adjacency matrix. -/
theorem blk_read3 (t : Fin cfg3.N) (y : S80x10000.Idx) (i : S10000x10000.Idx)
    (h0 : (i 0).val = (5 * t.val + 3) * 80 + (y 0).val) (h1 : (i 1).val = (y 1).val) :
    (Region3.iblk c V 3 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_arg1 : S10000x10000.Idx → EReal) (funext fun a => Fin.ext ?_)
  match a with
  | ⟨0, _⟩ => show win3_3.index t (0 : Fin 2) * 80 + 1 * (y 0).val = (i 0).val; rw [e30, h0]; omega
  | ⟨1, _⟩ => show win3_3.index t (1 : Fin 2) * 10000 + 1 * (y 1).val = (i 1).val; rw [e31, h1]; omega

/-- Adjacency window 4 at point `t` holds rows `400 t + 320 …` of the adjacency matrix. -/
theorem blk_read4 (t : Fin cfg3.N) (y : S80x10000.Idx) (i : S10000x10000.Idx)
    (h0 : (i 0).val = (5 * t.val + 4) * 80 + (y 0).val) (h1 : (i 1).val = (y 1).val) :
    (Region3.iblk c V 4 t : Vec Ideal S80x10000 .f32) y = (V main_arg1 : S10000x10000.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_arg1 : S10000x10000.Idx → EReal) (funext fun a => Fin.ext ?_)
  match a with
  | ⟨0, _⟩ => show win3_4.index t (0 : Fin 2) * 80 + 1 * (y 0).val = (i 0).val; rw [e40, h0]; omega
  | ⟨1, _⟩ => show win3_4.index t (1 : Fin 2) * 10000 + 1 * (y 1).val = (i 1).val; rw [e41, h1]; omega

/-- Window 5 holds the whole of the other side's embeddings. -/
theorem blk_read5 (t : Fin cfg3.N) (y : S10000x64.Idx) :
    (Region3.iblk c V 5 t : Vec Ideal S10000x64 .f32) y = (V main_v0 : S10000x64.Idx → EReal) y := by
  obtain ⟨e00, e01, e10, e11, e20, e21, e30, e31, e40, e41, e50, e51, e60, e61, e70, e71, e80, e81, e90, e91⟩ := idx_facts t
  unfold Region3.iblk
  rw [View.read_apply]
  refine congrArg (V main_v0 : S10000x64.Idx → EReal) (funext fun a => Fin.ext ?_)
  match a with
  | ⟨0, _⟩ => show win3_5.index t (0 : Fin 2) * 10000 + 1 * (y 0).val = (y 0).val; rw [e50]; omega
  | ⟨1, _⟩ => show win3_5.index t (1 : Fin 2) * 64 + 1 * (y 1).val = (y 1).val; rw [e51]; omega

/-- Window 6 at point `t` holds rows `400 t …` of this side's embeddings. -/
theorem blk_read6 (t : Fin cfg3.N) (y : S400x64.Idx) (i : S10000x64.Idx)
    (h0 : (i 0).val = t.val * 400 + (y 0).val) (h1 : (i 1).val = (y 1).val) :
    (Region3.iblk c V 6 t : Vec Ideal S400x64 .f32) y = (V main_v1 : S10000x64.Idx → EReal) i := by
  obtain ⟨e00, e01, e10, e11, e20, e21, e30, e31, e40, e41, e50, e51, e60, e61, e70, e71, e80, e81, e90, e91⟩ := idx_facts t
  unfold Region3.iblk
  rw [View.read_apply]
  refine congrArg (V main_v1 : S10000x64.Idx → EReal) (funext fun a => Fin.ext ?_)
  match a with
  | ⟨0, _⟩ => show win3_6.index t (0 : Fin 2) * 400 + 1 * (y 0).val = (i 0).val; rw [e60, h0]; omega
  | ⟨1, _⟩ => show win3_6.index t (1 : Fin 2) * 64 + 1 * (y 1).val = (i 1).val; rw [e61, h1]; omega

/-- Window 7 holds the whole of the first transposed weight half. -/
theorem blk_read7 (t : Fin cfg3.N) (y : S64x64.Idx) :
    (Region3.iblk c V 7 t : Vec Ideal S64x64 .f32) y = (V main_call3_v1 : S64x64.Idx → EReal) y := by
  obtain ⟨e00, e01, e10, e11, e20, e21, e30, e31, e40, e41, e50, e51, e60, e61, e70, e71, e80, e81, e90, e91⟩ := idx_facts t
  unfold Region3.iblk
  rw [View.read_apply]
  refine congrArg (V main_call3_v1 : S64x64.Idx → EReal) (funext fun a => Fin.ext ?_)
  match a with
  | ⟨0, _⟩ => show win3_7.index t (0 : Fin 2) * 64 + 1 * (y 0).val = (y 0).val; rw [e70]; omega
  | ⟨1, _⟩ => show win3_7.index t (1 : Fin 2) * 64 + 1 * (y 1).val = (y 1).val; rw [e71]; omega

/-- Window 8 holds the whole of the second transposed weight half. -/
theorem blk_read8 (t : Fin cfg3.N) (y : S64x64.Idx) :
    (Region3.iblk c V 8 t : Vec Ideal S64x64 .f32) y = (V main_call3_v3 : S64x64.Idx → EReal) y := by
  obtain ⟨e00, e01, e10, e11, e20, e21, e30, e31, e40, e41, e50, e51, e60, e61, e70, e71, e80, e81, e90, e91⟩ := idx_facts t
  unfold Region3.iblk
  rw [View.read_apply]
  refine congrArg (V main_call3_v3 : S64x64.Idx → EReal) (funext fun a => Fin.ext ?_)
  match a with
  | ⟨0, _⟩ => show win3_8.index t (0 : Fin 2) * 64 + 1 * (y 0).val = (y 0).val; rw [e80]; omega
  | ⟨1, _⟩ => show win3_8.index t (1 : Fin 2) * 64 + 1 * (y 1).val = (y 1).val; rw [e81]; omega

/-- What the body leaves at grid point `t`, at row `r` and column `q` of its block, is the layer at row `400 t + r`. -/
theorem point (Wt : Cert.LayerSpec.SW.Idx → EReal)
    (hwst : ∀ k q : Fin 64, (V main_call3_v1 : S64x64.Idx → EReal) (ix2 k q) = Wt (ix2 q (Cert.LayerSpec.lo k)))
    (hwnt : ∀ k q : Fin 64, (V main_call3_v3 : S64x64.Idx → EReal) (ix2 k q) = Wt (ix2 q (Cert.LayerSpec.hi k)))
    (t : Fin cfg3.N) (y : S400x64.Idx) (i : S10000x64.Idx)
    (h0 : (i 0).val = t.val * 400 + (y 0).val) (h1 : (i 1).val = (y 1).val) :
    k3_pay1 (F := Ideal) (k3_pay2 (Region3.iblk c V 5 t) (Region3.iblk c V 0 t) (Region3.iblk c V 1 t) (Region3.iblk c V 2 t) (Region3.iblk c V 3 t) (Region3.iblk c V 4 t) (Region3.iblk c V 6 t) (Region3.iblk c V 7 t) (Region3.iblk c V 8 t)) (k3_pay3 (Region3.iblk c V 5 t) (Region3.iblk c V 0 t) (Region3.iblk c V 1 t) (Region3.iblk c V 2 t) (Region3.iblk c V 3 t) (Region3.iblk c V 4 t) (Region3.iblk c V 6 t) (Region3.iblk c V 7 t) (Region3.iblk c V 8 t)) y
      = Cert.LayerSpec.layer (V main_arg1 : Cert.LayerSpec.SA.Idx → EReal) (V main_v0 : Cert.LayerSpec.SH.Idx → EReal) (V main_v1 : Cert.LayerSpec.SH.Idx → EReal) Wt i := by
  obtain ⟨r, q, rfl⟩ : ∃ (r : Fin 400) (q : Fin 64), y = ix2 r q := ⟨y 0, y 1, eq_ix2 y⟩
  have ht : t.val < 25 := lt_of_lt_of_eq t.isLt (N_3 : cfg3.N = 25)
  have hr : r.val < 400 := r.isLt
  refine (PayValue.pay3_eq_layer (V main_arg1 : Cert.LayerSpec.SA.Idx → EReal) (V main_v0 : Cert.LayerSpec.SH.Idx → EReal) (V main_v1 : Cert.LayerSpec.SH.Idx → EReal) Wt ⟨t.val, ht⟩
    (Region3.iblk c V 5 t) (Region3.iblk c V 0 t) (Region3.iblk c V 1 t) (Region3.iblk c V 2 t) (Region3.iblk c V 3 t) (Region3.iblk c V 4 t) (Region3.iblk c V 6 t) (Region3.iblk c V 7 t) (Region3.iblk c V 8 t)
    (fun j k => blk_read5 c V t (ix2 j k))
    (fun r' j => blk_read0 c V t (ix2 r' j) _ (by show 400 * t.val + 0 + r'.val = (5 * t.val + 0) * 80 + r'.val; omega) rfl)
    (fun r' j => blk_read1 c V t (ix2 r' j) _ (by show 400 * t.val + 80 + r'.val = (5 * t.val + 1) * 80 + r'.val; omega) rfl)
    (fun r' j => blk_read2 c V t (ix2 r' j) _ (by show 400 * t.val + 160 + r'.val = (5 * t.val + 2) * 80 + r'.val; omega) rfl)
    (fun r' j => blk_read3 c V t (ix2 r' j) _ (by show 400 * t.val + 240 + r'.val = (5 * t.val + 3) * 80 + r'.val; omega) rfl)
    (fun r' j => blk_read4 c V t (ix2 r' j) _ (by show 400 * t.val + 320 + r'.val = (5 * t.val + 4) * 80 + r'.val; omega) rfl)
    (fun r' k => blk_read6 c V t (ix2 r' k) _ (by show 400 * t.val + r'.val = t.val * 400 + r'.val; omega) rfl)
    (fun k q' => (blk_read7 c V t (ix2 k q')).trans (hwst k q'))
    (fun k q' => (blk_read8 c V t (ix2 k q')).trans (hwnt k q'))
    r q).trans ?_
  have hi : i = ix2 (⟨400 * t.val + r.val, by omega⟩ : Fin 10000) q := funext fun a => Fin.ext (by
    match a with
    | ⟨0, _⟩ => show (i 0).val = 400 * t.val + r.val; rw [h0]; show t.val * 400 + r.val = _; omega
    | ⟨1, _⟩ => exact h1)
  rw [hi, Cert.LayerSpec.layer_apply]

/-- What grid point `t` writes back is block `t` of the layer. -/
theorem flushed_eq (Wt : Cert.LayerSpec.SW.Idx → EReal)
    (hwst : ∀ k q : Fin 64, (V main_call3_v1 : S64x64.Idx → EReal) (ix2 k q) = Wt (ix2 q (Cert.LayerSpec.lo k)))
    (hwnt : ∀ k q : Fin 64, (V main_call3_v3 : S64x64.Idx → EReal) (ix2 k q) = Wt (ix2 q (Cert.LayerSpec.hi k))) (t : Fin cfg3.N) :
    (Region3.dat c V).flushed 9 t = ((cfg3.win 9).blk t).view.read (Elt Ideal) (Cert.LayerSpec.layer (V main_arg1 : Cert.LayerSpec.SA.Idx → EReal) (V main_v0 : Cert.LayerSpec.SH.Idx → EReal) (V main_v1 : Cert.LayerSpec.SH.Idx → EReal) Wt) := by
  show (cfg3.win 9).cut (grid3.coords t) ((Region3.dat c V).after 9 t) = _
  rw [Region3.after_9]
  unfold Body3.out9
  rw [View.canon_unit_zero hz]
  simp only [View.ld_unit_zero (S := S80x10000) hz, View.ld_unit_zero (S := S10000x64) hz, View.ld_unit_zero (S := S400x64) hz,
    View.ld_unit_zero (S := S64x64) hz]
  obtain ⟨e00, e01, e10, e11, e20, e21, e30, e31, e40, e41, e50, e51, e60, e61, e70, e71, e80, e81, e90, e91⟩ := idx_facts t
  funext y
  rw [View.read_apply]
  refine point c V Wt hwst hwnt t y _ ?_ ?_
  · show win3_9.index t (0 : Fin 2) * 400 + 1 * (y 0).val = t.val * 400 + (y 0).val; rw [e90]; omega
  · show win3_9.index t (1 : Fin 2) * 64 + 1 * (y 1).val = (y 1).val; rw [e91]; omega

/-- An index of the output array is in point `t`'s block iff each coordinate is in the block's range. -/
theorem mem_blk (t : Fin cfg3.N) (i : S10000x64.Idx) :
    i ∈ ((cfg3.win 9).blk t).view.set ↔ ∀ a : Fin 2, win3_9.index t a * S400x64.size a ≤ (i a).val ∧ (i a).val < win3_9.index t a * S400x64.size a + S400x64.size a := by
  show i ∈ ((View.whole main_v3).slice (win3_9.rect t)).set ↔ _
  rw [View.set_slice_whole, Rect.mem_set_unit]
  exact Iff.rfl

/-- Every row of the output is in the block of the point its 400-row group names. -/
theorem cover (i : S10000x64.Idx) : ∃ t : Fin cfg3.N, (cfg3.win 9).flush t = true ∧ i ∈ ((cfg3.win 9).blk t).view.set := by
  have hi0 : (i 0).val < 10000 := (i 0).isLt
  have hi1 : (i 1).val < 64 := (i 1).isLt
  have hN : cfg3.N = 25 := N_3
  refine ⟨⟨(i 0).val / 400, by rw [hN]; omega⟩, flush3_9 _, ?_⟩
  rw [mem_blk]
  obtain ⟨e00, e01, e10, e11, e20, e21, e30, e31, e40, e41, e50, e51, e60, e61, e70, e71, e80, e81, e90, e91⟩ :=
    idx_facts ⟨(i 0).val / 400, by rw [hN]; omega⟩
  intro a
  match a with
  | ⟨0, _⟩ =>
    show win3_9.index _ (0 : Fin 2) * 400 ≤ (i 0).val ∧ (i 0).val < win3_9.index _ (0 : Fin 2) * 400 + 400
    rw [e90]; show (i 0).val / 400 * 400 ≤ (i 0).val ∧ (i 0).val < (i 0).val / 400 * 400 + 400; omega
  | ⟨1, _⟩ =>
    show win3_9.index _ (1 : Fin 2) * 64 ≤ (i 1).val ∧ (i 1).val < win3_9.index _ (1 : Fin 2) * 64 + 64
    rw [e91]; omega

/-- The region's output array, after its 25 write-backs, is the layer of the arrays the region found. -/
theorem final (Wt : Cert.LayerSpec.SW.Idx → EReal)
    (hwst : ∀ k q : Fin 64, (V main_call3_v1 : S64x64.Idx → EReal) (ix2 k q) = Wt (ix2 q (Cert.LayerSpec.lo k)))
    (hwnt : ∀ k q : Fin 64, (V main_call3_v3 : S64x64.Idx → EReal) (ix2 k q) = Wt (ix2 q (Cert.LayerSpec.hi k))) :
    (Region3.dat c V).arrAt 9 cfg3.N = Cert.LayerSpec.layer (V main_arg1 : Cert.LayerSpec.SA.Idx → EReal) (V main_v0 : Cert.LayerSpec.SH.Idx → EReal) (V main_v1 : Cert.LayerSpec.SH.Idx → EReal) Wt :=
  (Region3.dat c V).arrAt_eq_of_cover 9 (Cert.LayerSpec.layer (V main_arg1 : Cert.LayerSpec.SA.Idx → EReal) (V main_v0 : Cert.LayerSpec.SH.Idx → EReal) (V main_v1 : Cert.LayerSpec.SH.Idx → EReal) Wt)
    (fun t _ => flushed_eq c V Wt hwst hwnt t) (cover)

end Cert.KernelIdeal.Final3

end
-- ==== Proof.KI.Value.lean ====
/-
  The program's two results are the specification's two layers.

  Region 0 leaves the users' first layer in its output array, region 1 the items' first layer, both computed from
  the launch contents of the argument arrays; regions 2 and 3 compute the second layers from the first layers'
  arrays and the same adjacency matrices. Each region's output is the specification's `layer` of the arrays the
  region found (the regions' own theorems); the arrays it found are the launch contents or an earlier region's
  output (no item writes an argument, a region's output array keeps what the region left), and the weight halves it
  found are the host's slices and transposes of that layer's weight matrix.
-/
import proofs.«105240_g55860344651847_cont_9to1c4b_578_12_alg».proof.Proof.KI.Vals
import proofs.«105240_g55860344651847_cont_9to1c4b_578_12_alg».proof.Proof.KI.Chain
import proofs.«105240_g55860344651847_cont_9to1c4b_578_12_alg».proof.Proof.KI.ChainIdeal
import proofs.«105240_g55860344651847_cont_9to1c4b_578_12_alg».proof.Proof.KI.Final0
import proofs.«105240_g55860344651847_cont_9to1c4b_578_12_alg».proof.Proof.KI.Final1
import proofs.«105240_g55860344651847_cont_9to1c4b_578_12_alg».proof.Proof.KI.Final2
import proofs.«105240_g55860344651847_cont_9to1c4b_578_12_alg».proof.Proof.KI.Final3
import proofs.«105240_g55860344651847_cont_9to1c4b_578_12_alg».proof.Proof.LayerSpec

noncomputable section

namespace Cert.KernelIdeal.Value

open Cert.KernelIdeal Cert.KernelIdeal.Gen Cert.KernelIdeal.Run Cert.KernelIdeal.Chain
open Idealize.ShloMosaic Idealize.ShloMosaic.TcCoe Idealize.ShloMosaic.ValueIdx Idealize.SL.Sem
open Cert.LayerSpec (SA SH SW)

variable (m : (ℓ : Loc nD τ sig) → Buf (Elt Ideal) ℓ) (c : Dev nD)

/-! ## The arguments at launch -/

/-- The users' adjacency matrix, -/
abbrev arg0 : SA.Idx → EReal := m ((c : Thread nD τ).loc main_arg0)
/-- the items' adjacency matrix, -/
abbrev arg1 : SA.Idx → EReal := m ((c : Thread nD τ).loc main_arg1)
/-- the users' embeddings, -/
abbrev arg2 : SH.Idx → EReal := m ((c : Thread nD τ).loc main_arg2)
/-- the items' embeddings, -/
abbrev arg3 : SH.Idx → EReal := m ((c : Thread nD τ).loc main_arg3)
/-- and the four weight matrices: the users' first layer, -/
abbrev arg4 : SW.Idx → EReal := m ((c : Thread nD τ).loc main_arg4)
/-- the users' second layer, -/
abbrev arg5 : SW.Idx → EReal := m ((c : Thread nD τ).loc main_arg5)
/-- the items' first layer, -/
abbrev arg6 : SW.Idx → EReal := m ((c : Thread nD τ).loc main_arg6)
/-- the items' second layer. -/
abbrev arg7 : SW.Idx → EReal := m ((c : Thread nD τ).loc main_arg7)

/-! ## The first layers -/

/-- Region 0 leaves the users' first layer. -/
theorem o0_eq : (o0 m c : SH.Idx → EReal)
    = Cert.LayerSpec.users1 (arg0 m c) (arg1 m c) (arg2 m c) (arg3 m c) (arg4 m c) (arg6 m c) := by
  have h := Final0.final c (fun b => W1 m c b) (arg4 m c)
    (fun k q => after0_v1_apply (W0 m c) k q) (fun k q => after0_v3_apply (W0 m c) k q)
  unfold o0 Cert.LayerSpec.users1
  rw [h, W1_main_arg0, W1_main_arg3, W1_main_arg2]

/-- Region 1 leaves the items' first layer. -/
theorem o1_eq : (o1 m c : SH.Idx → EReal)
    = Cert.LayerSpec.items1 (arg0 m c) (arg1 m c) (arg2 m c) (arg3 m c) (arg4 m c) (arg6 m c) := by
  have h := Final1.final c (fun b => W3 m c b) (arg6 m c)
    (fun k q => (after1_v1_apply (W2 m c) k q).trans (congrFun (W2_main_arg6 m c) _))
    (fun k q => (after1_v3_apply (W2 m c) k q).trans (congrFun (W2_main_arg6 m c) _))
  unfold o1 Cert.LayerSpec.items1
  rw [h, W3_main_arg1, W3_main_arg2, W3_main_arg3]

/-! ## The second layers -/

/-- Region 2 leaves the users' second layer, -/
theorem o2_eq : (o2 m c : SH.Idx → EReal)
    = Cert.LayerSpec.users2 (arg0 m c) (arg1 m c) (arg2 m c) (arg3 m c) (arg4 m c) (arg5 m c) (arg6 m c) (arg7 m c) := by
  have h := Final2.final c (fun b => W5 m c b) (arg5 m c)
    (fun k q => (after2_v1_apply (W4 m c) k q).trans (congrFun (W4_main_arg5 m c) _))
    (fun k q => (after2_v3_apply (W4 m c) k q).trans (congrFun (W4_main_arg5 m c) _))
  unfold o2 Cert.LayerSpec.users2
  rw [h, W5_main_arg0, W5_main_v1, W5_main_v0, o1_eq, o0_eq]

/-- and region 3 the items'. -/
theorem o3_eq : (o3 m c : SH.Idx → EReal)
    = Cert.LayerSpec.items2 (arg0 m c) (arg1 m c) (arg2 m c) (arg3 m c) (arg4 m c) (arg5 m c) (arg6 m c) (arg7 m c) := by
  have h := Final3.final c (fun b => W7 m c b) (arg7 m c)
    (fun k q => (after3_v1_apply (W6 m c) k q).trans (congrFun (W6_main_arg7 m c) _))
    (fun k q => (after3_v3_apply (W6 m c) k q).trans (congrFun (W6_main_arg7 m c) _))
  unfold o3 Cert.LayerSpec.items2
  rw [h, W7_main_arg1, W7_main_v0, W7_main_v1, o0_eq, o1_eq]

/-! ## The program's results -/

/-- At the end the users' result array holds the users' second layer of the launch contents, -/
theorem res_users : (W8 m c main_v2 : SH.Idx → EReal)
    = Cert.LayerSpec.users2 (arg0 m c) (arg1 m c) (arg2 m c) (arg3 m c) (arg4 m c) (arg5 m c) (arg6 m c) (arg7 m c) :=
  (W8_main_v2 m c).trans (o2_eq m c)

/-- and the items' result array the items'. -/
theorem res_items : (W8 m c main_v3 : SH.Idx → EReal)
    = Cert.LayerSpec.items2 (arg0 m c) (arg1 m c) (arg2 m c) (arg3 m c) (arg4 m c) (arg5 m c) (arg6 m c) (arg7 m c) :=
  (W8_main_v3 m c).trans (o3_eq m c)

end Cert.KernelIdeal.Value

end
-- ==== Proof.Ref.Layer.lean ====
/-
  One layer of the reference program, read at an index: the fourteen host operations that make a layer
  (the neighbourhood product, the joined row, the transposed weights, the 128-term product, the rectifier,
  the squares, their row sum, its square root floored at ε, the quotient) compose to the specification's
  layer of the four arrays that feed them.
-/
import proofs.«105240_g55860344651847_cont_9to1c4b_578_12_alg».proof.Proof.Gen.ReferenceIdeal.Read
import proofs.«105240_g55860344651847_cont_9to1c4b_578_12_alg».proof.Proof.LayerSpec
import Idealize.ShloMosaic.Lib.ValueIdx
import Idealize.ShloMosaic.Lib.Pipeline.Value
import Idealize.ShloMosaic.PureOps.Ideal.Laws

noncomputable section

namespace Cert.RefLayer

open Cert.ReferenceIdeal Cert.ReferenceIdeal.Gen Cert.ReferenceIdeal.Read Idealize.ShloMosaic Idealize.ShloMosaic.ValueIdx
open Cert.LayerSpec

/-- A sum over the 128 columns of the joined row is the sum over its first 64 plus the sum over its last 64. -/
theorem sum_halves (f : Fin 128 → EReal) :
    ∑ k : Fin 128, f k = (∑ k : Fin 64, f (lo k)) + ∑ k : Fin 64, f (hi k) :=
  Fin.sum_univ_add (a := 64) (b := 64) (f : Fin (64 + 64) → EReal)

variable (A : (⟨S10000x10000, .f32⟩ : BufTy).Contents (Elt Ideal)) (hs ho : (⟨S10000x64, .f32⟩ : BufTy).Contents (Elt Ideal))
  (W : (⟨S64x128, .f32⟩ : BufTy).Contents (Elt Ideal))

/-- The neighbourhood product at row `p`, column `k`. -/
theorem v0_at (p : Fin 10000) (k : Fin 64) :
    val_main_v0 (F := Ideal) A ho (ix2 p k) = neigh A ho p k := by
  rw [val_main_v0_apply]
  refine Finset.sum_congr rfl fun j _ => ?_
  have el : lidx_main_v0 (ix2 p k) j = ix2 p j := funext fun a => Fin.ext (by match a with | ⟨0, _⟩ => rfl | ⟨1, _⟩ => rfl)
  have er : ridx_main_v0 (ix2 p k) j = ix2 j k := funext fun a => Fin.ext (by match a with | ⟨0, _⟩ => rfl | ⟨1, _⟩ => rfl)
  rw [el, er]

/-- The joined row reads this side's embedding on its first 64 columns, -/
theorem v2_lo (p : Fin 10000) (k : Fin 64) :
    val_main_v2 (F := Ideal) A hs ho (ix2 p (lo k)) = hs (ix2 p k) := by
  unfold val_main_v2
  exact concatenate_pair_apply_left (1 : Fin 2) hs (val_main_v0 (F := Ideal) A ho) concatenates_S10000x64_S10000x64_S10000x128_d1
    (ix2 p (lo k)) rfl (ix2 p k) (fun b => by match b with | ⟨0, _⟩ => rfl | ⟨1, _⟩ => rfl)

/-- and the neighbourhood product on its last 64. -/
theorem v2_hi (p : Fin 10000) (k : Fin 64) :
    val_main_v2 (F := Ideal) A hs ho (ix2 p (hi k)) = neigh A ho p k := by
  unfold val_main_v2
  refine (concatenate_pair_apply_right (1 : Fin 2) hs (val_main_v0 (F := Ideal) A ho) concatenates_S10000x64_S10000x64_S10000x128_d1
    (ix2 p (hi k)) rfl rfl (ix2 p k) (fun b hb => by match b, hb with | ⟨0, _⟩, _ => rfl | ⟨1, _⟩, hb => exact absurd rfl hb) ?_).trans (v0_at A ho p k)
  show k.val + 64 = 64 + k.val
  omega

/-- The transposed weights at row `k`, column `q` are the weights at row `q`, column `k`. -/
theorem v3_at (q : Fin 64) (k : Fin 128) :
    val_main_v3 (F := Ideal) W (ix2 k q) = W (ix2 q k) := by
  rw [val_main_v3_apply]
  exact congrArg W (funext fun a => Fin.ext (by match a with | ⟨0, _⟩ => rfl | ⟨1, _⟩ => rfl))

/-- The 128-term product of the joined row with the transposed weights, as the specification's two halves. -/
theorem v4_at (p : Fin 10000) (q : Fin 64) :
    val_main_v4 (F := Ideal) A hs ho W (ix2 p q)
      = (∑ k : Fin 64, hs (ix2 p k) * W (ix2 q (lo k))) + ∑ k : Fin 64, neigh A ho p k * W (ix2 q (hi k)) := by
  rw [val_main_v4_apply, sum_halves]
  have el : ∀ k : Fin 128, lidx_main_v4 (ix2 p q) k = ix2 p k := fun k =>
    funext fun a => Fin.ext (by match a with | ⟨0, _⟩ => rfl | ⟨1, _⟩ => rfl)
  have er : ∀ k : Fin 128, ridx_main_v4 (ix2 p q) k = ix2 k q := fun k =>
    funext fun a => Fin.ext (by match a with | ⟨0, _⟩ => rfl | ⟨1, _⟩ => rfl)
  simp only [el, er, v2_lo, v2_hi, v3_at]

/-- The rectified activation. -/
theorem v5_at (p : Fin 10000) (q : Fin 64) :
    val_main_v5 (F := Ideal) A hs ho W (ix2 p q) = act A ho hs W p q := by
  rw [val_main_v5_apply, v4_at, val_main_call0_v0_apply, val_main_call0_cst_apply]
  rfl

/-- The row's divisor: the square root of the sum of its squared activations, floored at ε. -/
theorem v12_at (p : Fin 10000) (q : Fin 64) :
    val_main_v12 (F := Ideal) A hs ho W (ix2 p q) = norm A ho hs W p := by
  rw [val_main_v12_apply, val_main_v11_apply, val_main_v9_apply, val_main_v8_apply, val_main_v7_apply,
    val_main_v10_apply, val_main_cst_0_apply, val_main_cst_apply]
  have e7 : ∀ k : Fin 64, idx_main_v7 (idx_main_v8 (idx_main_v12 (ix2 p q))) k = ix2 p k := fun k =>
    funext fun a => Fin.ext (by match a with | ⟨0, _⟩ => rfl | ⟨1, _⟩ => rfl)
  simp only [e7, val_main_v6_apply, v5_at, Ideal.ofBits_def, Ideal.ofBits_zero_f32, zero_add, Ideal.mulf_def,
    Ideal.hostUnary_sqrt_def, Ideal.maximumf_def]
  rfl

/-- The layer of the reference, as one array: the specification's layer. -/
theorem layer_stage : val_main_v13 (F := Ideal) A hs ho W = layer A ho hs W := by
  funext i
  obtain ⟨p, q, rfl⟩ : ∃ (p : Fin 10000) (q : Fin 64), i = ix2 p q := ⟨i 0, i 1, eq_ix2 i⟩
  rw [val_main_v13_apply, v5_at, v12_at, layer_apply]
  rfl

end Cert.RefLayer

end
-- ==== Proof.RefStages.lean ====
/-
  The reference program's run, read against the specification: its two results are the users' and the items'
  embeddings after the second layer, as the specification states them of the eight argument arrays, and the
  arguments end unchanged.
-/
import proofs.«105240_g55860344651847_cont_9to1c4b_578_12_alg».proof.Defs
import proofs.«105240_g55860344651847_cont_9to1c4b_578_12_alg».proof.Proof.Gen.ReferenceIdeal
import proofs.«105240_g55860344651847_cont_9to1c4b_578_12_alg».proof.Proof.Gen.Pre_finite_inputs
import proofs.«105240_g55860344651847_cont_9to1c4b_578_12_alg».proof.Proof.Gen.ReferenceIdeal.Run
import proofs.«105240_g55860344651847_cont_9to1c4b_578_12_alg».proof.Proof.Gen.ReferenceIdeal.Read
import proofs.«105240_g55860344651847_cont_9to1c4b_578_12_alg».proof.Proof.LayerSpec
import proofs.«105240_g55860344651847_cont_9to1c4b_578_12_alg».proof.Proof.Ref.Layer
import Idealize.ShloMosaic.Lib.ValueIdx
import Idealize.ShloMosaic.PureOps.Ideal.Laws

noncomputable section

namespace Cert.RefStages

open Idealize.ShloMosaic Idealize.ShloMosaic.TcCoe Idealize.SL.Sem
open Cert.ReferenceIdeal Cert.ReferenceIdeal.Gen Cert.ReferenceIdeal.Read

section Stages

variable (x0 x1 : (⟨S10000x10000, .f32⟩ : BufTy).Contents (Elt Ideal)) (x2 x3 : (⟨S10000x64, .f32⟩ : BufTy).Contents (Elt Ideal))
  (x4 x5 x6 x7 : (⟨S64x128, .f32⟩ : BufTy).Contents (Elt Ideal))

/-- The reference's layer of an adjacency matrix `A`, this side's embeddings `hs`, the other side's `ho` and
    weights `W` is the specification's. -/
theorem layer_stage (A : (⟨S10000x10000, .f32⟩ : BufTy).Contents (Elt Ideal)) (hs ho : (⟨S10000x64, .f32⟩ : BufTy).Contents (Elt Ideal))
    (W : (⟨S64x128, .f32⟩ : BufTy).Contents (Elt Ideal)) :
    val_main_v13 (F := Ideal) A hs ho W = Cert.LayerSpec.layer A ho hs W :=
  Cert.RefLayer.layer_stage A hs ho W

/-- The items' first layer is the same fourteen operations, fed the items' buffers; -/
theorem stage_items1 : val_main_v25 (F := Ideal) x1 x2 x3 x6 = val_main_v13 (F := Ideal) x1 x3 x2 x6 := rfl

/-- the users' second layer, fed the two first-layer results; -/
theorem stage_users2 : val_main_v39 (F := Ideal) x0 x1 x2 x3 x4 x5 x6
    = val_main_v13 (F := Ideal) x0 (val_main_v13 (F := Ideal) x0 x2 x3 x4) (val_main_v25 (F := Ideal) x1 x2 x3 x6) x5 := rfl

/-- and the items' second layer. -/
theorem stage_items2 : val_main_v51 (F := Ideal) x0 x1 x2 x3 x4 x6 x7
    = val_main_v13 (F := Ideal) x1 (val_main_v25 (F := Ideal) x1 x2 x3 x6) (val_main_v13 (F := Ideal) x0 x2 x3 x4) x7 := rfl

/-- The reference's first result is the users' embeddings after the second layer. -/
theorem users2_eq : val_main_v39 (F := Ideal) x0 x1 x2 x3 x4 x5 x6 = Cert.LayerSpec.users2 x0 x1 x2 x3 x4 x5 x6 x7 := by
  rw [stage_users2, stage_items1, layer_stage, layer_stage, layer_stage]
  rfl

/-- The reference's second result is the items' embeddings after the second layer. -/
theorem items2_eq : val_main_v51 (F := Ideal) x0 x1 x2 x3 x4 x6 x7 = Cert.LayerSpec.items2 x0 x1 x2 x3 x4 x5 x6 x7 := by
  rw [stage_items2, stage_items1, layer_stage, layer_stage, layer_stage]
  rfl

end Stages

/-- The reference's run: both results at the specification's second-layer embeddings of the launch contents of the
    eight arguments, the arguments unchanged. -/
theorem run_spec (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v39) = Cert.LayerSpec.users2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v51) = Cert.LayerSpec.items2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono (fun _ h c =>
    ⟨(h c).1.trans ((val_main_v39_eq m' c).trans (users2_eq _ _ _ _ _ _ _ _)),
     (h c).2.1.trans ((val_main_v51_eq m' c).trans (items2_eq _ _ _ _ _ _ _ _)),
     (h c).2.2⟩)
    (Cert.ReferenceIdeal.Value.run (F := Ideal) m' g')

/-- The reference runs and leaves its arguments unchanged. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

end Cert.RefStages

end
-- ==== Proof.lean ====
/-
  The certificate: the kernel, its idealization and the reference each run to the end with their arguments unchanged,
  and the idealized kernel and the idealized reference end with equal results.

  Both programs compute two rounds of one layer map on each side of a bipartite graph: row `p` of a side's new
  embeddings is the rectified linear image of `[h_self(p,·) | (A·h_other)(p,·)]`, divided by its Euclidean norm floored
  at `ε`. The kernel computes a row's linear image as the sum of the two halves' products and the aggregate
  `A·h_other` block by block; the reference concatenates and multiplies once. At the extended reals these are one
  function: a 128-term sum is the sum of its two 64-term halves, a change of float format is the identity, and a
  matrix product into a zero accumulator is the plain sum. Nothing in the comparison needs the inputs' finiteness.

  The kernel program is four host stretches (a slice and a transpose of each weight half) and four regions; its run is
  read off the valuations of the unscoped buffers between items (`KI/Run.lean`), each region's output array being the
  layer of the arrays it was entered with (`KI/Final*.lean`, `KI/Value.lean`). The reference's run is the generated one,
  read stage by stage (`RefStages.lean`).
-/
import proofs.«105240_g55860344651847_cont_9to1c4b_578_12_alg».proof.Defs
import proofs.«105240_g55860344651847_cont_9to1c4b_578_12_alg».proof.Proof.Gen.Kernel
import proofs.«105240_g55860344651847_cont_9to1c4b_578_12_alg».proof.Proof.Gen.KernelIdeal
import proofs.«105240_g55860344651847_cont_9to1c4b_578_12_alg».proof.Proof.Gen.ReferenceIdeal
import proofs.«105240_g55860344651847_cont_9to1c4b_578_12_alg».proof.Proof.Gen.Pre_finite_inputs
import proofs.«105240_g55860344651847_cont_9to1c4b_578_12_alg».proof.Proof.K.Run
import proofs.«105240_g55860344651847_cont_9to1c4b_578_12_alg».proof.Proof.K.Chain
import proofs.«105240_g55860344651847_cont_9to1c4b_578_12_alg».proof.Proof.KI.Run
import proofs.«105240_g55860344651847_cont_9to1c4b_578_12_alg».proof.Proof.KI.Chain
import proofs.«105240_g55860344651847_cont_9to1c4b_578_12_alg».proof.Proof.KI.Value
import proofs.«105240_g55860344651847_cont_9to1c4b_578_12_alg».proof.Proof.RefStages

noncomputable section

namespace Cert.Proof

open Idealize.ShloMosaic Idealize.SL.Sem

/-- The word-level kernel runs and leaves its arguments unchanged: no item of the program writes an argument. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun r h c =>
    ⟨((h c).2.2.1).trans (Cert.Kernel.Chain.W8_main_arg0 m c),
      ((h c).2.2.2.1).trans (Cert.Kernel.Chain.W8_main_arg1 m c),
      ((h c).2.2.2.2.1).trans (Cert.Kernel.Chain.W8_main_arg2 m c),
      ((h c).2.2.2.2.2.1).trans (Cert.Kernel.Chain.W8_main_arg3 m c),
      ((h c).2.2.2.2.2.2.1).trans (Cert.Kernel.Chain.W8_main_arg4 m c),
      ((h c).2.2.2.2.2.2.2.1).trans (Cert.Kernel.Chain.W8_main_arg5 m c),
      ((h c).2.2.2.2.2.2.2.2.1).trans (Cert.Kernel.Chain.W8_main_arg6 m c),
      ((h c).2.2.2.2.2.2.2.2.2).trans (Cert.Kernel.Chain.W8_main_arg7 m c)⟩) (Cert.Kernel.Run.run_all (F := Bits) m ρ)

/-- The idealized kernel likewise. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c =>
    ⟨((h c).2.2.1).trans (Cert.KernelIdeal.Chain.W8_main_arg0 m c),
      ((h c).2.2.2.1).trans (Cert.KernelIdeal.Chain.W8_main_arg1 m c),
      ((h c).2.2.2.2.1).trans (Cert.KernelIdeal.Chain.W8_main_arg2 m c),
      ((h c).2.2.2.2.2.1).trans (Cert.KernelIdeal.Chain.W8_main_arg3 m c),
      ((h c).2.2.2.2.2.2.1).trans (Cert.KernelIdeal.Chain.W8_main_arg4 m c),
      ((h c).2.2.2.2.2.2.2.1).trans (Cert.KernelIdeal.Chain.W8_main_arg5 m c),
      ((h c).2.2.2.2.2.2.2.2.1).trans (Cert.KernelIdeal.Chain.W8_main_arg6 m c),
      ((h c).2.2.2.2.2.2.2.2.2).trans (Cert.KernelIdeal.Chain.W8_main_arg7 m c)⟩) (Cert.KernelIdeal.Run.run_all (F := Ideal) m ρ)

/-- The idealization rewrote nothing. -/
theorem preserves : Cert.preserves_Kernel_KernelIdeal := trivial

/-- At the extended reals both programs end with the two-layer map of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.LayerSpec.users2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)),
    fun c => Cert.LayerSpec.items2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)), ?_, Cert.RefStages.run_spec m' g'⟩
  refine (θ_run (Cert.KernelIdeal.defs (F := Ideal)) _ _).mono (fun r h c => ?_) (Cert.KernelIdeal.Run.run_all (F := Ideal) m g)
  obtain ⟨h2, h3, a0, a1, a2, a3, a4, a5, a6, a7⟩ := h c
  obtain ⟨e0, e1, e2, e3, e4, e5, e6, e7⟩ := hagree c
  refine ⟨?_, ?_, a0.trans (Cert.KernelIdeal.Chain.W8_main_arg0 m c), a1.trans (Cert.KernelIdeal.Chain.W8_main_arg1 m c),
    a2.trans (Cert.KernelIdeal.Chain.W8_main_arg2 m c), a3.trans (Cert.KernelIdeal.Chain.W8_main_arg3 m c),
    a4.trans (Cert.KernelIdeal.Chain.W8_main_arg4 m c), a5.trans (Cert.KernelIdeal.Chain.W8_main_arg5 m c),
    a6.trans (Cert.KernelIdeal.Chain.W8_main_arg6 m c), a7.trans (Cert.KernelIdeal.Chain.W8_main_arg7 m c)⟩
  · rw [h2, Cert.KernelIdeal.Value.res_users m c]
    dsimp only
    rw [e0, e1, e2, e3, e4, e5, e6, e7]
  · rw [h3, Cert.KernelIdeal.Value.res_items m c]
    dsimp only
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, Cert.RefStages.frame_ri, preserves, algebraic⟩

end Cert.Proof

end
